-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64x32 : Shape := ⟨3, ![16384, 64, 32]⟩
abbrev S2048x256 : Shape := ⟨2, ![2048, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S2176x256 : Shape := ⟨2, ![2176, 256]⟩
abbrev S256x1 : Shape := ⟨2, ![256, 1]⟩
abbrev S1 : Shape := ⟨1, ![1]⟩
abbrev S_ : Shape := ⟨0, ![]⟩

class Facts : Prop where
  bcast_S_S16384x64x32 : S_.BroadcastsInDim S16384x64x32 (![] : Fin 0 → Fin S16384x64x32.rank)
  reducesTo_S16384x64x32_S_d0_1_2 : S16384x64x32.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2176x256 : S_.BroadcastsInDim S2176x256 (![] : Fin 0 → Fin S2176x256.rank)
  reducesTo_S2176x256_S_d0_1 : S2176x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S2176x256 .f32) (main_arg8 : FVec F S256 .f32) (main_arg9 : FVec F S256x1 .f32) (main_arg10 : FVec F S1 .f32) (main_v33 : IVec S_ 1) : IVec S_ 1 :=
  let main_v34 : FVec F S2176x256 .f32 := Host.absf main_arg7
  let main_cst_12 : FVec F S_ .f32 := constant S_ .f32 0x7F800000#32
  let main_v35 : FVec F S2176x256 .f32 := broadcastInDim S2176x256 ![] bcast_S_S2176x256 main_cst_12
  let main_v36 : IVec S2176x256 1 := cmpf .olt main_v34 main_v35
  let main_c_13 : IVec S_ 1 := constantI S_ 1 1#1
  let main_v37 : IVec S_ 1 := (fun x v => Host.reduce IntOp.andi x v reducesTo_S2176x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg9
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S256 .f32) (main_arg5 : FVec F S256x128 .f32) (main_arg6 : FVec F S128 .f32) (main_arg7 : FVec F S2176x256 .f32) (main_arg8 : FVec F S256 .f32) (main_arg9 : FVec F S256x1 .f32) (main_arg10 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x64x32 .f32) (main_arg1 : FVec F S2048x256 .f32) (main_arg2 : FVec F S256 .f32) (main_arg3 : FVec F S256x256 .f32) (main_arg4 : FVec F S256 .f32) (main_arg5 : FVec F S256x128 .f32) (main_arg6 : FVec F S128 .f32) (main_arg7 : FVec F S2176x256 .f32) (main_arg8 : FVec F S256 .f32) (main_arg9 : FVec F S256x1 .f32) (main_arg10 : FVec F S1 .f32) : IVec S_ 1 :=
  let main_v0 : FVec F S16384x64x32 .f32 := Host.absf main_arg0
  let main_cst : FVec F S_ .f32 := constant S_ .f32 0x7F800000#32
  let main_v1 : FVec F S16384x64x32 .f32 := broadcastInDim S16384x64x32 ![] bcast_S_S16384x64x32 main_cst
  let main_v2 : IVec S16384x64x32 1 := cmpf .olt main_v0 main_v1
  let main_c : IVec S_ 1 := constantI S_ 1 1#1
  let main_v3 : IVec S_ 1 := (fun x v => Host.reduce IntOp.andi x v reducesTo_S16384x64x32_S_d0_1_2 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S16384x64x32 : Shape := ⟨3, ![16384, 64, 32]⟩
abbrev S2048x256 : Shape := ⟨2, ![2048, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S2176x256 : Shape := ⟨2, ![2176, 256]⟩
abbrev S256x1 : Shape := ⟨2, ![256, 1]⟩
abbrev S1 : Shape := ⟨1, ![1]⟩
abbrev S2016 : Shape := ⟨1, ![2016]⟩
abbrev S128x256 : Shape := ⟨2, ![128, 256]⟩
abbrev S2016x256 : Shape := ⟨2, ![2016, 256]⟩
abbrev S32x256 : Shape := ⟨2, ![32, 256]⟩
abbrev S_ : Shape := ⟨0, ![]⟩
abbrev S4096x256 : Shape := ⟨2, ![4096, 256]⟩
abbrev S2016x1 : Shape := ⟨2, ![2016, 1]⟩
abbrev S160x256 : Shape := ⟨2, ![160, 256]⟩
abbrev S16384x1 : Shape := ⟨2, ![16384, 1]⟩
abbrev S512x64x32 : Shape := ⟨3, ![512, 64, 32]⟩
abbrev S512x1 : Shape := ⟨2, ![512, 1]⟩
abbrev S512x2048 : Shape := ⟨2, ![512, 2048]⟩
abbrev S512x256 : Shape := ⟨2, ![512, 256]⟩
abbrev S1x256 : Shape := ⟨2, ![1, 256]⟩
abbrev S512x128 : Shape := ⟨2, ![512, 128]⟩
abbrev S1x128 : Shape := ⟨2, ![1, 128]⟩
abbrev S512x32 : Shape := ⟨2, ![512, 32]⟩
abbrev S512x64x64 : Shape := ⟨3, ![512, 64, 64]⟩
abbrev S512x4096 : Shape := ⟨2, ![512, 4096]⟩
abbrev S512x160 : Shape := ⟨2, ![512, 160]⟩
abbrev S1x1 : Shape := ⟨2, ![1, 1]⟩

abbrev nBuf : Space → Nat
  | .hbm => 32
  | .vmem => 15
  | .smem => 0
  | _ => 0

abbrev bufTy : (tb : Table) → Fin (tcTables nBuf tb) → BufTy
  | .hbm, ⟨0, _⟩ => ⟨S16384x64x32, .f32⟩
  | .hbm, ⟨1, _⟩ => ⟨S2048x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S2176x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S2016, .i32⟩
  | .hbm, ⟨12, _⟩ => ⟨S2016, .i1⟩
  | .hbm, ⟨13, _⟩ => ⟨S128x256, .f32⟩
  | .hbm, ⟨14, _⟩ => ⟨S2016x256, .f32⟩
  | .hbm, ⟨15, _⟩ => ⟨S32x256, .f32⟩
  | .hbm, ⟨16, _⟩ => ⟨S_, .f32⟩
  | .hbm, ⟨17, _⟩ => ⟨S4096x256, .f32⟩
  | .hbm, ⟨18, _⟩ => ⟨S_, .i32⟩
  | .hbm, ⟨19, _⟩ => ⟨S2016, .i32⟩
  | .hbm, ⟨20, _⟩ => ⟨S2016, .i32⟩
  | .hbm, ⟨21, _⟩ => ⟨S2016, .i32⟩
  | .hbm, ⟨22, _⟩ => ⟨S2016x1, .i32⟩
  | .hbm, ⟨23, _⟩ => ⟨S4096x256, .f32⟩
  | .hbm, ⟨24, _⟩ => ⟨S160x256, .f32⟩
  | .hbm, ⟨25, _⟩ => ⟨S2048x256, .bf16⟩
  | .hbm, ⟨26, _⟩ => ⟨S256x256, .bf16⟩
  | .hbm, ⟨27, _⟩ => ⟨S256x128, .bf16⟩
  | .hbm, ⟨28, _⟩ => ⟨S160x256, .bf16⟩
  | .hbm, ⟨29, _⟩ => ⟨S4096x256, .bf16⟩
  | .hbm, ⟨30, _⟩ => ⟨S256x1, .bf16⟩
  | .hbm, ⟨31, _⟩ => ⟨S16384x1, .f32⟩
  | .local _ .vmem, ⟨0, _⟩ => ⟨S512x64x32, .f32⟩
  | .local _ .vmem, ⟨1, _⟩ => ⟨S512x64x32, .f32⟩
  | .local _ .vmem, ⟨2, _⟩ => ⟨S2048x256, .bf16⟩
  | .local _ .vmem, ⟨3, _⟩ => ⟨S256, .f32⟩
  | .local _ .vmem, ⟨4, _⟩ => ⟨S256x256, .bf16⟩
  | .local _ .vmem, ⟨5, _⟩ => ⟨S256, .f32⟩
  | .local _ .vmem, ⟨6, _⟩ => ⟨S256x128, .bf16⟩
  | .local _ .vmem, ⟨7, _⟩ => ⟨S128, .f32⟩
  | .local _ .vmem, ⟨8, _⟩ => ⟨S160x256, .bf16⟩
  | .local _ .vmem, ⟨9, _⟩ => ⟨S4096x256, .bf16⟩
  | .local _ .vmem, ⟨10, _⟩ => ⟨S256, .f32⟩
  | .local _ .vmem, ⟨11, _⟩ => ⟨S256x1, .bf16⟩
  | .local _ .vmem, ⟨12, _⟩ => ⟨S1, .f32⟩
  | .local _ .vmem, ⟨13, _⟩ => ⟨S512x1, .f32⟩
  | .local _ .vmem, ⟨14, _⟩ => ⟨S512x1, .f32⟩
  | _, _ => ⟨S16384x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S160x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2176x256_S128x256_0_0 : S2176x256.Slices ![0, 0] S128x256
  slices_S2176x256_S2016x256_128_0 : S2176x256.Slices ![128, 0] S2016x256
  slices_S2176x256_S32x256_2144_0 : S2176x256.Slices ![2144, 0] S32x256
  bcast_S_S4096x256 : S_.BroadcastsInDim S4096x256 (![] : Fin 0 → Fin S4096x256.rank)
  bcast_S_S2016 : S_.BroadcastsInDim S2016 (![] : Fin 0 → Fin S2016.rank)
  bcast_S2016_S2016x1_0 : S2016.BroadcastsInDim S2016x1 (![0] : Fin 1 → Fin S2016x1.rank)
  concatenates_S128x256_S32x256_S160x256_d0 : Shape.Concatenates [S128x256, S32x256] S160x256 0
  bitsLt_bf16_f32 : FTy.bits .bf16 < FTy.bits .f32
  inb_S512x64x32_S512x64x32_0_0_0 : ∀ a, (![0, 0, 0] : Fin 3 → Nat) a + S512x64x32.size a ≤ S512x64x32.size a
  h_S512x64x32 : 0 < S512x64x32.numel
  shapeCasts_S512x64x32_S512x2048 : S512x64x32.ShapeCasts S512x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  reduces_S512x64x32_S512x32 : S512x64x32.Reduces [1] S512x32
  shapeCasts_S512x64x64_S512x4096 : S512x64x64.ShapeCasts S512x4096
  concatenates_S512x128_S512x32_S512x160_d1 : Shape.Concatenates [S512x128, S512x32] S512x160 1
  inb_S160x256_S160x256_0_0 : ∀ a, (![0, 0] : Fin 2 → Nat) a + S160x256.size a ≤ S160x256.size a
  h_S160x256 : 0 < S160x256.numel
  shapeCasts_S160x256_S160x256 : S160x256.ShapeCasts S160x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S4096x256_S2016x1_S2016x256_1_0_0_1_wf : ScatterDims.WF S4096x256 S2016x1 S2016x256 [1] [0] [0] 1
  dot_S512x2048_S2048x256_S512x256_1_0_0_1_n_n_wf : DotDims.WF S512x2048 S2048x256 S512x256 [1] [0] [0] [1] [] []
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []
  dot_S512x64x32_S512x64x32_S512x64x64_2_2_1_1_0_0_wf : DotDims.WF S512x64x32 S512x64x32 S512x64x64 [2] [2] [1] [1] [0] [0]
  dot_S512x160_S160x256_S512x256_1_0_0_1_n_n_wf : DotDims.WF S512x160 S160x256 S512x256 [1] [0] [0] [1] [] []
  dot_S512x4096_S4096x256_S512x256_1_0_0_1_n_n_wf : DotDims.WF S512x4096 S4096x256 S512x256 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64x32.size a ≤ S16384x64x32.size a
  hwx0_0 : ∀ i : grid0.Coords, EltTy.bits .f32 = 32 ∨ (Rect.block (s := S16384x64x32) S512x64x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .bf16 = 32 ∨ (Rect.block (s := S2048x256) S2048x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S160x256.size a ≤ S160x256.size a
  hwx0_7 : ∀ i : grid0.Coords, EltTy.bits .bf16 = 32 ∨ (Rect.block (s := S160x256) S160x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096x256.size a ≤ S4096x256.size a
  hwx0_8 : ∀ i : grid0.Coords, EltTy.bits .bf16 = 32 ∨ (Rect.block (s := S4096x256) S4096x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x1.size a ≤ S256x1.size a
  hwx0_10 : ∀ i : grid0.Coords, EltTy.bits .bf16 = 32 ∨ (Rect.block (s := S256x1) S256x1.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1.size a ≤ S1.size a
  hwx0_11 : ∀ i : grid0.Coords, EltTy.bits .f32 = 32 ∨ (Rect.block (s := S1) S1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x1.size a ≤ S16384x1.size a
  hwx0_12 : ∀ i : grid0.Coords, EltTy.bits .f32 = 32 ∨ (Rect.block (s := S16384x1) S512x1.size (cc0_transform_12 i) (hinb0_12 i)).WholeWords (EltTy.packing .f32)

variable [Facts₀]

def scatter_S4096x256_S2016x1_S2016x256_1_0_0_1 : ScatterDims S4096x256 S2016x1 S2016x256 where
  updateWindowDims := [1]
  insertedWindowDims := [0]
  scatterDimsToOperandDims := [0]
  indexVectorDim := 1
  wf := scatter_S4096x256_S2016x1_S2016x256_1_0_0_1_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x64x32_S512x64x32_S512x64x64_2_2_1_1_0_0 : DotDims S512x64x32 S512x64x32 S512x64x64 where
  lhsContracting := [2]
  rhsContracting := [2]
  lhsNonContracting := [1]
  rhsNonContracting := [1]
  lhsBatch := [0]
  rhsBatch := [0]
  wf := dot_S512x64x32_S512x64x32_S512x64x64_2_2_1_1_0_0_wf
def dot_S512x160_S160x256_S512x256_1_0_0_1_n_n : DotDims S512x160 S160x256 S512x256 where
  lhsContracting := [1]
  rhsContracting := [0]
  lhsNonContracting := [0]
  rhsNonContracting := [1]
  lhsBatch := []
  rhsBatch := []
  wf := dot_S512x160_S160x256_S512x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg0) S512x64x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S160x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S4096x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S256x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v16) S512x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x64x32 : Shape := ⟨3, ![16384, 64, 32]⟩
abbrev S2048x256 : Shape := ⟨2, ![2048, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S2176x256 : Shape := ⟨2, ![2176, 256]⟩
abbrev S256x1 : Shape := ⟨2, ![256, 1]⟩
abbrev S1 : Shape := ⟨1, ![1]⟩
abbrev S16384x64x64 : Shape := ⟨3, ![16384, 64, 64]⟩
abbrev S_ : Shape := ⟨0, ![]⟩
abbrev S64x64 : Shape := ⟨2, ![64, 64]⟩
abbrev S4096 : Shape := ⟨1, ![4096]⟩
abbrev S2016 : Shape := ⟨1, ![2016]⟩
abbrev S4096x1 : Shape := ⟨2, ![4096, 1]⟩
abbrev S2016x1 : Shape := ⟨2, ![2016, 1]⟩
abbrev S2016x2 : Shape := ⟨2, ![2016, 2]⟩
abbrev S16384x2016 : Shape := ⟨2, ![16384, 2016]⟩
abbrev S16384x2048 : Shape := ⟨2, ![16384, 2048]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩
abbrev S16384x32 : Shape := ⟨2, ![16384, 32]⟩
abbrev S16384x2176 : Shape := ⟨2, ![16384, 2176]⟩
abbrev S16384x1 : Shape := ⟨2, ![16384, 1]⟩
abbrev S1x1 : Shape := ⟨2, ![1, 1]⟩

abbrev nBuf : Space → Nat
  | .hbm => 212
  | .vmem => 0
  | .smem => 0
  | _ => 0

abbrev hbmTy0_0 (i : Nat) : BufTy := match i % 128 with
  | 0 => ⟨S16384x64x32, .f32⟩
  | 1 => ⟨S2048x256, .f32⟩
  | 2 => ⟨S256, .f32⟩
  | 3 => ⟨S256x256, .f32⟩
  | 4 => ⟨S256, .f32⟩
  | 5 => ⟨S256x128, .f32⟩
  | 6 => ⟨S128, .f32⟩
  | 7 => ⟨S2176x256, .f32⟩
  | 8 => ⟨S256, .f32⟩
  | 9 => ⟨S256x1, .f32⟩
  | 10 => ⟨S1, .f32⟩
  | 11 => ⟨S16384x64x64, .f32⟩
  | 12 => ⟨S_, .f32⟩
  | 13 => ⟨S64x64, .f32⟩
  | 14 => ⟨S64x64, .i32⟩
  | 15 => ⟨S_, .i32⟩
  | 16 => ⟨S64x64, .i32⟩
  | 17 => ⟨S64x64, .i32⟩
  | 18 => ⟨S64x64, .i32⟩
  | 19 => ⟨S64x64, .i1⟩
  | 20 => ⟨S_, .f32⟩
  | 21 => ⟨S64x64, .f32⟩
  | 22 => ⟨S64x64, .f32⟩
  | 23 => ⟨S_, .f32⟩
  | 24 => ⟨S64x64, .f32⟩
  | 25 => ⟨S64x64, .i1⟩
  | 26 => ⟨S4096, .i1⟩
  | 27 => ⟨S4096, .i32⟩
  | 28 => ⟨S_, .i32⟩
  | 29 => ⟨S_, .i32⟩
  | 30 => ⟨S4096, .i32⟩
  | 31 => ⟨S_, .i32⟩
  | 32 => ⟨S2016, .i32⟩
  | 33 => ⟨S_, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S_, .i32⟩
  | 46 => ⟨S4096, .i32⟩
  | 47 => ⟨S2016, .i32⟩
  | 48 => ⟨S_, .i32⟩
  | 49 => ⟨S_, .i32⟩
  | 50 => ⟨S2016, .i32⟩
  | 51 => ⟨S_, .i32⟩
  | 52 => ⟨S2016, .i32⟩
  | 53 => ⟨S2016, .i32⟩
  | 54 => ⟨S2016, .i32⟩
  | 55 => ⟨S_, .i32⟩
  | 56 => ⟨S2016, .i32⟩
  | 57 => ⟨S2016, .i1⟩
  | 58 => ⟨S2016, .i32⟩
  | 59 => ⟨S2016, .i32⟩
  | 60 => ⟨S_, .i32⟩
  | 61 => ⟨S2016, .i32⟩
  | 62 => ⟨S2016, .i1⟩
  | 63 => ⟨S2016, .i1⟩
  | 64 => ⟨S_, .i32⟩
  | 65 => ⟨S2016, .i32⟩
  | 66 => ⟨S2016, .i32⟩
  | 67 => ⟨S2016, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S2016, .i32⟩
  | 75 => ⟨S2016, .i32⟩
  | 76 => ⟨S_, .i32⟩
  | 77 => ⟨S2016, .i32⟩
  | 78 => ⟨S2016, .i1⟩
  | 79 => ⟨S_, .i32⟩
  | 80 => ⟨S2016, .i32⟩
  | 81 => ⟨S2016, .i1⟩
  | 82 => ⟨S_, .i32⟩
  | 83 => ⟨S_, .i1⟩
  | 84 => ⟨S2016, .i1⟩
  | 85 => ⟨S2016, .i1⟩
  | 86 => ⟨S2016, .i1⟩
  | 87 => ⟨S2016, .i32⟩
  | 88 => ⟨S2016, .i32⟩
  | 89 => ⟨S2016, .i32⟩
  | 90 => ⟨S_, .i32⟩
  | 91 => ⟨S2016, .i32⟩
  | 92 => ⟨S2016, .i32⟩
  | 93 => ⟨S2016, .i32⟩
  | 94 => ⟨S_, .i32⟩
  | 95 => ⟨S2016, .i32⟩
  | 96 => ⟨S2016, .i1⟩
  | 97 => ⟨S2016, .i32⟩
  | 98 => ⟨S2016, .i32⟩
  | 99 => ⟨S_, .i32⟩
  | 100 => ⟨S2016, .i32⟩
  | 101 => ⟨S2016, .i1⟩
  | 102 => ⟨S2016, .i1⟩
  | 103 => ⟨S_, .i32⟩
  | 104 => ⟨S2016, .i32⟩
  | 105 => ⟨S2016, .i32⟩
  | 106 => ⟨S2016, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S2016, .i32⟩
  | 114 => ⟨S2016, .i32⟩
  | 115 => ⟨S_, .i32⟩
  | 116 => ⟨S2016, .i32⟩
  | 117 => ⟨S2016, .i1⟩
  | 118 => ⟨S_, .i32⟩
  | 119 => ⟨S2016, .i32⟩
  | 120 => ⟨S2016, .i1⟩
  | 121 => ⟨S_, .i32⟩
  | 122 => ⟨S_, .i1⟩
  | 123 => ⟨S2016, .i1⟩
  | 124 => ⟨S2016, .i1⟩
  | 125 => ⟨S2016, .i1⟩
  | 126 => ⟨S2016, .i32⟩
  | 127 => ⟨S2016, .i32⟩
  | _ => ⟨S16384x64x32, .f32⟩

abbrev hbmTy0_1 (i : Nat) : BufTy := match i % 128 with
  | 0 => ⟨S2016, .i32⟩
  | 1 => ⟨S_, .i32⟩
  | 2 => ⟨S2016, .i32⟩
  | 3 => ⟨S2016, .i1⟩
  | 4 => ⟨S_, .i32⟩
  | 5 => ⟨S2016, .i32⟩
  | 6 => ⟨S2016, .i32⟩
  | 7 => ⟨S2016, .i32⟩
  | 8 => ⟨S_, .i32⟩
  | 9 => ⟨S2016, .i32⟩
  | 10 => ⟨S2016, .i1⟩
  | 11 => ⟨S_, .i32⟩
  | 12 => ⟨S2016, .i32⟩
  | 13 => ⟨S2016, .i32⟩
  | 14 => ⟨S2016, .i32⟩
  | 15 => ⟨S2016x1, .i32⟩
  | 16 => ⟨S2016x1, .i32⟩
  | 17 => ⟨S2016x2, .i32⟩
  | 18 => ⟨S16384x2016, .f32⟩
  | 19 => ⟨S16384x2048, .f32⟩
  | 20 => ⟨S16384x256, .f32⟩
  | 21 => ⟨S1x256, .f32⟩
  | 22 => ⟨S16384x256, .f32⟩
  | 23 => ⟨S16384x256, .f32⟩
  | 24 => ⟨S_, .f32⟩
  | 25 => ⟨S_, .f32⟩
  | 26 => ⟨S16384x256, .f32⟩
  | 27 => ⟨S16384x256, .i1⟩
  | 28 => ⟨S_, .f32⟩
  | 29 => ⟨S16384x256, .f32⟩
  | 30 => ⟨S16384x256, .i1⟩
  | 31 => ⟨S_, .f32⟩
  | 32 => ⟨S_, .f32⟩
  | 33 => ⟨S16384x256, .f32⟩
  | 34 => ⟨S16384x256, .f32⟩
  | 35 => ⟨S16384x256, .f32⟩
  | 36 => ⟨S_, .f32⟩
  | 37 => ⟨S16384x256, .f32⟩
  | 38 => ⟨S16384x256, .f32⟩
  | 39 => ⟨S16384x256, .f32⟩
  | 40 => ⟨S_, .f32⟩
  | 41 => ⟨S16384x256, .f32⟩
  | 42 => ⟨S16384x256, .f32⟩
  | 43 => ⟨S16384x256, .f32⟩
  | 44 => ⟨S1x256, .f32⟩
  | 45 => ⟨S16384x256, .f32⟩
  | 46 => ⟨S16384x256, .f32⟩
  | 47 => ⟨S_, .f32⟩
  | 48 => ⟨S_, .f32⟩
  | 49 => ⟨S16384x256, .f32⟩
  | 50 => ⟨S16384x256, .i1⟩
  | 51 => ⟨S_, .f32⟩
  | 52 => ⟨S16384x256, .f32⟩
  | 53 => ⟨S16384x256, .i1⟩
  | 54 => ⟨S_, .f32⟩
  | 55 => ⟨S_, .f32⟩
  | 56 => ⟨S16384x256, .f32⟩
  | 57 => ⟨S16384x256, .f32⟩
  | 58 => ⟨S16384x256, .f32⟩
  | 59 => ⟨S_, .f32⟩
  | 60 => ⟨S16384x256, .f32⟩
  | 61 => ⟨S16384x256, .f32⟩
  | 62 => ⟨S16384x256, .f32⟩
  | 63 => ⟨S_, .f32⟩
  | 64 => ⟨S16384x256, .f32⟩
  | 65 => ⟨S16384x256, .f32⟩
  | 66 => ⟨S16384x128, .f32⟩
  | 67 => ⟨S1x128, .f32⟩
  | 68 => ⟨S16384x128, .f32⟩
  | 69 => ⟨S16384x128, .f32⟩
  | 70 => ⟨S_, .f32⟩
  | 71 => ⟨S16384x32, .f32⟩
  | 72 => ⟨S16384x2176, .f32⟩
  | 73 => ⟨S16384x256, .f32⟩
  | 74 => ⟨S1x256, .f32⟩
  | 75 => ⟨S16384x256, .f32⟩
  | 76 => ⟨S16384x256, .f32⟩
  | 77 => ⟨S_, .f32⟩
  | 78 => ⟨S16384x256, .f32⟩
  | 79 => ⟨S16384x256, .f32⟩
  | 80 => ⟨S16384x1, .f32⟩
  | 81 => ⟨S1x1, .f32⟩
  | 82 => ⟨S16384x1, .f32⟩
  | 83 => ⟨S16384x1, .f32⟩
  | _ => ⟨S16384x64x32, .f32⟩

abbrev hbmTy (i : Nat) : BufTy := match i / 128 with
  | 0 => hbmTy0_0 i
  | 1 => hbmTy0_1 i
  | _ => ⟨S16384x64x32, .f32⟩

abbrev bufTy : (tb : Table) → Fin (tcTables nBuf tb) → BufTy
  | .hbm, ⟨i, _⟩ => hbmTy i
  | _, _ => ⟨S16384x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_cst : Ref sig .tc := ⟨.hbm, 20, rfl⟩
abbrev main_call0_v5 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_call1_v0 : Ref sig .tc := ⟨.hbm, 26, rfl⟩
abbrev main_call1_v1 : Ref sig .tc := ⟨.hbm, 27, rfl⟩
abbrev main_call1_call0_c : Ref sig .tc := ⟨.hbm, 28, rfl⟩
abbrev main_call1_call0_v0 : Ref sig .tc := ⟨.hbm, 29, rfl⟩
abbrev main_v5 : Ref sig .tc := ⟨.hbm, 30, rfl⟩
abbrev main_c : Ref sig .tc := ⟨.hbm, 31, rfl⟩
abbrev main_v6 : Ref sig .tc := ⟨.hbm, 32, rfl⟩
abbrev main_c_1 : Ref sig .tc := ⟨.hbm, 33, rfl⟩
abbrev main_call2_v0 : Ref sig .tc := ⟨.hbm, 34, rfl⟩
abbrev main_call2_v1 : Ref sig .tc := ⟨.hbm, 35, rfl⟩
abbrev main_v7 : Ref sig .tc := ⟨.hbm, 36, rfl⟩
abbrev main_c_2 : Ref sig .tc := ⟨.hbm, 37, rfl⟩
abbrev main_v8 : Ref sig .tc := ⟨.hbm, 38, rfl⟩
abbrev main_v9 : Ref sig .tc := ⟨.hbm, 39, rfl⟩
abbrev main_c_3 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c_4 : Ref sig .tc := ⟨.hbm, 45, rfl⟩
abbrev main_v14 : Ref sig .tc := ⟨.hbm, 46, rfl⟩
abbrev main_v15 : Ref sig .tc := ⟨.hbm, 47, rfl⟩
abbrev main_call3_call0_c : Ref sig .tc := ⟨.hbm, 48, rfl⟩
abbrev main_call3_call0_v0 : Ref sig .tc := ⟨.hbm, 49, rfl⟩
abbrev main_v16 : Ref sig .tc := ⟨.hbm, 50, rfl⟩
abbrev main_c_5 : Ref sig .tc := ⟨.hbm, 51, rfl⟩
abbrev main_call4_v0 : Ref sig .tc := ⟨.hbm, 52, rfl⟩
abbrev main_call4_v1 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_v5 : Ref sig .tc := ⟨.hbm, 57, rfl⟩
abbrev main_call4_v6 : Ref sig .tc := ⟨.hbm, 58, rfl⟩
abbrev main_call4_v7 : Ref sig .tc := ⟨.hbm, 59, rfl⟩
abbrev main_call4_c : Ref sig .tc := ⟨.hbm, 60, rfl⟩
abbrev main_call4_v8 : Ref sig .tc := ⟨.hbm, 61, rfl⟩
abbrev main_call4_v9 : Ref sig .tc := ⟨.hbm, 62, rfl⟩
abbrev main_call4_v10 : Ref sig .tc := ⟨.hbm, 63, rfl⟩
abbrev main_call4_c_0 : Ref sig .tc := ⟨.hbm, 64, rfl⟩
abbrev main_call4_v11 : Ref sig .tc := ⟨.hbm, 65, rfl⟩
abbrev main_call4_v12 : Ref sig .tc := ⟨.hbm, 66, rfl⟩
abbrev main_v17 : Ref sig .tc := ⟨.hbm, 67, rfl⟩
abbrev main_c_6 : Ref sig .tc := ⟨.hbm, 68, rfl⟩
abbrev main_call5_v0 : Ref sig .tc := ⟨.hbm, 69, rfl⟩
abbrev main_call5_c : Ref sig .tc := ⟨.hbm, 70, rfl⟩
abbrev main_call5_v1 : Ref sig .tc := ⟨.hbm, 71, rfl⟩
abbrev main_call5_c_0 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_call5_c_1 : Ref sig .tc := ⟨.hbm, 76, rfl⟩
abbrev main_call5_v5 : Ref sig .tc := ⟨.hbm, 77, rfl⟩
abbrev main_call5_v6 : Ref sig .tc := ⟨.hbm, 78, rfl⟩
abbrev main_call5_c_2 : Ref sig .tc := ⟨.hbm, 79, rfl⟩
abbrev main_call5_v7 : Ref sig .tc := ⟨.hbm, 80, rfl⟩
abbrev main_call5_v8 : Ref sig .tc := ⟨.hbm, 81, rfl⟩
abbrev main_call5_c_3 : Ref sig .tc := ⟨.hbm, 82, rfl⟩
abbrev main_call5_v9 : Ref sig .tc := ⟨.hbm, 83, rfl⟩
abbrev main_call5_v10 : Ref sig .tc := ⟨.hbm, 84, rfl⟩
abbrev main_call5_v11 : Ref sig .tc := ⟨.hbm, 85, rfl⟩
abbrev main_call5_v12 : Ref sig .tc := ⟨.hbm, 86, rfl⟩
abbrev main_call5_v13 : Ref sig .tc := ⟨.hbm, 87, rfl⟩
abbrev main_call5_v14 : Ref sig .tc := ⟨.hbm, 88, rfl⟩
abbrev main_v18 : Ref sig .tc := ⟨.hbm, 89, rfl⟩
abbrev main_c_7 : Ref sig .tc := ⟨.hbm, 90, rfl⟩
abbrev main_call6_v0 : Ref sig .tc := ⟨.hbm, 91, rfl⟩
abbrev main_call6_v1 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_v5 : Ref sig .tc := ⟨.hbm, 96, rfl⟩
abbrev main_call6_v6 : Ref sig .tc := ⟨.hbm, 97, rfl⟩
abbrev main_call6_v7 : Ref sig .tc := ⟨.hbm, 98, rfl⟩
abbrev main_call6_c : Ref sig .tc := ⟨.hbm, 99, rfl⟩
abbrev main_call6_v8 : Ref sig .tc := ⟨.hbm, 100, rfl⟩
abbrev main_call6_v9 : Ref sig .tc := ⟨.hbm, 101, rfl⟩
abbrev main_call6_v10 : Ref sig .tc := ⟨.hbm, 102, rfl⟩
abbrev main_call6_c_0 : Ref sig .tc := ⟨.hbm, 103, rfl⟩
abbrev main_call6_v11 : Ref sig .tc := ⟨.hbm, 104, rfl⟩
abbrev main_call6_v12 : Ref sig .tc := ⟨.hbm, 105, rfl⟩
abbrev main_v19 : Ref sig .tc := ⟨.hbm, 106, rfl⟩
abbrev main_c_8 : Ref sig .tc := ⟨.hbm, 107, rfl⟩
abbrev main_call7_v0 : Ref sig .tc := ⟨.hbm, 108, rfl⟩
abbrev main_call7_c : Ref sig .tc := ⟨.hbm, 109, rfl⟩
abbrev main_call7_v1 : Ref sig .tc := ⟨.hbm, 110, rfl⟩
abbrev main_call7_c_0 : Ref sig .tc := ⟨.hbm, 111, rfl⟩
abbrev main_call7_v2 : Ref sig .tc := ⟨.hbm, 112, rfl⟩
abbrev main_call7_v3 : Ref sig .tc := ⟨.hbm, 113, rfl⟩
abbrev main_call7_v4 : Ref sig .tc := ⟨.hbm, 114, rfl⟩
abbrev main_call7_c_1 : Ref sig .tc := ⟨.hbm, 115, rfl⟩
abbrev main_call7_v5 : Ref sig .tc := ⟨.hbm, 116, rfl⟩
abbrev main_call7_v6 : Ref sig .tc := ⟨.hbm, 117, rfl⟩
abbrev main_call7_c_2 : Ref sig .tc := ⟨.hbm, 118, rfl⟩
abbrev main_call7_v7 : Ref sig .tc := ⟨.hbm, 119, rfl⟩
abbrev main_call7_v8 : Ref sig .tc := ⟨.hbm, 120, rfl⟩
abbrev main_call7_c_3 : Ref sig .tc := ⟨.hbm, 121, rfl⟩
abbrev main_call7_v9 : Ref sig .tc := ⟨.hbm, 122, rfl⟩
abbrev main_call7_v10 : Ref sig .tc := ⟨.hbm, 123, rfl⟩
abbrev main_call7_v11 : Ref sig .tc := ⟨.hbm, 124, rfl⟩
abbrev main_call7_v12 : Ref sig .tc := ⟨.hbm, 125, rfl⟩
abbrev main_call7_v13 : Ref sig .tc := ⟨.hbm, 126, rfl⟩
abbrev main_call7_v14 : Ref sig .tc := ⟨.hbm, 127, rfl⟩
abbrev main_v20 : Ref sig .tc := ⟨.hbm, 128, rfl⟩
abbrev main_c_9 : Ref sig .tc := ⟨.hbm, 129, rfl⟩
abbrev main_v21 : Ref sig .tc := ⟨.hbm, 130, rfl⟩
abbrev main_v22 : Ref sig .tc := ⟨.hbm, 131, rfl⟩
abbrev main_c_10 : Ref sig .tc := ⟨.hbm, 132, rfl⟩
abbrev main_v23 : Ref sig .tc := ⟨.hbm, 133, rfl⟩
abbrev main_v24 : Ref sig .tc := ⟨.hbm, 134, rfl⟩
abbrev main_v25 : Ref sig .tc := ⟨.hbm, 135, rfl⟩
abbrev main_c_11 : Ref sig .tc := ⟨.hbm, 136, rfl⟩
abbrev main_v26 : Ref sig .tc := ⟨.hbm, 137, rfl⟩
abbrev main_v27 : Ref sig .tc := ⟨.hbm, 138, rfl⟩
abbrev main_c_12 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_v39 : Ref sig .tc := ⟨.hbm, 151, rfl⟩
abbrev main_call8_cst : Ref sig .tc := ⟨.hbm, 152, rfl⟩
abbrev main_call8_call0_cst : Ref sig .tc := ⟨.hbm, 153, rfl⟩
abbrev main_call8_call0_v0 : Ref sig .tc := ⟨.hbm, 154, rfl⟩
abbrev main_call8_call0_v1 : Ref sig .tc := ⟨.hbm, 155, rfl⟩
abbrev main_call8_call0_cst_0 : Ref sig .tc := ⟨.hbm, 156, rfl⟩
abbrev main_call8_call0_v2 : Ref sig .tc := ⟨.hbm, 157, rfl⟩
abbrev main_call8_call0_v3 : Ref sig .tc := ⟨.hbm, 158, rfl⟩
abbrev main_call8_call0_cst_1 : Ref sig .tc := ⟨.hbm, 159, rfl⟩
abbrev main_call8_call0_call0_v0 : Ref sig .tc := ⟨.hbm, 160, rfl⟩
abbrev main_call8_call0_call0_v1 : Ref sig .tc := ⟨.hbm, 161, rfl⟩
abbrev main_call8_call0_v4 : Ref sig .tc := ⟨.hbm, 162, rfl⟩
abbrev main_call8_call0_v5 : Ref sig .tc := ⟨.hbm, 163, rfl⟩
abbrev main_call8_call0_v6 : Ref sig .tc := ⟨.hbm, 164, rfl⟩
abbrev main_call8_call0_v7 : Ref sig .tc := ⟨.hbm, 165, rfl⟩
abbrev main_call8_call0_v8 : Ref sig .tc := ⟨.hbm, 166, rfl⟩
abbrev main_call8_v0 : Ref sig .tc := ⟨.hbm, 167, rfl⟩
abbrev main_call8_cst_0 : Ref sig .tc := ⟨.hbm, 168, rfl⟩
abbrev main_call8_v1 : Ref sig .tc := ⟨.hbm, 169, rfl⟩
abbrev main_v40 : Ref sig .tc := ⟨.hbm, 170, rfl⟩
abbrev main_v41 : Ref sig .tc := ⟨.hbm, 171, rfl⟩
abbrev main_v42 : Ref sig .tc := ⟨.hbm, 172, rfl⟩
abbrev main_v43 : Ref sig .tc := ⟨.hbm, 173, rfl⟩
abbrev main_v44 : Ref sig .tc := ⟨.hbm, 174, rfl⟩
abbrev main_call9_cst : Ref sig .tc := ⟨.hbm, 175, rfl⟩
abbrev main_call9_call0_cst : Ref sig .tc := ⟨.hbm, 176, rfl⟩
abbrev main_call9_call0_v0 : Ref sig .tc := ⟨.hbm, 177, rfl⟩
abbrev main_call9_call0_v1 : Ref sig .tc := ⟨.hbm, 178, rfl⟩
abbrev main_call9_call0_cst_0 : Ref sig .tc := ⟨.hbm, 179, rfl⟩
abbrev main_call9_call0_v2 : Ref sig .tc := ⟨.hbm, 180, rfl⟩
abbrev main_call9_call0_v3 : Ref sig .tc := ⟨.hbm, 181, rfl⟩
abbrev main_call9_call0_cst_1 : Ref sig .tc := ⟨.hbm, 182, rfl⟩
abbrev main_call9_call0_call0_v0 : Ref sig .tc := ⟨.hbm, 183, rfl⟩
abbrev main_call9_call0_call0_v1 : Ref sig .tc := ⟨.hbm, 184, rfl⟩
abbrev main_call9_call0_v4 : Ref sig .tc := ⟨.hbm, 185, rfl⟩
abbrev main_call9_call0_v5 : Ref sig .tc := ⟨.hbm, 186, rfl⟩
abbrev main_call9_call0_v6 : Ref sig .tc := ⟨.hbm, 187, rfl⟩
abbrev main_call9_call0_v7 : Ref sig .tc := ⟨.hbm, 188, rfl⟩
abbrev main_call9_call0_v8 : Ref sig .tc := ⟨.hbm, 189, rfl⟩
abbrev main_call9_v0 : Ref sig .tc := ⟨.hbm, 190, rfl⟩
abbrev main_call9_cst_0 : Ref sig .tc := ⟨.hbm, 191, rfl⟩
abbrev main_call9_v1 : Ref sig .tc := ⟨.hbm, 192, rfl⟩
abbrev main_v45 : Ref sig .tc := ⟨.hbm, 193, rfl⟩
abbrev main_v46 : Ref sig .tc := ⟨.hbm, 194, rfl⟩
abbrev main_v47 : Ref sig .tc := ⟨.hbm, 195, rfl⟩
abbrev main_v48 : Ref sig .tc := ⟨.hbm, 196, rfl⟩
abbrev main_v49 : Ref sig .tc := ⟨.hbm, 197, rfl⟩
abbrev main_cst_13 : Ref sig .tc := ⟨.hbm, 198, rfl⟩
abbrev main_v50 : Ref sig .tc := ⟨.hbm, 199, rfl⟩
abbrev main_v51 : Ref sig .tc := ⟨.hbm, 200, rfl⟩
abbrev main_v52 : Ref sig .tc := ⟨.hbm, 201, rfl⟩
abbrev main_v53 : Ref sig .tc := ⟨.hbm, 202, rfl⟩
abbrev main_v54 : Ref sig .tc := ⟨.hbm, 203, rfl⟩
abbrev main_v55 : Ref sig .tc := ⟨.hbm, 204, rfl⟩
abbrev main_call10_cst : Ref sig .tc := ⟨.hbm, 205, rfl⟩
abbrev main_call10_v0 : Ref sig .tc := ⟨.hbm, 206, rfl⟩
abbrev main_v56 : Ref sig .tc := ⟨.hbm, 207, rfl⟩
abbrev main_v57 : Ref sig .tc := ⟨.hbm, 208, rfl⟩
abbrev main_v58 : Ref sig .tc := ⟨.hbm, 209, rfl⟩
abbrev main_v59 : Ref sig .tc := ⟨.hbm, 210, rfl⟩
abbrev main_v60 : Ref sig .tc := ⟨.hbm, 211, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S2016 : S_.BroadcastsInDim S2016 (![] : Fin 0 → Fin S2016.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S2016_S2016_w2016s1p2015_0 : S2016.ReduceWindows (![2016] : Fin 1 → Nat) ![1] ![2015] ![0] S2016
  bcast_S2016_S2016x1_0 : S2016.BroadcastsInDim S2016x1 (![0] : Fin 1 → Fin S2016x1.rank)
  concatenates_S2016x1_S2016x1_S2016x2_d1 : Shape.Concatenates [S2016x1, S2016x1] S2016x2 1
  shapeCasts_S16384x64x32_S16384x2048 : S16384x64x32.ShapeCasts S16384x2048
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x64x32_S16384x32_d1 : S16384x64x32.ReducesTo [1] S16384x32
  concatenates_S16384x128_S16384x2016_S16384x32_S16384x2176_d1 : Shape.Concatenates [S16384x128, S16384x2016, S16384x32] S16384x2176 1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x64x32_S16384x64x32_S16384x64x64_2_2_1_1_0_0_wf : DotDims.WF S16384x64x32 S16384x64x32 S16384x64x64 [2] [2] [1] [1] [0] [0]
  scatter_S2016_S4096x1_S4096_n_0_0_1_wf : ScatterDims.WF S2016 S4096x1 S4096 [] [0] [0] 1
  gather_S16384x64x64_S2016x2_S16384x2016_0_12_n_n_12_1_1638411_wf : GatherDims.WF S16384x64x64 S2016x2 S16384x2016 [0] [1, 2] [] [1, 2] [] 1 ![16384, 1, 1]
  dot_S16384x2048_S2048x256_S16384x256_1_0_0_1_n_n_wf : DotDims.WF S16384x2048 S2048x256 S16384x256 [1] [0] [0] [1] [] []
  dot_S16384x256_S256x256_S16384x256_1_0_0_1_n_n_wf : DotDims.WF S16384x256 S256x256 S16384x256 [1] [0] [0] [1] [] []
  dot_S16384x256_S256x128_S16384x128_1_0_0_1_n_n_wf : DotDims.WF S16384x256 S256x128 S16384x128 [1] [0] [0] [1] [] []
  dot_S16384x2176_S2176x256_S16384x256_1_0_0_1_n_n_wf : DotDims.WF S16384x2176 S2176x256 S16384x256 [1] [0] [0] [1] [] []
  dot_S16384x256_S256x1_S16384x1_1_0_0_1_n_n_wf : DotDims.WF S16384x256 S256x1 S16384x1 [1] [0] [0] [1] [] []

variable [Facts₀]

def dot_S16384x64x32_S16384x64x32_S16384x64x64_2_2_1_1_0_0 : DotDims S16384x64x32 S16384x64x32 S16384x64x64 where
  lhsContracting := [2]
  rhsContracting := [2]
  lhsNonContracting := [1]
  rhsNonContracting := [1]
  lhsBatch := [0]
  rhsBatch := [0]
  wf := dot_S16384x64x32_S16384x64x32_S16384x64x64_2_2_1_1_0_0_wf
def scatter_S2016_S4096x1_S4096_n_0_0_1 : ScatterDims S2016 S4096x1 S4096 where
  updateWindowDims := []
  insertedWindowDims := [0]
  scatterDimsToOperandDims := [0]
  indexVectorDim := 1
  wf := scatter_S2016_S4096x1_S4096_n_0_0_1_wf
def gather_S16384x64x64_S2016x2_S16384x2016_0_12_n_n_12_1_1638411 : GatherDims S16384x64x64 S2016x2 S16384x2016 where
  offsetDims := [0]
  collapsedSliceDims := [1, 2]
  operandBatchingDims := []
  startIndicesBatchingDims := []
  startIndexMap := [1, 2]
  indexVectorDim := 1
  sliceSizes := ![16384, 1, 1]
  wf := gather_S16384x64x64_S2016x2_S16384x2016_0_12_n_n_12_1_1638411_wf
def dot_S16384x2048_S2048x256_S16384x256_1_0_0_1_n_n : DotDims S16384x2048 S2048x256 S16384x256 where
  lhsContracting := [1]
  rhsContracting := [0]
  lhsNonContracting := [0]
  rhsNonContracting := [1]
  lhsBatch := []
  rhsBatch := []
  wf := dot_S16384x2048_S2048x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x2176_S2176x256_S16384x256_1_0_0_1_n_n : DotDims S16384x2176 S2176x256 S16384x256 where
  lhsContracting := [1]
  rhsContracting := [0]
  lhsNonContracting := [0]
  rhsNonContracting := [1]
  lhsBatch := []
  rhsBatch := []
  wf := dot_S16384x2176_S2176x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.Spec.lean ====
/-
  The function both programs compute, stated once over plain curried functions of the argument arrays.

  For a row `b` of the batch: a three-layer perceptron on the row's flattened 64×32 features
  (`h1`, `h2` with the scaled exponential linear unit, `hoi` affine), the column sums `fo` of the
  row's 64×32 block, and the Gram matrix `gram b i j = Σ_d x b i d · x b j d`.  The three are fed to
  one affine layer with a rectifier: the layer's weight `Wc1` has 2176 rows — the first 128 meet
  `hoi`, the next 2016 meet the strictly-upper-triangular Gram entries in the order given by a
  table `t` of flat positions `64·i + j` (row `t p / 64`, column `t p % 64`), the last 32 meet
  `fo` — and a final affine layer maps the 256 rectified values to one number.
  Nothing here needs a finite input: only sums and products of extended reals are formed.
-/
import Idealize.ShloMosaic.PureOps.Ideal
import Idealize.ShloMosaic.Lib.ValueIdx

noncomputable section

open scoped BigOperators

namespace Cert.DeepFM

open Idealize.ShloMosaic

/-- The unit's scale, the float nearest 1.0507009873554805. -/
def sc : EReal := Ideal.ofBits .f32 0x3F867D5F#32
/-- The unit's negative saturation, the float nearest 1.6732632423543772. -/
def al : EReal := Ideal.ofBits .f32 0x3FD62D7D#32
/-- The float one. -/
def one : EReal := Ideal.ofBits .f32 0x3F800000#32
/-- The float zero. -/
def zero : EReal := Ideal.ofBits .f32 0x00000000#32

/-- The scaled exponential linear unit: `sc · v` for `v > 0`, else `sc · al · (e^v − 1)`; the
    comparison is the extended reals' strict order, taken as the one-bit word a select reads. -/
def selu (v : EReal) : EReal :=
  sc * Scalar.select (Ideal.cmp .ogt v zero) v (al * (Ideal.exp v - one))

section
variable (t : Fin 2016 → Nat)
  (x : Fin 16384 → Fin 64 → Fin 32 → EReal)
  (W1 : Fin 2048 → Fin 256 → EReal) (b1 : Fin 256 → EReal)
  (W2 : Fin 256 → Fin 256 → EReal) (b2 : Fin 256 → EReal)
  (W3 : Fin 256 → Fin 128 → EReal) (b3 : Fin 128 → EReal)
  (Wc1 : Fin 2176 → Fin 256 → EReal) (bc1 : Fin 256 → EReal)
  (Wc2 : Fin 256 → Fin 1 → EReal) (bc2 : Fin 1 → EReal)

/-- Row `b`'s features flattened row-major: position `k` is feature `k / 32`, coordinate `k % 32`. -/
def xflat (b : Fin 16384) (k : Fin 2048) : EReal :=
  x b ⟨k.val / 32, by omega⟩ ⟨k.val % 32, Nat.mod_lt _ (by decide)⟩

/-- First hidden layer. -/
def h1 (b : Fin 16384) (n : Fin 256) : EReal := selu ((∑ k : Fin 2048, xflat x b k * W1 k n) + b1 n)
/-- Second hidden layer. -/
def h2 (b : Fin 16384) (n : Fin 256) : EReal :=
  selu ((∑ k : Fin 256, h1 x W1 b1 b k * W2 k n) + b2 n)
/-- The higher-order features: the perceptron's affine output. -/
def hoi (b : Fin 16384) (n : Fin 128) : EReal :=
  (∑ k : Fin 256, h2 x W1 b1 W2 b2 b k * W3 k n) + b3 n
/-- The first-order features: the sum of the row's 64 feature vectors. -/
def fo (b : Fin 16384) (d : Fin 32) : EReal := ∑ i : Fin 64, x b i d
/-- The Gram matrix of the row's 64 feature vectors. -/
def gram (b : Fin 16384) (i j : Fin 64) : EReal := ∑ d : Fin 32, x b i d * x b j d

/-- The Gram entry the table's `p`-th position selects: row `t p / 64`, column `t p % 64`. -/
def soi (b : Fin 16384) (p : Fin 2016) : EReal :=
  gram x b ⟨t p / 64 % 64, Nat.mod_lt _ (by decide)⟩ ⟨t p % 64, Nat.mod_lt _ (by decide)⟩

/-- The combining layer before its rectifier: the three groups of `Wc1`'s rows against `hoi`, the selected
    Gram entries and `fo`, then the bias. -/
def pre (b : Fin 16384) (n : Fin 256) : EReal :=
  (∑ k : Fin 128, hoi x W1 b1 W2 b2 W3 b3 b k * Wc1 ⟨k.val, by omega⟩ n)
    + (∑ p : Fin 2016, soi t x b p * Wc1 ⟨128 + p.val, by omega⟩ n)
    + (∑ d : Fin 32, fo x b d * Wc1 ⟨2144 + d.val, by omega⟩ n)
    + bc1 n

/-- The result at row `b`. -/
def G (b : Fin 16384) : EReal :=
  (∑ n : Fin 256, max (pre t x W1 b1 W2 b2 W3 b3 Wc1 bc1 b n) zero * Wc2 n 0) + bc2 0

end

/-! Reading an array as a curried function (the adapters both sides use):
    `fun b i d => X (ValueIdx.ix3 b i d)` for a rank-3 array, `fun k n => W (ValueIdx.ix2 k n)` for a
    rank-2 one, `fun n => v (ValueIdx.ix1 n)` for a vector. -/

end Cert.DeepFM

end
-- ==== Proof.KSpec.lean ====
/-
  The kernel's arrangement of the combining layer, and that it is the specification's.

  The kernel multiplies the 160-wide row `[hoi | fo]` by the 160 rows of `Wc1` that meet them (rows 0–127 and
  2144–2175, stacked), and the row's whole flattened 64×64 Gram matrix by a 4096-row table that holds row
  `128 + p` of `Wc1` at position `t p` and zero rows elsewhere.  Since the table's positions are distinct, the
  4096-term sum has one surviving term per `p` (a product with a zero row is zero on the extended reals), and the
  160-term sum splits at 128; regrouping the three sums needs only commutativity and associativity of addition.
-/
import proofs.«128613_j14594298872614_2_alg».proof.Proof.Spec

noncomputable section

open scoped BigOperators

namespace Cert.DeepFM

open Idealize.ShloMosaic

section
variable (t : Fin 2016 → Nat)
  (x : Fin 16384 → Fin 64 → Fin 32 → EReal)
  (W1 : Fin 2048 → Fin 256 → EReal) (b1 : Fin 256 → EReal)
  (W2 : Fin 256 → Fin 256 → EReal) (b2 : Fin 256 → EReal)
  (W3 : Fin 256 → Fin 128 → EReal) (b3 : Fin 128 → EReal)
  (Wc1 : Fin 2176 → Fin 256 → EReal)
  (Whf : Fin 160 → Fin 256 → EReal) (Wg : Fin 4096 → Fin 256 → EReal)
  (bc1 : Fin 256 → EReal)
  (Wc2 : Fin 256 → Fin 1 → EReal) (bc2 : Fin 1 → EReal)

/-- The row `[hoi | fo]`. -/
def hf (b : Fin 16384) (k : Fin 160) : EReal :=
  if h : k.val < 128 then hoi x W1 b1 W2 b2 W3 b3 b ⟨k.val, h⟩ else fo x b ⟨k.val - 128, by omega⟩

/-- The row's Gram matrix flattened row-major. -/
def gflat (b : Fin 16384) (q : Fin 4096) : EReal :=
  gram x b ⟨q.val / 64, by omega⟩ ⟨q.val % 64, Nat.mod_lt _ (by decide)⟩

/-- The combining layer before its rectifier, as the kernel groups it. -/
def preK (b : Fin 16384) (n : Fin 256) : EReal :=
  (∑ k : Fin 160, hf x W1 b1 W2 b2 W3 b3 b k * Whf k n) + (∑ q : Fin 4096, gflat x b q * Wg q n) + bc1 n

/-- The result at row `b`, as the kernel groups it. -/
def GK (b : Fin 16384) : EReal :=
  (∑ n : Fin 256, max (preK x W1 b1 W2 b2 W3 b3 Whf Wg bc1 b n) zero * Wc2 n 0) + bc2 0

variable {t x W1 b1 W2 b2 W3 b3 Wc1 Whf Wg bc1 Wc2 bc2}

/-- The 160-term sum splits at 128 into the `hoi` group and the `fo` group. -/
theorem sum_hf (hWhf0 : ∀ (k : Fin 128) (n : Fin 256), Whf ⟨k.val, by omega⟩ n = Wc1 ⟨k.val, by omega⟩ n)
    (hWhf1 : ∀ (d : Fin 32) (n : Fin 256), Whf ⟨128 + d.val, by omega⟩ n = Wc1 ⟨2144 + d.val, by omega⟩ n)
    (b : Fin 16384) (n : Fin 256) :
    (∑ k : Fin 160, hf x W1 b1 W2 b2 W3 b3 b k * Whf k n)
      = (∑ k : Fin 128, hoi x W1 b1 W2 b2 W3 b3 b k * Wc1 ⟨k.val, by omega⟩ n)
        + (∑ d : Fin 32, fo x b d * Wc1 ⟨2144 + d.val, by omega⟩ n) := by
  have h := Fin.sum_univ_add (a := 128) (b := 32)
    (fun k : Fin (128 + 32) => hf x W1 b1 W2 b2 W3 b3 b k * Whf k n)
  refine h.trans ?_
  congr 1
  · refine Finset.sum_congr rfl fun k _ => ?_
    have hk : ((Fin.castAdd 32 k : Fin (128 + 32)).val) = k.val := rfl
    have e1 : hf x W1 b1 W2 b2 W3 b3 b (Fin.castAdd 32 k) = hoi x W1 b1 W2 b2 W3 b3 b k := by
      unfold hf
      rw [dif_pos (by rw [hk]; exact k.isLt)]
      exact congrArg (hoi x W1 b1 W2 b2 W3 b3 b) (Fin.ext rfl)
    rw [e1]
    exact congrArg _ (hWhf0 k n)
  · refine Finset.sum_congr rfl fun d _ => ?_
    have hd : ((Fin.natAdd 128 d : Fin (128 + 32)).val) = 128 + d.val := rfl
    have e1 : hf x W1 b1 W2 b2 W3 b3 b (Fin.natAdd 128 d) = fo x b d := by
      unfold hf
      rw [dif_neg (by rw [hd]; omega)]
      refine congrArg _ (Fin.ext ?_)
      show (Fin.natAdd 128 d : Fin (128 + 32)).val - 128 = d.val
      rw [hd]; omega
    rw [e1]
    exact congrArg _ (hWhf1 d n)

/-- The 4096-term sum against the table keeps one term per table position. -/
theorem sum_gflat (ht : ∀ p, t p < 4096) (hinj : Function.Injective t)
    (hhit : ∀ (p : Fin 2016) (n : Fin 256), Wg ⟨t p, ht p⟩ n = Wc1 ⟨128 + p.val, by omega⟩ n)
    (hmiss : ∀ (q : Fin 4096) (n : Fin 256), (∀ p, t p ≠ q.val) → Wg q n = 0)
    (b : Fin 16384) (n : Fin 256) :
    (∑ q : Fin 4096, gflat x b q * Wg q n) = ∑ p : Fin 2016, soi t x b p * Wc1 ⟨128 + p.val, by omega⟩ n := by
  let e : Fin 2016 → Fin 4096 := fun p => ⟨t p, ht p⟩
  have einj : Function.Injective e := fun p p' h => hinj (congrArg Fin.val h)
  have h1 : (∑ q : Fin 4096, gflat x b q * Wg q n)
      = ∑ q ∈ (Finset.univ : Finset (Fin 2016)).image e, gflat x b q * Wg q n := by
    refine (Finset.sum_subset (Finset.subset_univ _) ?_).symm
    intro q _ hq
    have : ∀ p, t p ≠ q.val := fun p hp => hq (Finset.mem_image.2 ⟨p, Finset.mem_univ _, Fin.ext hp⟩)
    rw [hmiss q n this, mul_zero]
  rw [h1, Finset.sum_image (fun p _ p' _ h => einj h)]
  refine Finset.sum_congr rfl fun p _ => ?_
  have e1 : gflat x b (e p) = soi t x b p := by
    unfold gflat soi
    have hp := ht p
    refine congrArg₂ _ (Fin.ext ?_) rfl
    show t p / 64 = t p / 64 % 64
    rw [Nat.mod_eq_of_lt (by omega)]
  rw [e1]
  exact congrArg _ (hhit p n)

/-- THE TWO ARRANGEMENTS AGREE: with the stacked 160 rows and the table as described, the kernel's grouping of the
    result is the specification's. -/
theorem GK_eq_G (ht : ∀ p, t p < 4096) (hinj : Function.Injective t)
    (hWhf0 : ∀ (k : Fin 128) (n : Fin 256), Whf ⟨k.val, by omega⟩ n = Wc1 ⟨k.val, by omega⟩ n)
    (hWhf1 : ∀ (d : Fin 32) (n : Fin 256), Whf ⟨128 + d.val, by omega⟩ n = Wc1 ⟨2144 + d.val, by omega⟩ n)
    (hhit : ∀ (p : Fin 2016) (n : Fin 256), Wg ⟨t p, ht p⟩ n = Wc1 ⟨128 + p.val, by omega⟩ n)
    (hmiss : ∀ (q : Fin 4096) (n : Fin 256), (∀ p, t p ≠ q.val) → Wg q n = 0)
    (b : Fin 16384) :
    GK x W1 b1 W2 b2 W3 b3 Whf Wg bc1 Wc2 bc2 b = G t x W1 b1 W2 b2 W3 b3 Wc1 bc1 Wc2 bc2 b := by
  unfold GK G
  congr 1
  refine Finset.sum_congr rfl fun n _ => ?_
  congr 2
  unfold preK pre
  rw [sum_hf hWhf0 hWhf1 b n, sum_gflat ht hinj hhit hmiss b n]
  congr 1
  exact add_right_comm _ _ _

end

end Cert.DeepFM

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«128613_j14594298872614_2_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.LibLayout3.lean ====
/-
  Three layout and reduction readings at an index, for any extents.

  * The sum over the MIDDLE axis of an `[a, b, c]` array, started from the zero word, read at `(r, d)`: the sum
    over `i : Fin b` of the entries `(r, i, d)`.
  * An `[a, b, c]` array cast to `[a, n]` with `n = b · c` reads, at `(r, k)` with `k = i · c + d`, the
    operand at `(r, i, d)`: the two trailing axes flattened row-major.
  * Two arrays `[a, n₁]` and `[a, n₂]` concatenated along axis 1 read, at `(r, k)`, the first at `(r, k)`
    when `k < n₁` and the second at `(r, k − n₁)` otherwise.
-/
import Idealize.ShloMosaic.Lib.ValueIdx
import Idealize.ShloMosaic.Lib.Pipeline.Value
import Idealize.ShloMosaic.PureOps.Ideal.Laws

noncomputable section

open scoped BigOperators

namespace Cert.LibLayout3

open Idealize.ShloMosaic Idealize.ShloMosaic.ValueIdx

variable {α : Type}

/-- The sum along the middle axis, read at `(r, d)`. -/
theorem midSum_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (r : Fin a) (d : Fin c) :
    multiReduction (F := Ideal) .add [1] ⟨2, ![a, c]⟩ src 0x00000000#32 h hφ hacc (ix2 r d)
      = ∑ i : Fin b, src (ix3 r i d) := by
  refine (Ideal.multiReduction_add_single src _ h hφ hacc (ix2 r d)).trans ?_
  refine Finset.sum_congr rfl fun k _ => congrArg src ?_
  funext ax; apply Fin.ext
  match ax with
  | ⟨0, _⟩ => rfl
  | ⟨1, _⟩ => rfl
  | ⟨2, _⟩ => rfl

/-- The two trailing axes flattened. -/
theorem shapeCast_abc_an_apply {a b c n : Nat} (x : (⟨3, ![a, b, c]⟩ : Shape).Idx → α)
    (h : (⟨3, ![a, b, c]⟩ : Shape).ShapeCasts ⟨2, ![a, n]⟩) (hn : n = b * c) (r : Fin a) (k : Fin n) (i : Fin b)
    (d : Fin c) (hk : k.val = i.val * c + d.val) :
    shapeCast ⟨2, ![a, n]⟩ x h (ix2 r k) = x (ix3 r i d) :=
  shapeCast_apply x h _ _ (by
    rw [Shape.rowMajor_val_three, Shape.rowMajor_val_two]
    show (r.val * b + i.val) * c + d.val = r.val * n + k.val
    rw [hk, hn]; ring)

/-- A concatenation along axis 1, read in its first piece. -/
theorem concat_axis1_left {a n₁ n₂ n : Nat} (x₁ : (⟨2, ![a, n₁]⟩ : Shape).Idx → α) (x₂ : (⟨2, ![a, n₂]⟩ : Shape).Idx → α)
    (h : Shape.Concatenates [⟨2, ![a, n₁]⟩, ⟨2, ![a, n₂]⟩] ⟨2, ![a, n]⟩ 1) (r : Fin a) (k : Fin n) (hk : k.val < n₁) :
    concatenate ⟨2, ![a, n]⟩ 1 [⟨⟨2, ![a, n₁]⟩, x₁⟩, ⟨⟨2, ![a, n₂]⟩, x₂⟩] h (ix2 r k) = x₁ (ix2 r ⟨k.val, hk⟩) :=
  concatenate_pair_apply_left 1 x₁ x₂ h (ix2 r k) rfl (ix2 r ⟨k.val, hk⟩) (fun b => by
    match b with
    | ⟨0, _⟩ => rfl
    | ⟨1, _⟩ => rfl)

/-- A concatenation along axis 1, read in its second piece. -/
theorem concat_axis1_right {a n₁ n₂ n : Nat} (x₁ : (⟨2, ![a, n₁]⟩ : Shape).Idx → α) (x₂ : (⟨2, ![a, n₂]⟩ : Shape).Idx → α)
    (h : Shape.Concatenates [⟨2, ![a, n₁]⟩, ⟨2, ![a, n₂]⟩] ⟨2, ![a, n]⟩ 1) (r : Fin a) (k : Fin n) (hk : n₁ ≤ k.val)
    (hk2 : k.val - n₁ < n₂) :
    concatenate ⟨2, ![a, n]⟩ 1 [⟨⟨2, ![a, n₁]⟩, x₁⟩, ⟨⟨2, ![a, n₂]⟩, x₂⟩] h (ix2 r k) = x₂ (ix2 r ⟨k.val - n₁, hk2⟩) :=
  concatenate_pair_apply_right 1 x₁ x₂ h (ix2 r k) rfl rfl (ix2 r ⟨k.val - n₁, hk2⟩)
    (fun b hb => by
      match b with
      | ⟨0, _⟩ => rfl
      | ⟨1, _⟩ => exact absurd rfl hb)
    (by show (k.val - n₁) + n₁ = k.val; omega)

end Cert.LibLayout3

end
-- ==== Proof.KernelPayA.lean ====
/-
  The kernel body's two hidden layers, read at one entry of the block.

  With the block's rows the rows `b` of the batch, the value the body carries out of its first part — the second
  hidden layer, rounded to the narrow format (the identity on extended reals) — is, at row `r` and unit `n`,
  the specification's `h2` of the row: each layer is a plain matrix product into a zero accumulator plus a bias row
  broadcast over the block, followed by the scaled exponential linear unit entry by entry; the first layer's
  left operand is the row's 64×32 features flattened row-major.
-/
import proofs.«128613_j14594298872614_2_alg».proof.Proof.Gen.KernelIdeal.Skeleton
import proofs.«128613_j14594298872614_2_alg».proof.Proof.KSpec
import proofs.«128613_j14594298872614_2_alg».proof.Proof.LibAffineBlock
import proofs.«128613_j14594298872614_2_alg».proof.Proof.LibLayout3
import Idealize.ShloMosaic.Lib.ValueLayout
import Idealize.ShloMosaic.Lib.Pipeline.Value

noncomputable section

open scoped BigOperators

namespace Cert.KernelPay

open Idealize.ShloMosaic Idealize.ShloMosaic.ValueIdx Cert.KernelIdeal Cert.KernelIdeal.Gen Cert.DeepFM

variable [Cert.KernelIdeal.Facts]

/-- The scaled exponential linear unit applied entry by entry to a block, as the body spells it: compare with
    zero, exponential less one scaled, select, scale, round to the narrow format. -/
def seluV (v : FVec Ideal S512x256 .f32) : FVec Ideal S512x256 .bf16 :=
  truncf .bf16
    (mulf (broadcast S512x256 (Scalar.ofBits (F := Ideal) .f32 0x3F867D5F#32))
      (select (cmpf .ogt v (broadcast S512x256 (Scalar.ofBits (F := Ideal) .f32 0x00000000#32))) v
        (mulf (broadcast S512x256 (Scalar.ofBits (F := Ideal) .f32 0x3FD62D7D#32))
          (subf (exp v) (broadcast S512x256 (Scalar.ofBits (F := Ideal) .f32 0x3F800000#32))))))
    bitsLt_bf16_f32

/-- Entry by entry it is the specification's unit: every step is the extended reals'. -/
theorem seluV_apply (v : FVec Ideal S512x256 .f32) (i : S512x256.Idx) : seluV v i = selu (v i) := rfl

section
variable (x0 : FVec Ideal S512x64x32 .f32) (x1 : FVec Ideal S2048x256 .bf16) (x2 : FVec Ideal S256 .f32)
  (x3 : FVec Ideal S256x256 .bf16) (x4 : FVec Ideal S256 .f32)

/-- First layer before its unit: the flattened block times the first weight, plus the bias row. -/
def pre1 : FVec Ideal S512x256 .f32 :=
  addf (matmul dot_S512x2048_S2048x256_S512x256_1_0_0_1_n_n none
      (truncf .bf16 (shapeCast S512x2048 x0 shapeCasts_S512x64x32_S512x2048) bitsLt_bf16_f32)
      (shapeCast S2048x256 x1 shapeCasts_S2048x256_S2048x256) (constant S512x256 .f32 0x00000000#32))
    (broadcastTo S512x256 (shapeCast S1x256 x2 shapeCasts_S256_S1x256) broadcasts_S1x256_S512x256)

/-- First layer. -/
def act1 : FVec Ideal S512x256 .bf16 := seluV (pre1 x0 x1 x2)

/-- Second layer before its unit. -/
def pre2 : FVec Ideal S512x256 .f32 :=
  addf (matmul dot_S512x256_S256x256_S512x256_1_0_0_1_n_n none (act1 x0 x1 x2)
      (shapeCast S256x256 x3 shapeCasts_S256x256_S256x256) (constant S512x256 .f32 0x00000000#32))
    (broadcastTo S512x256 (shapeCast S1x256 x4 shapeCasts_S256_S1x256) broadcasts_S1x256_S512x256)

/-- The body's first part carries out the second layer: every pointwise step of the unit is the extended reals'. -/
theorem pay3_eq : k0_pay3 (F := Ideal) x0 x1 x2 x3 x4 = seluV (pre2 x0 x1 x2 x3 x4) := rfl

variable (X : Fin 16384 → Fin 64 → Fin 32 → EReal) (b : Fin 16384) (r : Fin 512)

/-- The flattened block at `(r, k)` is the row's feature `k / 32`, coordinate `k % 32`. -/
theorem flat_apply (hx : ∀ (i : Fin 64) (d : Fin 32), x0 (ix3 r i d) = X b i d) (k : Fin 2048) :
    (truncf .bf16 (shapeCast S512x2048 x0 shapeCasts_S512x64x32_S512x2048) bitsLt_bf16_f32 : FVec Ideal S512x2048 .bf16) (ix2 r k)
      = xflat X b k := by
  rw [truncf_apply]
  refine (Cert.LibLayout3.shapeCast_abc_an_apply x0 shapeCasts_S512x64x32_S512x2048 (by decide) r k
    ⟨k.val / 32, by omega⟩ ⟨k.val % 32, Nat.mod_lt _ (by decide)⟩ (by show k.val = k.val / 32 * 32 + k.val % 32; omega)).trans ?_
  exact hx _ _

/-- First layer before its unit, at `(r, n)`. -/
theorem pre1_apply (hx : ∀ (i : Fin 64) (d : Fin 32), x0 (ix3 r i d) = X b i d) (n : Fin 256) :
    pre1 x0 x1 x2 (ix2 r n) = (∑ k : Fin 2048, xflat X b k * x1 (ix2 k n)) + x2 (ix1 n) := by
  unfold pre1
  refine (Cert.LibAffineBlock.affine_apply dot_S512x2048_S2048x256_S512x256_1_0_0_1_n_n rfl rfl rfl rfl rfl rfl none
    _ _ _ broadcasts_S1x256_S512x256 r n).trans ?_
  congr 1
  · refine Finset.sum_congr rfl fun k _ => ?_
    rw [flat_apply x0 X b r hx k, shapeCast_self]
  · exact shapeCast_a_1a_apply x2 shapeCasts_S256_S1x256 0 n

/-- The first layer at `(r, n)` is the specification's. -/
theorem act1_apply (hx : ∀ (i : Fin 64) (d : Fin 32), x0 (ix3 r i d) = X b i d) (n : Fin 256) :
    act1 x0 x1 x2 (ix2 r n) = h1 X (fun k n => x1 (ix2 k n)) (fun n => x2 (ix1 n)) b n := by
  unfold act1 h1
  rw [seluV_apply, pre1_apply x0 x1 x2 X b r hx n]

/-- Second layer before its unit, at `(r, n)`. -/
theorem pre2_apply (hx : ∀ (i : Fin 64) (d : Fin 32), x0 (ix3 r i d) = X b i d) (n : Fin 256) :
    pre2 x0 x1 x2 x3 x4 (ix2 r n)
      = (∑ k : Fin 256, h1 X (fun k n => x1 (ix2 k n)) (fun n => x2 (ix1 n)) b k * x3 (ix2 k n)) + x4 (ix1 n) := by
  unfold pre2
  refine (Cert.LibAffineBlock.affine_apply dot_S512x256_S256x256_S512x256_1_0_0_1_n_n rfl rfl rfl rfl rfl rfl none
    _ _ _ broadcasts_S1x256_S512x256 r n).trans ?_
  congr 1
  · refine Finset.sum_congr rfl fun k _ => ?_
    rw [act1_apply x0 x1 x2 X b r hx k, shapeCast_self]
  · exact shapeCast_a_1a_apply x4 shapeCasts_S256_S1x256 0 n

/-- THE BODY'S FIRST PART at `(r, n)`: the specification's second hidden layer of row `b`. -/
theorem pay3_apply (hx : ∀ (i : Fin 64) (d : Fin 32), x0 (ix3 r i d) = X b i d) (n : Fin 256) :
    k0_pay3 (F := Ideal) x0 x1 x2 x3 x4 (ix2 r n)
      = h2 X (fun k n => x1 (ix2 k n)) (fun n => x2 (ix1 n)) (fun k n => x3 (ix2 k n)) (fun n => x4 (ix1 n)) b n := by
  rw [pay3_eq, seluV_apply]
  unfold h2
  rw [pre2_apply x0 x1 x2 x3 x4 X b r hx n]

end

end Cert.KernelPay

end
-- ==== Proof.LibMatmulBatchNT.lean ====
/-
  A batched matrix product whose two operands are contracted along their LAST axes
  (`einsum('bid,bjd->bij')`), read at one entry.

  Operands `[B, M, K]` and `[B, N, K]`, result `[B, M, N]`: the batch axis is axis 0 of both, the free axes are
  axis 1 of each, the contracted axes are axis 2 of each.  At the ideal values the product into a zero
  accumulator, read at `(b, i, j)`, is the sum over `k : Fin K` of `lhs (b, i, k) · rhs (b, j, k)`.
-/
import Idealize.ShloMosaic.PureOps.Ideal.Laws
import Idealize.ShloMosaic.Lib.ValueIdx

noncomputable section

open scoped BigOperators

namespace Cert.LibMatmulBatchNT

open Idealize.ShloMosaic Idealize.ShloMosaic.ValueIdx

variable {B M N K : Nat} {φ₁ φ₂ : FTy}

/-- Of three axes, axis 1 is not the batch axis 0. -/
private theorem one_not_mem_zero : (1 : Fin 3) ∉ ([0] : List (Fin 3)) := by decide

/-- One contracted axis: the contraction shape has rank one. -/
theorem contr_rank (d : DotDims ⟨3, ![B, M, K]⟩ ⟨3, ![B, N, K]⟩ ⟨3, ![B, M, N]⟩) (hlc : d.lhsContracting = [2]) :
    d.contr.rank = 1 := by
  rw [d.rank_contr, hlc]; rfl

/-- Its one extent is the operands' last. -/
theorem contr_size (d : DotDims ⟨3, ![B, M, K]⟩ ⟨3, ![B, N, K]⟩ ⟨3, ![B, M, N]⟩) (hlc : d.lhsContracting = [2]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-3 index read at a position known to be the first is its first coordinate. -/
theorem ix3_val_zero {n0 n1 n2 : Nat} (a : Fin n0) (b : Fin n1) (c : Fin n2) (p : Nat) (hp : p < 3) (h : p = 0) :
    (ix3 a b c ⟨p, hp⟩).val = a.val := by subst h; rfl
/-- At a position known to be the second, its second coordinate. -/
theorem ix3_val_one {n0 n1 n2 : Nat} (a : Fin n0) (b : Fin n1) (c : Fin n2) (p : Nat) (hp : p < 3) (h : p = 1) :
    (ix3 a b c ⟨p, hp⟩).val = b.val := by subst h; rfl
/-- At a position known to be the third, its third coordinate. -/
theorem ix3_val_two {n0 n1 n2 : Nat} (a : Fin n0) (b : Fin n1) (c : Fin n2) (p : Nat) (hp : p < 3) (h : p = 2) :
    (ix3 a b c ⟨p, hp⟩).val = c.val := by subst h; rfl

/-- The left operand's index at output `(b, i, j)` and contraction position `k` is `(b, i, k)`. -/
theorem lhsIdx_eq (d : DotDims ⟨3, ![B, M, K]⟩ ⟨3, ![B, N, K]⟩ ⟨3, ![B, M, N]⟩)
    (hlc : d.lhsContracting = [2]) (hln : d.lhsNonContracting = [1]) (hlb : d.lhsBatch = [0])
    (b : Fin B) (i : Fin M) (j : Fin N) (k : Fin K) :
    d.lhsIdx (ix3 b i j) ((contrEquiv1 d K (contr_rank d hlc) (contr_size d hlc)).symm k) = ix3 b i k := by
  funext c
  apply Fin.ext
  match c with
  | ⟨0, _⟩ =>
    show (d.lhsIdx (ix3 b i j) _ (0 : Fin 3)).val = b.val
    have hb : (0 : Fin 3) ∈ d.lhsBatch := by rw [hlb]; exact List.mem_singleton.mpr rfl
    unfold DotDims.lhsIdx
    rw [dif_pos hb]
    simp only [Fin.val_cast]
    exact ix3_val_zero b i j _ _ (by simp [hlb])
  | ⟨1, _⟩ =>
    show (d.lhsIdx (ix3 b i j) _ (1 : Fin 3)).val = i.val
    have hnb : (1 : Fin 3) ∉ d.lhsBatch := by rw [hlb]; exact one_not_mem_zero
    have hn : (1 : Fin 3) ∈ d.lhsNonContracting := by rw [hln]; exact List.mem_singleton.mpr rfl
    unfold DotDims.lhsIdx
    rw [dif_neg hnb, dif_pos hn]
    simp only [Fin.val_cast]
    exact ix3_val_one b i j _ _ (by simp [hlb, hln])
  | ⟨2, _⟩ =>
    show (d.lhsIdx (ix3 b i j) _ (2 : Fin 3)).val = k.val
    rw [DotDims.lhsIdx_val_of_single d hlc]
    exact contrEquiv1_symm_val d K (contr_rank d hlc) (contr_size d hlc) k

/-- The right operand's index there is `(b, j, k)`. -/
theorem rhsIdx_eq (d : DotDims ⟨3, ![B, M, K]⟩ ⟨3, ![B, N, K]⟩ ⟨3, ![B, M, N]⟩)
    (hlc : d.lhsContracting = [2]) (hrc : d.rhsContracting = [2]) (hln : d.lhsNonContracting = [1])
    (hrn : d.rhsNonContracting = [1]) (hlb : d.lhsBatch = [0]) (hrb : d.rhsBatch = [0])
    (b : Fin B) (i : Fin M) (j : Fin N) (k : Fin K) :
    d.rhsIdx (ix3 b i j) ((contrEquiv1 d K (contr_rank d hlc) (contr_size d hlc)).symm k) = ix3 b j k := by
  funext c
  apply Fin.ext
  match c with
  | ⟨0, _⟩ =>
    show (d.rhsIdx (ix3 b i j) _ (0 : Fin 3)).val = b.val
    have hb : (0 : Fin 3) ∈ d.rhsBatch := by rw [hrb]; exact List.mem_singleton.mpr rfl
    unfold DotDims.rhsIdx
    rw [dif_pos hb]
    simp only [Fin.val_cast]
    exact ix3_val_zero b i j _ _ (by simp [hrb])
  | ⟨1, _⟩ =>
    show (d.rhsIdx (ix3 b i j) _ (1 : Fin 3)).val = j.val
    have hnb : (1 : Fin 3) ∉ d.rhsBatch := by rw [hrb]; exact one_not_mem_zero
    have hn : (1 : Fin 3) ∈ d.rhsNonContracting := by rw [hrn]; exact List.mem_singleton.mpr rfl
    unfold DotDims.rhsIdx
    rw [dif_neg hnb, dif_pos hn]
    simp only [Fin.val_cast]
    exact ix3_val_two b i j _ _ (by simp [hlb, hln, hrn])
  | ⟨2, _⟩ =>
    show (d.rhsIdx (ix3 b i j) _ (2 : Fin 3)).val = k.val
    rw [DotDims.rhsIdx_val_of_single d hrc]
    exact contrEquiv1_symm_val d K (contr_rank d hlc) (contr_size d hlc) k

/-- THE BATCHED PRODUCT into the zero accumulator, read at `(b, i, j)`. -/
theorem matmul_zero_apply (d : DotDims ⟨3, ![B, M, K]⟩ ⟨3, ![B, N, K]⟩ ⟨3, ![B, M, N]⟩)
    (hlc : d.lhsContracting = [2]) (hrc : d.rhsContracting = [2]) (hln : d.lhsNonContracting = [1])
    (hrn : d.rhsNonContracting = [1]) (hlb : d.lhsBatch = [0]) (hrb : d.rhsBatch = [0])
    (prec : Option ContractPrecision)
    (lhs : FVec Ideal ⟨3, ![B, M, K]⟩ φ₁) (rhs : FVec Ideal ⟨3, ![B, N, K]⟩ φ₂) (b : Fin B) (i : Fin M) (j : Fin N) :
    FloatOps.matmul d prec lhs rhs (constant (F := Ideal) ⟨3, ![B, M, N]⟩ .f32 0x00000000#32) (ix3 b i j)
      = ∑ k : Fin K, lhs (ix3 b i k) * rhs (ix3 b j k) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb b i j k, rhsIdx_eq d hlc hrc hln hrn hlb hrb b i j k]

/-- The same for the product written with the vector operation `matmul`, as a printed kernel body applies it. -/
theorem matmul_zero_apply' (d : DotDims ⟨3, ![B, M, K]⟩ ⟨3, ![B, N, K]⟩ ⟨3, ![B, M, N]⟩)
    (hlc : d.lhsContracting = [2]) (hrc : d.rhsContracting = [2]) (hln : d.lhsNonContracting = [1])
    (hrn : d.rhsNonContracting = [1]) (hlb : d.lhsBatch = [0]) (hrb : d.rhsBatch = [0])
    (prec : Option ContractPrecision)
    (lhs : FVec Ideal ⟨3, ![B, M, K]⟩ φ₁) (rhs : FVec Ideal ⟨3, ![B, N, K]⟩ φ₂) (b : Fin B) (i : Fin M) (j : Fin N) :
    matmul d prec lhs rhs (constant (F := Ideal) ⟨3, ![B, M, N]⟩ .f32 0x00000000#32) (ix3 b i j)
      = ∑ k : Fin K, lhs (ix3 b i k) * rhs (ix3 b j k) :=
  matmul_zero_apply d hlc hrc hln hrn hlb hrb prec lhs rhs b i j

end Cert.LibMatmulBatchNT

end
-- ==== Proof.KernelPayB.lean ====
/-
  The rest of the kernel body, read at one entry of the block.

  From the second hidden layer the body forms the higher-order features (an affine layer), the column sums of the
  row's 64×32 block, and the row's Gram matrix (a batched product of the block with itself, contracted along the
  last axis) flattened row-major to 4096 entries; it joins the first two into one 160-wide row, multiplies that
  by the stacked weight and the flattened Gram matrix by the table, adds the two products and the bias row,
  rectifies, and applies the last affine layer.  At row `r` of the block that is the kernel's grouping `GK` of
  the specification's result for the batch row `b` the block row holds.
-/
import proofs.«128613_j14594298872614_2_alg».proof.Proof.Gen.KernelIdeal.Skeleton
import proofs.«128613_j14594298872614_2_alg».proof.Proof.KSpec
import proofs.«128613_j14594298872614_2_alg».proof.Proof.LibAffineBlock
import proofs.«128613_j14594298872614_2_alg».proof.Proof.LibMatmulBatchNT
import proofs.«128613_j14594298872614_2_alg».proof.Proof.LibLayout3
import Idealize.ShloMosaic.Lib.ValueLayout
import Idealize.ShloMosaic.Lib.Pipeline.Value

noncomputable section

open scoped BigOperators

namespace Cert.KernelPay

open Idealize.ShloMosaic Idealize.ShloMosaic.ValueIdx Cert.KernelIdeal Cert.KernelIdeal.Gen Cert.DeepFM

variable [Cert.KernelIdeal.Facts]

section
variable (x0 : FVec Ideal S512x64x32 .f32) (v2 : FVec Ideal S512x64x32 .bf16) (a39 : FVec Ideal S512x256 .bf16)
  (x5 : FVec Ideal S256x128 .bf16) (x6 : FVec Ideal S128 .f32) (x7 : FVec Ideal S160x256 .bf16)
  (x8 : FVec Ideal S4096x256 .bf16) (x9 : FVec Ideal S256 .f32) (x10 : FVec Ideal S256x1 .bf16) (x11 : FVec Ideal S1 .f32)

/-- The higher-order features of the block. -/
def hoiB : FVec Ideal S512x128 .f32 :=
  addf (matmul dot_S512x256_S256x128_S512x128_1_0_0_1_n_n none a39
      (shapeCast S256x128 x5 shapeCasts_S256x128_S256x128) (constant S512x128 .f32 0x00000000#32))
    (broadcastTo S512x128 (shapeCast S1x128 x6 shapeCasts_S128_S1x128) broadcasts_S1x128_S512x128)

/-- The column sums of each row's 64×32 block. -/
def foB : FVec Ideal S512x32 .f32 :=
  multiReduction .add [1] S512x32 x0 0x00000000#32 reduces_S512x64x32_S512x32 (.inl rfl) rfl

/-- Each row's Gram matrix, flattened row-major. -/
def gflatB : FVec Ideal S512x4096 .bf16 :=
  truncf .bf16 (shapeCast S512x4096
    (matmul dot_S512x64x32_S512x64x32_S512x64x64_2_2_1_1_0_0 none v2 v2 (constant S512x64x64 .f32 0x00000000#32))
    shapeCasts_S512x64x64_S512x4096) bitsLt_bf16_f32

/-- The 160-wide row: higher-order features, then column sums. -/
def hfB : FVec Ideal S512x160 .bf16 :=
  concatenate S512x160 1 [⟨S512x128, truncf .bf16 (hoiB a39 x5 x6) bitsLt_bf16_f32⟩,
    ⟨S512x32, truncf .bf16 (foB x0) bitsLt_bf16_f32⟩] concatenates_S512x128_S512x32_S512x160_d1

/-- The combining layer before its rectifier. -/
def pre4B : FVec Ideal S512x256 .f32 :=
  addf (addf
      (matmul dot_S512x160_S160x256_S512x256_1_0_0_1_n_n none (hfB x0 a39 x5 x6)
        (shapeCast S160x256 x7 shapeCasts_S160x256_S160x256) (constant S512x256 .f32 0x00000000#32))
      (matmul dot_S512x4096_S4096x256_S512x256_1_0_0_1_n_n none (gflatB v2)
        (shapeCast S4096x256 x8 shapeCasts_S4096x256_S4096x256) (constant S512x256 .f32 0x00000000#32)))
    (broadcastTo S512x256 (shapeCast S1x256 x9 shapeCasts_S256_S1x256) broadcasts_S1x256_S512x256)

/-- The rectified combining layer. -/
def act4B : FVec Ideal S512x256 .bf16 :=
  truncf .bf16 (maximumf (pre4B x0 v2 a39 x5 x6 x7 x8 x9) (broadcast S512x256 (Scalar.ofBits (F := Ideal) .f32 0x00000000#32)))
    bitsLt_bf16_f32

/-- The block's result. -/
def outB : FVec Ideal S512x1 .f32 :=
  addf (matmul dot_S512x256_S256x1_S512x1_1_0_0_1_n_n none (act4B x0 v2 a39 x5 x6 x7 x8 x9)
      (shapeCast S256x1 x10 shapeCasts_S256x1_S256x1) (constant S512x1 .f32 0x00000000#32))
    (broadcastTo S512x1 (shapeCast S1x1 x11 shapeCasts_S1_S1x1) broadcasts_S1x1_S512x1)

/-- The body's stored value is that chain. -/
theorem pay1_eq : k0_pay1 (F := Ideal) x0 v2 a39 x5 x6 x7 x8 x9 x10 x11 = outB x0 v2 a39 x5 x6 x7 x8 x9 x10 x11 := rfl

variable (X : Fin 16384 → Fin 64 → Fin 32 → EReal)
  (W1 : Fin 2048 → Fin 256 → EReal) (b1 : Fin 256 → EReal) (W2 : Fin 256 → Fin 256 → EReal) (b2 : Fin 256 → EReal)
  (b : Fin 16384) (r : Fin 512)

/-- Higher-order features at `(r, n)`. -/
theorem hoiB_apply (ha : ∀ n : Fin 256, a39 (ix2 r n) = h2 X W1 b1 W2 b2 b n) (n : Fin 128) :
    hoiB a39 x5 x6 (ix2 r n) = hoi X W1 b1 W2 b2 (fun k n => x5 (ix2 k n)) (fun n => x6 (ix1 n)) b n := by
  unfold hoiB hoi
  refine (Cert.LibAffineBlock.affine_apply dot_S512x256_S256x128_S512x128_1_0_0_1_n_n rfl rfl rfl rfl rfl rfl none
    _ _ _ broadcasts_S1x128_S512x128 r n).trans ?_
  congr 1
  · refine Finset.sum_congr rfl fun k _ => ?_
    rw [ha k, shapeCast_self]
  · exact shapeCast_a_1a_apply x6 shapeCasts_S128_S1x128 0 n

/-- Column sums at `(r, d)`. -/
theorem foB_apply (hx : ∀ (i : Fin 64) (d : Fin 32), x0 (ix3 r i d) = X b i d) (d : Fin 32) :
    foB x0 (ix2 r d) = fo X b d := by
  unfold foB fo
  refine (Cert.LibLayout3.midSum_apply x0 reduces_S512x64x32_S512x32 (.inl rfl) rfl r d).trans ?_
  exact Finset.sum_congr rfl fun i _ => hx i d

/-- The flattened Gram matrix at `(r, q)`. -/
theorem gflatB_apply (hv : ∀ (i : Fin 64) (d : Fin 32), v2 (ix3 r i d) = X b i d) (q : Fin 4096) :
    gflatB v2 (ix2 r q) = gflat X b q := by
  unfold gflatB gflat gram
  rw [truncf_apply]
  refine (Cert.LibLayout3.shapeCast_abc_an_apply _ shapeCasts_S512x64x64_S512x4096 (by decide) r q
    ⟨q.val / 64, by omega⟩ ⟨q.val % 64, Nat.mod_lt _ (by decide)⟩ (by show q.val = q.val / 64 * 64 + q.val % 64; omega)).trans ?_
  refine (Cert.LibMatmulBatchNT.matmul_zero_apply' dot_S512x64x32_S512x64x32_S512x64x64_2_2_1_1_0_0 rfl rfl rfl rfl rfl rfl
    none v2 v2 r _ _).trans ?_
  exact Finset.sum_congr rfl fun d _ => by rw [hv, hv]

/-- The 160-wide row at `(r, k)`. -/
theorem hfB_apply (hx : ∀ (i : Fin 64) (d : Fin 32), x0 (ix3 r i d) = X b i d)
    (ha : ∀ n : Fin 256, a39 (ix2 r n) = h2 X W1 b1 W2 b2 b n) (k : Fin 160) :
    hfB x0 a39 x5 x6 (ix2 r k) = hf X W1 b1 W2 b2 (fun k n => x5 (ix2 k n)) (fun n => x6 (ix1 n)) b k := by
  unfold hfB hf
  by_cases hk : k.val < 128
  · rw [dif_pos hk]
    refine (Cert.LibLayout3.concat_axis1_left _ _ concatenates_S512x128_S512x32_S512x160_d1 r k hk).trans ?_
    rw [truncf_apply]
    exact hoiB_apply a39 x5 x6 X W1 b1 W2 b2 b r ha ⟨k.val, hk⟩
  · rw [dif_neg hk]
    refine (Cert.LibLayout3.concat_axis1_right _ _ concatenates_S512x128_S512x32_S512x160_d1 r k (by omega)
      (by have := k.isLt; omega)).trans ?_
    rw [truncf_apply]
    exact foB_apply x0 X b r hx ⟨k.val - 128, by have := k.isLt; omega⟩

/-- The combining layer before its rectifier at `(r, n)`. -/
theorem pre4B_apply (hx : ∀ (i : Fin 64) (d : Fin 32), x0 (ix3 r i d) = X b i d)
    (hv : ∀ (i : Fin 64) (d : Fin 32), v2 (ix3 r i d) = X b i d)
    (ha : ∀ n : Fin 256, a39 (ix2 r n) = h2 X W1 b1 W2 b2 b n) (n : Fin 256) :
    pre4B x0 v2 a39 x5 x6 x7 x8 x9 (ix2 r n)
      = preK X W1 b1 W2 b2 (fun k n => x5 (ix2 k n)) (fun n => x6 (ix1 n)) (fun k n => x7 (ix2 k n))
          (fun q n => x8 (ix2 q n)) (fun n => x9 (ix1 n)) b n := by
  unfold pre4B preK
  rw [addf_apply, addf_apply,
    Cert.LibMatmulNN.matmul_zero_apply' dot_S512x160_S160x256_S512x256_1_0_0_1_n_n rfl rfl rfl rfl rfl rfl none _ _ r n,
    Cert.LibMatmulNN.matmul_zero_apply' dot_S512x4096_S4096x256_S512x256_1_0_0_1_n_n rfl rfl rfl rfl rfl rfl none _ _ r n,
    broadcastTo_1b_ab_apply _ broadcasts_S1x256_S512x256 r n, shapeCast_a_1a_apply x9 shapeCasts_S256_S1x256 0 n]
  congr 2
  · refine Finset.sum_congr rfl fun k _ => ?_
    rw [hfB_apply x0 a39 x5 x6 X W1 b1 W2 b2 b r hx ha k, shapeCast_self]
  · refine Finset.sum_congr rfl fun q _ => ?_
    rw [gflatB_apply v2 X b r hv q, shapeCast_self]

/-- THE BODY'S STORED VALUE at `(r, 0)`: the kernel's grouping of the result for row `b`. -/
theorem pay1_apply (hx : ∀ (i : Fin 64) (d : Fin 32), x0 (ix3 r i d) = X b i d)
    (hv : ∀ (i : Fin 64) (d : Fin 32), v2 (ix3 r i d) = X b i d)
    (ha : ∀ n : Fin 256, a39 (ix2 r n) = h2 X W1 b1 W2 b2 b n) :
    k0_pay1 (F := Ideal) x0 v2 a39 x5 x6 x7 x8 x9 x10 x11 (ix2 r 0)
      = GK X W1 b1 W2 b2 (fun k n => x5 (ix2 k n)) (fun n => x6 (ix1 n)) (fun k n => x7 (ix2 k n))
          (fun q n => x8 (ix2 q n)) (fun n => x9 (ix1 n)) (fun n z => x10 (ix2 n z)) (fun z => x11 (ix1 z)) b := by
  rw [pay1_eq]
  unfold outB GK
  refine (Cert.LibAffineBlock.affine_apply dot_S512x256_S256x1_S512x1_1_0_0_1_n_n rfl rfl rfl rfl rfl rfl none
    _ _ _ broadcasts_S1x1_S512x1 r 0).trans ?_
  congr 1
  · refine Finset.sum_congr rfl fun n _ => ?_
    rw [shapeCast_self]
    refine congrArg (· * x10 (ix2 n 0)) ?_
    show max (pre4B x0 v2 a39 x5 x6 x7 x8 x9 (ix2 r n)) zero = _
    rw [pre4B_apply x0 v2 a39 x5 x6 x7 x8 x9 X W1 b1 W2 b2 b r hx hv ha n]
  · exact shapeCast_a_1a_apply x11 shapeCasts_S1_S1x1 0 0

end

end Cert.KernelPay

end
-- ==== Proof.LibRowOps.lean ====
/-
  A row gather and a row scatter-add read at an entry.

  "Sparse matrix times dense" is written as: take the rows `x[src]` of a dense `[N, C]` array at `E` row numbers,
  scale them, and add row `e` of the `[E, C]` result into row `dst[e]` of an `[N, C]` accumulator. In StableHLO the
  first step is a `gather` whose slices are whole rows (operand `[N, C]`, start indices `[E, 1]`, result `[E, C]`;
  offset axis 1, collapsed axis 0, start index map `[0]`, index vector on axis 1, slice sizes `[1, C]`), and the last
  step is a `scatter` with an `add` body whose windows are whole rows (operand `[N, C]`, scatter indices `[E, 1]`,
  updates `[E, C]`; update window axis 1, inserted window axis 0, scatter-dims-to-operand-dims `[0]`, index vector on
  axis 1). This file reads both at one entry, for all extents `N`, `E`, `C`:

  * `gather_rows_apply`: entry `(e, c)` of the gather is the operand's entry `(r, c)`, where `r` is the start index
    `idx (e, 0)` read as a signed integer and clamped into `[0, N − 1]`;
  * `scatterAdd_rows_apply`: at the ideal instance (the extended reals), entry `(n, c)` of the scatter-add is the
    operand's entry `(n, c)` plus the sum over `e : Fin E` of the update's entry `(e, c)` for those `e` whose scatter
    index `idx (e, 0)`, read as a signed integer, is `n`. An update whose row number is negative or at least `N`
    lands nowhere: it equals no `n : Fin N`.

  Each is stated twice: for the record `rowGatherDims` / `rowScatterDims` built from the extents (a literal record
  with the same lists is that record by unfolding, its decided conditions being a proof of the same proposition), and,
  `…_of_eq`, for ANY record whose lists are the ones above (each hypothesis closes by `rfl` on a literal record), the
  form to rewrite with.
-/
import Idealize.ShloMosaic.PureOps.Ideal.Laws
import Idealize.ShloMosaic.Lib.ValueIdx

noncomputable section

open scoped BigOperators

namespace Cert.LibRowOps

open Idealize.ShloMosaic Idealize.ShloMosaic.ValueIdx

variable {N E C w : Nat}

/-- Axis 1 is not the axis 0 the index maps name. -/
private theorem one_not_mem_zero : (1 : Fin 2) ∉ ([0] : List (Fin 2)) := by decide
/-- Of two axes, the ones other than axis 0 do not include axis 0 … -/
private theorem zero_not_mem_kept : (0 : Fin 2) ∉ (List.finRange 2).filter (fun a => a ∉ ([0] : List (Fin 2))) := by decide
/-- … and do include axis 1. -/
private theorem one_mem_kept : (1 : Fin 2) ∈ (List.finRange 2).filter (fun a => a ∉ ([0] : List (Fin 2))) := by decide
/-- The same with the (empty) list of batching axes appended to the removed ones. -/
private theorem one_mem_kept_append :
    (1 : Fin 2) ∈ (List.finRange 2).filter (fun a => a ∉ ([0] ++ [] : List (Fin 2))) := by decide

/-! ## The row scatter-add -/

/-- The dimension numbers of a scatter of whole rows: operand `[N, C]`, scatter indices `[E, 1]`, updates `[E, C]`;
    the updates' axis 1 is the window axis, the operand's axis 0 is the inserted one and the one the scatter index
    names, and the index vector lies along axis 1 of the scatter indices. Their conditions `wf` are decided on a
    program's literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c')` starts at the scatter index `idx (e, 0)`, read signed. -/
theorem scatter_start_zero (wf) (idx : IVec ⟨2, ![E, 1]⟩ w) (e : Fin E) (c' : Fin C) :
    (rowScatterDims N E C wf).start (ix2 e c') idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis, which no scatter index names, every window starts at `0`. -/
theorem scatter_start_one (wf) (idx : IVec ⟨2, ![E, 1]⟩ w) (j : (⟨2, ![E, C]⟩ : Shape).Idx) :
    (rowScatterDims N E C wf).start j idx 1 = 0 := by
  unfold ScatterDims.start
  rw [dif_neg (show (1 : Fin 2) ∉ (rowScatterDims N E C wf).scatterDimsToOperandDims from one_not_mem_zero)]

/-- The row axis is inserted: the window coordinate there is `0`. -/
theorem scatter_window_zero (wf) (j : (⟨2, ![E, C]⟩ : Shape).Idx) :
    (rowScatterDims N E C wf).window j 0 = 0 := by
  unfold ScatterDims.window
  rw [dif_neg (show (0 : Fin 2) ∉ (rowScatterDims N E C wf).sKept from zero_not_mem_kept)]

/-- On the column axis the window coordinate of update `(e, c')` is its column `c'`. -/
theorem scatter_window_one (wf) (e : Fin E) (c' : Fin C) :
    (rowScatterDims N E C wf).window (ix2 e c') 1 = c'.val := by
  unfold ScatterDims.window
  rw [dif_pos (show (1 : Fin 2) ∈ (rowScatterDims N E C wf).sKept from one_mem_kept)]
  rfl

/-- WHERE AN UPDATE LANDS: update `(e, c')` lands at operand entry `(n, c)` exactly when its scatter index
    `idx (e, 0)`, read signed, is `n` and its column `c'` is `c`. (Start plus window coordinate is the signed index
    on the row axis and `c'` on the column axis; a row outside `[0, N)` is dropped, and is no `n : Fin N`.) -/
theorem scatter_resultIdx?_iff (wf) (idx : IVec ⟨2, ![E, 1]⟩ w) (e : Fin E) (c' : Fin C) (n : Fin N) (c : Fin C) :
    (rowScatterDims N E C wf).resultIdx? (ix2 e c') idx = some (ix2 n c)
      ↔ (idx (ix2 e ⟨0, Nat.one_pos⟩)).toInt = (n.val : Int) ∧ c' = c := by
  have h0 := scatter_start_zero (N := N) wf idx e c'
  have h1 := scatter_start_one (N := N) wf idx (ix2 e c')
  have w0 := scatter_window_zero (N := N) wf (ix2 e c')
  have w1 := scatter_window_one (N := N) wf e c'
  unfold ScatterDims.resultIdx?
  split
  · -- the window is inside the operand: compare the two coordinates
    rename_i h
    have g0 := h 0
    have g1 := h 1
    rw [h0, w0] at g0
    rw [h1, w1] at g1
    rw [Option.some.injEq]
    constructor
    · intro hf
      have e0 : ((rowScatterDims N E C wf).start (ix2 e c') idx 0
          + (rowScatterDims N E C wf).window (ix2 e c') 0).toNat = n.val := congrArg (fun f => (f 0).val) hf
      have e1 : ((rowScatterDims N E C wf).start (ix2 e c') idx 1
          + (rowScatterDims N E C wf).window (ix2 e c') 1).toNat = c.val := congrArg (fun f => (f 1).val) hf
      rw [h0, w0] at e0
      rw [h1, w1] at e1
      exact ⟨by omega, Fin.ext (by omega)⟩
    · rintro ⟨hz, rfl⟩
      funext a
      refine Fin.ext ?_
      match a with
      | ⟨0, _⟩ =>
        show ((rowScatterDims N E C wf).start (ix2 e c') idx 0
          + (rowScatterDims N E C wf).window (ix2 e c') 0).toNat = n.val
        rw [h0, w0]; omega
      | ⟨1, _⟩ =>
        show ((rowScatterDims N E C wf).start (ix2 e c') idx 1
          + (rowScatterDims N E C wf).window (ix2 e c') 1).toNat = c'.val
        rw [h1, w1]; omega
  · -- the window leaves the operand: then the signed index is no row number
    rename_i h
    constructor
    · intro hf; exact absurd hf (by simp)
    · rintro ⟨hz, rfl⟩
      exfalso; apply h; intro a
      match a with
      | ⟨0, _⟩ =>
        show 0 ≤ (rowScatterDims N E C wf).start (ix2 e c') idx 0 + (rowScatterDims N E C wf).window (ix2 e c') 0
          ∧ (rowScatterDims N E C wf).start (ix2 e c') idx 0 + (rowScatterDims N E C wf).window (ix2 e c') 0 < (N : Int)
        rw [h0, w0]; have := n.isLt; omega
      | ⟨1, _⟩ =>
        show 0 ≤ (rowScatterDims N E C wf).start (ix2 e c') idx 1 + (rowScatterDims N E C wf).window (ix2 e c') 1
          ∧ (rowScatterDims N E C wf).start (ix2 e c') idx 1 + (rowScatterDims N E C wf).window (ix2 e c') 1 < (C : Int)
        rw [h1, w1]; have := c'.isLt; omega

/-- THE ROW SCATTER-ADD READ AT `(n, c)`, at the ideal instance: the operand's entry plus the sum, over the update
    rows `e`, of the update's entry `(e, c)` when the scatter index `idx (e, 0)`, read signed, is `n`, and `0`
    otherwise. (The sum over the updates that land at `(n, c)` is a double sum over `(e, c')`; by
    `scatter_resultIdx?_iff` the inner sum over `c'` has the one term `c' = c`.) -/
theorem scatterAdd_rows_apply {φ : FTy} (wf) (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowScatterDims N E C wf) x idx upd (ix2 n c)
      = x (ix2 n c)
        + ∑ e : Fin E, if (idx (ix2 e ⟨0, Nat.one_pos⟩)).toInt = (n.val : Int) then upd (ix2 e c) else 0 := by
  show x (ix2 n c) + ∑ j ∈ Finset.univ.filter
    (fun j => (rowScatterDims N E C wf).resultIdx? j idx = some (ix2 n c)), upd j = _
  congr 1
  rw [Finset.sum_filter, sum_idx2]
  refine Finset.sum_congr rfl fun e _ => ?_
  by_cases hz : (idx (ix2 e ⟨0, Nat.one_pos⟩)).toInt = (n.val : Int)
  · simp only [scatter_resultIdx?_iff, hz, true_and, if_true, Finset.sum_ite_eq', Finset.mem_univ]
  · simp only [scatter_resultIdx?_iff, hz, false_and, if_false, Finset.sum_const_zero]

/-- A record with the row scatter's four lists IS `rowScatterDims`. -/
theorem eq_rowScatterDims (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) : ∃ wf, d = rowScatterDims N E C wf := by
  obtain ⟨uw, iw, sd, iv, wf⟩ := d
  simp only at huw hiw hsd hiv
  subst huw hiw hsd hiv
  exact ⟨wf, rfl⟩

/-- The row scatter-add read at `(n, c)`, for ANY record with the row scatter's four lists. -/
theorem scatterAdd_rows_apply_of_eq {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd (F := Ideal) d x idx upd (ix2 n c)
      = x (ix2 n c)
        + ∑ e : Fin E, if (idx (ix2 e ⟨0, Nat.one_pos⟩)).toInt = (n.val : Int) then upd (ix2 e c) else 0 := by
  obtain ⟨wf, rfl⟩ := eq_rowScatterDims d huw hiw hsd hiv
  exact scatterAdd_rows_apply wf x idx upd n c

/-! ## The row gather -/

/-- The dimension numbers of a gather of whole rows: operand `[N, C]`, start indices `[E, 1]`, result `[E, C]`; the
    result's axis 1 is the offset axis, the operand's axis 0 is collapsed and is the one the start index names, the
    index vector lies along axis 1 of the start indices, and a slice is one row, `[1, C]`. Their conditions `wf` are
    decided on a program's literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx (e, 0)`, read signed and clamped into `[0, N − 1]`, and
    column `c`. (On the row axis the operand index is the clamped start, the axis being collapsed and not a batching
    one; on the column axis the start is `0` and the offset coordinate is `c`.) -/
theorem gather_rows_apply {α : Type} (hN : 0 < N) (wf) (x : (⟨2, ![N, C]⟩ : Shape).Idx → α)
    (idx : IVec ⟨2, ![E, 1]⟩ w) (e : Fin E) (c : Fin C) :
    Host.gather (rowGatherDims N E C wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c)
        ⟨List.idxOf (0 : Fin 2) (rowGatherDims N E C wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap from one_not_mem_zero)]
    have ho : (rowGatherDims N E C wf).offCoord (ix2 e c) 1 = c.val := by
      unfold GatherDims.offCoord
      rw [dif_pos (show (1 : Fin 2) ∈ (rowGatherDims N E C wf).sKept from one_mem_kept_append)]
      rfl
    rw [hs, ho]; omega

/-- A record with the row gather's seven fields IS `rowGatherDims`. -/
theorem eq_rowGatherDims (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) : ∃ wf, d = rowGatherDims N E C wf := by
  obtain ⟨od, cd, ob, sb, sm, iv, ss, wf⟩ := d
  simp only at hod hcd hob hsb hsm hiv hss
  subst hod hcd hob hsb hsm hiv hss
  exact ⟨wf, rfl⟩

/-- The row gather read at `(e, c)`, for ANY record with the row gather's seven fields. -/
theorem gather_rows_apply_of_eq {α : Type} (hN : 0 < N) (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) (x : (⟨2, ![N, C]⟩ : Shape).Idx → α) (idx : IVec ⟨2, ![E, 1]⟩ w)
    (e : Fin E) (c : Fin C) :
    Host.gather d x idx (ix2 e c)
      = x (ix2 ⟨min (idx (ix2 e ⟨0, Nat.one_pos⟩)).toInt.toNat (N - 1), by omega⟩ c) := by
  obtain ⟨wf, rfl⟩ := eq_rowGatherDims d hod hcd hob hsb hsm hiv hss
  exact gather_rows_apply hN wf x idx e c

end Cert.LibRowOps
-- ==== Proof.LibScatterSet.lean ====
/-
  A scatter whose body returns the update (`x.at[idx].set(v)`), read at one entry.

  The scatter is the left fold, over the update positions in row-major order, of "replace the entry the
  position lands at by the update's value there".  If exactly one update position lands at an entry, the
  entry ends at that update's value, whatever came before; if none does, the entry keeps the operand's value.
  Then the same for a scatter of whole rows (operand `[N, C]`, one scatter index per update row): the row
  whose signed index is `n` is written to operand row `n`.
-/
import proofs.«128613_j14594298872614_2_alg».proof.Proof.LibRowOps

noncomputable section

namespace Cert.LibScatterSet

open Idealize.ShloMosaic Idealize.ShloMosaic.ValueIdx

section general

variable {s si u : Shape} {w : Nat} {α : Type}

/-- One step of the fold: update position `n` replaces the entry it lands at, if it lands inside the operand. -/
def step (d : ScatterDims s si u) (idx : IVec si w) (upd : u.Idx → α) (r : s.Idx → α) (n : Fin u.numel) : s.Idx → α :=
  match d.resultIdx? (u.rowMajor.symm n) idx with
  | some i => fun i' => if i' = i then (fun _ b => b) (r i) (upd (u.rowMajor.symm n)) else r i'
  | none => r

/-- A step read at an entry: the update's value if the position lands there, the old value otherwise. -/
theorem step_apply (d : ScatterDims s si u) (idx : IVec si w) (upd : u.Idx → α) (r : s.Idx → α) (n : Fin u.numel)
    (i' : s.Idx) :
    step d idx upd r n i'
      = if d.resultIdx? (u.rowMajor.symm n) idx = some i' then upd (u.rowMajor.symm n) else r i' := by
  unfold step
  cases h : d.resultIdx? (u.rowMajor.symm n) idx with
  | none => simp
  | some i =>
    by_cases hi : i' = i
    · subst hi; simp
    · have : ¬ (some i = some i') := fun e => hi (Option.some.inj e).symm
      simp [hi, this]

/-- The scatter is the fold of the steps. -/
theorem scatter_eq_fold (d : ScatterDims s si u) (x : s.Idx → α) (idx : IVec si w) (upd : u.Idx → α) :
    Host.scatter d (fun _ b => b) x idx upd = (List.finRange u.numel).foldl (step d idx upd) x := rfl

/-- No position of the list lands at the entry: the fold keeps it. -/
theorem fold_miss (d : ScatterDims s si u) (idx : IVec si w) (upd : u.Idx → α) (i' : s.Idx) :
    ∀ (L : List (Fin u.numel)) (x : s.Idx → α),
      (∀ n ∈ L, d.resultIdx? (u.rowMajor.symm n) idx ≠ some i') → L.foldl (step d idx upd) x i' = x i' := by
  intro L
  induction L with
  | nil => intro x _; rfl
  | cons a L ih =>
    intro x h
    rw [List.foldl_cons, ih _ (fun n hn => h n (List.mem_cons_of_mem _ hn)), step_apply,
      if_neg (h a (List.mem_cons_self))]

/-- Only the position `n0` lands at the entry, and either it is in the list or the entry already holds its value:
    the fold ends at that value. -/
theorem fold_hit (d : ScatterDims s si u) (idx : IVec si w) (upd : u.Idx → α) (i' : s.Idx) (n0 : Fin u.numel)
    (hres : d.resultIdx? (u.rowMajor.symm n0) idx = some i') :
    ∀ (L : List (Fin u.numel)) (x : s.Idx → α),
      (∀ n ∈ L, d.resultIdx? (u.rowMajor.symm n) idx = some i' → n = n0) →
      (x i' = upd (u.rowMajor.symm n0) ∨ n0 ∈ L) →
      L.foldl (step d idx upd) x i' = upd (u.rowMajor.symm n0) := by
  intro L
  induction L with
  | nil =>
    intro x _ h
    rcases h with h | h
    · exact h
    · exact absurd h (List.not_mem_nil)
  | cons a L ih =>
    intro x huniq h
    rw [List.foldl_cons]
    refine ih _ (fun n hn => huniq n (List.mem_cons_of_mem _ hn)) ?_
    rw [step_apply]
    by_cases ha : d.resultIdx? (u.rowMajor.symm a) idx = some i'
    · left
      rw [if_pos ha, huniq a (List.mem_cons_self) ha]
    · rw [if_neg ha]
      rcases h with h | h
      · exact Or.inl h
      · right
        rcases List.mem_cons.1 h with h | h
        · exact absurd (h ▸ hres) ha
        · exact h

/-- THE SET-SCATTER AT AN ENTRY ONE UPDATE LANDS AT: that update's value. -/
theorem scatter_set_hit (d : ScatterDims s si u) (x : s.Idx → α) (idx : IVec si w) (upd : u.Idx → α) (i' : s.Idx)
    (j : u.Idx) (hj : d.resultIdx? j idx = some i') (huniq : ∀ j', d.resultIdx? j' idx = some i' → j' = j) :
    Host.scatter d (fun _ b => b) x idx upd i' = upd j := by
  rw [scatter_eq_fold]
  have hs : u.rowMajor.symm (u.rowMajor j) = j := u.rowMajor.symm_apply_apply j
  have := fold_hit d idx upd i' (u.rowMajor j) (by rw [hs]; exact hj) (List.finRange u.numel) x
    (fun n _ hn => by
      have := huniq _ hn
      rw [← this, Equiv.apply_symm_apply])
    (Or.inr (List.mem_finRange _))
  rw [this, hs]

/-- THE SET-SCATTER AT AN ENTRY NO UPDATE LANDS AT: the operand's value. -/
theorem scatter_set_miss (d : ScatterDims s si u) (x : s.Idx → α) (idx : IVec si w) (upd : u.Idx → α) (i' : s.Idx)
    (h : ∀ j, d.resultIdx? j idx ≠ some i') :
    Host.scatter d (fun _ b => b) x idx upd i' = x i' := by
  rw [scatter_eq_fold]
  exact fold_miss d idx upd i' _ x (fun n _ => h _)

end general

section rows

open Cert.LibRowOps

variable {N E C w : Nat} {α : Type}

/-- A set-scatter of whole rows at `(n, c)` when exactly the update row `e` carries the signed index `n`. -/
theorem scatter_rows_set_hit (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : (⟨2, ![N, C]⟩ : Shape).Idx → α) (idx : IVec ⟨2, ![E, 1]⟩ w)
    (upd : (⟨2, ![E, C]⟩ : Shape).Idx → α) (n : Fin N) (c : Fin C) (e : Fin E)
    (he : (idx (ix2 e ⟨0, Nat.one_pos⟩)).toInt = (n.val : Int))
    (huniq : ∀ e' : Fin E, (idx (ix2 e' ⟨0, Nat.one_pos⟩)).toInt = (n.val : Int) → e' = e) :
    Host.scatter d (fun _ b => b) x idx upd (ix2 n c) = upd (ix2 e c) := by
  obtain ⟨wf, rfl⟩ := eq_rowScatterDims d huw hiw hsd hiv
  refine scatter_set_hit _ x idx upd (ix2 n c) (ix2 e c) ((scatter_resultIdx?_iff wf idx e c n c).2 ⟨he, rfl⟩) ?_
  intro j' hj'
  rw [eq_ix2 j'] at hj' ⊢
  obtain ⟨h1, h2⟩ := (scatter_resultIdx?_iff wf idx (j' 0) (j' 1) n c).1 hj'
  rw [huniq _ h1, h2]
  rfl

/-- A set-scatter of whole rows at `(n, c)` when no update row carries the signed index `n`. -/
theorem scatter_rows_set_miss (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : (⟨2, ![N, C]⟩ : Shape).Idx → α) (idx : IVec ⟨2, ![E, 1]⟩ w)
    (upd : (⟨2, ![E, C]⟩ : Shape).Idx → α) (n : Fin N) (c : Fin C)
    (h : ∀ e : Fin E, (idx (ix2 e ⟨0, Nat.one_pos⟩)).toInt ≠ (n.val : Int)) :
    Host.scatter d (fun _ b => b) x idx upd (ix2 n c) = x (ix2 n c) := by
  obtain ⟨wf, rfl⟩ := eq_rowScatterDims d huw hiw hsd hiv
  refine scatter_set_miss _ x idx upd (ix2 n c) ?_
  intro j hj
  rw [eq_ix2 j] at hj
  exact h _ ((scatter_resultIdx?_iff wf idx (j 0) (j 1) n c).1 hj).1

end rows

end Cert.LibScatterSet

end
-- ==== Proof.KernelHost.lean ====
/-
  The arrays the kernel's windows stage, as the region finds them, read at an index.

  Before the region the host code rounds five weights to the narrow format (the identity on extended reals),
  stacks rows 0–127 and 2144–2175 of `Wc1` into a 160-row weight, and scatters rows 128–2143 of `Wc1` into a
  4096-row array of zeros at the positions a literal table names.  So: the rounded weights are the arguments;
  the stacked weight's row `k` is row `k` of `Wc1` for `k < 128` and row `2144 + (k − 128)` otherwise; and
  — the table's positions being distinct — row `tbl p` of the scattered array is row `128 + p` of `Wc1`,
  every row no position names being zero.
-/
import proofs.«128613_j14594298872614_2_alg».proof.Proof.Gen.KernelIdeal.Frame
import proofs.«128613_j14594298872614_2_alg».proof.Proof.LibScatterSet
import Idealize.ShloMosaic.Lib.ValueLayout
import Idealize.ShloMosaic.Lib.Pipeline.Value
import Idealize.ShloMosaic.Lib.StableHlo.Run

set_option maxRecDepth 16384

noncomputable section

namespace Cert.KernelHost

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The literal table's `p`-th position, as a natural number. -/
def tbl (p : Fin 2016) : Nat := (lit0 p).toNat

/-! ## The rounded weights are the arguments -/

theorem V10_apply (c : Dev nD) (i : S2048x256.Idx) :
    (V m c main_v10 : S2048x256.Idx → EReal) i = (m ((c : Thread nD τ).loc main_arg1) : S2048x256.Idx → EReal) i := by
  have e : (V m c main_v10 : S2048x256.Idx → EReal)
      = truncf (F := Ideal) .bf16 (m ((c : Thread nD τ).loc main_arg1)) bitsLt_bf16_f32 := by
    dsimp only [V, hostOps0]; after_results <;> rfl
  rw [e]; rfl

theorem V11_apply (c : Dev nD) (i : S256x256.Idx) :
    (V m c main_v11 : S256x256.Idx → EReal) i = (m ((c : Thread nD τ).loc main_arg3) : S256x256.Idx → EReal) i := by
  have e : (V m c main_v11 : S256x256.Idx → EReal)
      = truncf (F := Ideal) .bf16 (m ((c : Thread nD τ).loc main_arg3)) bitsLt_bf16_f32 := by
    dsimp only [V, hostOps0]; after_results <;> rfl
  rw [e]; rfl

theorem V12_apply (c : Dev nD) (i : S256x128.Idx) :
    (V m c main_v12 : S256x128.Idx → EReal) i = (m ((c : Thread nD τ).loc main_arg5) : S256x128.Idx → EReal) i := by
  have e : (V m c main_v12 : S256x128.Idx → EReal)
      = truncf (F := Ideal) .bf16 (m ((c : Thread nD τ).loc main_arg5)) bitsLt_bf16_f32 := by
    dsimp only [V, hostOps0]; after_results <;> rfl
  rw [e]; rfl

theorem V15_apply (c : Dev nD) (i : S256x1.Idx) :
    (V m c main_v15 : S256x1.Idx → EReal) i = (m ((c : Thread nD τ).loc main_arg9) : S256x1.Idx → EReal) i := by
  have e : (V m c main_v15 : S256x1.Idx → EReal)
      = truncf (F := Ideal) .bf16 (m ((c : Thread nD τ).loc main_arg9)) bitsLt_bf16_f32 := by
    dsimp only [V, hostOps0]; after_results <;> rfl
  rw [e]; rfl

/-! ## The stacked 160-row weight -/

/-- The stacked weight, as the host operations build it. -/
theorem V13_eq (c : Dev nD) :
    (V m c main_v13 : S160x256.Idx → EReal)
      = truncf (F := Ideal) .bf16
          (concatenate S160x256 0
            [⟨S128x256, extractStridedSlice S128x256 ![0, 0] (m ((c : Thread nD τ).loc main_arg7)) slices_S2176x256_S128x256_0_0⟩,
             ⟨S32x256, extractStridedSlice S32x256 ![2144, 0] (m ((c : Thread nD τ).loc main_arg7)) slices_S2176x256_S32x256_2144_0⟩]
            concatenates_S128x256_S32x256_S160x256_d0) bitsLt_bf16_f32 := by
  dsimp only [V, hostOps0]; after_results <;> rfl

/-- Its rows 0–127 are rows 0–127 of `Wc1`. -/
theorem V13_low (c : Dev nD) (k : Fin 128) (n : Fin 256) :
    (V m c main_v13 : S160x256.Idx → EReal) (ix2 (⟨k.val, by omega⟩ : Fin 160) n)
      = (m ((c : Thread nD τ).loc main_arg7) : S2176x256.Idx → EReal) (ix2 (⟨k.val, by omega⟩ : Fin 2176) n) := by
  rw [V13_eq, truncf_apply]
  refine (concatenate_pair_apply_left 0 _ _ concatenates_S128x256_S32x256_S160x256_d0 _ rfl (ix2 k n) (fun b => by
    match b with
    | ⟨0, _⟩ => rfl
    | ⟨1, _⟩ => rfl)).trans ?_
  refine extractStridedSlice_apply _ _ slices_S2176x256_S128x256_0_0 _ _ (fun a => by
    match a with
    | ⟨0, _⟩ => show k.val = 0 + k.val; omega
    | ⟨1, _⟩ => show n.val = 0 + n.val; omega)

/-- Its rows 128–159 are rows 2144–2175 of `Wc1`. -/
theorem V13_high (c : Dev nD) (d : Fin 32) (n : Fin 256) :
    (V m c main_v13 : S160x256.Idx → EReal) (ix2 (⟨128 + d.val, by omega⟩ : Fin 160) n)
      = (m ((c : Thread nD τ).loc main_arg7) : S2176x256.Idx → EReal) (ix2 (⟨2144 + d.val, by omega⟩ : Fin 2176) n) := by
  rw [V13_eq, truncf_apply]
  refine (concatenate_pair_apply_right 0 _ _ concatenates_S128x256_S32x256_S160x256_d0 _ rfl rfl (ix2 d n)
    (fun b hb => by
      match b with
      | ⟨0, _⟩ => exact absurd rfl hb
      | ⟨1, _⟩ => rfl)
    (by show d.val + 128 = 128 + d.val; omega)).trans ?_
  refine extractStridedSlice_apply _ _ slices_S2176x256_S32x256_2144_0 _ _ (fun a => by
    match a with
    | ⟨0, _⟩ => show 2144 + d.val = 2144 + d.val; rfl
    | ⟨1, _⟩ => show n.val = 0 + n.val; omega)

/-! ## The scattered 4096-row table -/

/-- The scatter indices, as the host operations build them: the literal table (the wrap of negative positions by
    4096 is under a constant-false condition), one index per update row. -/
def sidx : IVec S2016x1 32 :=
  broadcastInDim S2016x1 ![0] bcast_S2016_S2016x1_0
    (select (constantI S2016 1 0#1)
      (addi (fun i => lit0 (S2016.rowMajor i)) (broadcastInDim S2016 ![] bcast_S_S2016 (constantI S_ 32 4096#32)))
      (fun i => lit0 (S2016.rowMajor i)))

/-- The scattered table, as the host operations build it. -/
theorem V14_eq (c : Dev nD) :
    (V m c main_v14 : S4096x256.Idx → EReal)
      = truncf (F := Ideal) .bf16
          (Host.scatter scatter_S4096x256_S2016x1_S2016x256_1_0_0_1 (fun _ b => b)
            (broadcastInDim S4096x256 ![] bcast_S_S4096x256 (constant (F := Ideal) S_ .f32 0x00000000#32))
            sidx
            (extractStridedSlice S2016x256 ![128, 0] (m ((c : Thread nD τ).loc main_arg7)) slices_S2176x256_S2016x256_128_0))
          bitsLt_bf16_f32 := by
  dsimp only [V, hostOps0]; after_results <;> rfl

/-- The scatter index of update row `e` is the table's `e`-th word. -/
theorem sidx_apply (e : Fin 2016) : sidx (ix2 e ⟨0, Nat.one_pos⟩) = lit0 e := by
  unfold sidx
  refine (broadcastInDim_apply ![0] bcast_S2016_S2016x1_0 _ (ix2 e ⟨0, Nat.one_pos⟩) (ix1 e) (fun a => by
    match a with
    | ⟨0, _⟩ => rfl)).trans ?_
  rw [select_apply, constantI_apply, select_zero]
  refine congrArg lit0 (Fin.ext ?_)
  exact Shape.rowMajor_val_one (ix1 e)

/-- Read signed, it is the table's position. -/
theorem sidx_toInt (ht : ∀ p, tbl p < 4096) (e : Fin 2016) :
    (sidx (ix2 e ⟨0, Nat.one_pos⟩)).toInt = ((tbl e : Nat) : Int) := by
  rw [sidx_apply]
  have h := ht e
  unfold tbl at h ⊢
  exact BitVec.toInt_eq_toNat_of_lt (by omega)

/-- Row `tbl p` of the scattered table is row `128 + p` of `Wc1`. -/
theorem V14_hit (ht : ∀ p, tbl p < 4096) (hinj : Function.Injective tbl) (c : Dev nD) (p : Fin 2016) (n : Fin 256) :
    (V m c main_v14 : S4096x256.Idx → EReal) (ix2 (⟨tbl p, ht p⟩ : Fin 4096) n)
      = (m ((c : Thread nD τ).loc main_arg7) : S2176x256.Idx → EReal) (ix2 (⟨128 + p.val, by omega⟩ : Fin 2176) n) := by
  rw [V14_eq, truncf_apply]
  refine (Cert.LibScatterSet.scatter_rows_set_hit scatter_S4096x256_S2016x1_S2016x256_1_0_0_1 rfl rfl rfl rfl _ sidx _
    (⟨tbl p, ht p⟩ : Fin 4096) n p (sidx_toInt ht p) (fun e' he' => ?_)).trans ?_
  · refine hinj ?_
    have h := (sidx_toInt ht e').symm.trans he'
    exact_mod_cast h
  · refine extractStridedSlice_apply _ _ slices_S2176x256_S2016x256_128_0 _ _ (fun a => by
      match a with
      | ⟨0, _⟩ => show 128 + p.val = 128 + p.val; rfl
      | ⟨1, _⟩ => show n.val = 0 + n.val; omega)

/-- A row no table position names is zero. -/
theorem V14_miss (ht : ∀ p, tbl p < 4096) (c : Dev nD) (q : Fin 4096) (n : Fin 256) (hq : ∀ p, tbl p ≠ q.val) :
    (V m c main_v14 : S4096x256.Idx → EReal) (ix2 q n) = (0 : EReal) := by
  rw [V14_eq, truncf_apply]
  refine (Cert.LibScatterSet.scatter_rows_set_miss scatter_S4096x256_S2016x1_S2016x256_1_0_0_1 rfl rfl rfl rfl _ sidx _
    q n (fun e he => ?_)).trans ?_
  · have h := (sidx_toInt ht e).symm.trans he
    exact hq e (by exact_mod_cast h)
  · show Ideal.ofBits .f32 0x00000000#32 = 0
    exact Ideal.ofBits_zero_f32

end Cert.KernelHost

end
-- ==== Proof.KernelValue.lean ====
/-
  From what each grid point writes back to the whole result array.

  The grid has 32 points; point `t` stages rows `512·t … 512·t + 511` of `x` and every weight whole, and writes
  back rows `512·t … 512·t + 511` of the result.  The body's stored value at block row `r` is the kernel's
  grouping of the specification's result for batch row `512·t + r`; with the stacked weight and the scattered
  table read as the host operations built them, that grouping is the specification's.  The 32 blocks tile the
  16384 rows, so the result array ends holding the specification's result at every row.
-/
import proofs.«128613_j14594298872614_2_alg».proof.Proof.Gen.KernelIdeal.Value
import proofs.«128613_j14594298872614_2_alg».proof.Proof.KernelPayA
import proofs.«128613_j14594298872614_2_alg».proof.Proof.KernelPayB
import proofs.«128613_j14594298872614_2_alg».proof.Proof.KernelHost

set_option maxRecDepth 16384

noncomputable section

namespace Cert.KernelValue

open Cert.KernelIdeal Cert.KernelIdeal.Gen Cert.KernelIdeal.Value
open Idealize.ShloMosaic Idealize.ShloMosaic.ValueIdx Idealize.ShloMosaic.TcCoe Idealize.SL.Sem
open Idealize.ShloMosaic.Pipeline (Dat)
open Cert.DeepFM Cert.KernelHost

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The launch arrays as curried functions -/

def cX (c : Dev nD) : Fin 16384 → Fin 64 → Fin 32 → EReal :=
  fun b i d => (m ((c : Thread nD τ).loc main_arg0) : S16384x64x32.Idx → EReal) (ix3 b i d)
def cW1 (c : Dev nD) : Fin 2048 → Fin 256 → EReal :=
  fun k n => (m ((c : Thread nD τ).loc main_arg1) : S2048x256.Idx → EReal) (ix2 k n)
def cb1 (c : Dev nD) : Fin 256 → EReal := fun n => (m ((c : Thread nD τ).loc main_arg2) : S256.Idx → EReal) (ix1 n)
def cW2 (c : Dev nD) : Fin 256 → Fin 256 → EReal :=
  fun k n => (m ((c : Thread nD τ).loc main_arg3) : S256x256.Idx → EReal) (ix2 k n)
def cb2 (c : Dev nD) : Fin 256 → EReal := fun n => (m ((c : Thread nD τ).loc main_arg4) : S256.Idx → EReal) (ix1 n)
def cW3 (c : Dev nD) : Fin 256 → Fin 128 → EReal :=
  fun k n => (m ((c : Thread nD τ).loc main_arg5) : S256x128.Idx → EReal) (ix2 k n)
def cb3 (c : Dev nD) : Fin 128 → EReal := fun n => (m ((c : Thread nD τ).loc main_arg6) : S128.Idx → EReal) (ix1 n)
def cWc1 (c : Dev nD) : Fin 2176 → Fin 256 → EReal :=
  fun k n => (m ((c : Thread nD τ).loc main_arg7) : S2176x256.Idx → EReal) (ix2 k n)
def cbc1 (c : Dev nD) : Fin 256 → EReal := fun n => (m ((c : Thread nD τ).loc main_arg8) : S256.Idx → EReal) (ix1 n)
def cWc2 (c : Dev nD) : Fin 256 → Fin 1 → EReal :=
  fun n z => (m ((c : Thread nD τ).loc main_arg9) : S256x1.Idx → EReal) (ix2 n z)
def cbc2 (c : Dev nD) : Fin 1 → EReal := fun z => (m ((c : Thread nD τ).loc main_arg10) : S1.Idx → EReal) (ix1 z)

/-- The result array the run ends at: the specification's result of the launch arrays, row by row. -/
def result (c : Dev nD) : S16384x1.Idx → EReal := fun i =>
  G tbl (cX m c) (cW1 m c) (cb1 m c) (cW2 m c) (cb2 m c) (cW3 m c) (cb3 m c) (cWc1 m c) (cbc1 m c) (cWc2 m c) (cbc2 m c)
    ⟨(i 0).val, idx2_lt0 i⟩

/-! ## The printed index maps, decided over the 32 grid points -/

theorem idx0 : ∀ t : Fin cfg0.N, win0_0.index t (0 : Fin 3) = win0_12.index t (0 : Fin 2)
    ∧ win0_0.index t (1 : Fin 3) = 0 ∧ win0_0.index t (2 : Fin 3) = 0
    ∧ win0_12.index t (1 : Fin 2) = 0 ∧ win0_12.index t (0 : Fin 2) ≤ 31 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 1) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 1) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 1) = 0 :=
  (by decide +kernel : ∀ t : Fin grid0.N, _)

/-- Every block of rows is some point's. -/
theorem idx_onto12 : ∀ q : Fin 32, ∃ t : Fin cfg0.N, win0_12.index t = ![q.val, 0] :=
  (by decide +kernel : ∀ q : Fin 32, ∃ t : Fin grid0.N, win0_12.index t = ![q.val, 0])

/-! ## The windows' blocks -/

/-- Window 0's block at point `t`: rows `512·t …` of `x`. -/
theorem iblk0_apply (c : Dev nD) (t : Fin cfg0.N) (r : Fin 512) (i : Fin 64) (d : Fin 32) (b : Fin 16384)
    (hb : b.val = win0_12.index t (0 : Fin 2) * 512 + r.val) :
    iblk m c 0 t (ix3 r i d) = cX m c b i d := by
  obtain ⟨e0, e1, e2, -, -⟩ := idx0 t
  show V m c main_arg0 (((cfg0.win 0).blk t).view.emb (ix3 r i d)) = m ((c : Thread nD τ).loc main_arg0) (ix3 b i d)
  rw [V_main_arg0]
  refine congrArg _ (funext fun a => Fin.ext ?_)
  match a with
  | ⟨0, _⟩ => show win0_0.index t (0 : Fin 3) * 512 + 1 * r.val = b.val; omega
  | ⟨1, _⟩ => show win0_0.index t (1 : Fin 3) * 64 + 1 * i.val = i.val; omega
  | ⟨2, _⟩ => show win0_0.index t (2 : Fin 3) * 32 + 1 * d.val = d.val; omega

/-- Window 1's block is its whole array at every point. -/
theorem iblk1_apply (c : Dev nD) (t : Fin cfg0.N) (y : S2048x256.Idx) :
    iblk m c 1 t y = (V m c main_v10 : S2048x256.Idx → EReal) y := by
  obtain ⟨e0, e1⟩ := idx1 t
  show V m c main_v10 (((cfg0.win 1).blk t).view.emb y) = V m c main_v10 y
  refine congrArg _ (funext fun a => Fin.ext ?_)
  match a with
  | ⟨0, _⟩ => show win0_1.index t (0 : Fin 2) * 2048 + 1 * (y 0).val = (y 0).val; omega
  | ⟨1, _⟩ => show win0_1.index t (1 : Fin 2) * 256 + 1 * (y 1).val = (y 1).val; omega

/-- Window 2's block is its whole array at every point. -/
theorem iblk2_apply (c : Dev nD) (t : Fin cfg0.N) (y : S256.Idx) :
    iblk m c 2 t y = (V m c main_arg2 : S256.Idx → EReal) y := by
  obtain e0 := idx2 t
  show V m c main_arg2 (((cfg0.win 2).blk t).view.emb y) = V m c main_arg2 y
  refine congrArg _ (funext fun a => Fin.ext ?_)
  match a with
  | ⟨0, _⟩ => show win0_2.index t (0 : Fin 1) * 256 + 1 * (y 0).val = (y 0).val; omega

/-- Window 3's block is its whole array at every point. -/
theorem iblk3_apply (c : Dev nD) (t : Fin cfg0.N) (y : S256x256.Idx) :
    iblk m c 3 t y = (V m c main_v11 : S256x256.Idx → EReal) y := by
  obtain ⟨e0, e1⟩ := idx3 t
  show V m c main_v11 (((cfg0.win 3).blk t).view.emb y) = V m c main_v11 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- Window 4's block is its whole array at every point. -/
theorem iblk4_apply (c : Dev nD) (t : Fin cfg0.N) (y : S256.Idx) :
    iblk m c 4 t y = (V m c main_arg4 : S256.Idx → EReal) y := by
  obtain e0 := idx4 t
  show V m c main_arg4 (((cfg0.win 4).blk t).view.emb y) = V m c main_arg4 y
  refine congrArg _ (funext fun a => Fin.ext ?_)
  match a with
  | ⟨0, _⟩ => show win0_4.index t (0 : Fin 1) * 256 + 1 * (y 0).val = (y 0).val; omega

/-- Window 5's block is its whole array at every point. -/
theorem iblk5_apply (c : Dev nD) (t : Fin cfg0.N) (y : S256x128.Idx) :
    iblk m c 5 t y = (V m c main_v12 : S256x128.Idx → EReal) y := by
  obtain ⟨e0, e1⟩ := idx5 t
  show V m c main_v12 (((cfg0.win 5).blk t).view.emb y) = V m c main_v12 y
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega

/-- Window 6's block is its whole array at every point. -/
theorem iblk6_apply (c : Dev nD) (t : Fin cfg0.N) (y : S128.Idx) :
    iblk m c 6 t y = (V m c main_arg6 : S128.Idx → EReal) y := by
  obtain e0 := idx6 t
  show V m c main_arg6 (((cfg0.win 6).blk t).view.emb y) = V m c main_arg6 y
  refine congrArg _ (funext fun a => Fin.ext ?_)
  match a with
  | ⟨0, _⟩ => show win0_6.index t (0 : Fin 1) * 128 + 1 * (y 0).val = (y 0).val; omega

/-- Window 7's block is its whole array at every point. -/
theorem iblk7_apply (c : Dev nD) (t : Fin cfg0.N) (y : S160x256.Idx) :
    iblk m c 7 t y = (V m c main_v13 : S160x256.Idx → EReal) y := by
  obtain ⟨e0, e1⟩ := idx7 t
  show V m c main_v13 (((cfg0.win 7).blk t).view.emb y) = V m c main_v13 y
  refine congrArg _ (funext fun a => Fin.ext ?_)
  match a with
  | ⟨0, _⟩ => show win0_7.index t (0 : Fin 2) * 160 + 1 * (y 0).val = (y 0).val; omega
  | ⟨1, _⟩ => show win0_7.index t (1 : Fin 2) * 256 + 1 * (y 1).val = (y 1).val; omega

/-- Window 8's block is its whole array at every point. -/
theorem iblk8_apply (c : Dev nD) (t : Fin cfg0.N) (y : S4096x256.Idx) :
    iblk m c 8 t y = (V m c main_v14 : S4096x256.Idx → EReal) y := by
  obtain ⟨e0, e1⟩ := idx8 t
  show V m c main_v14 (((cfg0.win 8).blk t).view.emb y) = V m c main_v14 y
  refine congrArg _ (funext fun a => Fin.ext ?_)
  match a with
  | ⟨0, _⟩ => show win0_8.index t (0 : Fin 2) * 4096 + 1 * (y 0).val = (y 0).val; omega
  | ⟨1, _⟩ => show win0_8.index t (1 : Fin 2) * 256 + 1 * (y 1).val = (y 1).val; omega

/-- Window 9's block is its whole array at every point. -/
theorem iblk9_apply (c : Dev nD) (t : Fin cfg0.N) (y : S256.Idx) :
    iblk m c 9 t y = (V m c main_arg8 : S256.Idx → EReal) y := by
  obtain e0 := idx9 t
  show V m c main_arg8 (((cfg0.win 9).blk t).view.emb y) = V m c main_arg8 y
  refine congrArg _ (funext fun a => Fin.ext ?_)
  match a with
  | ⟨0, _⟩ => show win0_9.index t (0 : Fin 1) * 256 + 1 * (y 0).val = (y 0).val; omega

/-- Window 10's block is its whole array at every point. -/
theorem iblk10_apply (c : Dev nD) (t : Fin cfg0.N) (y : S256x1.Idx) :
    iblk m c 10 t y = (V m c main_v15 : S256x1.Idx → EReal) y := by
  obtain ⟨e0, e1⟩ := idx10 t
  show V m c main_v15 (((cfg0.win 10).blk t).view.emb y) = V m c main_v15 y
  refine congrArg _ (funext fun a => Fin.ext ?_)
  match a with
  | ⟨0, _⟩ => show win0_10.index t (0 : Fin 2) * 256 + 1 * (y 0).val = (y 0).val; omega
  | ⟨1, _⟩ => show win0_10.index t (1 : Fin 2) * 1 + 1 * (y 1).val = (y 1).val; omega

/-- Window 11's block is its whole array at every point. -/
theorem iblk11_apply (c : Dev nD) (t : Fin cfg0.N) (y : S1.Idx) :
    iblk m c 11 t y = (V m c main_arg10 : S1.Idx → EReal) y := by
  obtain e0 := idx11 t
  show V m c main_arg10 (((cfg0.win 11).blk t).view.emb y) = V m c main_arg10 y
  refine congrArg _ (funext fun a => Fin.ext ?_)
  match a with
  | ⟨0, _⟩ => show win0_11.index t (0 : Fin 1) * 1 + 1 * (y 0).val = (y 0).val; omega

/-! ## What one point writes -/

/-- THE BODY'S STORED VALUE at block row `r` of point `t` is the specification's result at the array row the block
    row lands on. -/
theorem point_eq (ht : ∀ p, tbl p < 4096) (hinj : Function.Injective tbl) (c : Dev nD) (t : Fin cfg0.N)
    (r : Fin 512) (i : S16384x1.Idx) (hi : (i 0).val = win0_12.index t (0 : Fin 2) * 512 + r.val) :
    k0_pay1 (F := Ideal) (iblk m c 0 t) (k0_pay2 (iblk m c 0 t))
        (k0_pay3 (iblk m c 0 t) (iblk m c 1 t) (iblk m c 2 t) (iblk m c 3 t) (iblk m c 4 t))
        (iblk m c 5 t) (iblk m c 6 t) (iblk m c 7 t) (iblk m c 8 t) (iblk m c 9 t) (iblk m c 10 t) (iblk m c 11 t)
        (ix2 r 0)
      = result m c i := by
  have hx : ∀ (i' : Fin 64) (d : Fin 32), iblk m c 0 t (ix3 r i' d) = cX m c ⟨(i 0).val, idx2_lt0 i⟩ i' d :=
    fun i' d => iblk0_apply m c t r i' d ⟨(i 0).val, idx2_lt0 i⟩ hi
  have e1 : (fun (k : Fin 2048) (n : Fin 256) => iblk m c 1 t (ix2 k n)) = cW1 m c :=
    funext fun k => funext fun n => (iblk1_apply m c t (ix2 k n)).trans (V10_apply m c (ix2 k n))
  have e2 : (fun (n : Fin 256) => iblk m c 2 t (ix1 n)) = cb1 m c :=
    funext fun n => (iblk2_apply m c t (ix1 n)).trans (congrFun (V_main_arg2 m c) (ix1 n))
  have e3 : (fun (k : Fin 256) (n : Fin 256) => iblk m c 3 t (ix2 k n)) = cW2 m c :=
    funext fun k => funext fun n => (iblk3_apply m c t (ix2 k n)).trans (V11_apply m c (ix2 k n))
  have e4 : (fun (n : Fin 256) => iblk m c 4 t (ix1 n)) = cb2 m c :=
    funext fun n => (iblk4_apply m c t (ix1 n)).trans (congrFun (V_main_arg4 m c) (ix1 n))
  have e5 : (fun (k : Fin 256) (n : Fin 128) => iblk m c 5 t (ix2 k n)) = cW3 m c :=
    funext fun k => funext fun n => (iblk5_apply m c t (ix2 k n)).trans (V12_apply m c (ix2 k n))
  have e6 : (fun (n : Fin 128) => iblk m c 6 t (ix1 n)) = cb3 m c :=
    funext fun n => (iblk6_apply m c t (ix1 n)).trans (congrFun (V_main_arg6 m c) (ix1 n))
  have e9 : (fun (n : Fin 256) => iblk m c 9 t (ix1 n)) = cbc1 m c :=
    funext fun n => (iblk9_apply m c t (ix1 n)).trans (congrFun (V_main_arg8 m c) (ix1 n))
  have e10 : (fun (n : Fin 256) (z : Fin 1) => iblk m c 10 t (ix2 n z)) = cWc2 m c :=
    funext fun n => funext fun z => (iblk10_apply m c t (ix2 n z)).trans (V15_apply m c (ix2 n z))
  have e11 : (fun (z : Fin 1) => iblk m c 11 t (ix1 z)) = cbc2 m c :=
    funext fun z => (iblk11_apply m c t (ix1 z)).trans (congrFun (V_main_arg10 m c) (ix1 z))
  have ha : ∀ n : Fin 256,
      k0_pay3 (F := Ideal) (iblk m c 0 t) (iblk m c 1 t) (iblk m c 2 t) (iblk m c 3 t) (iblk m c 4 t) (ix2 r n)
        = h2 (cX m c) (cW1 m c) (cb1 m c) (cW2 m c) (cb2 m c) ⟨(i 0).val, idx2_lt0 i⟩ n := fun n => by
    rw [Cert.KernelPay.pay3_apply (iblk m c 0 t) (iblk m c 1 t) (iblk m c 2 t) (iblk m c 3 t) (iblk m c 4 t)
      (cX m c) ⟨(i 0).val, idx2_lt0 i⟩ r hx n, e1, e2, e3, e4]
  refine (Cert.KernelPay.pay1_apply (iblk m c 0 t) (k0_pay2 (iblk m c 0 t))
    (k0_pay3 (iblk m c 0 t) (iblk m c 1 t) (iblk m c 2 t) (iblk m c 3 t) (iblk m c 4 t))
    (iblk m c 5 t) (iblk m c 6 t) (iblk m c 7 t) (iblk m c 8 t) (iblk m c 9 t) (iblk m c 10 t) (iblk m c 11 t)
    (cX m c) (cW1 m c) (cb1 m c) (cW2 m c) (cb2 m c) ⟨(i 0).val, idx2_lt0 i⟩ r hx (fun i' d => hx i' d) ha).trans ?_
  rw [e5, e6, e9, e10, e11]
  exact GK_eq_G ht hinj
    (fun k n => by
      show iblk m c 7 t (ix2 (⟨k.val, by omega⟩ : Fin 160) n) = _
      exact (iblk7_apply m c t (ix2 (⟨k.val, by omega⟩ : Fin 160) n)).trans (V13_low m c k n))
    (fun d n => by
      show iblk m c 7 t (ix2 (⟨128 + d.val, by omega⟩ : Fin 160) n) = _
      exact (iblk7_apply m c t (ix2 (⟨128 + d.val, by omega⟩ : Fin 160) n)).trans (V13_high m c d n))
    (fun p n => by
      show iblk m c 8 t (ix2 (⟨tbl p, ht p⟩ : Fin 4096) n) = _
      exact (iblk8_apply m c t (ix2 (⟨tbl p, ht p⟩ : Fin 4096) n)).trans (V14_hit m ht hinj c p n))
    (fun q n hq => by
      show iblk m c 8 t (ix2 q n) = _
      exact (iblk8_apply m c t (ix2 q n)).trans (V14_miss m ht c q n hq))
    ⟨(i 0).val, idx2_lt0 i⟩

/-- WHAT POINT `t` WRITES BACK is block `t` of the specification's result. -/
theorem flushed12_eq (ht : ∀ p, tbl p < 4096) (hinj : Function.Injective tbl) (c : Dev nD) (t : Fin cfg0.N) :
    (dats m 0 c).flushed 12 t = ((cfg0.win 12).blk t).view.read (Elt Ideal) (result m c) := by
  rw [flushed12]
  unfold out0_12
  rw [View.canon_unit_zero hz2]
  simp only [View.ld_unit_zero (S := S512x64x32) hz3, View.ld_unit_zero (S := S2048x256) hz2,
    View.ld_unit_zero (S := S256) hz1, View.ld_unit_zero (S := S256x256) hz2, View.ld_unit_zero (S := S256x128) hz2,
    View.ld_unit_zero (S := S128) hz1, View.ld_unit_zero (S := S160x256) hz2, View.ld_unit_zero (S := S4096x256) hz2,
    View.ld_unit_zero (S := S256x1) hz2, View.ld_unit_zero (S := S1) hz1]
  funext j
  have hj : j = ix2 (j 0) (0 : Fin 1) := by
    funext a; apply Fin.ext
    match a with
    | ⟨0, _⟩ => rfl
    | ⟨1, _⟩ => show (j 1).val = 0; have : (j 1).val < 1 := (j 1).isLt; omega
  rw [hj]
  exact point_eq m ht hinj c t (j 0) (((cfg0.win 12).blk t).view.emb (ix2 (j 0) (0 : Fin 1)))
    (by show win0_12.index t (0 : Fin 2) * 512 + 1 * (j 0).val = _; omega)

/-- An index of the array is in point `t`'s block iff each coordinate is in the block's range on its axis. -/
theorem mem_blk12 (t : Fin cfg0.N) (i : S16384x1.Idx) :
    i ∈ ((cfg0.win 12).blk t).view.set ↔ ∀ a : Fin 2, win0_12.index t a * S512x1.size a ≤ (i a).val
      ∧ (i a).val < win0_12.index t a * S512x1.size a + S512x1.size a := by
  show i ∈ ((View.whole main_v16).slice (win0_12.rect t)).set ↔ _
  rw [View.set_slice_whole, Rect.mem_set_unit]
  exact Iff.rfl

/-- Every row of the result array is in some point's block: row `i` in the block of point `i / 512`. -/
theorem cover12 (i : S16384x1.Idx) :
    ∃ t : Fin cfg0.N, (cfg0.win 12).flush t = true ∧ i ∈ ((cfg0.win 12).blk t).view.set := by
  have hi0 : (i 0).val < 16384 := idx2_lt0 i
  have hi1 : (i 1).val < 1 := idx2_lt1 i
  obtain ⟨t, ht⟩ := idx_onto12 ⟨(i 0).val / 512, by omega⟩
  have q0 : win0_12.index t (0 : Fin 2) = (i 0).val / 512 := congrFun ht 0
  have q1 : win0_12.index t (1 : Fin 2) = 0 := congrFun ht 1
  refine ⟨t, flush0_12 t, ?_⟩
  rw [mem_blk12]
  intro a
  match a with
  | ⟨0, _⟩ =>
    show win0_12.index t (0 : Fin 2) * 512 ≤ (i 0).val ∧ (i 0).val < win0_12.index t (0 : Fin 2) * 512 + 512
    omega
  | ⟨1, _⟩ =>
    show win0_12.index t (1 : Fin 2) * 1 ≤ (i 1).val ∧ (i 1).val < win0_12.index t (1 : Fin 2) * 1 + 1
    omega

/-- THE RESULT ARRAY after the run is the specification's result of the launch arrays. -/
theorem final12 (ht : ∀ p, tbl p < 4096) (hinj : Function.Injective tbl) (c : Dev nD) :
    (dats m 0 c).arrAt 12 cfg0.N = result m c :=
  (dats m 0 c).arrAt_eq_of_cover 12 (result m c) (fun t _ => flushed12_eq m ht hinj c t) (fun i => cover12 i)

/-- The kernel's run re-posted: the result array at the specification's result, the arguments unchanged. -/
theorem run (ht : ∀ p, tbl p < 4096) (hinj : Function.Injective tbl) :
    θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final12 m ht hinj c), (h c).2⟩) (Value.run_blocks m ρ)

end Cert.KernelValue

end
-- ==== Proof.RefIdxDef.lean ====
import proofs.«128613_j14594298872614_2_alg».proof.ReferenceIdeal
import Idealize.ShloMosaic.PureOps.Ideal

/-!
# The index array of the reference, as a pure term

The reference computes the pairs (row, column) of the strict upper triangle of a 64 × 64 matrix,
in row-major order, by array operations: a 0/1 mask, an inclusive prefix sum of the mask, a count
of how often each prefix-sum value occurs, a second inclusive prefix sum of those counts (which gives
the flat position of the p-th selected entry), and a floor division and a remainder by 64.

Every definition below is one operation of that computation applied to the earlier definitions, in the
order and with the nesting of the printed reference program, at the ideal floats (extended reals).
The last one, `refIdx`, is the 2016 × 2 integer array of the pairs.
-/

noncomputable section

namespace Cert.RefIdx

open Idealize.ShloMosaic
open Cert.ReferenceIdeal
open Cert.ReferenceIdeal.Facts₀ Cert.ReferenceIdeal.Facts

variable [Cert.ReferenceIdeal.Facts]

/-- A 32-bit integer array of shape `S`. -/
abbrev I32 (S : Shape) : Type := (⟨S, .i32⟩ : BufTy).Contents (Elt Ideal)
/-- A one-bit array of shape `S`. -/
abbrev I1 (S : Shape) : Type := (⟨S, .i1⟩ : BufTy).Contents (Elt Ideal)
/-- An ideal-float array of shape `S`. -/
abbrev F32 (S : Shape) : Type := (⟨S, .f32⟩ : BufTy).Contents (Elt Ideal)

/-! ## The mask: `triu(ones, k = 1) != 0` -/

/-- The float constant 1. -/
def cst : F32 S_ := constant (F := Ideal) S_ .f32 0x3F800000#32
/-- The 64 × 64 array of ones. -/
def v1 : F32 S64x64 := broadcastInDim S64x64 ![] bcast_S_S64x64 cst

/-- The row number of each entry. -/
def triu_v0 : I32 S64x64 := iotaInDim S64x64 32 0
/-- The diagonal offset subtracted from the row: zero. -/
def triu_c : I32 S_ := constantI S_ 32 0#32
def triu_v1 : I32 S64x64 := broadcastInDim S64x64 ![] bcast_S_S64x64 triu_c
def triu_v2 : I32 S64x64 := addi triu_v0 triu_v1
/-- The column number of each entry. -/
def triu_v3 : I32 S64x64 := iotaInDim S64x64 32 1
/-- Row at least column: the lower triangle with the diagonal. -/
def triu_v4 : I1 S64x64 := cmpi .sge triu_v2 triu_v3
def triu_cst : F32 S_ := constant (F := Ideal) S_ .f32 0x00000000#32
def triu_v5 : F32 S64x64 := broadcastInDim S64x64 ![] bcast_S_S64x64 triu_cst
/-- Zero on the lower triangle and the diagonal, the ones elsewhere. -/
def v2 : F32 S64x64 := select triu_v4 triu_v5 v1

def cst_0 : F32 S_ := constant (F := Ideal) S_ .f32 0x00000000#32
def v3 : F32 S64x64 := broadcastInDim S64x64 ![] bcast_S_S64x64 cst_0
/-- The mask of the strict upper triangle, as bits. -/
def v4 : I1 S64x64 := cmpf (F := Ideal) (s := S64x64) (φ := .f32) .une v2 v3

/-! ## The inclusive prefix sum of the flattened mask -/

/-- The mask flattened in row-major order. -/
def cumsum_v0 : I1 S4096 := fun i => shapeCast S4096 v4 shapeCasts_S64x64_S4096 i
/-- The mask as 32-bit integers 0 / 1. -/
def cumsum_v1 : I32 S4096 := extui 32 cumsum_v0 natLt_1_32
def cumsum_0_c : I32 S_ := constantI S_ 32 0#32
def cumsum_0_v0 : I32 S_ := broadcastInDim S_ ![] bcast_S_S_ cumsum_0_c
/-- Entry q: the number of selected flat positions up to and including q. -/
def v5 : I32 S4096 :=
  Host.reduceWindow IntOp.addi ![4096] ![1] ![4095] ![0] cumsum_v1 cumsum_0_v0
    reduceWindows_S4096_S4096_w4096s1p4095_0 h_S_

/-! ## Counting how often each prefix-sum value occurs -/

def c : I32 S_ := constantI S_ 32 0#32
/-- The zero counts. -/
def v6 : I32 S2016 := broadcastInDim S2016 ![] bcast_S_S2016 c
def c_1 : I32 S_ := constantI S_ 32 0#32
def clip_v0 : I32 S_ := id c_1
def clip_v1 : I32 S4096 := broadcastInDim S4096 ![] bcast_S_S4096 clip_v0
/-- The prefix sums clipped below at zero. -/
def v7 : I32 S4096 := maxsi clip_v1 v5
def c_2 : I32 S_ := constantI S_ 32 0#32
def v8 : I32 S4096 := broadcastInDim S4096 ![] bcast_S_S4096 c_2
def v9 : I1 S4096 := cmpi .slt v7 v8
def c_3 : I32 S_ := constantI S_ 32 2016#32
def v10 : I32 S4096 := broadcastInDim S4096 ![] bcast_S_S4096 c_3
def v11 : I32 S4096 := addi v7 v10
/-- A negative value would count from the end. -/
def v12 : I32 S4096 := select v9 v11 v7
def v13 : I32 S4096x1 := broadcastInDim S4096x1 ![0] bcast_S4096_S4096x1_0 v12
def c_4 : I32 S_ := constantI S_ 32 1#32
def v14 : I32 S4096 := broadcastInDim S4096 ![] bcast_S_S4096 c_4
/-- Entry v: how many flat positions have prefix sum v (positions with value 2016 fall outside and are dropped). -/
def v15 : I32 S2016 := Host.scatter scatter_S2016_S4096x1_S4096_n_0_0_1 IntOp.addi v6 v13 v14

/-! ## The second prefix sum: the flat position of the p-th selected entry -/

def cumsum_2_c : I32 S_ := constantI S_ 32 0#32
def cumsum_2_v0 : I32 S_ := broadcastInDim S_ ![] bcast_S_S_ cumsum_2_c
/-- Entry p: the number of flat positions whose prefix sum is at most p. -/
def v16 : I32 S2016 :=
  Host.reduceWindow IntOp.addi ![2016] ![1] ![2015] ![0] v15 cumsum_2_v0
    reduceWindows_S2016_S2016_w2016s1p2015_0 h_S_

/-! ## Floor division and remainder of integers, as the reference spells them -/

namespace FloorDivide
variable (arg0 : I32 S2016) (arg1 : I32 S_)
def v0 : I32 S2016 := broadcastInDim S2016 ![] bcast_S_S2016 arg1
/-- The quotient rounded toward zero. -/
def v1 : I32 S2016 := Host.divsi arg0 (v0 arg1)
def v2 : I32 S2016 := signi arg0
def v3 : I32 S_ := signi arg1
def v4 : I32 S2016 := broadcastInDim S2016 ![] bcast_S_S2016 (v3 arg1)
/-- The signs of dividend and divisor differ. -/
def v5 : I1 S2016 := cmpi .ne (v2 arg0) (v4 arg1)
def v6 : I32 S2016 := broadcastInDim S2016 ![] bcast_S_S2016 arg1
def v7 : I32 S2016 := Host.remsi arg0 (v6 arg1)
def c : I32 S_ := constantI S_ 32 0#32
def v8 : I32 S2016 := broadcastInDim S2016 ![] bcast_S_S2016 c
/-- The division is not exact. -/
def v9 : I1 S2016 := cmpi .ne (v7 arg0 arg1) v8
def v10 : I1 S2016 := andi (v5 arg0 arg1) (v9 arg0 arg1)
def c_0 : I32 S_ := constantI S_ 32 1#32
def v11 : I32 S2016 := broadcastInDim S2016 ![] bcast_S_S2016 c_0
def v12 : I32 S2016 := subi (v1 arg0 arg1) v11
/-- The quotient rounded toward minus infinity. -/
def out : I32 S2016 := select (v10 arg0 arg1) (v12 arg0 arg1) (v1 arg0 arg1)
end FloorDivide

namespace Remainder
variable (arg0 : I32 S2016) (arg1 : I32 S_)
def v0 : I32 S_ := id arg1
def c : I32 S_ := constantI S_ 32 0#32
def v1 : I1 S_ := cmpi .eq (v0 arg1) c
def c_0 : I32 S_ := constantI S_ 32 1#32
/-- The divisor, a zero divisor replaced by one. -/
def v2 : I32 S_ := select (v1 arg1) c_0 (v0 arg1)
def v3 : I32 S2016 := broadcastInDim S2016 ![] bcast_S_S2016 (v2 arg1)
/-- The remainder with the sign of the dividend. -/
def v4 : I32 S2016 := Host.remsi arg0 (v3 arg1)
def c_1 : I32 S_ := constantI S_ 32 0#32
def v5 : I32 S2016 := broadcastInDim S2016 ![] bcast_S_S2016 c_1
def v6 : I1 S2016 := cmpi .ne (v4 arg0 arg1) v5
def c_2 : I32 S_ := constantI S_ 32 0#32
def v7 : I32 S2016 := broadcastInDim S2016 ![] bcast_S_S2016 c_2
def v8 : I1 S2016 := cmpi .slt (v4 arg0 arg1) v7
def c_3 : I32 S_ := constantI S_ 32 0#32
def v9 : I1 S_ := cmpi .slt (v2 arg1) c_3
def v10 : I1 S2016 := broadcastInDim S2016 ![] bcast_S_S2016 (v9 arg1)
def v11 : I1 S2016 := cmpi .ne (v8 arg0 arg1) (v10 arg1)
def v12 : I1 S2016 := andi (v11 arg0 arg1) (v6 arg0 arg1)
def v13 : I32 S2016 := broadcastInDim S2016 ![] bcast_S_S2016 (v2 arg1)
def v14 : I32 S2016 := addi (v4 arg0 arg1) (v13 arg1)
/-- The remainder with the sign of the divisor. -/
def out : I32 S2016 := select (v12 arg0 arg1) (v14 arg0 arg1) (v4 arg0 arg1)
end Remainder

/-! ## Row and column of the p-th selected entry -/

def c_5 : I32 S_ := constantI S_ 32 64#32
def v17 : I32 S2016 := FloorDivide.out v16 c_5
def c_6 : I32 S_ := constantI S_ 32 64#32
/-- The row: the flat position divided by 64 (and reduced modulo 64). -/
def v18 : I32 S2016 := Remainder.out v17 c_6
def c_7 : I32 S_ := constantI S_ 32 1#32
def v19 : I32 S2016 := FloorDivide.out v16 c_7
def c_8 : I32 S_ := constantI S_ 32 64#32
/-- The column: the flat position modulo 64. -/
def v20 : I32 S2016 := Remainder.out v19 c_8

def c_9 : I32 S_ := constantI S_ 32 0#32
def v21 : I32 S2016 := broadcastInDim S2016 ![] bcast_S_S2016 c_9
def v22 : I1 S2016 := cmpi .slt v18 v21
def c_10 : I32 S_ := constantI S_ 32 64#32
def v23 : I32 S2016 := broadcastInDim S2016 ![] bcast_S_S2016 c_10
def v24 : I32 S2016 := addi v18 v23
/-- The row, a negative one counted from the end. -/
def v25 : I32 S2016 := select v22 v24 v18
def c_11 : I32 S_ := constantI S_ 32 0#32
def v26 : I32 S2016 := broadcastInDim S2016 ![] bcast_S_S2016 c_11
def v27 : I1 S2016 := cmpi .slt v20 v26
def c_12 : I32 S_ := constantI S_ 32 64#32
def v28 : I32 S2016 := broadcastInDim S2016 ![] bcast_S_S2016 c_12
def v29 : I32 S2016 := addi v20 v28
/-- The column, a negative one counted from the end. -/
def v30 : I32 S2016 := select v27 v29 v20
def v31 : I32 S2016x1 := broadcastInDim S2016x1 ![0] bcast_S2016_S2016x1_0 v25
def v32 : I32 S2016x1 := broadcastInDim S2016x1 ![0] bcast_S2016_S2016x1_0 v30

/-- The index array the reference gathers with: row p is (row, column) of the p-th entry of the strict
    upper triangle in row-major order. -/
def refIdx : I32 S2016x2 :=
  concatenate S2016x2 1 [⟨S2016x1, v31⟩, ⟨S2016x1, v32⟩] concatenates_S2016x1_S2016x1_S2016x2_d1

end Cert.RefIdx
-- ==== Proof.RefIdxComb.lean ====
import Mathlib.Order.Interval.Finset.Fin
import Mathlib.Data.Fintype.Card
import Mathlib.Algebra.BigOperators.Group.Finset.Basic
import Mathlib.Algebra.BigOperators.Group.Finset.Piecewise
import Mathlib.Algebra.Order.BigOperators.Group.Finset

/-!
# Enumerating a subset of an initial segment by prefix counts

Let `M` be a set of `K` numbers below `N` and `tbl : Fin K → ℕ` a strictly increasing function with values in `M`:
then `tbl` is THE increasing enumeration of `M`. Write `cnt q` for the number of members of `M` that are at most `q`
(the inclusive prefix count of `M`'s indicator). Then for `q < N`, `cnt q ≤ p` holds exactly when `q < tbl p`, so the
number of `q < N` with `cnt q ≤ p` is `tbl p` itself: counting how often each prefix count occurs and summing those counts
up to `p` recovers the `p`-th member of `M`.

Here `M` is the strict upper triangle of a 64 × 64 matrix in row-major numbering (`N = 4096`, `K = 2016`).
-/

open scoped BigOperators

namespace Cert.RefIdx.Comb

/-- Flat position `q` (row `q / 64`, column `q % 64`) lies strictly above the diagonal. -/
def mask (q : ℕ) : Prop := q / 64 < q % 64

instance : DecidablePred mask := fun q => Nat.decLt _ _

/-- The number of positions `≤ q` above the diagonal: the inclusive prefix sum of the mask. -/
def cnt (q : ℕ) : ℕ := ((Finset.range (q + 1)).filter mask).card

theorem cnt_le (q : ℕ) : cnt q ≤ q + 1 :=
  (Finset.card_filter_le _ _).trans (Finset.card_range _).le

/-- The prefix count as a sum of zeros and ones. -/
theorem cnt_eq_sum (q : ℕ) : cnt q = ∑ m ∈ Finset.range (q + 1), (if mask m then 1 else 0) := by
  unfold cnt; rw [Finset.card_filter]

/-- How many positions below 4096 have prefix count `v`. -/
def bin (v : ℕ) : ℕ := ((Finset.range 4096).filter fun q => cnt q = v).card

theorem bin_le (v : ℕ) : bin v ≤ 4096 :=
  (Finset.card_filter_le _ _).trans (Finset.card_range _).le

/-- The inclusive prefix sum of the counts `bin`. -/
def flat (p : ℕ) : ℕ := ∑ v ∈ Finset.range (p + 1), bin v

/-- Summing the occurrence counts up to `p` counts the positions whose prefix count is at most `p`. -/
theorem flat_eq_card (p : ℕ) : flat p = ((Finset.range 4096).filter fun q => cnt q ≤ p).card := by
  unfold flat bin
  rw [Finset.card_eq_sum_card_fiberwise (f := cnt) (t := Finset.range (p + 1))
    (fun q hq => Finset.mem_range.mpr (Nat.lt_succ_of_le (Finset.mem_filter.mp hq).2))]
  refine Finset.sum_congr rfl fun v hv => ?_
  congr 1
  ext q
  simp only [Finset.mem_filter, Finset.mem_range]
  have := Finset.mem_range.mp hv
  constructor
  · rintro ⟨h1, h2⟩; exact ⟨⟨h1, by omega⟩, h2⟩
  · rintro ⟨⟨h1, -⟩, h2⟩; exact ⟨h1, h2⟩

theorem flat_le (p : ℕ) : flat p ≤ 4096 := by
  rw [flat_eq_card]; exact (Finset.card_filter_le _ _).trans (Finset.card_range _).le

section Enumeration

variable (tbl : Fin 2016 → ℕ) (hlt : ∀ p, tbl p < 4096) (hmask : ∀ p, mask (tbl p)) (hmono : StrictMono tbl)
  (hcard : ((Finset.range 4096).filter mask).card = 2016)

include hlt hmask hmono hcard

/-- A strictly increasing table of 2016 masked positions lists all 2016 of them. -/
theorem image_tbl : Finset.univ.image tbl = (Finset.range 4096).filter mask := by
  apply Finset.eq_of_subset_of_card_le
  · intro x hx
    obtain ⟨p, -, rfl⟩ := Finset.mem_image.mp hx
    exact Finset.mem_filter.mpr ⟨Finset.mem_range.mpr (hlt p), hmask p⟩
  · rw [Finset.card_image_of_injective _ hmono.injective, hcard]; simp

/-- The prefix count at `q` is the number of table entries that are at most `q`. -/
theorem cnt_eq (q : ℕ) (hq : q < 4096) : cnt q = (Finset.univ.filter fun p => tbl p ≤ q).card := by
  have himg := image_tbl tbl hlt hmask hmono hcard
  have : (Finset.range (q + 1)).filter mask = (Finset.univ.filter fun p => tbl p ≤ q).image tbl := by
    ext m
    simp only [Finset.mem_filter, Finset.mem_range, Finset.mem_image, Finset.mem_univ, true_and]
    constructor
    · rintro ⟨hm, hmk⟩
      have hmem : m ∈ Finset.univ.image tbl := by
        rw [himg]; exact Finset.mem_filter.mpr ⟨Finset.mem_range.mpr (by omega), hmk⟩
      obtain ⟨p, -, rfl⟩ := Finset.mem_image.mp hmem
      exact ⟨p, by omega, rfl⟩
    · rintro ⟨p, hp, rfl⟩
      exact ⟨by omega, hmask p⟩
  unfold cnt
  rw [this, Finset.card_image_of_injective _ hmono.injective]

/-- The prefix count at `q` is at most `p` exactly when `q` comes before the `p`-th table entry. -/
theorem cnt_le_iff (q : ℕ) (hq : q < 4096) (p : Fin 2016) : cnt q ≤ p.val ↔ q < tbl p := by
  rw [cnt_eq tbl hlt hmask hmono hcard q hq]
  constructor
  · intro h
    by_contra hn
    have hn' : tbl p ≤ q := Nat.le_of_not_lt hn
    have hsub : Finset.Iic p ⊆ Finset.univ.filter fun p' => tbl p' ≤ q := by
      intro p' hp'
      rw [Finset.mem_Iic] at hp'
      exact Finset.mem_filter.mpr ⟨Finset.mem_univ _, (hmono.monotone hp').trans hn'⟩
    have := Finset.card_le_card hsub
    rw [Fin.card_Iic] at this
    omega
  · intro h
    have hsub : (Finset.univ.filter fun p' => tbl p' ≤ q) ⊆ Finset.Iio p := by
      intro p' hp'
      have hp'' := (Finset.mem_filter.mp hp').2
      rw [Finset.mem_Iio]
      exact hmono.lt_iff_lt.mp (by omega)
    have := Finset.card_le_card hsub
    rw [Fin.card_Iio] at this
    exact this

/-- Summing the occurrence counts of the prefix counts up to `p` gives the `p`-th table entry. -/
theorem flat_eq_tbl (p : Fin 2016) : flat p.val = tbl p := by
  rw [flat_eq_card]
  have : ((Finset.range 4096).filter fun q => cnt q ≤ p.val) = Finset.range (tbl p) := by
    ext q
    simp only [Finset.mem_filter, Finset.mem_range]
    constructor
    · rintro ⟨hq, h⟩
      exact (cnt_le_iff tbl hlt hmask hmono hcard q hq p).mp h
    · intro h
      have := hlt p
      exact ⟨by omega, (cnt_le_iff tbl hlt hmask hmono hcard q (by omega) p).mpr h⟩
  rw [this, Finset.card_range]

end Enumeration

end Cert.RefIdx.Comb
-- ==== Proof.RefIdxWords.lean ====
import Idealize.ShloMosaic.PureOps.Ideal
import Idealize.ShloMosaic.Lib.ValueIdx

/-!
# Small nonnegative numbers as 32-bit words

A natural number below `2 ^ 31` written as a 32-bit word is nonnegative when the word is read signed, so on such
numbers the signed comparison, maximum, division and remainder of words are the comparison, maximum, quotient and
remainder of the numbers; the sign corrections by which floor division and the sign-of-the-divisor remainder differ
from truncating division vanish.
-/

namespace Cert.RefIdx.Words

open Idealize.ShloMosaic Idealize.ShloMosaic.ValueIdx

theorem toNat_small {n : ℕ} (h : n < 2 ^ 31) : (BitVec.ofNat 32 n).toNat = n := by
  rw [BitVec.toNat_ofNat]; omega

theorem msb_small {n : ℕ} (h : n < 2 ^ 31) : (BitVec.ofNat 32 n).msb = false := by
  rw [BitVec.msb_eq_false_iff_two_mul_lt, toNat_small h]; omega

theorem toInt_small {n : ℕ} (h : n < 2 ^ 31) : (BitVec.ofNat 32 n).toInt = (n : Int) := by
  rw [BitVec.toInt_eq_toNat_cond, toNat_small h]; split <;> omega

theorem ofNat_inj_small {a b : ℕ} (ha : a < 2 ^ 31) (hb : b < 2 ^ 31) :
    BitVec.ofNat 32 a = BitVec.ofNat 32 b ↔ a = b := by
  constructor
  · intro h; have := congrArg BitVec.toNat h; rwa [toNat_small ha, toNat_small hb] at this
  · rintro rfl; rfl

/-- A small number is not negative. -/
theorem cmpi_slt_zero {n : ℕ} (h : n < 2 ^ 31) : IntOp.cmpi .slt (BitVec.ofNat 32 n) 0#32 = 0#1 := by
  have : (BitVec.ofNat 32 n).slt 0#32 = false := by
    rw [BitVec.slt_eq_decide, toInt_small h]; simp
  show BitVec.ofBool ((BitVec.ofNat 32 n).slt 0#32) = 0#1
  rw [this]; rfl

/-- The signed maximum of zero and a small number is the number. -/
theorem maxsi_zero {n : ℕ} (h : n < 2 ^ 31) : IntOp.maxsi 0#32 (BitVec.ofNat 32 n) = BitVec.ofNat 32 n := by
  have : (BitVec.ofNat 32 n).slt 0#32 = false := by
    rw [BitVec.slt_eq_decide, toInt_small h]; simp
  unfold IntOp.maxsi; rw [this]; rfl

/-- Signed "at least" on small numbers. -/
theorem cmpi_sge {a b : ℕ} (ha : a < 2 ^ 31) (hb : b < 2 ^ 31) :
    IntOp.cmpi .sge (BitVec.ofNat 32 a) (BitVec.ofNat 32 b) = if b ≤ a then 1#1 else 0#1 := by
  show BitVec.ofBool ((BitVec.ofNat 32 b).sle (BitVec.ofNat 32 a)) = _
  rw [BitVec.sle_eq_decide, toInt_small ha, toInt_small hb]
  by_cases hle : b ≤ a
  · rw [if_pos hle, decide_eq_true (by exact_mod_cast hle)]; rfl
  · rw [if_neg hle, decide_eq_false (by exact_mod_cast hle)]; rfl

theorem not_corner {n d : ℕ} (hd : d < 2 ^ 31) (hd0 : 0 < d) :
    ¬ IntOp.SDivCorner (BitVec.ofNat 32 n) (BitVec.ofNat 32 d) := by
  rintro (h | ⟨-, h⟩)
  · have := congrArg BitVec.toNat h
    rw [toNat_small hd] at this
    simp at this; omega
  · have hm : (BitVec.ofNat 32 d).msb = false := msb_small hd
    rw [h] at hm
    exact absurd hm (by decide)

/-- Signed division of small numbers is the quotient of the numbers. -/
theorem divsi_small {n d : ℕ} (hn : n < 2 ^ 31) (hd : d < 2 ^ 31) (hd0 : 0 < d) :
    IntOp.divsi .host (BitVec.ofNat 32 n) (BitVec.ofNat 32 d) = BitVec.ofNat 32 (n / d) := by
  unfold IntOp.divsi
  rw [if_neg (not_corner hd hd0), BitVec.sdiv_eq, msb_small hn, msb_small hd]
  apply BitVec.eq_of_toNat_eq
  show (BitVec.udiv _ _).toNat = _
  rw [BitVec.udiv_eq, BitVec.toNat_udiv, toNat_small hn, toNat_small hd,
    toNat_small (lt_of_le_of_lt (Nat.div_le_self _ _) hn)]

/-- Signed remainder of small numbers is the remainder of the numbers. -/
theorem remsi_small {n d : ℕ} (hn : n < 2 ^ 31) (hd : d < 2 ^ 31) (hd0 : 0 < d) :
    IntOp.remsi .host (BitVec.ofNat 32 n) (BitVec.ofNat 32 d) = BitVec.ofNat 32 (n % d) := by
  unfold IntOp.remsi
  rw [if_neg (not_corner hd hd0), BitVec.srem_eq, msb_small hn, msb_small hd]
  apply BitVec.eq_of_toNat_eq
  show (BitVec.umod _ _).toNat = _
  rw [BitVec.umod_eq, BitVec.toNat_umod, toNat_small hn, toNat_small hd,
    toNat_small (lt_of_le_of_lt (Nat.mod_le _ _) hn)]

end Cert.RefIdx.Words
-- ==== Proof.RefIdxPrefix.lean ====
import Idealize.ShloMosaic.PureOps.Ideal
import Idealize.ShloMosaic.Lib.ValueIdx
import Mathlib.Algebra.BigOperators.Fin
import Mathlib.Algebra.BigOperators.Intervals

/-!
# A windowed sum that is an inclusive prefix sum

A sum over windows of width `N` at stride one of a vector of length `N` padded with `N - 1` zeros in front is the
inclusive prefix sum of the vector: the window of result entry `q` covers padded positions `q … q + N - 1`, that is the
vector's entries `0 … q` after the padding. On 32-bit words holding natural numbers the sum is the word of the sum of
the numbers.
-/

open scoped BigOperators

namespace Cert.RefIdx.Prefix

open Idealize.ShloMosaic Idealize.ShloMosaic.ValueIdx

/-- A left fold that adds the words of natural numbers, from the word of a number, is the word of the sum. -/
theorem foldl_addi_ofNat {ι : Type} (G : ι → ℕ) (L : List ι) (a : ℕ) :
    L.foldl (fun r n => IntOp.addi r (BitVec.ofNat 32 (G n))) (BitVec.ofNat 32 a)
      = BitVec.ofNat 32 (a + (L.map G).sum) := by
  induction L generalizing a with
  | nil => simp
  | cons n L ih =>
    rw [List.foldl_cons]
    have : IntOp.addi (BitVec.ofNat 32 a) (BitVec.ofNat 32 (G n)) = BitVec.ofNat 32 (a + G n) := by
      unfold IntOp.addi; rw [BitVec.ofNat_add]
    rw [this, ih, List.map_cons, List.sum_cons, Nat.add_assoc]

/-- The terms a window at `q` meets, summed over the window, are the first `q + 1` entries. -/
theorem window_sum (N lo : ℕ) (hlo : lo + 1 = N) (f : ℕ → ℕ) (q : ℕ) (hq : q < N) :
    ∑ n ∈ Finset.range N, (if lo ≤ q + n then f (q + n - lo) else 0) = ∑ m ∈ Finset.range (q + 1), f m := by
  rw [Finset.sum_ite, Finset.sum_const_zero, add_zero]
  refine Finset.sum_nbij' (fun n => q + n - lo) (fun m => m + lo - q) ?_ ?_ ?_ ?_ ?_
  · intro n hn
    have h1 := Finset.mem_range.mp (Finset.mem_filter.mp hn).1
    have h2 := (Finset.mem_filter.mp hn).2
    exact Finset.mem_range.mpr (by omega)
  · intro m hm
    have h1 := Finset.mem_range.mp hm
    exact Finset.mem_filter.mpr ⟨Finset.mem_range.mpr (by omega), by omega⟩
  · intro n hn
    have h1 := Finset.mem_range.mp (Finset.mem_filter.mp hn).1
    have h2 := (Finset.mem_filter.mp hn).2
    show q + n - lo + lo - q = n
    omega
  · intro m hm
    have h1 := Finset.mem_range.mp hm
    show q + (m + lo - q) - lo = m
    omega
  · intro n hn
    rfl

variable {N : ℕ}

/-- The inclusive prefix sum, by windows: a vector of `N` words holding the numbers `f 0, …, f (N - 1)`, summed over
    windows of width `N` after `N - 1` zeros of padding in front, holds at `q` the word of `f 0 + … + f q`. -/
theorem reduceWindow_prefix (lo : ℕ) (hlo : lo + 1 = N)
    (x : (⟨1, ![N]⟩ : Shape).Idx → BitVec 32) (init : (⟨0, ![]⟩ : Shape).Idx → BitVec 32)
    (h : (⟨1, ![N]⟩ : Shape).ReduceWindows (![N] : Fin 1 → ℕ) ![1] ![lo] ![0] ⟨1, ![N]⟩)
    (hu : 0 < (⟨0, ![]⟩ : Shape).numel)
    (f : ℕ → ℕ) (hx : ∀ m : Fin N, x (ix1 m) = BitVec.ofNat 32 (f m.val)) (hinit : ∀ i, init i = 0#32)
    (q : Fin N) :
    Host.reduceWindow IntOp.addi ![N] ![1] ![lo] ![0] x init h hu (ix1 q)
      = BitVec.ofNat 32 (∑ m ∈ Finset.range (q.val + 1), f m) := by
  have hq := q.isLt
  unfold Host.reduceWindow
  simp only []
  rw [hinit]
  -- every step of the fold adds the word of a number
  have hstep : ∀ (r : BitVec 32) (n : Fin (⟨1, ![N]⟩ : Shape).numel),
      IntOp.addi r
        (if hin : ∀ a : Fin 1, (![lo] : Fin 1 → ℕ) a ≤
              ((ix1 q : (⟨1, ![N]⟩ : Shape).Idx) (a.cast h.1.symm)).val * (![1] : Fin 1 → ℕ) a
                + (((⟨1, ![N]⟩ : Shape).rowMajor.symm n) a).val ∧
            ((ix1 q : (⟨1, ![N]⟩ : Shape).Idx) (a.cast h.1.symm)).val * (![1] : Fin 1 → ℕ) a
                + (((⟨1, ![N]⟩ : Shape).rowMajor.symm n) a).val - (![lo] : Fin 1 → ℕ) a < (⟨1, ![N]⟩ : Shape).size a
          then x (fun a => ⟨((ix1 q : (⟨1, ![N]⟩ : Shape).Idx) (a.cast h.1.symm)).val * (![1] : Fin 1 → ℕ) a
                + (((⟨1, ![N]⟩ : Shape).rowMajor.symm n) a).val - (![lo] : Fin 1 → ℕ) a, (hin a).2⟩)
          else 0#32)
      = IntOp.addi r (BitVec.ofNat 32 (if lo ≤ q.val + n.val then f (q.val + n.val - lo) else 0)) := by
    intro r n
    congr 1
    have hn : (((⟨1, ![N]⟩ : Shape).rowMajor.symm n) 0).val = n.val := by
      have := Shape.rowMajor_val_one ((⟨1, ![N]⟩ : Shape).rowMajor.symm n)
      rw [Equiv.apply_symm_apply] at this
      exact this.symm
    have hnlt : n.val < N := by
      have := (((⟨1, ![N]⟩ : Shape).rowMajor.symm n) 0).isLt
      rw [← hn]; exact this
    by_cases hc : lo ≤ q.val + n.val
    · have hin : ∀ a : Fin 1, (![lo] : Fin 1 → ℕ) a ≤
              ((ix1 q : (⟨1, ![N]⟩ : Shape).Idx) (a.cast h.1.symm)).val * (![1] : Fin 1 → ℕ) a
                + (((⟨1, ![N]⟩ : Shape).rowMajor.symm n) a).val ∧
            ((ix1 q : (⟨1, ![N]⟩ : Shape).Idx) (a.cast h.1.symm)).val * (![1] : Fin 1 → ℕ) a
                + (((⟨1, ![N]⟩ : Shape).rowMajor.symm n) a).val - (![lo] : Fin 1 → ℕ) a < (⟨1, ![N]⟩ : Shape).size a := by
        intro a
        match a with
        | ⟨0, _⟩ =>
          show lo ≤ q.val * 1 + (((⟨1, ![N]⟩ : Shape).rowMajor.symm n) 0).val ∧
            q.val * 1 + (((⟨1, ![N]⟩ : Shape).rowMajor.symm n) 0).val - lo < N
          rw [hn]; omega
      rw [dif_pos hin, if_pos hc]
      have hm : q.val + n.val - lo < N := by omega
      rw [← hx ⟨q.val + n.val - lo, hm⟩]
      congr 1
      funext a
      match a with
      | ⟨0, _⟩ =>
        apply Fin.ext
        show q.val * 1 + (((⟨1, ![N]⟩ : Shape).rowMajor.symm n) 0).val - lo = q.val + n.val - lo
        rw [hn]; omega
    · have hin : ¬ ∀ a : Fin 1, (![lo] : Fin 1 → ℕ) a ≤
              ((ix1 q : (⟨1, ![N]⟩ : Shape).Idx) (a.cast h.1.symm)).val * (![1] : Fin 1 → ℕ) a
                + (((⟨1, ![N]⟩ : Shape).rowMajor.symm n) a).val ∧
            ((ix1 q : (⟨1, ![N]⟩ : Shape).Idx) (a.cast h.1.symm)).val * (![1] : Fin 1 → ℕ) a
                + (((⟨1, ![N]⟩ : Shape).rowMajor.symm n) a).val - (![lo] : Fin 1 → ℕ) a < (⟨1, ![N]⟩ : Shape).size a := by
        intro hall
        have := (hall 0).1
        have e : (![lo] : Fin 1 → ℕ) 0 ≤ q.val * 1 + (((⟨1, ![N]⟩ : Shape).rowMajor.symm n) 0).val := this
        rw [hn] at e
        have : (![lo] : Fin 1 → ℕ) 0 = lo := rfl
        omega
      rw [dif_neg hin, if_neg hc]
  simp only [hstep]
  have h0 : (0#32 : BitVec 32) = BitVec.ofNat 32 0 := rfl
  rw [h0, foldl_addi_ofNat (fun n : Fin (⟨1, ![N]⟩ : Shape).numel => if lo ≤ q.val + n.val then f (q.val + n.val - lo) else 0),
    Nat.zero_add]
  congr 1
  have hnumel : (⟨1, ![N]⟩ : Shape).numel = N := by simp [Shape.numel]
  rw [← Fin.sum_univ_def, Fin.sum_univ_eq_sum_range (fun n => if lo ≤ q.val + n then f (q.val + n - lo) else 0), hnumel]
  exact window_sum N lo hlo f q.val hq

end Cert.RefIdx.Prefix
-- ==== Proof.LibScatterCount.lean ====
/-
  Counting by scatter, two ways.

  A StableHLO scatter whose body adds, fed the all-ones updates into the all-zeros operand, counts at every operand
  index `i` the update indices that land on `i`.  Done on 32-bit integers (a left fold over the update indices in row-major
  order, each step adding one at the landing index) the count is exact as long as the number of updates stays below
  `2^31`; done on the extended reals it is the sum of ones over the landing set.  Both are the cardinality of one and
  the same set `{ j | resultIdx? j idx = some i }`, so the integer count converted to a float IS the float count.
-/
import Idealize.ShloMosaic.PureOps.Ideal.Laws
import Idealize.ShloMosaic.Lib.ValueIdx

noncomputable section

open scoped BigOperators

namespace Cert.LibScatterCount

open Idealize.ShloMosaic

/-- A left fold whose step adds one at the places `p j ·` holds and changes nothing else counts, at `i`, the list's
    members `j` with `p j i` (the list without repetitions). -/
theorem foldl_count {ι κ : Type} [DecidableEq κ] (p : κ → ι → Prop) [∀ j i, Decidable (p j i)]
    (g : (ι → BitVec 32) → κ → ι → BitVec 32)
    (hg : ∀ r j i, g r j i = if p j i then r i + 1#32 else r i)
    (L : List κ) (hL : L.Nodup) (x : ι → BitVec 32) (i : ι) :
    L.foldl g x i = x i + BitVec.ofNat 32 ((L.toFinset.filter fun j => p j i).card) := by
  induction L generalizing x with
  | nil => simp
  | cons j L ih =>
    have hj : j ∉ L.toFinset := by rw [List.mem_toFinset]; exact (List.nodup_cons.mp hL).1
    rw [List.foldl_cons, ih (List.nodup_cons.mp hL).2, hg, List.toFinset_cons, Finset.filter_insert]
    by_cases h : p j i
    · rw [if_pos h, if_pos h, Finset.card_insert_of_notMem (fun hm => hj (Finset.mem_filter.mp hm).1),
        BitVec.ofNat_add]
      ac_rfl
    · rw [if_neg h, if_neg h]

variable {s si u : Shape} {w : Nat}

/-- The integer scatter-add of ones into zeros, at `i`: the number of update indices landing on `i`. -/
theorem scatter_addi_ones (d : ScatterDims s si u) (idx : IVec si w) (i : s.Idx) :
    Host.scatter d IntOp.addi (fun _ => (0#32 : BitVec 32)) idx (fun _ => (1#32 : BitVec 32)) i
      = BitVec.ofNat 32 ((Finset.univ.filter fun j : u.Idx => d.resultIdx? j idx = some i).card) := by
  unfold Host.scatter
  have hnd : ((List.finRange u.numel).map u.rowMajor.symm).Nodup :=
    (List.nodup_finRange _).map u.rowMajor.symm.injective
  have hall : ((List.finRange u.numel).map u.rowMajor.symm).toFinset = Finset.univ :=
    Finset.eq_univ_iff_forall.mpr fun j => List.mem_toFinset.mpr
      (List.mem_map.mpr ⟨u.rowMajor j, List.mem_finRange _, u.rowMajor.symm_apply_apply j⟩)
  have := foldl_count (fun (j : u.Idx) (i : s.Idx) => d.resultIdx? j idx = some i)
    (fun r j => match d.resultIdx? j idx with
      | some i0 => fun i' => if i' = i0 then IntOp.addi (r i0) (1#32) else r i'
      | none => r)
    (fun r j i => by
      cases hr : d.resultIdx? j idx with
      | none => simp
      | some i0 =>
        by_cases h : i = i0
        · subst h; simp [IntOp.addi]
        · have h' : ¬ (some i0 = some i) := fun e => h (Option.some.inj e).symm
          simp [h, h'])
    _ hnd (fun _ => 0#32) i
  rw [List.foldl_map, hall] at this
  exact this.trans (BitVec.zero_add _)

/-- The count never exceeds the number of update indices. -/
theorem card_le (d : ScatterDims s si u) (idx : IVec si w) (i : s.Idx) :
    (Finset.univ.filter fun j : u.Idx => d.resultIdx? j idx = some i).card ≤ u.numel := by
  refine (Finset.card_filter_le _ _).trans ?_
  rw [Finset.card_univ, Fintype.card_congr u.rowMajor, Fintype.card_fin]

/-- The pattern of the float one. -/
theorem ofBits_one : Ideal.ofBits .f32 0x3F800000#32 = 1 := by
  simp [Ideal.ofBits, Ideal.ieee, -EReal.coe_mul]; norm_num

/-- THE TWO COUNTS AGREE: the integer scatter-add of ones into zeros, converted to a float, is the float scatter-add of
    ones into zeros, as long as fewer than `2^31` updates are scattered. -/
theorem sitofp_scatter_ones (d : ScatterDims s si u) (idx : IVec si w) (hu : u.numel < 2 ^ 31) :
    sitofp (F := Ideal) .f32 (Host.scatter d IntOp.addi (fun _ => (0#32 : BitVec 32)) idx (fun _ => (1#32 : BitVec 32)))
      = Host.scatterAdd (F := Ideal) d (fun _ => Ideal.ofBits .f32 0x00000000#32) idx
          (fun _ => Ideal.ofBits .f32 0x3F800000#32) := by
  funext i
  have hc := card_le d idx i
  set c := (Finset.univ.filter fun j : u.Idx => d.resultIdx? j idx = some i).card with hcdef
  have h1 : (BitVec.ofNat 32 c).toNat = c := by rw [BitVec.toNat_ofNat]; omega
  have h2 : (BitVec.ofNat 32 c).toInt = (c : Int) := by
    rw [BitVec.toInt_eq_toNat_cond, h1]; split <;> omega
  show ((((Host.scatter d IntOp.addi (fun _ => (0#32 : BitVec 32)) idx (fun _ => (1#32 : BitVec 32))) i).toInt : ℝ) : EReal) = _
  rw [scatter_addi_ones, ← hcdef, h2]
  simp only [Host.scatterAdd, Ideal.hostScatterAdd_def, Ideal.hostScatterAdd, Ideal.ofBits_zero_f32, ofBits_one, zero_add,
    Finset.sum_const, nsmul_eq_mul, mul_one]
  simp [hcdef]

end Cert.LibScatterCount

end
-- ==== Proof.RefIdxRead.lean ====
import proofs.«128613_j14594298872614_2_alg».proof.Proof.RefIdxDef
import proofs.«128613_j14594298872614_2_alg».proof.Proof.RefIdxComb
import proofs.«128613_j14594298872614_2_alg».proof.Proof.RefIdxWords
import proofs.«128613_j14594298872614_2_alg».proof.Proof.RefIdxPrefix
import proofs.«128613_j14594298872614_2_alg».proof.Proof.LibScatterCount
import Idealize.ShloMosaic.Lib.IdealHost
import Idealize.ShloMosaic.Lib.Pipeline.Value

/-!
# Reading the reference's index computation entry by entry

Each array of the reference's index computation, read at one entry, is the 32-bit word of a natural number:

* the mask of the strict upper triangle at `(i, j)` is the bit of `i < j`;
* its inclusive prefix sum at flat position `q` is the word of `cnt q`, the number of masked positions `≤ q`;
* the clip below at zero and the wrap of negative values change nothing, the prefix counts being nonnegative;
* the scatter-add of ones at these values counts, at `v`, the positions whose prefix count is `v`: the word of `bin v`;
* the second inclusive prefix sum at `p` is the word of `flat p = bin 0 + … + bin p`.
-/

noncomputable section

open scoped BigOperators

namespace Cert.RefIdx

open Idealize.ShloMosaic Idealize.ShloMosaic.ValueIdx
open Cert.ReferenceIdeal
open Cert.ReferenceIdeal.Facts₀ Cert.ReferenceIdeal.Facts
open Cert.RefIdx.Comb Cert.RefIdx.Words

variable [Cert.ReferenceIdeal.Facts]

/-! ## The mask -/

/-- Row at least column, as a bit. -/
theorem triu_v4_apply (i j : Fin 64) : triu_v4 (ix2 i j) = if j.val ≤ i.val then 1#1 else 0#1 := by
  have h1 : triu_v1 (ix2 i j) = 0#32 := by
    unfold triu_v1; rw [broadcastInDim_scalar_apply]; rfl
  show IntOp.cmpi .sge (IntOp.addi (BitVec.ofNat 32 i.val) (triu_v1 (ix2 i j))) (BitVec.ofNat 32 j.val) = _
  rw [h1]
  have h2 : IntOp.addi (BitVec.ofNat 32 i.val) 0#32 = BitVec.ofNat 32 i.val := by
    unfold IntOp.addi; exact BitVec.add_zero _
  rw [h2]
  exact cmpi_sge (by have := i.isLt; omega) (by have := j.isLt; omega)

/-- Zero on and below the diagonal, one above it. -/
theorem v2_apply (i j : Fin 64) : v2 (ix2 i j) = if j.val ≤ i.val then (0 : EReal) else 1 := by
  have h5 : triu_v5 (ix2 i j) = (0 : EReal) := by
    unfold triu_v5; rw [broadcastInDim_scalar_apply]; exact Ideal.ofBits_zero_f32
  have h1 : v1 (ix2 i j) = (1 : EReal) := by
    unfold v1; rw [broadcastInDim_scalar_apply]; exact Cert.LibScatterCount.ofBits_one
  show Scalar.select (triu_v4 (ix2 i j)) (triu_v5 (ix2 i j)) (v1 (ix2 i j)) = _
  rw [triu_v4_apply, h5, h1]
  by_cases h : j.val ≤ i.val
  · rw [if_pos h, if_pos h]; exact select_one _ _
  · rw [if_neg h, if_neg h]; exact select_zero _ _

/-- The mask of the strict upper triangle. -/
theorem v4_apply (i j : Fin 64) : v4 (ix2 i j) = if i.val < j.val then 1#1 else 0#1 := by
  have h3 : v3 (ix2 i j) = (0 : EReal) := by
    unfold v3; rw [broadcastInDim_scalar_apply]; exact Ideal.ofBits_zero_f32
  show Ideal.cmp .une (v2 (ix2 i j)) (v3 (ix2 i j)) = _
  rw [v2_apply, h3]
  by_cases h : i.val < j.val
  · rw [if_pos h, if_neg (by omega)]; simp [Ideal.cmp]
  · rw [if_neg h, if_pos (by omega)]; simp [Ideal.cmp]

/-- The flattened mask as 32-bit integers. -/
theorem cumsum_v1_apply (q : Fin 4096) : cumsum_v1 (ix1 q) = BitVec.ofNat 32 (if mask q.val then 1 else 0) := by
  have hq := q.isLt
  have h0 : cumsum_v0 (ix1 q) = v4 (ix2 (⟨q.val / 64, by omega⟩ : Fin 64) (⟨q.val % 64, by omega⟩ : Fin 64)) := by
    unfold cumsum_v0
    exact shapeCast_apply v4 shapeCasts_S64x64_S4096 (ix1 q)
      (ix2 (⟨q.val / 64, by omega⟩ : Fin 64) (⟨q.val % 64, by omega⟩ : Fin 64)) (by
        rw [Shape.rowMajor_val_two, Shape.rowMajor_val_one]
        show q.val / 64 * 64 + q.val % 64 = q.val
        omega)
  show (cumsum_v0 (ix1 q)).setWidth 32 = _
  rw [h0, v4_apply]
  show (if q.val / 64 < q.val % 64 then 1#1 else 0#1).setWidth 32 = _
  by_cases h : q.val / 64 < q.val % 64
  · rw [if_pos h, if_pos (show mask q.val from h)]; rfl
  · rw [if_neg h, if_neg (show ¬ mask q.val from h)]; rfl

/-! ## The first prefix sum -/

/-- The inclusive prefix sum of the mask at `q` is the prefix count. -/
theorem v5_apply (q : Fin 4096) : v5 (ix1 q) = BitVec.ofNat 32 (cnt q.val) := by
  have hinit : ∀ i, cumsum_0_v0 i = 0#32 := by
    intro i; unfold cumsum_0_v0; rw [broadcastInDim_scalar_apply]; rfl
  unfold v5
  rw [Prefix.reduceWindow_prefix (N := 4096) 4095 rfl cumsum_v1 cumsum_0_v0 _ _
    (fun m => if mask m then 1 else 0) cumsum_v1_apply hinit q, cnt_eq_sum]

theorem cnt_small (q : Fin 4096) : cnt q.val < 2 ^ 31 := by
  have := cnt_le q.val; have := q.isLt; omega

/-- Clipping below at zero changes nothing. -/
theorem v7_apply (q : Fin 4096) : v7 (ix1 q) = BitVec.ofNat 32 (cnt q.val) := by
  have h1 : clip_v1 (ix1 q) = 0#32 := by
    unfold clip_v1; rw [broadcastInDim_scalar_apply]; rfl
  show IntOp.maxsi (clip_v1 (ix1 q)) (v5 (ix1 q)) = _
  rw [h1, v5_apply, maxsi_zero (cnt_small q)]

/-- No prefix count is negative, so none is wrapped around. -/
theorem v12_apply (q : Fin 4096) : v12 (ix1 q) = BitVec.ofNat 32 (cnt q.val) := by
  have h8 : v8 (ix1 q) = 0#32 := by
    unfold v8; rw [broadcastInDim_scalar_apply]; rfl
  show Scalar.select (IntOp.cmpi .slt (v7 (ix1 q)) (v8 (ix1 q))) (v11 (ix1 q)) (v7 (ix1 q)) = _
  rw [h8, v7_apply, cmpi_slt_zero (cnt_small q), select_zero]

/-- The prefix counts as a one-column array of scatter indices. -/
theorem v13_apply (q : Fin 4096) (u : Fin 1) : v13 (ix2 q u) = BitVec.ofNat 32 (cnt q.val) := by
  unfold v13
  rw [broadcastInDim_apply ![0] bcast_S4096_S4096x1_0 v12 (ix2 q u) (ix1 q)
    (fun a => match a with | ⟨0, _⟩ => rfl)]
  exact v12_apply q

/-! ## Where an update of the count lands -/

/-- The window of update `q` starts at its scatter index, read signed. -/
theorem start_zero (idx : IVec S4096x1 32) (q : Fin 4096) :
    scatter_S2016_S4096x1_S4096_n_0_0_1.start (ix1 q) idx 0 = (idx (ix2 q (0 : Fin 1))).toInt := by
  unfold ScatterDims.start
  rw [dif_pos (show (0 : Fin 1) ∈ scatter_S2016_S4096x1_S4096_n_0_0_1.scatterDimsToOperandDims from
    List.mem_singleton.mpr rfl)]
  have hsi : scatter_S2016_S4096x1_S4096_n_0_0_1.siIdx (ix1 q)
      ⟨List.idxOf (0 : Fin 1) scatter_S2016_S4096x1_S4096_n_0_0_1.scatterDimsToOperandDims,
        List.idxOf_lt_length_iff.2 (List.mem_singleton.mpr rfl)⟩ = ix2 q (0 : Fin 1) := by
    funext b; refine Fin.ext ?_
    match b with
    | ⟨0, _⟩ => rfl
    | ⟨1, _⟩ => rfl
  rw [hsi]

/-- Of the one axis, none is left once axis 0 is removed. -/
theorem zero_not_mem_kept : (0 : Fin 1) ∉ (List.finRange 1).filter (fun a => a ∉ ([0] : List (Fin 1))) := by decide

/-- The only operand axis is inserted: the window coordinate there is zero. -/
theorem window_zero (j : S4096.Idx) : scatter_S2016_S4096x1_S4096_n_0_0_1.window j 0 = 0 := by
  unfold ScatterDims.window
  rw [dif_neg (show (0 : Fin 1) ∉ scatter_S2016_S4096x1_S4096_n_0_0_1.sKept from zero_not_mem_kept)]

/-- Update `q` lands on count `v` exactly when its scatter index, read signed, is `v` (an index outside `[0, 2016)`
    lands nowhere). -/
theorem landing_iff (idx : IVec S4096x1 32) (q : Fin 4096) (v : Fin 2016) :
    scatter_S2016_S4096x1_S4096_n_0_0_1.resultIdx? (ix1 q) idx = some (ix1 v)
      ↔ (idx (ix2 q (0 : Fin 1))).toInt = (v.val : Int) := by
  have h0 := start_zero idx q
  have w0 := window_zero (ix1 q)
  unfold ScatterDims.resultIdx?
  split
  · rename_i h
    have g0 := h 0
    rw [h0, w0] at g0
    rw [Option.some.injEq]
    constructor
    · intro hf
      have e0 : (scatter_S2016_S4096x1_S4096_n_0_0_1.start (ix1 q) idx 0
          + scatter_S2016_S4096x1_S4096_n_0_0_1.window (ix1 q) 0).toNat = v.val :=
        congrArg (fun f => (f 0).val) hf
      rw [h0, w0] at e0
      omega
    · intro hz
      funext a
      refine Fin.ext ?_
      match a with
      | ⟨0, _⟩ =>
        show (scatter_S2016_S4096x1_S4096_n_0_0_1.start (ix1 q) idx 0
          + scatter_S2016_S4096x1_S4096_n_0_0_1.window (ix1 q) 0).toNat = v.val
        rw [h0, w0]; omega
  · rename_i h
    constructor
    · intro hf; exact absurd hf (by simp)
    · intro hz
      exfalso; apply h; intro a
      match a with
      | ⟨0, _⟩ =>
        show 0 ≤ scatter_S2016_S4096x1_S4096_n_0_0_1.start (ix1 q) idx 0
              + scatter_S2016_S4096x1_S4096_n_0_0_1.window (ix1 q) 0
          ∧ scatter_S2016_S4096x1_S4096_n_0_0_1.start (ix1 q) idx 0
              + scatter_S2016_S4096x1_S4096_n_0_0_1.window (ix1 q) 0 < (2016 : Int)
        rw [h0, w0]; have := v.isLt; omega

/-! ## The counts and the second prefix sum -/

/-- The scatter-add of ones at the prefix counts holds at `v` the number of positions with prefix count `v`. -/
theorem v15_apply (v : Fin 2016) : v15 (ix1 v) = BitVec.ofNat 32 (bin v.val) := by
  have h6 : v6 = fun _ => (0#32 : BitVec 32) := by
    funext i; unfold v6; rw [broadcastInDim_scalar_apply]; rfl
  have h14 : v14 = fun _ => (1#32 : BitVec 32) := by
    funext i; unfold v14; rw [broadcastInDim_scalar_apply]; rfl
  have hland : ∀ q : Fin 4096,
      scatter_S2016_S4096x1_S4096_n_0_0_1.resultIdx? (ix1 q) v13 = some (ix1 v) ↔ cnt q.val = v.val := by
    intro q
    rw [landing_iff, v13_apply, toInt_small (cnt_small q)]
    omega
  unfold v15
  rw [h6, h14, Cert.LibScatterCount.scatter_addi_ones]
  refine congrArg (BitVec.ofNat 32) ?_
  unfold bin
  refine Finset.card_bij (fun (j : S4096.Idx) _ => (j 0).val) ?_ ?_ ?_
  · intro j hj
    have hj' := (Finset.mem_filter.mp hj).2
    rw [eq_ix1 j] at hj'
    exact Finset.mem_filter.mpr ⟨Finset.mem_range.mpr (j 0).isLt, (hland (j 0)).mp hj'⟩
  · intro j _ j' _ hjj
    rw [eq_ix1 j, eq_ix1 j']
    exact congrArg ix1 (Fin.ext hjj)
  · intro q hq
    have hq1 := Finset.mem_range.mp (Finset.mem_filter.mp hq).1
    have hq2 := (Finset.mem_filter.mp hq).2
    exact ⟨ix1 (⟨q, hq1⟩ : Fin 4096),
      Finset.mem_filter.mpr ⟨Finset.mem_univ _, (hland ⟨q, hq1⟩).mpr hq2⟩, rfl⟩

/-- The inclusive prefix sum of the counts. -/
theorem v16_apply (p : Fin 2016) : v16 (ix1 p) = BitVec.ofNat 32 (flat p.val) := by
  have hinit : ∀ i, cumsum_2_v0 i = 0#32 := by
    intro i; unfold cumsum_2_v0; rw [broadcastInDim_scalar_apply]; rfl
  unfold v16
  rw [Prefix.reduceWindow_prefix (N := 2016) 2015 rfl v15 cumsum_2_v0 _ _ bin v15_apply hinit p]
  rfl

end Cert.RefIdx
-- ==== Proof.RefIdxTbl.lean ====
import proofs.«128613_j14594298872614_2_alg».proof.KernelIdeal
import proofs.«128613_j14594298872614_2_alg».proof.Proof.RefIdxComb

/-!
# The kernel's literal table of flat positions

The kernel is given the 2016 flat positions `64 * row + column` of the strict upper triangle of a 64 × 64 matrix as
literal constants. Three facts about the literals are checked by evaluation: every entry is below 4096 and lies
strictly above the diagonal; consecutive entries increase; and the strict upper triangle has exactly 2016 positions.
Together they say the table is the increasing enumeration of the triangle, so its `p`-th entry is recovered from the
prefix counts of the triangle's mask.
-/

namespace Cert.RefIdx

open Cert.RefIdx.Comb

/-- The kernel's literal table, as natural numbers. -/
def tbl (p : Fin 2016) : ℕ := (Cert.KernelIdeal.lit0 p).toNat

set_option maxRecDepth 100000 in
theorem tbl_lt_mask : ∀ p : Fin 2016, tbl p < 4096 ∧ mask (tbl p) := by decide +kernel

set_option maxRecDepth 100000 in
theorem tbl_step : ∀ i : Fin 2015, tbl i.castSucc < tbl i.succ := by decide +kernel

set_option maxRecDepth 100000 in
theorem mask_card : ((Finset.range 4096).filter mask).card = 2016 := by decide +kernel

/-- Every entry is a flat position of the 64 × 64 matrix. -/
theorem tbl_lt (p : Fin 2016) : tbl p < 4096 := (tbl_lt_mask p).1

/-- Every entry lies strictly above the diagonal. -/
theorem tbl_mask (p : Fin 2016) : mask (tbl p) := (tbl_lt_mask p).2

/-- The table is strictly increasing (hence injective). -/
theorem tbl_strictMono : StrictMono tbl := Fin.strictMono_iff_lt_succ.mpr tbl_step

/-- The `p`-th entry is the number of flat positions whose inclusive prefix count of the mask is at most `p`. -/
theorem flat_eq_tbl (p : Fin 2016) : flat p.val = tbl p :=
  Comb.flat_eq_tbl tbl tbl_lt tbl_mask tbl_strictMono mask_card p

end Cert.RefIdx
-- ==== Proof.RefIdxDivMod.lean ====
/-
  From flat positions to (row, column): floor division and remainder by 64 on small numbers.

  The reference spells `floor_divide` as the truncating quotient, less one when the signs of
  dividend and divisor differ and the division is not exact, and `remainder` as the truncating
  remainder, plus the divisor when its sign differs from the divisor's and it is not zero; it then
  wraps a negative row or column by adding 64.  On a dividend that is a natural number below 2^31
  written as a 32-bit word, with a positive divisor below 2^31, every one of these corrections
  vanishes: the quotient is the quotient of the numbers and the remainder their remainder.  So if
  the flat position of the p-th entry is the number `g p` below 4096, the pair the reference
  gathers with is (`g p / 64 % 64`, `g p % 64`).
-/
import proofs.«128613_j14594298872614_2_alg».proof.Proof.RefIdxDef
import proofs.«128613_j14594298872614_2_alg».proof.Proof.RefIdxWords
import Idealize.ShloMosaic.Lib.IdealHost
import Idealize.ShloMosaic.Lib.Pipeline.Value

noncomputable section

namespace Cert.RefIdx.DivMod

open Idealize.ShloMosaic Idealize.ShloMosaic.ValueIdx
open Cert.ReferenceIdeal Cert.RefIdx Cert.RefIdx.Words

variable [Cert.ReferenceIdeal.Facts]

/-! ## Words -/

theorem cmpi_ne_self (a : BitVec 32) : IntOp.cmpi .ne a a = 0#1 := by
  simp [IntOp.cmpi]

theorem cmpi_ne_self1 (a : BitVec 1) : IntOp.cmpi .ne a a = 0#1 := by
  simp [IntOp.cmpi]

theorem andi_zero_right (a : BitVec 1) : IntOp.andi a 0#1 = 0#1 := by
  show a &&& 0#1 = 0#1
  exact BitVec.and_zero

theorem andi_zero_left (a : BitVec 1) : IntOp.andi 0#1 a = 0#1 := by
  show 0#1 &&& a = 0#1
  exact BitVec.zero_and

/-- The sign of a positive small number is one. -/
theorem sign_pos {n : ℕ} (hn : n < 2 ^ 31) (h0 : n ≠ 0) :
    (if BitVec.ofNat 32 n = 0 then (0 : BitVec 32) else if (BitVec.ofNat 32 n).msb then -1 else 1) = 1 := by
  have hne : BitVec.ofNat 32 n ≠ 0 := fun h => h0 ((ofNat_inj_small hn (by decide)).mp h)
  rw [if_neg hne, msb_small hn]
  rfl

/-- A scalar broadcast over the 2016 positions reads the scalar. -/
theorem bcast_apply {α : Type} (y : S_.Idx → α) (i : S2016.Idx) :
    broadcastInDim S2016 ![] Facts₀.bcast_S_S2016 y i = y ix0 :=
  broadcastInDim_scalar_apply _ y i

/-! ## Floor division by a positive constant -/

section
variable (arg0 : I32 S2016) (d : ℕ) (hd0 : 0 < d) (hd : d < 2 ^ 31) (i : S2016.Idx) (n : ℕ) (hn : n < 2 ^ 31)
  (h : arg0 i = BitVec.ofNat 32 n)

include hd0 hd hn h

theorem fd_v1 : FloorDivide.v1 arg0 (constantI S_ 32 (BitVec.ofNat 32 d)) i = BitVec.ofNat 32 (n / d) := by
  show IntOp.divsi .host (arg0 i) (broadcastInDim S2016 ![] Facts₀.bcast_S_S2016 (constantI S_ 32 (BitVec.ofNat 32 d)) i) = _
  rw [bcast_apply, h]
  exact divsi_small hn hd hd0

theorem fd_v7 : FloorDivide.v7 arg0 (constantI S_ 32 (BitVec.ofNat 32 d)) i = BitVec.ofNat 32 (n % d) := by
  show IntOp.remsi .host (arg0 i) (broadcastInDim S2016 ![] Facts₀.bcast_S_S2016 (constantI S_ 32 (BitVec.ofNat 32 d)) i) = _
  rw [bcast_apply, h]
  exact remsi_small hn hd hd0

theorem fd_v10 : FloorDivide.v10 arg0 (constantI S_ 32 (BitVec.ofNat 32 d)) i = 0#1 := by
  show IntOp.andi (FloorDivide.v5 arg0 (constantI S_ 32 (BitVec.ofNat 32 d)) i)
    (FloorDivide.v9 arg0 (constantI S_ 32 (BitVec.ofNat 32 d)) i) = 0#1
  by_cases h0 : n = 0
  · have h9 : FloorDivide.v9 arg0 (constantI S_ 32 (BitVec.ofNat 32 d)) i = 0#1 := by
      show IntOp.cmpi .ne (FloorDivide.v7 arg0 (constantI S_ 32 (BitVec.ofNat 32 d)) i)
        (broadcastInDim S2016 ![] Facts₀.bcast_S_S2016 FloorDivide.c i) = 0#1
      rw [fd_v7 arg0 d hd0 hd i n hn h, bcast_apply, h0, Nat.zero_mod]
      exact cmpi_ne_self _
    rw [h9]; exact andi_zero_right _
  · have h5 : FloorDivide.v5 arg0 (constantI S_ 32 (BitVec.ofNat 32 d)) i = 0#1 := by
      show IntOp.cmpi .ne (signi arg0 i)
        (broadcastInDim S2016 ![] Facts₀.bcast_S_S2016 (FloorDivide.v3 (constantI S_ 32 (BitVec.ofNat 32 d))) i) = 0#1
      rw [bcast_apply]
      have e1 : signi arg0 i = 1 := by
        show (if arg0 i = 0 then (0 : BitVec 32) else if (arg0 i).msb then -1 else 1) = 1
        rw [h]; exact sign_pos hn h0
      have e2 : FloorDivide.v3 (constantI S_ 32 (BitVec.ofNat 32 d)) ix0 = 1 := by
        show (if BitVec.ofNat 32 d = 0 then (0 : BitVec 32) else if (BitVec.ofNat 32 d).msb then -1 else 1) = 1
        exact sign_pos hd (by omega)
      rw [e1, e2]; exact cmpi_ne_self _
    rw [h5]; exact andi_zero_left _

/-- Floor division of a small number by a positive constant is the quotient of the numbers. -/
theorem floorDivide_apply :
    FloorDivide.out arg0 (constantI S_ 32 (BitVec.ofNat 32 d)) i = BitVec.ofNat 32 (n / d) := by
  show Scalar.select (FloorDivide.v10 arg0 (constantI S_ 32 (BitVec.ofNat 32 d)) i)
    (FloorDivide.v12 arg0 (constantI S_ 32 (BitVec.ofNat 32 d)) i)
    (FloorDivide.v1 arg0 (constantI S_ 32 (BitVec.ofNat 32 d)) i) = _
  rw [fd_v10 arg0 d hd0 hd i n hn h, select_zero, fd_v1 arg0 d hd0 hd i n hn h]

/-! ## Remainder by a positive constant -/

theorem rm_v2 : Remainder.v2 (constantI S_ 32 (BitVec.ofNat 32 d)) ix0 = BitVec.ofNat 32 d := by
  show Scalar.select (IntOp.cmpi .eq (BitVec.ofNat 32 d) 0#32) 1#32 (BitVec.ofNat 32 d) = _
  have hne : BitVec.ofNat 32 d ≠ 0#32 := fun e => by
    have := (ofNat_inj_small hd (by decide)).mp e; omega
  have : IntOp.cmpi .eq (BitVec.ofNat 32 d) 0#32 = 0#1 := by
    show BitVec.ofBool (BitVec.ofNat 32 d == 0#32) = 0#1
    rw [beq_eq_false_iff_ne.mpr hne]
    rfl
  rw [this, select_zero]

theorem rm_v4 : Remainder.v4 arg0 (constantI S_ 32 (BitVec.ofNat 32 d)) i = BitVec.ofNat 32 (n % d) := by
  show IntOp.remsi .host (arg0 i)
    (broadcastInDim S2016 ![] Facts₀.bcast_S_S2016 (Remainder.v2 (constantI S_ 32 (BitVec.ofNat 32 d))) i) = _
  rw [bcast_apply, rm_v2 arg0 d hd0 hd i n hn h, h]
  exact remsi_small hn hd hd0

theorem rm_v12 : Remainder.v12 arg0 (constantI S_ 32 (BitVec.ofNat 32 d)) i = 0#1 := by
  show IntOp.andi (Remainder.v11 arg0 (constantI S_ 32 (BitVec.ofNat 32 d)) i)
    (Remainder.v6 arg0 (constantI S_ 32 (BitVec.ofNat 32 d)) i) = 0#1
  have hlt : n % d < 2 ^ 31 := lt_of_le_of_lt (Nat.mod_le _ _) hn
  have h8 : Remainder.v8 arg0 (constantI S_ 32 (BitVec.ofNat 32 d)) i = 0#1 := by
    show IntOp.cmpi .slt (Remainder.v4 arg0 (constantI S_ 32 (BitVec.ofNat 32 d)) i)
      (broadcastInDim S2016 ![] Facts₀.bcast_S_S2016 Remainder.c_2 i) = 0#1
    rw [rm_v4 arg0 d hd0 hd i n hn h, bcast_apply]
    exact cmpi_slt_zero hlt
  have h10 : Remainder.v10 (constantI S_ 32 (BitVec.ofNat 32 d)) i = 0#1 := by
    show broadcastInDim S2016 ![] Facts₀.bcast_S_S2016 (Remainder.v9 (constantI S_ 32 (BitVec.ofNat 32 d))) i = 0#1
    rw [bcast_apply]
    show IntOp.cmpi .slt (Remainder.v2 (constantI S_ 32 (BitVec.ofNat 32 d)) ix0) 0#32 = 0#1
    rw [rm_v2 arg0 d hd0 hd i n hn h]
    exact cmpi_slt_zero hd
  have h11 : Remainder.v11 arg0 (constantI S_ 32 (BitVec.ofNat 32 d)) i = 0#1 := by
    show IntOp.cmpi .ne (Remainder.v8 arg0 (constantI S_ 32 (BitVec.ofNat 32 d)) i)
      (Remainder.v10 (constantI S_ 32 (BitVec.ofNat 32 d)) i) = 0#1
    rw [h8, h10]; exact cmpi_ne_self1 _
  rw [h11]; exact andi_zero_left _

/-- The remainder of a small number by a positive constant is the remainder of the numbers. -/
theorem remainder_apply :
    Remainder.out arg0 (constantI S_ 32 (BitVec.ofNat 32 d)) i = BitVec.ofNat 32 (n % d) := by
  show Scalar.select (Remainder.v12 arg0 (constantI S_ 32 (BitVec.ofNat 32 d)) i)
    (Remainder.v14 arg0 (constantI S_ 32 (BitVec.ofNat 32 d)) i)
    (Remainder.v4 arg0 (constantI S_ 32 (BitVec.ofNat 32 d)) i) = _
  rw [rm_v12 arg0 d hd0 hd i n hn h, select_zero, rm_v4 arg0 d hd0 hd i n hn h]

end

/-! ## Row and column -/

section
variable (g : Fin 2016 → ℕ) (hv : ∀ p : Fin 2016, v16 (ix1 p) = BitVec.ofNat 32 (g p)) (hg : ∀ p, g p < 4096)

include hv hg

theorem v18_apply (p : Fin 2016) : v18 (ix1 p) = BitVec.ofNat 32 (g p / 64 % 64) := by
  have h17 : v17 (ix1 p) = BitVec.ofNat 32 (g p / 64) :=
    floorDivide_apply v16 64 (by decide) (by decide) (ix1 p) (g p) (by have := hg p; omega) (hv p)
  exact remainder_apply v17 64 (by decide) (by decide) (ix1 p) (g p / 64) (by have := hg p; omega) h17

theorem v20_apply (p : Fin 2016) : v20 (ix1 p) = BitVec.ofNat 32 (g p % 64) := by
  have h19 : v19 (ix1 p) = BitVec.ofNat 32 (g p / 1) :=
    floorDivide_apply v16 1 (by decide) (by decide) (ix1 p) (g p) (by have := hg p; omega) (hv p)
  rw [Nat.div_one] at h19
  exact remainder_apply v19 64 (by decide) (by decide) (ix1 p) (g p) (by have := hg p; omega) h19

theorem v25_apply (p : Fin 2016) : v25 (ix1 p) = BitVec.ofNat 32 (g p / 64 % 64) := by
  show Scalar.select (IntOp.cmpi .slt (v18 (ix1 p)) (broadcastInDim S2016 ![] Facts₀.bcast_S_S2016 c_9 (ix1 p)))
    (v24 (ix1 p)) (v18 (ix1 p)) = _
  rw [v18_apply g hv hg p, bcast_apply]
  have : IntOp.cmpi .slt (BitVec.ofNat 32 (g p / 64 % 64)) (c_9 ix0) = 0#1 :=
    cmpi_slt_zero (by have := Nat.mod_lt (g p / 64) (show 0 < 64 by decide); omega)
  rw [this, select_zero]

theorem v30_apply (p : Fin 2016) : v30 (ix1 p) = BitVec.ofNat 32 (g p % 64) := by
  show Scalar.select (IntOp.cmpi .slt (v20 (ix1 p)) (broadcastInDim S2016 ![] Facts₀.bcast_S_S2016 c_11 (ix1 p)))
    (v29 (ix1 p)) (v20 (ix1 p)) = _
  rw [v20_apply g hv hg p, bcast_apply]
  have : IntOp.cmpi .slt (BitVec.ofNat 32 (g p % 64)) (c_11 ix0) = 0#1 :=
    cmpi_slt_zero (by have := Nat.mod_lt (g p) (show 0 < 64 by decide); omega)
  rw [this, select_zero]

/-- A vector laid out as one column reads, at (p, 0), its entry p. -/
theorem col_apply (v : I32 S2016) (p : Fin 2016) :
    broadcastInDim S2016x1 ![0] Facts₀.bcast_S2016_S2016x1_0 v (ix2 p (0 : Fin 1)) = v (ix1 p) :=
  broadcastInDim_apply _ _ v (ix2 p (0 : Fin 1)) (ix1 p) (fun a => by
    match a with
    | ⟨0, _⟩ => rfl)

/-- **The row of the p-th pair.** -/
theorem refIdx_row (p : Fin 2016) : refIdx (ix2 p 0) = BitVec.ofNat 32 (g p / 64 % 64) := by
  unfold refIdx
  rw [concatenate_pair_apply_left (1 : Fin 2) v31 v32 Facts₀.concatenates_S2016x1_S2016x1_S2016x2_d1
    (ix2 p (0 : Fin 2)) rfl (ix2 p (0 : Fin 1)) (fun c => by
      match c with
      | ⟨0, _⟩ => rfl
      | ⟨1, _⟩ => rfl)]
  unfold v31
  rw [col_apply g hv hg, v25_apply g hv hg p]

/-- **The column of the p-th pair.** -/
theorem refIdx_col (p : Fin 2016) : refIdx (ix2 p 1) = BitVec.ofNat 32 (g p % 64) := by
  unfold refIdx
  rw [concatenate_pair_apply_right (1 : Fin 2) v31 v32 Facts₀.concatenates_S2016x1_S2016x1_S2016x2_d1
    (ix2 p (1 : Fin 2)) rfl rfl (ix2 p (0 : Fin 1)) (fun c hc => by
      match c with
      | ⟨0, _⟩ => rfl
      | ⟨1, _⟩ => exact absurd rfl hc) rfl]
  unfold v32
  rw [col_apply g hv hg, v30_apply g hv hg p]

end

end Cert.RefIdx.DivMod

end
-- ==== Proof.RefIdx.lean ====
import proofs.«128613_j14594298872614_2_alg».proof.Proof.RefIdxRead
import proofs.«128613_j14594298872614_2_alg».proof.Proof.RefIdxTbl
import proofs.«128613_j14594298872614_2_alg».proof.Proof.RefIdxDivMod

/-!
# The reference's computed index pairs are the kernel's literal table

The reference computes, for the `p`-th entry of the strict upper triangle of a 64 × 64 matrix in row-major order, its
flat position as a sum of counts of prefix counts, and from it the row (quotient by 64) and the column (remainder by
64). The kernel is handed the flat positions as a literal table. The table is the increasing enumeration of the
triangle, so the computed flat position of entry `p` is the table's `p`-th entry, and the reference's row and column
are the table entry's quotient and remainder by 64.
-/

noncomputable section

namespace Cert.RefIdx

open Idealize.ShloMosaic Idealize.ShloMosaic.ValueIdx
open Cert.ReferenceIdeal

variable [Cert.ReferenceIdeal.Facts]

/-- The computed flat position of the `p`-th entry is the table's `p`-th entry. -/
theorem v16_eq_tbl (p : Fin 2016) : v16 (ix1 p) = BitVec.ofNat 32 (tbl p) := by
  rw [v16_apply, flat_eq_tbl]

/-- The reference's row of the `p`-th entry. -/
theorem refIdx_row (p : Fin 2016) : refIdx (ix2 p 0) = BitVec.ofNat 32 (tbl p / 64 % 64) :=
  DivMod.refIdx_row tbl v16_eq_tbl tbl_lt p

/-- The reference's column of the `p`-th entry. -/
theorem refIdx_col (p : Fin 2016) : refIdx (ix2 p 1) = BitVec.ofNat 32 (tbl p % 64) :=
  DivMod.refIdx_col tbl v16_eq_tbl tbl_lt p

end Cert.RefIdx
-- ==== Proof.RefTerm.lean ====
/-
  The floating-point part of the reference program as one pure term.

  Each definition below is one printed operation of the reference (same operation, same dimension
  record, same stated fact), applied to the definitions of the values it reads, in the order of the
  printed text.  The integer prelude that computes the pair table of strictly-upper-triangular
  positions is not repeated here: the term takes that table as its first argument `idx`.
-/
import proofs.«128613_j14594298872614_2_alg».proof.ReferenceIdeal
import Idealize.ShloMosaic.PureOps.Ideal

noncomputable section

namespace Cert.RefTerm

open Idealize.ShloMosaic
open Cert.ReferenceIdeal
open Cert.ReferenceIdeal.Facts₀

variable [Cert.ReferenceIdeal.Facts]

/-- Arrays of 32-bit floats of shape `s` at the ideal instance. -/
abbrev Arr (s : Shape) : Type := (⟨s, .f32⟩ : BufTy).Contents (Elt Ideal)
/-- Arrays of one-bit words of shape `s`. -/
abbrev Msk (s : Shape) : Type := (⟨s, .i1⟩ : BufTy).Contents (Elt Ideal)

/-! ## The private functions: select with a scalar branch, select, the exponential linear unit,
    its scaled form, the rectifier -/

/-- `where(c, a, b)` with a rank-zero `a`: convert (the identity), broadcast, select. -/
def where4 (c : Msk S16384x256) (a : Arr S_) (b : Arr S16384x256) : Arr S16384x256 :=
  select c (broadcastInDim S16384x256 ![] bcast_S_S16384x256 (id a)) b

/-- `where(c, a, b)`: one select. -/
def where5 (c : Msk S16384x256) (a b : Arr S16384x256) : Arr S16384x256 :=
  select c a b

/-- The rank-zero float zero. -/
def zero0 : Arr S_ := constant (F := Ideal) S_ .f32 0x00000000#32

/-- The exponential linear unit with saturation `a`:
    `where(x > 0, x, a * expm1(where(x > 0, 0, x)))`. -/
def elu (x : Arr S16384x256) (a : Arr S_) : Arr S16384x256 :=
  where5 (cmpf (F := Ideal) (φ := .f32) .ogt x (broadcastInDim S16384x256 ![] bcast_S_S16384x256 zero0)) x
    (mulf (F := Ideal) (φ := .f32) (broadcastInDim S16384x256 ![] bcast_S_S16384x256 (id a))
      (Host.expm1 (F := Ideal) (φ := .f32) (where4 (cmpf (F := Ideal) (φ := .f32) .ogt x (broadcastInDim S16384x256 ![] bcast_S_S16384x256 zero0)) zero0 x)))

/-- The scaled exponential linear unit: the scale constant times `elu` at the saturation constant. -/
def selu (x : Arr S16384x256) : Arr S16384x256 :=
  mulf (F := Ideal) (φ := .f32) (broadcastInDim S16384x256 ![] bcast_S_S16384x256 (constant (F := Ideal) S_ .f32 0x3F867D5F#32))
    (elu x (constant (F := Ideal) S_ .f32 0x3FD62D7D#32))

/-- The rectifier: the maximum with the broadcast zero. -/
def relu (x : Arr S16384x256) : Arr S16384x256 :=
  maximumf (F := Ideal) (φ := .f32) x (broadcastInDim S16384x256 ![] bcast_S_S16384x256 zero0)

/-! ## The main function's float values, in the order of the text -/

section
variable (idx : (⟨S2016x2, .i32⟩ : BufTy).Contents (Elt Ideal))
  (x : Arr S16384x64x32) (W1 : Arr S2048x256) (b1 : Arr S256) (W2 : Arr S256x256) (b2 : Arr S256)
  (W3 : Arr S256x128) (b3 : Arr S128) (Wc1 : Arr S2176x256) (bc1 : Arr S256) (Wc2 : Arr S256x1) (bc2 : Arr S1)

/-- The batched Gram product: batch axis 0, contraction over the last axis of both operands. -/
def v0 : Arr S16384x64x64 :=
  Host.dotGeneral (F := Ideal) (φ₁ := .f32) (φ₂ := .f32) dot_S16384x64x32_S16384x64x32_S16384x64x64_2_2_1_1_0_0 none x x

/-- The gather of the Gram entries at the table's pairs. -/
def v34 : Arr S16384x2016 :=
  Host.gather gather_S16384x64x64_S2016x2_S16384x2016_0_12_n_n_12_1_1638411 (v0 x) idx

/-- The features flattened per row. -/
def v35 : Arr S16384x2048 :=
  fun i => shapeCast S16384x2048 x shapeCasts_S16384x64x32_S16384x2048 i

/-- First layer before its unit. -/
def v39 : Arr S16384x256 :=
  addf (F := Ideal) (φ := .f32) (Host.dotGeneral (F := Ideal) (φ₁ := .f32) (φ₂ := .f32) dot_S16384x2048_S2048x256_S16384x256_1_0_0_1_n_n none (v35 x) W1)
    (broadcastInDim S16384x256 ![0, 1] bcast_S1x256_S16384x256_0_1 (broadcastInDim S1x256 ![1] bcast_S256_S1x256_1 b1))

/-- First layer. -/
def v40 : Arr S16384x256 := selu (v39 x W1 b1)

/-- Second layer before its unit. -/
def v44 : Arr S16384x256 :=
  addf (F := Ideal) (φ := .f32) (Host.dotGeneral (F := Ideal) (φ₁ := .f32) (φ₂ := .f32) dot_S16384x256_S256x256_S16384x256_1_0_0_1_n_n none (v40 x W1 b1) W2)
    (broadcastInDim S16384x256 ![0, 1] bcast_S1x256_S16384x256_0_1 (broadcastInDim S1x256 ![1] bcast_S256_S1x256_1 b2))

/-- Second layer. -/
def v45 : Arr S16384x256 := selu (v44 x W1 b1 W2 b2)

/-- Third layer (affine). -/
def v49 : Arr S16384x128 :=
  addf (F := Ideal) (φ := .f32) (Host.dotGeneral (F := Ideal) (φ₁ := .f32) (φ₂ := .f32) dot_S16384x256_S256x128_S16384x128_1_0_0_1_n_n none (v45 x W1 b1 W2 b2) W3)
    (broadcastInDim S16384x128 ![0, 1] bcast_S1x128_S16384x128_0_1 (broadcastInDim S1x128 ![1] bcast_S128_S1x128_1 b3))

/-- The sum of the 64 feature vectors of each row. -/
def v50 : Arr S16384x32 :=
  Host.reduceAdd (F := Ideal) (φ := .f32) x zero0 reducesTo_S16384x64x32_S16384x32_d1 h_S_

/-- The three groups side by side. -/
def v51 : Arr S16384x2176 :=
  concatenate S16384x2176 1 [⟨S16384x128, v49 x W1 b1 W2 b2 W3 b3⟩, ⟨S16384x2016, v34 idx x⟩, ⟨S16384x32, v50 x⟩]
    concatenates_S16384x128_S16384x2016_S16384x32_S16384x2176_d1

/-- The combining layer before its rectifier. -/
def v55 : Arr S16384x256 :=
  addf (F := Ideal) (φ := .f32) (Host.dotGeneral (F := Ideal) (φ₁ := .f32) (φ₂ := .f32) dot_S16384x2176_S2176x256_S16384x256_1_0_0_1_n_n none (v51 idx x W1 b1 W2 b2 W3 b3) Wc1)
    (broadcastInDim S16384x256 ![0, 1] bcast_S1x256_S16384x256_0_1 (broadcastInDim S1x256 ![1] bcast_S256_S1x256_1 bc1))

/-- The combining layer. -/
def v56 : Arr S16384x256 := relu (v55 idx x W1 b1 W2 b2 W3 b3 Wc1 bc1)

/-- The result: the last affine layer. -/
def refOut : Arr S16384x1 :=
  addf (F := Ideal) (φ := .f32) (Host.dotGeneral (F := Ideal) (φ₁ := .f32) (φ₂ := .f32) dot_S16384x256_S256x1_S16384x1_1_0_0_1_n_n none (v56 idx x W1 b1 W2 b2 W3 b3 Wc1 bc1) Wc2)
    (broadcastInDim S16384x1 ![0, 1] bcast_S1x1_S16384x1_0_1 (broadcastInDim S1x1 ![1] bcast_S1_S1x1_1 bc2))

end

end Cert.RefTerm

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«128613_j14594298872614_2_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«128613_j14594298872614_2_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.RefValueOps.lean ====
/-
  The operations of the reference's pure term, each read at an index.

  * the batched Gram product at (b, i, j) is the sum over d of x(b, i, d) · x(b, j, d);
  * the gather of single entries at (b, p) is the operand at (b, r, c) where r and c are the two
    components of the p-th start index, read signed and clamped into [0, 63];
  * the reshape of each row's 64×32 block to 2048 entries at (b, k) is x(b, k / 32, k % 32);
  * the reduction over the middle axis at (b, d) is the sum over i of x(b, i, d) (the initial value is zero);
  * the scaled exponential linear unit and the rectifier, entry by entry;
  * the concatenation of three groups of columns read in each group, and the splitting of a sum
    over the 2176 columns into the three groups;
  * a 32-bit word holding a number below 64, read signed and clamped into [0, 63], is that number.
-/
import proofs.«128613_j14594298872614_2_alg».proof.Proof.RefTerm
import proofs.«128613_j14594298872614_2_alg».proof.Proof.Spec
import proofs.«128613_j14594298872614_2_alg».proof.Proof.LibHostAffine
import Idealize.ShloMosaic.Lib.Pipeline.Value
import Idealize.ShloMosaic.Lib.ValueIdx
import Idealize.ShloMosaic.PureOps.IdealRules

noncomputable section

open scoped BigOperators

namespace Cert.RefValue

open Idealize.ShloMosaic Idealize.ShloMosaic.ValueIdx
open Cert.ReferenceIdeal Cert.RefTerm

variable [Cert.ReferenceIdeal.Facts]

/-! ## The Gram product -/

abbrev gramD := dot_S16384x64x32_S16384x64x32_S16384x64x64_2_2_1_1_0_0

theorem gram_contr_rank : gramD.contr.rank = 1 := by
  rw [DotDims.rank_contr]; rfl

theorem gram_contr_size : gramD.contr.size ⟨0, by rw [gram_contr_rank]; exact Nat.one_pos⟩ = 32 := by
  have h := gramD.size_contr 0 (by show 0 < [(2 : Fin 3)].length; exact Nat.one_pos)
  rw [h]; rfl

theorem gram_lhsIdx (b : Fin 16384) (i j : Fin 64) (k : Fin 32) :
    gramD.lhsIdx (ix3 b i j) ((contrEquiv1 gramD 32 gram_contr_rank gram_contr_size).symm k) = ix3 b i k := by
  funext c
  apply Fin.ext
  match c with
  | ⟨0, _⟩ => rfl
  | ⟨1, _⟩ => rfl
  | ⟨2, _⟩ =>
    show (gramD.lhsIdx (ix3 b i j) _ (2 : Fin 3)).val = k.val
    rw [DotDims.lhsIdx_val_of_single gramD (cl := (2 : Fin 3)) rfl]
    exact contrEquiv1_symm_val gramD 32 gram_contr_rank gram_contr_size k

theorem gram_rhsIdx (b : Fin 16384) (i j : Fin 64) (k : Fin 32) :
    gramD.rhsIdx (ix3 b i j) ((contrEquiv1 gramD 32 gram_contr_rank gram_contr_size).symm k) = ix3 b j k := by
  funext c
  apply Fin.ext
  match c with
  | ⟨0, _⟩ => rfl
  | ⟨1, _⟩ => rfl
  | ⟨2, _⟩ =>
    show (gramD.rhsIdx (ix3 b i j) _ (2 : Fin 3)).val = k.val
    rw [DotDims.rhsIdx_val_of_single gramD (cr := (2 : Fin 3)) rfl]
    exact contrEquiv1_symm_val gramD 32 gram_contr_rank gram_contr_size k

theorem v0_apply (x : Arr S16384x64x32) (b : Fin 16384) (i j : Fin 64) :
    v0 x (ix3 b i j) = ∑ d : Fin 32, x (ix3 b i d) * x (ix3 b j d) := by
  unfold v0
  simp only [Host.dotGeneral]
  rw [Ideal.dotGeneral_apply]
  rw [← Equiv.sum_comp (contrEquiv1 gramD 32 gram_contr_rank gram_contr_size).symm]
  refine Finset.sum_congr rfl fun k _ => ?_
  rw [gram_lhsIdx b i j k, gram_rhsIdx b i j k]

/-! ## The gather -/

abbrev gD := gather_S16384x64x64_S2016x2_S16384x2016_0_12_n_n_12_1_1638411

theorem gather_apply {α : Type} (g : (S16384x64x64).Idx → α) (idx : IVec S2016x2 32) (b : Fin 16384) (p : Fin 2016) :
    Host.gather gD g idx (ix2 b p)
      = g (ix3 b ⟨min (idx (ix2 p (0 : Fin 2))).toInt.toNat 63, by omega⟩ ⟨min (idx (ix2 p (1 : Fin 2))).toInt.toNat 63, by omega⟩) := by
  have m0 : ¬ ((0 : Fin 3) ∈ gD.startIndexMap) := by
    show ¬ ((0 : Fin 3) ∈ [(1 : Fin 3), 2]); decide
  have m1 : (1 : Fin 3) ∈ gD.startIndexMap := by
    show (1 : Fin 3) ∈ [(1 : Fin 3), 2]; decide
  have m2 : (2 : Fin 3) ∈ gD.startIndexMap := by
    show (2 : Fin 3) ∈ [(1 : Fin 3), 2]; decide
  unfold Host.gather
  congr 1
  funext a
  refine Fin.ext ?_
  match a with
  | ⟨0, _⟩ =>
    show gD.start (ix2 b p) idx (0 : Fin 3) + gD.batchCoord (ix2 b p) (0 : Fin 3) + gD.offCoord (ix2 b p) (0 : Fin 3) = b.val
    rw [GatherDims.batchCoord_eq_zero _ _ _ List.not_mem_nil]
    unfold GatherDims.start
    rw [dif_neg m0]
    unfold GatherDims.offCoord
    rw [dif_pos ((gD.mem_sKept 0).mpr ⟨show ¬ ((0 : Fin 3) ∈ [(1 : Fin 3), 2]) from by decide, List.not_mem_nil⟩)]
    simp only [Nat.zero_add]
    refine Cert.LibMatmulNN.ix2_val_zero b p _ _ ?_
    have hoff : ∀ (n : Nat) (hn : n < gD.offsetDims.length), (gD.offsetDims[n]'hn).val = 0 := by
      intro n hn
      have h1 : gD.offsetDims.length = 1 := rfl
      have : n = 0 := by omega
      subst this; rfl
    first | rfl | exact hoff _ _
  | ⟨1, _⟩ =>
    show gD.start (ix2 b p) idx (1 : Fin 3) + gD.batchCoord (ix2 b p) (1 : Fin 3) + gD.offCoord (ix2 b p) (1 : Fin 3) = _
    rw [GatherDims.batchCoord_eq_zero _ _ _ List.not_mem_nil,
      GatherDims.offCoord_eq_zero _ _ _ (fun h => ((GatherDims.mem_sKept _ _).mp h).1 (show (1 : Fin 3) ∈ [(1 : Fin 3), 2] from by decide))]
    simp only [Nat.add_zero]
    unfold GatherDims.start
    rw [dif_pos m1]
    have hsi : gD.siIdx (ix2 b p) ⟨List.idxOf (1 : Fin 3) gD.startIndexMap,
        List.idxOf_lt_length_iff.2 m1⟩ = ix2 p (0 : Fin 2) := by
      funext c; refine Fin.ext ?_
      match c with
      | ⟨0, _⟩ => rfl
      | ⟨1, _⟩ => rfl
    rw [hsi]
    rfl
  | ⟨2, _⟩ =>
    show gD.start (ix2 b p) idx (2 : Fin 3) + gD.batchCoord (ix2 b p) (2 : Fin 3) + gD.offCoord (ix2 b p) (2 : Fin 3) = _
    rw [GatherDims.batchCoord_eq_zero _ _ _ List.not_mem_nil,
      GatherDims.offCoord_eq_zero _ _ _ (fun h => ((GatherDims.mem_sKept _ _).mp h).1 (show (2 : Fin 3) ∈ [(1 : Fin 3), 2] from by decide))]
    simp only [Nat.add_zero]
    unfold GatherDims.start
    rw [dif_pos m2]
    have hsi : gD.siIdx (ix2 b p) ⟨List.idxOf (2 : Fin 3) gD.startIndexMap,
        List.idxOf_lt_length_iff.2 m2⟩ = ix2 p (1 : Fin 2) := by
      funext c; refine Fin.ext ?_
      match c with
      | ⟨0, _⟩ => rfl
      | ⟨1, _⟩ => rfl
    rw [hsi]
    rfl

/-! ## Reshape, column sums, the two units -/

theorem v35_apply (x : Arr S16384x64x32) (b : Fin 16384) (k : Fin 2048) :
    v35 x (ix2 b k) = x (ix3 b ⟨k.val / 32, by omega⟩ ⟨k.val % 32, Nat.mod_lt _ (by decide)⟩) := by
  unfold v35
  refine shapeCast_apply x _ (ix2 b k) _ ?_
  rw [Shape.rowMajor_val_three, Shape.rowMajor_val_two]
  show (b.val * 64 + k.val / 32) * 32 + k.val % 32 = b.val * 2048 + k.val
  omega

theorem v50_apply (x : Arr S16384x64x32) (b : Fin 16384) (d : Fin 32) :
    v50 x (ix2 b d) = ∑ i : Fin 64, x (ix3 b i d) := by
  unfold v50 Host.reduceAdd
  rw [Ideal.hostReduceAdd_def]
  have hR : S16384x64x32.Reduces [1] S16384x32 := by decide
  rw [Ideal.hostReduceAdd_single _ hR]
  show Ideal.ofBits .f32 0x00000000#32 + _ = _
  rw [Ideal.ofBits_zero_f32, zero_add]
  refine Finset.sum_congr rfl fun i _ => ?_
  congr 1
  funext c; apply Fin.ext
  match c with
  | ⟨0, _⟩ => rfl
  | ⟨1, _⟩ => rfl
  | ⟨2, _⟩ => rfl

theorem one_eq : Ideal.ofBits .f32 0x3F800000#32 = 1 := IdealRules.sign_bit.ideal_onePat .f32

theorem selu_apply (v : Arr S16384x256) (i : S16384x256.Idx) : RefTerm.selu v i = Cert.DeepFM.selu (v i) := by
  have hb : ∀ (y : Arr S_), broadcastInDim S16384x256 ![] Facts₀.bcast_S_S16384x256 y i = y ix0 :=
    fun y => broadcastInDim_apply _ _ y i ix0 (fun a => a.elim0)
  unfold RefTerm.selu
  rw [mulf_apply, hb]
  unfold elu where5 where4
  rw [select_apply, mulf_apply, hb, cmpf_apply, hb]
  unfold Host.expm1
  rw [select_apply, hb]
  unfold Cert.DeepFM.selu Cert.DeepFM.sc Cert.DeepFM.al Cert.DeepFM.zero Cert.DeepFM.one
  rw [one_eq]
  show Ideal.ofBits .f32 0x3F867D5F#32 * Scalar.select (Ideal.cmp .ogt (v i) (Ideal.ofBits .f32 0x00000000#32)) (v i)
      (Ideal.ofBits .f32 0x3FD62D7D#32 * (Ideal.exp (Scalar.select (Ideal.cmp .ogt (v i) (Ideal.ofBits .f32 0x00000000#32)) (Ideal.ofBits .f32 0x00000000#32) (v i)) - 1)) = _
  by_cases hc : Ideal.cmp .ogt (v i) (Ideal.ofBits .f32 0x00000000#32) = 1#1
  · rw [hc, select_one, select_one]
  · rw [eq_zero_of_ne_one hc, select_zero, select_zero, select_zero]

theorem relu_apply (v : Arr S16384x256) (i : S16384x256.Idx) : RefTerm.relu v i = max (v i) Cert.DeepFM.zero := by
  unfold RefTerm.relu
  rw [maximumf_apply, broadcastInDim_apply _ _ _ i ix0 (fun a => a.elim0)]
  rfl

/-! ## Three groups of columns -/

theorem sum_split3 {M : Type} [AddCommMonoid M] (f : Fin 2176 → M) :
    ∑ k, f k = (∑ k : Fin 128, f ⟨k.val, by omega⟩) + (∑ p : Fin 2016, f ⟨128 + p.val, by omega⟩)
      + (∑ d : Fin 32, f ⟨2144 + d.val, by omega⟩) := by
  show ∑ k : Fin (128 + 2016 + 32), f k = _
  rw [Fin.sum_univ_add, Fin.sum_univ_add]
  rfl

theorem toNat_small (n : Nat) (hn : n < 64) : min (BitVec.ofNat 32 n).toInt.toNat 63 = n := by
  rw [BitVec.toInt_eq_toNat_cond, BitVec.toNat_ofNat]
  have : n % 2 ^ 32 = n := Nat.mod_eq_of_lt (by omega)
  rw [this]
  split <;> omega

section
variable {α : Type} (A : (S16384x128).Idx → α) (B : (S16384x2016).Idx → α) (C : (S16384x32).Idx → α)

abbrev cat3 : (S16384x2176).Idx → α :=
  concatenate S16384x2176 1 [⟨S16384x128, A⟩, ⟨S16384x2016, B⟩, ⟨S16384x32, C⟩]
    Facts₀.concatenates_S16384x128_S16384x2016_S16384x32_S16384x2176_d1

theorem cat3_left (b : Fin 16384) (k : Fin 128) :
    cat3 A B C (ix2 b (⟨k.val, by omega⟩ : Fin 2176)) = A (ix2 b k) := by
  refine concatenate_apply_piece (t := S16384x2176) (1 : Fin 2) [⟨S16384x128, A⟩, ⟨S16384x2016, B⟩, ⟨S16384x32, C⟩] Facts₀.concatenates_S16384x128_S16384x2016_S16384x32_S16384x2176_d1 (ix2 b (⟨k.val, by omega⟩ : Fin 2176)) 0 (show (0 : Nat) < 3 from by decide) S16384x128 A rfl rfl 0 rfl (ix2 b k) ?_ ?_
  · intro c hc
    match c with
    | ⟨0, _⟩ => rfl
    | ⟨1, _⟩ => exact absurd rfl hc
  · show 0 + k.val = k.val
    omega

theorem cat3_mid (b : Fin 16384) (p : Fin 2016) :
    cat3 A B C (ix2 b (⟨128 + p.val, by omega⟩ : Fin 2176)) = B (ix2 b p) := by
  refine concatenate_apply_piece (t := S16384x2176) (1 : Fin 2) [⟨S16384x128, A⟩, ⟨S16384x2016, B⟩, ⟨S16384x32, C⟩] Facts₀.concatenates_S16384x128_S16384x2016_S16384x32_S16384x2176_d1 (ix2 b (⟨128 + p.val, by omega⟩ : Fin 2176)) 1 (show (1 : Nat) < 3 from by decide) S16384x2016 B rfl rfl 128 rfl (ix2 b p) ?_ ?_
  · intro c hc
    match c with
    | ⟨0, _⟩ => rfl
    | ⟨1, _⟩ => exact absurd rfl hc
  · rfl

theorem cat3_right (b : Fin 16384) (d : Fin 32) :
    cat3 A B C (ix2 b (⟨2144 + d.val, by omega⟩ : Fin 2176)) = C (ix2 b d) := by
  refine concatenate_apply_piece (t := S16384x2176) (1 : Fin 2) [⟨S16384x128, A⟩, ⟨S16384x2016, B⟩, ⟨S16384x32, C⟩] Facts₀.concatenates_S16384x128_S16384x2016_S16384x32_S16384x2176_d1 (ix2 b (⟨2144 + d.val, by omega⟩ : Fin 2176)) 2 (show (2 : Nat) < 3 from by decide) S16384x32 C rfl rfl 2144 rfl (ix2 b d) ?_ ?_
  · intro c hc
    match c with
    | ⟨0, _⟩ => rfl
    | ⟨1, _⟩ => exact absurd rfl hc
  · rfl

end

end Cert.RefValue

end
-- ==== Proof.RefValue.lean ====
/-
  The reference's result read at a row, against the shared specification.

  Each layer of the pure term `Cert.RefTerm.refOut` is read at an index and identified with the
  corresponding function of the specification `Cert.DeepFM`: the three affine layers of the
  perceptron with the scaled exponential linear unit, the column sums, the Gram entries the pair
  table selects, the three groups laid side by side and met by the three groups of rows of the
  combining weight, the rectifier and the last affine layer.  The table hypothesis says that the
  pair at position `p` is (row `t p / 64 % 64`, column `t p % 64`); both are below 64, so the
  gather's clamp into [0, 63] leaves them unchanged.
-/
import proofs.«128613_j14594298872614_2_alg».proof.Proof.RefValueOps

noncomputable section

open scoped BigOperators

namespace Cert.RefValue

open Idealize.ShloMosaic Idealize.ShloMosaic.ValueIdx
open Cert.ReferenceIdeal Cert.RefTerm

variable [Cert.ReferenceIdeal.Facts]

section
variable (idx : (⟨S2016x2, .i32⟩ : BufTy).Contents (Elt Ideal)) (t : Fin 2016 → Nat)
  (hrow : ∀ p : Fin 2016, idx (ix2 p 0) = BitVec.ofNat 32 (t p / 64 % 64))
  (hcol : ∀ p : Fin 2016, idx (ix2 p 1) = BitVec.ofNat 32 (t p % 64))
  (x : Arr S16384x64x32) (W1 : Arr S2048x256) (b1 : Arr S256) (W2 : Arr S256x256) (b2 : Arr S256)
  (W3 : Arr S256x128) (b3 : Arr S128) (Wc1 : Arr S2176x256) (bc1 : Arr S256) (Wc2 : Arr S256x1) (bc2 : Arr S1)

/-- First layer before its unit, at (b, n). -/
theorem v39_eq (b : Fin 16384) (n : Fin 256) :
    v39 x W1 b1 (ix2 b n)
      = (∑ k : Fin 2048, Cert.DeepFM.xflat (fun b i d => x (ix3 b i d)) b k * W1 (ix2 k n)) + b1 (ix1 n) := by
  unfold v39
  refine (Cert.LibHostAffine.affine_apply (M := 16384) (K := 2048) (N := 256)
    dot_S16384x2048_S2048x256_S16384x256_1_0_0_1_n_n rfl rfl rfl rfl rfl rfl none (v35 x) W1 b1
    Facts₀.bcast_S256_S1x256_1 Facts₀.bcast_S1x256_S16384x256_0_1 b n).trans ?_
  refine congrArg (· + b1 (ix1 n)) (Finset.sum_congr rfl fun k _ => ?_)
  rw [v35_apply]
  rfl

/-- First layer. -/
theorem v40_eq (b : Fin 16384) (n : Fin 256) :
    v40 x W1 b1 (ix2 b n)
      = Cert.DeepFM.h1 (fun b i d => x (ix3 b i d)) (fun k n => W1 (ix2 k n)) (fun n => b1 (ix1 n)) b n := by
  unfold v40
  rw [selu_apply, v39_eq]
  rfl

/-- Second layer. -/
theorem v45_eq (b : Fin 16384) (n : Fin 256) :
    v45 x W1 b1 W2 b2 (ix2 b n)
      = Cert.DeepFM.h2 (fun b i d => x (ix3 b i d)) (fun k n => W1 (ix2 k n)) (fun n => b1 (ix1 n))
          (fun k n => W2 (ix2 k n)) (fun n => b2 (ix1 n)) b n := by
  unfold v45
  rw [selu_apply]
  unfold v44
  rw [Cert.LibHostAffine.affine_apply (M := 16384) (K := 256) (N := 256)
    dot_S16384x256_S256x256_S16384x256_1_0_0_1_n_n rfl rfl rfl rfl rfl rfl none (v40 x W1 b1) W2 b2
    Facts₀.bcast_S256_S1x256_1 Facts₀.bcast_S1x256_S16384x256_0_1 b n]
  unfold Cert.DeepFM.h2
  refine congrArg (fun s => Cert.DeepFM.selu (s + b2 (ix1 n))) (Finset.sum_congr rfl fun k _ => ?_)
  rw [v40_eq]

/-- Third layer: the higher-order features. -/
theorem v49_eq (b : Fin 16384) (n : Fin 128) :
    v49 x W1 b1 W2 b2 W3 b3 (ix2 b n)
      = Cert.DeepFM.hoi (fun b i d => x (ix3 b i d)) (fun k n => W1 (ix2 k n)) (fun n => b1 (ix1 n))
          (fun k n => W2 (ix2 k n)) (fun n => b2 (ix1 n)) (fun k n => W3 (ix2 k n)) (fun n => b3 (ix1 n)) b n := by
  unfold v49
  rw [Cert.LibHostAffine.affine_apply (M := 16384) (K := 256) (N := 128)
    dot_S16384x256_S256x128_S16384x128_1_0_0_1_n_n rfl rfl rfl rfl rfl rfl none (v45 x W1 b1 W2 b2) W3 b3
    Facts₀.bcast_S128_S1x128_1 Facts₀.bcast_S1x128_S16384x128_0_1 b n]
  unfold Cert.DeepFM.hoi
  refine congrArg (· + b3 (ix1 n)) (Finset.sum_congr rfl fun k _ => ?_)
  rw [v45_eq]

/-- The first-order features. -/
theorem v50_eq (b : Fin 16384) (d : Fin 32) :
    v50 x (ix2 b d) = Cert.DeepFM.fo (fun b i d => x (ix3 b i d)) b d := by
  rw [v50_apply]
  rfl

include hrow hcol in
/-- The gathered Gram entries: the clamp is the identity on the table's pairs. -/
theorem v34_eq (b : Fin 16384) (p : Fin 2016) :
    v34 idx x (ix2 b p) = Cert.DeepFM.soi t (fun b i d => x (ix3 b i d)) b p := by
  unfold v34
  rw [gather_apply]
  have e0 : (⟨min (idx (ix2 p (0 : Fin 2))).toInt.toNat 63, by omega⟩ : Fin 64)
      = ⟨t p / 64 % 64, Nat.mod_lt _ (by decide)⟩ :=
    Fin.ext (by
      show min (idx (ix2 p (0 : Fin 2))).toInt.toNat 63 = t p / 64 % 64
      rw [hrow p]; exact toNat_small _ (Nat.mod_lt _ (by decide)))
  have e1 : (⟨min (idx (ix2 p (1 : Fin 2))).toInt.toNat 63, by omega⟩ : Fin 64)
      = ⟨t p % 64, Nat.mod_lt _ (by decide)⟩ :=
    Fin.ext (by
      show min (idx (ix2 p (1 : Fin 2))).toInt.toNat 63 = t p % 64
      rw [hcol p]; exact toNat_small _ (Nat.mod_lt _ (by decide)))
  rw [e0, e1, v0_apply]
  rfl

include hrow hcol in
/-- The combining layer before its rectifier. -/
theorem v55_eq (b : Fin 16384) (n : Fin 256) :
    v55 idx x W1 b1 W2 b2 W3 b3 Wc1 bc1 (ix2 b n)
      = Cert.DeepFM.pre t (fun b i d => x (ix3 b i d)) (fun k n => W1 (ix2 k n)) (fun n => b1 (ix1 n))
          (fun k n => W2 (ix2 k n)) (fun n => b2 (ix1 n)) (fun k n => W3 (ix2 k n)) (fun n => b3 (ix1 n))
          (fun k n => Wc1 (ix2 k n)) (fun n => bc1 (ix1 n)) b n := by
  unfold v55
  rw [Cert.LibHostAffine.affine_apply (M := 16384) (K := 2176) (N := 256)
    dot_S16384x2176_S2176x256_S16384x256_1_0_0_1_n_n rfl rfl rfl rfl rfl rfl none
    (v51 idx x W1 b1 W2 b2 W3 b3) Wc1 bc1
    Facts₀.bcast_S256_S1x256_1 Facts₀.bcast_S1x256_S16384x256_0_1 b n]
  rw [sum_split3]
  unfold Cert.DeepFM.pre
  refine congrArg (· + bc1 (ix1 n)) ?_
  refine congrArg₂ (· + ·) (congrArg₂ (· + ·) ?_ ?_) ?_
  · refine Finset.sum_congr rfl fun k _ => ?_
    rw [show v51 idx x W1 b1 W2 b2 W3 b3 = cat3 (v49 x W1 b1 W2 b2 W3 b3) (v34 idx x) (v50 x) from rfl,
      cat3_left, v49_eq]
  · refine Finset.sum_congr rfl fun p _ => ?_
    rw [show v51 idx x W1 b1 W2 b2 W3 b3 = cat3 (v49 x W1 b1 W2 b2 W3 b3) (v34 idx x) (v50 x) from rfl,
      cat3_mid, v34_eq idx t hrow hcol]
  · refine Finset.sum_congr rfl fun d _ => ?_
    rw [show v51 idx x W1 b1 W2 b2 W3 b3 = cat3 (v49 x W1 b1 W2 b2 W3 b3) (v34 idx x) (v50 x) from rfl,
      cat3_right, v50_eq]

include hrow hcol in
/-- **The reference's result at row `b` is the specification's.** -/
theorem refOut_eq (b : Fin 16384) :
    refOut idx x W1 b1 W2 b2 W3 b3 Wc1 bc1 Wc2 bc2 (ix2 b 0)
      = Cert.DeepFM.G t (fun b i d => x (ix3 b i d)) (fun k n => W1 (ix2 k n)) (fun n => b1 (ix1 n))
          (fun k n => W2 (ix2 k n)) (fun n => b2 (ix1 n)) (fun k n => W3 (ix2 k n)) (fun n => b3 (ix1 n))
          (fun k n => Wc1 (ix2 k n)) (fun n => bc1 (ix1 n)) (fun k n => Wc2 (ix2 k n)) (fun n => bc2 (ix1 n)) b := by
  unfold refOut
  rw [Cert.LibHostAffine.affine_apply (M := 16384) (K := 256) (N := 1)
    dot_S16384x256_S256x1_S16384x1_1_0_0_1_n_n rfl rfl rfl rfl rfl rfl none
    (v56 idx x W1 b1 W2 b2 W3 b3 Wc1 bc1) Wc2 bc2
    Facts₀.bcast_S1_S1x1_1 Facts₀.bcast_S1x1_S16384x1_0_1 b 0]
  unfold Cert.DeepFM.G
  refine congrArg (· + bc2 (ix1 0)) (Finset.sum_congr rfl fun k _ => ?_)
  unfold v56
  rw [relu_apply, v55_eq idx t hrow hcol]

end

end Cert.RefValue

end
-- ==== Proof.RefRunOps.lean ====
import proofs.«128613_j14594298872614_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The reference program's @main as one straight line of host operations: each outlined function's body is listed
    at its call site over that call's buffers, in the order the program runs them. -/
abbrev ops : List (HloOp τ sig (Elt F)) :=
  [ StableHlo.binary main_arg0 main_arg0 main_v0 ((fun l r => Host.dotGeneral dot_S16384x64x32_S16384x64x32_S16384x64x64_2_2_1_1_0_0 none l r) : (⟨S16384x64x32, .f32⟩ : BufTy).Contents (Elt F) → (⟨S16384x64x32, .f32⟩ : BufTy).Contents (Elt F) → (⟨S16384x64x64, .f32⟩ : BufTy).Contents (Elt F)),
    StableHlo.nullary main_cst (constant S_ .f32 0x3F800000#32),
    StableHlo.unary main_cst main_v1 (broadcastInDim S64x64 ![] bcast_S_S64x64 : (⟨S_, .f32⟩ : BufTy).Contents (Elt F) → (⟨S64x64, .f32⟩ : BufTy).Contents (Elt F)),
    StableHlo.TRef.nullary main_call0.v0 (iotaInDim S64x64 32 0),
    StableHlo.TRef.nullary main_call0.c (constantI S_ 32 0#32),
    StableHlo.TRef.unary main_call0.c main_call0.v1 (broadcastInDim S64x64 ![] bcast_S_S64x64),
    StableHlo.TRef.binary main_call0.v0 main_call0.v1 main_call0.v2 addi,
    StableHlo.TRef.nullary main_call0.v3 (iotaInDim S64x64 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S64x64 ![] bcast_S_S64x64),
    StableHlo.TRef.ternary main_call0.v4 main_call0.v5 (TRef.of main_v1 : StableHlo.TRef sig ⟨S64x64, .f32⟩) main_call0.v6 select,
    StableHlo.nullary main_cst_0 (constant S_ .f32 0x00000000#32),
    StableHlo.unary main_cst_0 main_v3 (broadcastInDim S64x64 ![] bcast_S_S64x64 : (⟨S_, .f32⟩ : BufTy).Contents (Elt F) → (⟨S64x64, .f32⟩ : BufTy).Contents (Elt F)),
    StableHlo.binary main_v2 main_v3 main_v4 (cmpf .une : (⟨S64x64, .f32⟩ : BufTy).Contents (Elt F) → (⟨S64x64, .f32⟩ : BufTy).Contents (Elt F) → (⟨S64x64, .i1⟩ : BufTy).Contents (Elt F)),
    StableHlo.TRef.reshape (TRef.of main_v4 : StableHlo.TRef sig ⟨S64x64, .i1⟩) main_call1.v0 rfl shapeCasts_S64x64_S4096,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![4096] ![1] ![4095] ![0] x v reduceWindows_S4096_S4096_w4096s1p4095_0 h_S_),
    StableHlo.nullary main_c (constantI S_ 32 0#32),
    StableHlo.unary main_c main_v6 (broadcastInDim S2016 ![] bcast_S_S2016 : (⟨S_, .i32⟩ : BufTy).Contents (Elt F) → (⟨S2016, .i32⟩ : BufTy).Contents (Elt F)),
    StableHlo.nullary main_c_1 (constantI S_ 32 0#32),
    StableHlo.TRef.unary (TRef.of main_c_1 : StableHlo.TRef sig ⟨S_, .i32⟩) main_call2.v0 id,
    StableHlo.TRef.unary main_call2.v0 main_call2.v1 (broadcastInDim S4096 ![] bcast_S_S4096),
    StableHlo.TRef.binary main_call2.v1 (TRef.of main_v5 : StableHlo.TRef sig ⟨S4096, .i32⟩) main_call2.v2 maxsi,
    StableHlo.nullary main_c_2 (constantI S_ 32 0#32),
    StableHlo.unary main_c_2 main_v8 (broadcastInDim S4096 ![] bcast_S_S4096 : (⟨S_, .i32⟩ : BufTy).Contents (Elt F) → (⟨S4096, .i32⟩ : BufTy).Contents (Elt F)),
    StableHlo.binary main_v7 main_v8 main_v9 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 2016#32),
    StableHlo.unary main_c_3 main_v10 (broadcastInDim S4096 ![] bcast_S_S4096 : (⟨S_, .i32⟩ : BufTy).Contents (Elt F) → (⟨S4096, .i32⟩ : BufTy).Contents (Elt F)),
    StableHlo.binary main_v7 main_v10 main_v11 (addi : (⟨S4096, .i32⟩ : BufTy).Contents (Elt F) → (⟨S4096, .i32⟩ : BufTy).Contents (Elt F) → (⟨S4096, .i32⟩ : BufTy).Contents (Elt F)),
    StableHlo.ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v12 main_v13 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v14 (broadcastInDim S4096 ![] bcast_S_S4096 : (⟨S_, .i32⟩ : BufTy).Contents (Elt F) → (⟨S4096, .i32⟩ : BufTy).Contents (Elt F)),
    StableHlo.ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (TRef.of main_v15 : StableHlo.TRef sig ⟨S2016, .i32⟩) main_call3.call0.v0 main_call3.call0.v1 (fun x v => Host.reduceWindow IntOp.addi ![2016] ![1] ![2015] ![0] x v reduceWindows_S2016_S2016_w2016s1p2015_0 h_S_),
    StableHlo.nullary main_c_5 (constantI S_ 32 64#32),
    StableHlo.TRef.unary (TRef.of main_c_5 : StableHlo.TRef sig ⟨S_, .i32⟩) main_call4.v0 (broadcastInDim S2016 ![] bcast_S_S2016),
    StableHlo.TRef.binary (TRef.of main_v16 : StableHlo.TRef sig ⟨S2016, .i32⟩) main_call4.v0 main_call4.v1 Host.divsi,
    StableHlo.TRef.unary (TRef.of main_v16 : StableHlo.TRef sig ⟨S2016, .i32⟩) main_call4.v2 signi,
    StableHlo.TRef.unary (TRef.of main_c_5 : StableHlo.TRef sig ⟨S_, .i32⟩) main_call4.v3 signi,
    StableHlo.TRef.unary main_call4.v3 main_call4.v4 (broadcastInDim S2016 ![] bcast_S_S2016),
    StableHlo.TRef.binary main_call4.v2 main_call4.v4 main_call4.v5 (cmpi .ne),
    StableHlo.TRef.unary (TRef.of main_c_5 : StableHlo.TRef sig ⟨S_, .i32⟩) main_call4.v6 (broadcastInDim S2016 ![] bcast_S_S2016),
    StableHlo.TRef.binary (TRef.of main_v16 : StableHlo.TRef sig ⟨S2016, .i32⟩) main_call4.v6 main_call4.v7 Host.remsi,
    StableHlo.TRef.nullary main_call4.c (constantI S_ 32 0#32),
    StableHlo.TRef.unary main_call4.c main_call4.v8 (broadcastInDim S2016 ![] bcast_S_S2016),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S2016 ![] bcast_S_S2016),
    StableHlo.TRef.binary main_call4.v1 main_call4.v11 main_call4.v12 subi,
    StableHlo.TRef.ternary main_call4.v10 main_call4.v12 main_call4.v1 main_call4.call0.v0 select,
    StableHlo.nullary main_c_6 (constantI S_ 32 64#32),
    StableHlo.TRef.unary (TRef.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S2016 ![] bcast_S_S2016),
    StableHlo.TRef.binary (TRef.of main_v17 : StableHlo.TRef sig ⟨S2016, .i32⟩) main_call5.v3 main_call5.v4 Host.remsi,
    StableHlo.TRef.nullary main_call5.c_1 (constantI S_ 32 0#32),
    StableHlo.TRef.unary main_call5.c_1 main_call5.v5 (broadcastInDim S2016 ![] bcast_S_S2016),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S2016 ![] bcast_S_S2016),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S2016 ![] bcast_S_S2016),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S2016 ![] bcast_S_S2016),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary (TRef.of main_c_7 : StableHlo.TRef sig ⟨S_, .i32⟩) main_call6.v0 (broadcastInDim S2016 ![] bcast_S_S2016),
    StableHlo.TRef.binary (TRef.of main_v16 : StableHlo.TRef sig ⟨S2016, .i32⟩) main_call6.v0 main_call6.v1 Host.divsi,
    StableHlo.TRef.unary (TRef.of main_v16 : StableHlo.TRef sig ⟨S2016, .i32⟩) main_call6.v2 signi,
    StableHlo.TRef.unary (TRef.of main_c_7 : StableHlo.TRef sig ⟨S_, .i32⟩) main_call6.v3 signi,
    StableHlo.TRef.unary main_call6.v3 main_call6.v4 (broadcastInDim S2016 ![] bcast_S_S2016),
    StableHlo.TRef.binary main_call6.v2 main_call6.v4 main_call6.v5 (cmpi .ne),
    StableHlo.TRef.unary (TRef.of main_c_7 : StableHlo.TRef sig ⟨S_, .i32⟩) main_call6.v6 (broadcastInDim S2016 ![] bcast_S_S2016),
    StableHlo.TRef.binary (TRef.of main_v16 : StableHlo.TRef sig ⟨S2016, .i32⟩) main_call6.v6 main_call6.v7 Host.remsi,
    StableHlo.TRef.nullary main_call6.c (constantI S_ 32 0#32),
    StableHlo.TRef.unary main_call6.c main_call6.v8 (broadcastInDim S2016 ![] bcast_S_S2016),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S2016 ![] bcast_S_S2016),
    StableHlo.TRef.binary main_call6.v1 main_call6.v11 main_call6.v12 subi,
    StableHlo.TRef.ternary main_call6.v10 main_call6.v12 main_call6.v1 main_call6.call0.v0 select,
    StableHlo.nullary main_c_8 (constantI S_ 32 64#32),
    StableHlo.TRef.unary (TRef.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S2016 ![] bcast_S_S2016),
    StableHlo.TRef.binary (TRef.of main_v19 : StableHlo.TRef sig ⟨S2016, .i32⟩) main_call7.v3 main_call7.v4 Host.remsi,
    StableHlo.TRef.nullary main_call7.c_1 (constantI S_ 32 0#32),
    StableHlo.TRef.unary main_call7.c_1 main_call7.v5 (broadcastInDim S2016 ![] bcast_S_S2016),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S2016 ![] bcast_S_S2016),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S2016 ![] bcast_S_S2016),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S2016 ![] bcast_S_S2016),
    StableHlo.TRef.binary main_call7.v4 main_call7.v13 main_call7.v14 addi,
    StableHlo.TRef.ternary main_call7.v12 main_call7.v14 main_call7.v4 main_call7.v15 select,
    StableHlo.nullary main_c_9 (constantI S_ 32 0#32),
    StableHlo.unary main_c_9 main_v21 (broadcastInDim S2016 ![] bcast_S_S2016 : (⟨S_, .i32⟩ : BufTy).Contents (Elt F) → (⟨S2016, .i32⟩ : BufTy).Contents (Elt F)),
    StableHlo.binary main_v18 main_v21 main_v22 (cmpi .slt : (⟨S2016, .i32⟩ : BufTy).Contents (Elt F) → (⟨S2016, .i32⟩ : BufTy).Contents (Elt F) → (⟨S2016, .i1⟩ : BufTy).Contents (Elt F)),
    StableHlo.nullary main_c_10 (constantI S_ 32 64#32),
    StableHlo.unary main_c_10 main_v23 (broadcastInDim S2016 ![] bcast_S_S2016 : (⟨S_, .i32⟩ : BufTy).Contents (Elt F) → (⟨S2016, .i32⟩ : BufTy).Contents (Elt F)),
    StableHlo.binary main_v18 main_v23 main_v24 (addi : (⟨S2016, .i32⟩ : BufTy).Contents (Elt F) → (⟨S2016, .i32⟩ : BufTy).Contents (Elt F) → (⟨S2016, .i32⟩ : BufTy).Contents (Elt F)),
    StableHlo.ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.nullary main_c_11 (constantI S_ 32 0#32),
    StableHlo.unary main_c_11 main_v26 (broadcastInDim S2016 ![] bcast_S_S2016 : (⟨S_, .i32⟩ : BufTy).Contents (Elt F) → (⟨S2016, .i32⟩ : BufTy).Contents (Elt F)),
    StableHlo.binary main_v20 main_v26 main_v27 (cmpi .slt : (⟨S2016, .i32⟩ : BufTy).Contents (Elt F) → (⟨S2016, .i32⟩ : BufTy).Contents (Elt F) → (⟨S2016, .i1⟩ : BufTy).Contents (Elt F)),
    StableHlo.nullary main_c_12 (constantI S_ 32 64#32),
    StableHlo.unary main_c_12 main_v28 (broadcastInDim S2016 ![] bcast_S_S2016 : (⟨S_, .i32⟩ : BufTy).Contents (Elt F) → (⟨S2016, .i32⟩ : BufTy).Contents (Elt F)),
    StableHlo.binary main_v20 main_v28 main_v29 (addi : (⟨S2016, .i32⟩ : BufTy).Contents (Elt F) → (⟨S2016, .i32⟩ : BufTy).Contents (Elt F) → (⟨S2016, .i32⟩ : BufTy).Contents (Elt F)),
    StableHlo.ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.unary main_v25 main_v31 (broadcastInDim S2016x1 ![0] bcast_S2016_S2016x1_0 : (⟨S2016, .i32⟩ : BufTy).Contents (Elt F) → (⟨S2016x1, .i32⟩ : BufTy).Contents (Elt F)),
    StableHlo.unary main_v30 main_v32 (broadcastInDim S2016x1 ![0] bcast_S2016_S2016x1_0 : (⟨S2016, .i32⟩ : BufTy).Contents (Elt F) → (⟨S2016x1, .i32⟩ : BufTy).Contents (Elt F)),
    StableHlo.binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    StableHlo.binary main_v0 main_v33 main_v34 ((fun x i => Host.gather gather_S16384x64x64_S2016x2_S16384x2016_0_12_n_n_12_1_1638411 x i) : (⟨S16384x64x64, .f32⟩ : BufTy).Contents (Elt F) → (⟨S2016x2, .i32⟩ : BufTy).Contents (Elt F) → (⟨S16384x2016, .f32⟩ : BufTy).Contents (Elt F)),
    StableHlo.reshape main_arg0 main_v35 rfl shapeCasts_S16384x64x32_S16384x2048,
    StableHlo.binary main_v35 main_arg1 main_v36 ((fun l r => Host.dotGeneral dot_S16384x2048_S2048x256_S16384x256_1_0_0_1_n_n none l r) : (⟨S16384x2048, .f32⟩ : BufTy).Contents (Elt F) → (⟨S2048x256, .f32⟩ : BufTy).Contents (Elt F) → (⟨S16384x256, .f32⟩ : BufTy).Contents (Elt F)),
    StableHlo.unary main_arg2 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S16384x256 ![0, 1] bcast_S1x256_S16384x256_0_1 : (⟨S1x256, .f32⟩ : BufTy).Contents (Elt F) → (⟨S16384x256, .f32⟩ : BufTy).Contents (Elt F)),
    StableHlo.binary main_v36 main_v38 main_v39 (addf : (⟨S16384x256, .f32⟩ : BufTy).Contents (Elt F) → (⟨S16384x256, .f32⟩ : BufTy).Contents (Elt F) → (⟨S16384x256, .f32⟩ : BufTy).Contents (Elt F)),
    StableHlo.TRef.nullary main_call8.cst (constant S_ .f32 0x3FD62D7D#32),
    StableHlo.TRef.nullary main_call8.call0.cst (constant S_ .f32 0x00000000#32),
    StableHlo.TRef.unary main_call8.call0.cst main_call8.call0.v0 (broadcastInDim S16384x256 ![] bcast_S_S16384x256),
    StableHlo.TRef.binary (TRef.of main_v39 : StableHlo.TRef sig ⟨S16384x256, .f32⟩) main_call8.call0.v0 main_call8.call0.v1 (cmpf .ogt),
    StableHlo.TRef.nullary main_call8.call0.cst_0 (constant S_ .f32 0x00000000#32),
    StableHlo.TRef.unary main_call8.call0.cst_0 main_call8.call0.v2 (broadcastInDim S16384x256 ![] bcast_S_S16384x256),
    StableHlo.TRef.binary (TRef.of main_v39 : StableHlo.TRef sig ⟨S16384x256, .f32⟩) main_call8.call0.v2 main_call8.call0.v3 (cmpf .ogt),
    StableHlo.TRef.nullary main_call8.call0.cst_1 (constant S_ .f32 0x00000000#32),
    StableHlo.TRef.unary main_call8.call0.cst_1 main_call8.call0.call0.v0 id,
    StableHlo.TRef.unary main_call8.call0.call0.v0 main_call8.call0.call0.v1 (broadcastInDim S16384x256 ![] bcast_S_S16384x256),
    StableHlo.TRef.ternary main_call8.call0.v3 main_call8.call0.call0.v1 (TRef.of main_v39 : StableHlo.TRef sig ⟨S16384x256, .f32⟩) main_call8.call0.call0.v2 select,
    StableHlo.TRef.unary main_call8.call0.call0.v2 main_call8.call0.v5 Host.expm1,
    StableHlo.TRef.unary main_call8.cst main_call8.call0.v6 id,
    StableHlo.TRef.unary main_call8.call0.v6 main_call8.call0.v7 (broadcastInDim S16384x256 ![] bcast_S_S16384x256),
    StableHlo.TRef.binary main_call8.call0.v7 main_call8.call0.v5 main_call8.call0.v8 mulf,
    StableHlo.TRef.ternary main_call8.call0.v1 (TRef.of main_v39 : StableHlo.TRef sig ⟨S16384x256, .f32⟩) main_call8.call0.v8 main_call8.call0.call1.v0 select,
    StableHlo.TRef.nullary main_call8.cst_0 (constant S_ .f32 0x3F867D5F#32),
    StableHlo.TRef.unary main_call8.cst_0 main_call8.v1 (broadcastInDim S16384x256 ![] bcast_S_S16384x256),
    StableHlo.TRef.binary main_call8.v1 main_call8.call0.call1.v0 main_call8.v2 mulf,
    StableHlo.binary main_v40 main_arg3 main_v41 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    StableHlo.unary main_arg4 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S16384x256 ![0, 1] bcast_S1x256_S16384x256_0_1 : (⟨S1x256, .f32⟩ : BufTy).Contents (Elt F) → (⟨S16384x256, .f32⟩ : BufTy).Contents (Elt F)),
    StableHlo.binary main_v41 main_v43 main_v44 (addf : (⟨S16384x256, .f32⟩ : BufTy).Contents (Elt F) → (⟨S16384x256, .f32⟩ : BufTy).Contents (Elt F) → (⟨S16384x256, .f32⟩ : BufTy).Contents (Elt F)),
    StableHlo.TRef.nullary main_call9.cst (constant S_ .f32 0x3FD62D7D#32),
    StableHlo.TRef.nullary main_call9.call0.cst (constant S_ .f32 0x00000000#32),
    StableHlo.TRef.unary main_call9.call0.cst main_call9.call0.v0 (broadcastInDim S16384x256 ![] bcast_S_S16384x256),
    StableHlo.TRef.binary (TRef.of main_v44 : StableHlo.TRef sig ⟨S16384x256, .f32⟩) main_call9.call0.v0 main_call9.call0.v1 (cmpf .ogt),
    StableHlo.TRef.nullary main_call9.call0.cst_0 (constant S_ .f32 0x00000000#32),
    StableHlo.TRef.unary main_call9.call0.cst_0 main_call9.call0.v2 (broadcastInDim S16384x256 ![] bcast_S_S16384x256),
    StableHlo.TRef.binary (TRef.of main_v44 : StableHlo.TRef sig ⟨S16384x256, .f32⟩) main_call9.call0.v2 main_call9.call0.v3 (cmpf .ogt),
    StableHlo.TRef.nullary main_call9.call0.cst_1 (constant S_ .f32 0x00000000#32),
    StableHlo.TRef.unary main_call9.call0.cst_1 main_call9.call0.call0.v0 id,
    StableHlo.TRef.unary main_call9.call0.call0.v0 main_call9.call0.call0.v1 (broadcastInDim S16384x256 ![] bcast_S_S16384x256),
    StableHlo.TRef.ternary main_call9.call0.v3 main_call9.call0.call0.v1 (TRef.of main_v44 : StableHlo.TRef sig ⟨S16384x256, .f32⟩) main_call9.call0.call0.v2 select,
    StableHlo.TRef.unary main_call9.call0.call0.v2 main_call9.call0.v5 Host.expm1,
    StableHlo.TRef.unary main_call9.cst main_call9.call0.v6 id,
    StableHlo.TRef.unary main_call9.call0.v6 main_call9.call0.v7 (broadcastInDim S16384x256 ![] bcast_S_S16384x256),
    StableHlo.TRef.binary main_call9.call0.v7 main_call9.call0.v5 main_call9.call0.v8 mulf,
    StableHlo.TRef.ternary main_call9.call0.v1 (TRef.of main_v44 : StableHlo.TRef sig ⟨S16384x256, .f32⟩) main_call9.call0.v8 main_call9.call0.call1.v0 select,
    StableHlo.TRef.nullary main_call9.cst_0 (constant S_ .f32 0x3F867D5F#32),
    StableHlo.TRef.unary main_call9.cst_0 main_call9.v1 (broadcastInDim S16384x256 ![] bcast_S_S16384x256),
    StableHlo.TRef.binary main_call9.v1 main_call9.call0.call1.v0 main_call9.v2 mulf,
    StableHlo.binary main_v45 main_arg5 main_v46 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    StableHlo.unary main_arg6 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S16384x128 ![0, 1] bcast_S1x128_S16384x128_0_1 : (⟨S1x128, .f32⟩ : BufTy).Contents (Elt F) → (⟨S16384x128, .f32⟩ : BufTy).Contents (Elt F)),
    StableHlo.binary main_v46 main_v48 main_v49 (addf : (⟨S16384x128, .f32⟩ : BufTy).Contents (Elt F) → (⟨S16384x128, .f32⟩ : BufTy).Contents (Elt F) → (⟨S16384x128, .f32⟩ : BufTy).Contents (Elt F)),
    StableHlo.nullary main_cst_13 (constant S_ .f32 0x00000000#32),
    StableHlo.binary main_arg0 main_cst_13 main_v50 ((fun x v => Host.reduceAdd x v reducesTo_S16384x64x32_S16384x32_d1 h_S_) : (⟨S16384x64x32, .f32⟩ : BufTy).Contents (Elt F) → (⟨S_, .f32⟩ : BufTy).Contents (Elt F) → (⟨S16384x32, .f32⟩ : BufTy).Contents (Elt F)),
    StableHlo.nary ![main_v49, main_v34, main_v50] main_v51 (fun u => concatenate S16384x2176 1 [⟨S16384x128, u 0⟩, ⟨S16384x2016, u 1⟩, ⟨S16384x32, u 2⟩] concatenates_S16384x128_S16384x2016_S16384x32_S16384x2176_d1),
    StableHlo.binary main_v51 main_arg7 main_v52 ((fun l r => Host.dotGeneral dot_S16384x2176_S2176x256_S16384x256_1_0_0_1_n_n none l r) : (⟨S16384x2176, .f32⟩ : BufTy).Contents (Elt F) → (⟨S2176x256, .f32⟩ : BufTy).Contents (Elt F) → (⟨S16384x256, .f32⟩ : BufTy).Contents (Elt F)),
    StableHlo.unary main_arg8 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S16384x256 ![0, 1] bcast_S1x256_S16384x256_0_1 : (⟨S1x256, .f32⟩ : BufTy).Contents (Elt F) → (⟨S16384x256, .f32⟩ : BufTy).Contents (Elt F)),
    StableHlo.binary main_v52 main_v54 main_v55 (addf : (⟨S16384x256, .f32⟩ : BufTy).Contents (Elt F) → (⟨S16384x256, .f32⟩ : BufTy).Contents (Elt F) → (⟨S16384x256, .f32⟩ : BufTy).Contents (Elt F)),
    StableHlo.TRef.nullary main_call10.cst (constant S_ .f32 0x00000000#32),
    StableHlo.TRef.unary main_call10.cst main_call10.v0 (broadcastInDim S16384x256 ![] bcast_S_S16384x256),
    StableHlo.TRef.binary (TRef.of main_v55 : StableHlo.TRef sig ⟨S16384x256, .f32⟩) main_call10.v0 main_call10.v1 maximumf,
    StableHlo.binary main_v56 main_arg9 main_v57 ((fun l r => Host.dotGeneral dot_S16384x256_S256x1_S16384x1_1_0_0_1_n_n none l r) : (⟨S16384x256, .f32⟩ : BufTy).Contents (Elt F) → (⟨S256x1, .f32⟩ : BufTy).Contents (Elt F) → (⟨S16384x1, .f32⟩ : BufTy).Contents (Elt F)),
    StableHlo.unary main_arg10 main_v58 (broadcastInDim S1x1 ![1] bcast_S1_S1x1_1 : (⟨S1, .f32⟩ : BufTy).Contents (Elt F) → (⟨S1x1, .f32⟩ : BufTy).Contents (Elt F)),
    StableHlo.unary main_v58 main_v59 (broadcastInDim S16384x1 ![0, 1] bcast_S1x1_S16384x1_0_1 : (⟨S1x1, .f32⟩ : BufTy).Contents (Elt F) → (⟨S16384x1, .f32⟩ : BufTy).Contents (Elt F)),
    StableHlo.binary main_v57 main_v59 main_v60 (addf : (⟨S16384x1, .f32⟩ : BufTy).Contents (Elt F) → (⟨S16384x1, .f32⟩ : BufTy).Contents (Elt F) → (⟨S16384x1, .f32⟩ : BufTy).Contents (Elt F)) ]

set_option maxRecDepth 8192 in
set_option maxHeartbeats 4000000 in
theorem main_eq (c : Dev nD) : main (F := F) c = seq ops := by
  simp only [main, main_part0, main_part1, fn_triu.body, fn_cumsum.body, fn_cumsum_0.body, fn_clip.body, fn_cumsum_1.body,
    fn_cumsum_2.body, fn_floor_divide.body, fn_where.body, fn_remainder.body, fn_where_3.body, fn_selu.body, fn_elu.body,
    fn_where_4.body, fn_where_5.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., reshape_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub .., binary_bufs_sub .., unary_bufs_sub .., unary_bufs_sub .., binary_bufs_sub .., nullary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

end Cert.RefRun

end
-- ==== Proof.RefRun.lean ====
import proofs.«128613_j14594298872614_2_alg».proof.Proof.RefRunOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's result on device `c` from launch memory `m`: the fold of its operations' results over the
    launch contents, read at the result buffer. -/
def res (m : (ℓ : Loc nD τ sig) → Buf (Elt F) ℓ) (c : Dev nD) : Buf (Elt F) ((c.tc : Thread nD τ).loc main_v60) :=
  after ops (launchContents m c) (Proc.devRef .tc main_v60)

set_option maxRecDepth 8192 in
set_option maxHeartbeats 4000000 in
/-- No operation writes argument 0: the fold leaves it at its launch contents. -/
theorem arg0_eq (V : Valuation τ sig (Elt F)) :
    after ops V (Proc.devRef .tc main_arg0) = V (Proc.devRef .tc main_arg0) := by
  after_results_simp

set_option maxRecDepth 8192 in
set_option maxHeartbeats 4000000 in
/-- No operation writes argument 1: the fold leaves it at its launch contents. -/
theorem arg1_eq (V : Valuation τ sig (Elt F)) :
    after ops V (Proc.devRef .tc main_arg1) = V (Proc.devRef .tc main_arg1) := by
  after_results_simp

set_option maxRecDepth 8192 in
set_option maxHeartbeats 4000000 in
/-- No operation writes argument 2: the fold leaves it at its launch contents. -/
theorem arg2_eq (V : Valuation τ sig (Elt F)) :
    after ops V (Proc.devRef .tc main_arg2) = V (Proc.devRef .tc main_arg2) := by
  after_results_simp

set_option maxRecDepth 8192 in
set_option maxHeartbeats 4000000 in
/-- No operation writes argument 3: the fold leaves it at its launch contents. -/
theorem arg3_eq (V : Valuation τ sig (Elt F)) :
    after ops V (Proc.devRef .tc main_arg3) = V (Proc.devRef .tc main_arg3) := by
  after_results_simp

set_option maxRecDepth 8192 in
set_option maxHeartbeats 4000000 in
/-- No operation writes argument 4: the fold leaves it at its launch contents. -/
theorem arg4_eq (V : Valuation τ sig (Elt F)) :
    after ops V (Proc.devRef .tc main_arg4) = V (Proc.devRef .tc main_arg4) := by
  after_results_simp

set_option maxRecDepth 8192 in
set_option maxHeartbeats 4000000 in
/-- No operation writes argument 5: the fold leaves it at its launch contents. -/
theorem arg5_eq (V : Valuation τ sig (Elt F)) :
    after ops V (Proc.devRef .tc main_arg5) = V (Proc.devRef .tc main_arg5) := by
  after_results_simp

set_option maxRecDepth 8192 in
set_option maxHeartbeats 4000000 in
/-- No operation writes argument 6: the fold leaves it at its launch contents. -/
theorem arg6_eq (V : Valuation τ sig (Elt F)) :
    after ops V (Proc.devRef .tc main_arg6) = V (Proc.devRef .tc main_arg6) := by
  after_results_simp

set_option maxRecDepth 8192 in
set_option maxHeartbeats 4000000 in
/-- No operation writes argument 7: the fold leaves it at its launch contents. -/
theorem arg7_eq (V : Valuation τ sig (Elt F)) :
    after ops V (Proc.devRef .tc main_arg7) = V (Proc.devRef .tc main_arg7) := by
  after_results_simp

set_option maxRecDepth 8192 in
set_option maxHeartbeats 4000000 in
/-- No operation writes argument 8: the fold leaves it at its launch contents. -/
theorem arg8_eq (V : Valuation τ sig (Elt F)) :
    after ops V (Proc.devRef .tc main_arg8) = V (Proc.devRef .tc main_arg8) := by
  after_results_simp

set_option maxRecDepth 8192 in
set_option maxHeartbeats 4000000 in
/-- No operation writes argument 9: the fold leaves it at its launch contents. -/
theorem arg9_eq (V : Valuation τ sig (Elt F)) :
    after ops V (Proc.devRef .tc main_arg9) = V (Proc.devRef .tc main_arg9) := by
  after_results_simp

set_option maxRecDepth 8192 in
set_option maxHeartbeats 4000000 in
/-- No operation writes argument 10: the fold leaves it at its launch contents. -/
theorem arg10_eq (V : Valuation τ sig (Elt F)) :
    after ops V (Proc.devRef .tc main_arg10) = V (Proc.devRef .tc main_arg10) := by
  after_results_simp

/-- On every device, for any float values, from any memory with zero counters: every weakly fair execution of
    @main terminates with the result buffer at the operations' composed value of the launch contents and the
    eleven arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨h c main_v60,
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_seq scopedRefs_eq scopedSems_eq defs main (fun _ => ops) main_eq (fun _ => ops_sub) m ρ)

end Cert.RefRun

end
-- ==== Proof.RefRunChunks.lean ====
import proofs.«128613_j14594298872614_2_alg».proof.Proof.RefRunOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0 … 39 of the line. -/
abbrev ops0 : List (HloOp τ sig (Elt F)) :=
  [ StableHlo.binary main_arg0 main_arg0 main_v0 ((fun l r => Host.dotGeneral dot_S16384x64x32_S16384x64x32_S16384x64x64_2_2_1_1_0_0 none l r) : (⟨S16384x64x32, .f32⟩ : BufTy).Contents (Elt F) → (⟨S16384x64x32, .f32⟩ : BufTy).Contents (Elt F) → (⟨S16384x64x64, .f32⟩ : BufTy).Contents (Elt F)),
    StableHlo.nullary main_cst (constant S_ .f32 0x3F800000#32),
    StableHlo.unary main_cst main_v1 (broadcastInDim S64x64 ![] bcast_S_S64x64 : (⟨S_, .f32⟩ : BufTy).Contents (Elt F) → (⟨S64x64, .f32⟩ : BufTy).Contents (Elt F)),
    StableHlo.TRef.nullary main_call0.v0 (iotaInDim S64x64 32 0),
    StableHlo.TRef.nullary main_call0.c (constantI S_ 32 0#32),
    StableHlo.TRef.unary main_call0.c main_call0.v1 (broadcastInDim S64x64 ![] bcast_S_S64x64),
    StableHlo.TRef.binary main_call0.v0 main_call0.v1 main_call0.v2 addi,
    StableHlo.TRef.nullary main_call0.v3 (iotaInDim S64x64 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S64x64 ![] bcast_S_S64x64),
    StableHlo.TRef.ternary main_call0.v4 main_call0.v5 (TRef.of main_v1 : StableHlo.TRef sig ⟨S64x64, .f32⟩) main_call0.v6 select,
    StableHlo.nullary main_cst_0 (constant S_ .f32 0x00000000#32),
    StableHlo.unary main_cst_0 main_v3 (broadcastInDim S64x64 ![] bcast_S_S64x64 : (⟨S_, .f32⟩ : BufTy).Contents (Elt F) → (⟨S64x64, .f32⟩ : BufTy).Contents (Elt F)),
    StableHlo.binary main_v2 main_v3 main_v4 (cmpf .une : (⟨S64x64, .f32⟩ : BufTy).Contents (Elt F) → (⟨S64x64, .f32⟩ : BufTy).Contents (Elt F) → (⟨S64x64, .i1⟩ : BufTy).Contents (Elt F)),
    StableHlo.TRef.reshape (TRef.of main_v4 : StableHlo.TRef sig ⟨S64x64, .i1⟩) main_call1.v0 rfl shapeCasts_S64x64_S4096,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![4096] ![1] ![4095] ![0] x v reduceWindows_S4096_S4096_w4096s1p4095_0 h_S_),
    StableHlo.nullary main_c (constantI S_ 32 0#32),
    StableHlo.unary main_c main_v6 (broadcastInDim S2016 ![] bcast_S_S2016 : (⟨S_, .i32⟩ : BufTy).Contents (Elt F) → (⟨S2016, .i32⟩ : BufTy).Contents (Elt F)),
    StableHlo.nullary main_c_1 (constantI S_ 32 0#32),
    StableHlo.TRef.unary (TRef.of main_c_1 : StableHlo.TRef sig ⟨S_, .i32⟩) main_call2.v0 id,
    StableHlo.TRef.unary main_call2.v0 main_call2.v1 (broadcastInDim S4096 ![] bcast_S_S4096),
    StableHlo.TRef.binary main_call2.v1 (TRef.of main_v5 : StableHlo.TRef sig ⟨S4096, .i32⟩) main_call2.v2 maxsi,
    StableHlo.nullary main_c_2 (constantI S_ 32 0#32),
    StableHlo.unary main_c_2 main_v8 (broadcastInDim S4096 ![] bcast_S_S4096 : (⟨S_, .i32⟩ : BufTy).Contents (Elt F) → (⟨S4096, .i32⟩ : BufTy).Contents (Elt F)),
    StableHlo.binary main_v7 main_v8 main_v9 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 2016#32),
    StableHlo.unary main_c_3 main_v10 (broadcastInDim S4096 ![] bcast_S_S4096 : (⟨S_, .i32⟩ : BufTy).Contents (Elt F) → (⟨S4096, .i32⟩ : BufTy).Contents (Elt F)),
    StableHlo.binary main_v7 main_v10 main_v11 (addi : (⟨S4096, .i32⟩ : BufTy).Contents (Elt F) → (⟨S4096, .i32⟩ : BufTy).Contents (Elt F) → (⟨S4096, .i32⟩ : BufTy).Contents (Elt F)),
    StableHlo.ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v12 main_v13 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v14 (broadcastInDim S4096 ![] bcast_S_S4096 : (⟨S_, .i32⟩ : BufTy).Contents (Elt F) → (⟨S4096, .i32⟩ : BufTy).Contents (Elt F)),
    StableHlo.ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (TRef.of main_v15 : StableHlo.TRef sig ⟨S2016, .i32⟩) main_call3.call0.v0 main_call3.call0.v1 (fun x v => Host.reduceWindow IntOp.addi ![2016] ![1] ![2015] ![0] x v reduceWindows_S2016_S2016_w2016s1p2015_0 h_S_) ]

/-- Operations 40 … 56 of the line. -/
abbrev ops1 : List (HloOp τ sig (Elt F)) :=
  [ StableHlo.nullary main_c_5 (constantI S_ 32 64#32),
    StableHlo.TRef.unary (TRef.of main_c_5 : StableHlo.TRef sig ⟨S_, .i32⟩) main_call4.v0 (broadcastInDim S2016 ![] bcast_S_S2016),
    StableHlo.TRef.binary (TRef.of main_v16 : StableHlo.TRef sig ⟨S2016, .i32⟩) main_call4.v0 main_call4.v1 Host.divsi,
    StableHlo.TRef.unary (TRef.of main_v16 : StableHlo.TRef sig ⟨S2016, .i32⟩) main_call4.v2 signi,
    StableHlo.TRef.unary (TRef.of main_c_5 : StableHlo.TRef sig ⟨S_, .i32⟩) main_call4.v3 signi,
    StableHlo.TRef.unary main_call4.v3 main_call4.v4 (broadcastInDim S2016 ![] bcast_S_S2016),
    StableHlo.TRef.binary main_call4.v2 main_call4.v4 main_call4.v5 (cmpi .ne),
    StableHlo.TRef.unary (TRef.of main_c_5 : StableHlo.TRef sig ⟨S_, .i32⟩) main_call4.v6 (broadcastInDim S2016 ![] bcast_S_S2016),
    StableHlo.TRef.binary (TRef.of main_v16 : StableHlo.TRef sig ⟨S2016, .i32⟩) main_call4.v6 main_call4.v7 Host.remsi,
    StableHlo.TRef.nullary main_call4.c (constantI S_ 32 0#32),
    StableHlo.TRef.unary main_call4.c main_call4.v8 (broadcastInDim S2016 ![] bcast_S_S2016),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S2016 ![] bcast_S_S2016),
    StableHlo.TRef.binary main_call4.v1 main_call4.v11 main_call4.v12 subi,
    StableHlo.TRef.ternary main_call4.v10 main_call4.v12 main_call4.v1 main_call4.call0.v0 select ]

/-- Operations 57 … 78 of the line. -/
abbrev ops2 : List (HloOp τ sig (Elt F)) :=
  [ StableHlo.nullary main_c_6 (constantI S_ 32 64#32),
    StableHlo.TRef.unary (TRef.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S2016 ![] bcast_S_S2016),
    StableHlo.TRef.binary (TRef.of main_v17 : StableHlo.TRef sig ⟨S2016, .i32⟩) main_call5.v3 main_call5.v4 Host.remsi,
    StableHlo.TRef.nullary main_call5.c_1 (constantI S_ 32 0#32),
    StableHlo.TRef.unary main_call5.c_1 main_call5.v5 (broadcastInDim S2016 ![] bcast_S_S2016),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S2016 ![] bcast_S_S2016),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S2016 ![] bcast_S_S2016),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S2016 ![] bcast_S_S2016),
    StableHlo.TRef.binary main_call5.v4 main_call5.v13 main_call5.v14 addi,
    StableHlo.TRef.ternary main_call5.v12 main_call5.v14 main_call5.v4 main_call5.v15 select ]

/-- Operations 79 … 95 of the line. -/
abbrev ops3 : List (HloOp τ sig (Elt F)) :=
  [ StableHlo.nullary main_c_7 (constantI S_ 32 1#32),
    StableHlo.TRef.unary (TRef.of main_c_7 : StableHlo.TRef sig ⟨S_, .i32⟩) main_call6.v0 (broadcastInDim S2016 ![] bcast_S_S2016),
    StableHlo.TRef.binary (TRef.of main_v16 : StableHlo.TRef sig ⟨S2016, .i32⟩) main_call6.v0 main_call6.v1 Host.divsi,
    StableHlo.TRef.unary (TRef.of main_v16 : StableHlo.TRef sig ⟨S2016, .i32⟩) main_call6.v2 signi,
    StableHlo.TRef.unary (TRef.of main_c_7 : StableHlo.TRef sig ⟨S_, .i32⟩) main_call6.v3 signi,
    StableHlo.TRef.unary main_call6.v3 main_call6.v4 (broadcastInDim S2016 ![] bcast_S_S2016),
    StableHlo.TRef.binary main_call6.v2 main_call6.v4 main_call6.v5 (cmpi .ne),
    StableHlo.TRef.unary (TRef.of main_c_7 : StableHlo.TRef sig ⟨S_, .i32⟩) main_call6.v6 (broadcastInDim S2016 ![] bcast_S_S2016),
    StableHlo.TRef.binary (TRef.of main_v16 : StableHlo.TRef sig ⟨S2016, .i32⟩) main_call6.v6 main_call6.v7 Host.remsi,
    StableHlo.TRef.nullary main_call6.c (constantI S_ 32 0#32),
    StableHlo.TRef.unary main_call6.c main_call6.v8 (broadcastInDim S2016 ![] bcast_S_S2016),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S2016 ![] bcast_S_S2016),
    StableHlo.TRef.binary main_call6.v1 main_call6.v11 main_call6.v12 subi,
    StableHlo.TRef.ternary main_call6.v10 main_call6.v12 main_call6.v1 main_call6.call0.v0 select ]

/-- Operations 96 … 117 of the line. -/
abbrev ops4 : List (HloOp τ sig (Elt F)) :=
  [ StableHlo.nullary main_c_8 (constantI S_ 32 64#32),
    StableHlo.TRef.unary (TRef.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S2016 ![] bcast_S_S2016),
    StableHlo.TRef.binary (TRef.of main_v19 : StableHlo.TRef sig ⟨S2016, .i32⟩) main_call7.v3 main_call7.v4 Host.remsi,
    StableHlo.TRef.nullary main_call7.c_1 (constantI S_ 32 0#32),
    StableHlo.TRef.unary main_call7.c_1 main_call7.v5 (broadcastInDim S2016 ![] bcast_S_S2016),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S2016 ![] bcast_S_S2016),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S2016 ![] bcast_S_S2016),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S2016 ![] bcast_S_S2016),
    StableHlo.TRef.binary main_call7.v4 main_call7.v13 main_call7.v14 addi,
    StableHlo.TRef.ternary main_call7.v12 main_call7.v14 main_call7.v4 main_call7.v15 select ]

/-- Operations 118 … 133 of the line. -/
abbrev ops5 : List (HloOp τ sig (Elt F)) :=
  [ StableHlo.nullary main_c_9 (constantI S_ 32 0#32),
    StableHlo.unary main_c_9 main_v21 (broadcastInDim S2016 ![] bcast_S_S2016 : (⟨S_, .i32⟩ : BufTy).Contents (Elt F) → (⟨S2016, .i32⟩ : BufTy).Contents (Elt F)),
    StableHlo.binary main_v18 main_v21 main_v22 (cmpi .slt : (⟨S2016, .i32⟩ : BufTy).Contents (Elt F) → (⟨S2016, .i32⟩ : BufTy).Contents (Elt F) → (⟨S2016, .i1⟩ : BufTy).Contents (Elt F)),
    StableHlo.nullary main_c_10 (constantI S_ 32 64#32),
    StableHlo.unary main_c_10 main_v23 (broadcastInDim S2016 ![] bcast_S_S2016 : (⟨S_, .i32⟩ : BufTy).Contents (Elt F) → (⟨S2016, .i32⟩ : BufTy).Contents (Elt F)),
    StableHlo.binary main_v18 main_v23 main_v24 (addi : (⟨S2016, .i32⟩ : BufTy).Contents (Elt F) → (⟨S2016, .i32⟩ : BufTy).Contents (Elt F) → (⟨S2016, .i32⟩ : BufTy).Contents (Elt F)),
    StableHlo.ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.nullary main_c_11 (constantI S_ 32 0#32),
    StableHlo.unary main_c_11 main_v26 (broadcastInDim S2016 ![] bcast_S_S2016 : (⟨S_, .i32⟩ : BufTy).Contents (Elt F) → (⟨S2016, .i32⟩ : BufTy).Contents (Elt F)),
    StableHlo.binary main_v20 main_v26 main_v27 (cmpi .slt : (⟨S2016, .i32⟩ : BufTy).Contents (Elt F) → (⟨S2016, .i32⟩ : BufTy).Contents (Elt F) → (⟨S2016, .i1⟩ : BufTy).Contents (Elt F)),
    StableHlo.nullary main_c_12 (constantI S_ 32 64#32),
    StableHlo.unary main_c_12 main_v28 (broadcastInDim S2016 ![] bcast_S_S2016 : (⟨S_, .i32⟩ : BufTy).Contents (Elt F) → (⟨S2016, .i32⟩ : BufTy).Contents (Elt F)),
    StableHlo.binary main_v20 main_v28 main_v29 (addi : (⟨S2016, .i32⟩ : BufTy).Contents (Elt F) → (⟨S2016, .i32⟩ : BufTy).Contents (Elt F) → (⟨S2016, .i32⟩ : BufTy).Contents (Elt F)),
    StableHlo.ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.unary main_v25 main_v31 (broadcastInDim S2016x1 ![0] bcast_S2016_S2016x1_0 : (⟨S2016, .i32⟩ : BufTy).Contents (Elt F) → (⟨S2016x1, .i32⟩ : BufTy).Contents (Elt F)),
    StableHlo.unary main_v30 main_v32 (broadcastInDim S2016x1 ![0] bcast_S2016_S2016x1_0 : (⟨S2016, .i32⟩ : BufTy).Contents (Elt F) → (⟨S2016x1, .i32⟩ : BufTy).Contents (Elt F)) ]

/-- Operations 134 … 134 of the line. -/
abbrev ops6 : List (HloOp τ sig (Elt F)) :=
  [ StableHlo.binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)) ]

/-- Operations 135 … 163 of the line. -/
abbrev ops7 : List (HloOp τ sig (Elt F)) :=
  [ StableHlo.binary main_v0 main_v33 main_v34 ((fun x i => Host.gather gather_S16384x64x64_S2016x2_S16384x2016_0_12_n_n_12_1_1638411 x i) : (⟨S16384x64x64, .f32⟩ : BufTy).Contents (Elt F) → (⟨S2016x2, .i32⟩ : BufTy).Contents (Elt F) → (⟨S16384x2016, .f32⟩ : BufTy).Contents (Elt F)),
    StableHlo.reshape main_arg0 main_v35 rfl shapeCasts_S16384x64x32_S16384x2048,
    StableHlo.binary main_v35 main_arg1 main_v36 ((fun l r => Host.dotGeneral dot_S16384x2048_S2048x256_S16384x256_1_0_0_1_n_n none l r) : (⟨S16384x2048, .f32⟩ : BufTy).Contents (Elt F) → (⟨S2048x256, .f32⟩ : BufTy).Contents (Elt F) → (⟨S16384x256, .f32⟩ : BufTy).Contents (Elt F)),
    StableHlo.unary main_arg2 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S16384x256 ![0, 1] bcast_S1x256_S16384x256_0_1 : (⟨S1x256, .f32⟩ : BufTy).Contents (Elt F) → (⟨S16384x256, .f32⟩ : BufTy).Contents (Elt F)),
    StableHlo.binary main_v36 main_v38 main_v39 (addf : (⟨S16384x256, .f32⟩ : BufTy).Contents (Elt F) → (⟨S16384x256, .f32⟩ : BufTy).Contents (Elt F) → (⟨S16384x256, .f32⟩ : BufTy).Contents (Elt F)),
    StableHlo.TRef.nullary main_call8.cst (constant S_ .f32 0x3FD62D7D#32),
    StableHlo.TRef.nullary main_call8.call0.cst (constant S_ .f32 0x00000000#32),
    StableHlo.TRef.unary main_call8.call0.cst main_call8.call0.v0 (broadcastInDim S16384x256 ![] bcast_S_S16384x256),
    StableHlo.TRef.binary (TRef.of main_v39 : StableHlo.TRef sig ⟨S16384x256, .f32⟩) main_call8.call0.v0 main_call8.call0.v1 (cmpf .ogt),
    StableHlo.TRef.nullary main_call8.call0.cst_0 (constant S_ .f32 0x00000000#32),
    StableHlo.TRef.unary main_call8.call0.cst_0 main_call8.call0.v2 (broadcastInDim S16384x256 ![] bcast_S_S16384x256),
    StableHlo.TRef.binary (TRef.of main_v39 : StableHlo.TRef sig ⟨S16384x256, .f32⟩) main_call8.call0.v2 main_call8.call0.v3 (cmpf .ogt),
    StableHlo.TRef.nullary main_call8.call0.cst_1 (constant S_ .f32 0x00000000#32),
    StableHlo.TRef.unary main_call8.call0.cst_1 main_call8.call0.call0.v0 id,
    StableHlo.TRef.unary main_call8.call0.call0.v0 main_call8.call0.call0.v1 (broadcastInDim S16384x256 ![] bcast_S_S16384x256),
    StableHlo.TRef.ternary main_call8.call0.v3 main_call8.call0.call0.v1 (TRef.of main_v39 : StableHlo.TRef sig ⟨S16384x256, .f32⟩) main_call8.call0.call0.v2 select,
    StableHlo.TRef.unary main_call8.call0.call0.v2 main_call8.call0.v5 Host.expm1,
    StableHlo.TRef.unary main_call8.cst main_call8.call0.v6 id,
    StableHlo.TRef.unary main_call8.call0.v6 main_call8.call0.v7 (broadcastInDim S16384x256 ![] bcast_S_S16384x256),
    StableHlo.TRef.binary main_call8.call0.v7 main_call8.call0.v5 main_call8.call0.v8 mulf,
    StableHlo.TRef.ternary main_call8.call0.v1 (TRef.of main_v39 : StableHlo.TRef sig ⟨S16384x256, .f32⟩) main_call8.call0.v8 main_call8.call0.call1.v0 select,
    StableHlo.TRef.nullary main_call8.cst_0 (constant S_ .f32 0x3F867D5F#32),
    StableHlo.TRef.unary main_call8.cst_0 main_call8.v1 (broadcastInDim S16384x256 ![] bcast_S_S16384x256),
    StableHlo.TRef.binary main_call8.v1 main_call8.call0.call1.v0 main_call8.v2 mulf,
    StableHlo.binary main_v40 main_arg3 main_v41 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    StableHlo.unary main_arg4 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S16384x256 ![0, 1] bcast_S1x256_S16384x256_0_1 : (⟨S1x256, .f32⟩ : BufTy).Contents (Elt F) → (⟨S16384x256, .f32⟩ : BufTy).Contents (Elt F)),
    StableHlo.binary main_v41 main_v43 main_v44 (addf : (⟨S16384x256, .f32⟩ : BufTy).Contents (Elt F) → (⟨S16384x256, .f32⟩ : BufTy).Contents (Elt F) → (⟨S16384x256, .f32⟩ : BufTy).Contents (Elt F)) ]

/-- Operations 164 … 188 of the line. -/
abbrev ops8 : List (HloOp τ sig (Elt F)) :=
  [ StableHlo.TRef.nullary main_call9.cst (constant S_ .f32 0x3FD62D7D#32),
    StableHlo.TRef.nullary main_call9.call0.cst (constant S_ .f32 0x00000000#32),
    StableHlo.TRef.unary main_call9.call0.cst main_call9.call0.v0 (broadcastInDim S16384x256 ![] bcast_S_S16384x256),
    StableHlo.TRef.binary (TRef.of main_v44 : StableHlo.TRef sig ⟨S16384x256, .f32⟩) main_call9.call0.v0 main_call9.call0.v1 (cmpf .ogt),
    StableHlo.TRef.nullary main_call9.call0.cst_0 (constant S_ .f32 0x00000000#32),
    StableHlo.TRef.unary main_call9.call0.cst_0 main_call9.call0.v2 (broadcastInDim S16384x256 ![] bcast_S_S16384x256),
    StableHlo.TRef.binary (TRef.of main_v44 : StableHlo.TRef sig ⟨S16384x256, .f32⟩) main_call9.call0.v2 main_call9.call0.v3 (cmpf .ogt),
    StableHlo.TRef.nullary main_call9.call0.cst_1 (constant S_ .f32 0x00000000#32),
    StableHlo.TRef.unary main_call9.call0.cst_1 main_call9.call0.call0.v0 id,
    StableHlo.TRef.unary main_call9.call0.call0.v0 main_call9.call0.call0.v1 (broadcastInDim S16384x256 ![] bcast_S_S16384x256),
    StableHlo.TRef.ternary main_call9.call0.v3 main_call9.call0.call0.v1 (TRef.of main_v44 : StableHlo.TRef sig ⟨S16384x256, .f32⟩) main_call9.call0.call0.v2 select,
    StableHlo.TRef.unary main_call9.call0.call0.v2 main_call9.call0.v5 Host.expm1,
    StableHlo.TRef.unary main_call9.cst main_call9.call0.v6 id,
    StableHlo.TRef.unary main_call9.call0.v6 main_call9.call0.v7 (broadcastInDim S16384x256 ![] bcast_S_S16384x256),
    StableHlo.TRef.binary main_call9.call0.v7 main_call9.call0.v5 main_call9.call0.v8 mulf,
    StableHlo.TRef.ternary main_call9.call0.v1 (TRef.of main_v44 : StableHlo.TRef sig ⟨S16384x256, .f32⟩) main_call9.call0.v8 main_call9.call0.call1.v0 select,
    StableHlo.TRef.nullary main_call9.cst_0 (constant S_ .f32 0x3F867D5F#32),
    StableHlo.TRef.unary main_call9.cst_0 main_call9.v1 (broadcastInDim S16384x256 ![] bcast_S_S16384x256),
    StableHlo.TRef.binary main_call9.v1 main_call9.call0.call1.v0 main_call9.v2 mulf,
    StableHlo.binary main_v45 main_arg5 main_v46 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    StableHlo.unary main_arg6 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S16384x128 ![0, 1] bcast_S1x128_S16384x128_0_1 : (⟨S1x128, .f32⟩ : BufTy).Contents (Elt F) → (⟨S16384x128, .f32⟩ : BufTy).Contents (Elt F)),
    StableHlo.binary main_v46 main_v48 main_v49 (addf : (⟨S16384x128, .f32⟩ : BufTy).Contents (Elt F) → (⟨S16384x128, .f32⟩ : BufTy).Contents (Elt F) → (⟨S16384x128, .f32⟩ : BufTy).Contents (Elt F)),
    StableHlo.nullary main_cst_13 (constant S_ .f32 0x00000000#32),
    StableHlo.binary main_arg0 main_cst_13 main_v50 ((fun x v => Host.reduceAdd x v reducesTo_S16384x64x32_S16384x32_d1 h_S_) : (⟨S16384x64x32, .f32⟩ : BufTy).Contents (Elt F) → (⟨S_, .f32⟩ : BufTy).Contents (Elt F) → (⟨S16384x32, .f32⟩ : BufTy).Contents (Elt F)) ]

/-- Operations 189 … 189 of the line. -/
abbrev ops9 : List (HloOp τ sig (Elt F)) :=
  [ StableHlo.nary ![main_v49, main_v34, main_v50] main_v51 (fun u => concatenate S16384x2176 1 [⟨S16384x128, u 0⟩, ⟨S16384x2016, u 1⟩, ⟨S16384x32, u 2⟩] concatenates_S16384x128_S16384x2016_S16384x32_S16384x2176_d1) ]

/-- Operations 190 … 200 of the line. -/
abbrev ops10 : List (HloOp τ sig (Elt F)) :=
  [ StableHlo.binary main_v51 main_arg7 main_v52 ((fun l r => Host.dotGeneral dot_S16384x2176_S2176x256_S16384x256_1_0_0_1_n_n none l r) : (⟨S16384x2176, .f32⟩ : BufTy).Contents (Elt F) → (⟨S2176x256, .f32⟩ : BufTy).Contents (Elt F) → (⟨S16384x256, .f32⟩ : BufTy).Contents (Elt F)),
    StableHlo.unary main_arg8 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S16384x256 ![0, 1] bcast_S1x256_S16384x256_0_1 : (⟨S1x256, .f32⟩ : BufTy).Contents (Elt F) → (⟨S16384x256, .f32⟩ : BufTy).Contents (Elt F)),
    StableHlo.binary main_v52 main_v54 main_v55 (addf : (⟨S16384x256, .f32⟩ : BufTy).Contents (Elt F) → (⟨S16384x256, .f32⟩ : BufTy).Contents (Elt F) → (⟨S16384x256, .f32⟩ : BufTy).Contents (Elt F)),
    StableHlo.TRef.nullary main_call10.cst (constant S_ .f32 0x00000000#32),
    StableHlo.TRef.unary main_call10.cst main_call10.v0 (broadcastInDim S16384x256 ![] bcast_S_S16384x256),
    StableHlo.TRef.binary (TRef.of main_v55 : StableHlo.TRef sig ⟨S16384x256, .f32⟩) main_call10.v0 main_call10.v1 maximumf,
    StableHlo.binary main_v56 main_arg9 main_v57 ((fun l r => Host.dotGeneral dot_S16384x256_S256x1_S16384x1_1_0_0_1_n_n none l r) : (⟨S16384x256, .f32⟩ : BufTy).Contents (Elt F) → (⟨S256x1, .f32⟩ : BufTy).Contents (Elt F) → (⟨S16384x1, .f32⟩ : BufTy).Contents (Elt F)),
    StableHlo.unary main_arg10 main_v58 (broadcastInDim S1x1 ![1] bcast_S1_S1x1_1 : (⟨S1, .f32⟩ : BufTy).Contents (Elt F) → (⟨S1x1, .f32⟩ : BufTy).Contents (Elt F)),
    StableHlo.unary main_v58 main_v59 (broadcastInDim S16384x1 ![0, 1] bcast_S1x1_S16384x1_0_1 : (⟨S1x1, .f32⟩ : BufTy).Contents (Elt F) → (⟨S16384x1, .f32⟩ : BufTy).Contents (Elt F)),
    StableHlo.binary main_v57 main_v59 main_v60 (addf : (⟨S16384x1, .f32⟩ : BufTy).Contents (Elt F) → (⟨S16384x1, .f32⟩ : BufTy).Contents (Elt F) → (⟨S16384x1, .f32⟩ : BufTy).Contents (Elt F)) ]

/-- The line is its consecutive segments. -/
theorem ops_split : (ops : List (HloOp τ sig (Elt F))) = ops0 ++ (ops1 ++ (ops2 ++ (ops3 ++ (ops4 ++ (ops5 ++ (ops6 ++ (ops7 ++ (ops8 ++ (ops9 ++ (ops10)))))))))) := rfl

section General

variable {nD : Nat} {τ : Topo} {sig : RefSig} {Val : EltTy → Type}

/-- The fold over two segments run one after the other is the fold over the second from the first's result. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {x a b y : Ref sig .tc}

/-- An operation over a literal family of three operands (a concatenation of three arrays), read at its result: its
    function applied to each operand's contents at that operand's own reference. -/
theorem nary3_result'
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

end General

end Cert.RefRun

end
-- ==== Proof.RefRunPlain.lean ====
import proofs.«128613_j14594298872614_2_alg».proof.Proof.RefRunChunks

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

section Plain

variable {τ : Topo} {sig : RefSig} {Val : EltTy → Type} {x a b c y : Ref sig .tc}

/-! An operation stated over typed references that are literal references carrying their own buffer type is the
    plain operation on those references with the same function: the transport of the function along the type
    equations is the identity, whatever the function. -/

theorem nullary_of (y : Ref sig .tc) (dy : y.space ≠ .host) (uy : y.isScoped = false) (v : y.ty.Contents Val) (hy : y.space ≠ .host ∧ (y : DevRef τ sig).isScoped = false) :
    TRef.nullary (τ := τ) (TRef.of y rfl dy uy : TRef sig y.ty) v = StableHlo.nullary y v hy := rfl

theorem unary_of (x y : Ref sig .tc) (dx : x.space ≠ .host) (ux : x.isScoped = false) (dy : y.space ≠ .host) (uy : y.isScoped = false) (f : x.ty.Contents Val → y.ty.Contents Val) (hx : x.space ≠ .host ∧ (x : DevRef τ sig).isScoped = false) (hy : y.space ≠ .host ∧ (y : DevRef τ sig).isScoped = false) :
    TRef.unary (τ := τ) (TRef.of x rfl dx ux : TRef sig x.ty) (TRef.of y rfl dy uy : TRef sig y.ty) f = StableHlo.unary x y f hx hy := rfl

theorem binary_of (a b y : Ref sig .tc) (da : a.space ≠ .host) (ua : a.isScoped = false) (db : b.space ≠ .host) (ub : b.isScoped = false) (dy : y.space ≠ .host) (uy : y.isScoped = false)
    (f : a.ty.Contents Val → b.ty.Contents Val → y.ty.Contents Val) (ha : a.space ≠ .host ∧ (a : DevRef τ sig).isScoped = false) (hb : b.space ≠ .host ∧ (b : DevRef τ sig).isScoped = false) (hy : y.space ≠ .host ∧ (y : DevRef τ sig).isScoped = false) :
    TRef.binary (τ := τ) (TRef.of a rfl da ua : TRef sig a.ty) (TRef.of b rfl db ub : TRef sig b.ty) (TRef.of y rfl dy uy : TRef sig y.ty) f = StableHlo.binary a b y f ha hb hy := rfl

theorem ternary_of (c a b y : Ref sig .tc) (dc : c.space ≠ .host) (uc : c.isScoped = false) (da : a.space ≠ .host) (ua : a.isScoped = false) (db : b.space ≠ .host) (ub : b.isScoped = false) (dy : y.space ≠ .host) (uy : y.isScoped = false)
    (f : c.ty.Contents Val → a.ty.Contents Val → b.ty.Contents Val → y.ty.Contents Val) (hc : c.space ≠ .host ∧ (c : DevRef τ sig).isScoped = false) (ha : a.space ≠ .host ∧ (a : DevRef τ sig).isScoped = false) (hb : b.space ≠ .host ∧ (b : DevRef τ sig).isScoped = false) (hy : y.space ≠ .host ∧ (y : DevRef τ sig).isScoped = false) :
    TRef.ternary (τ := τ) (TRef.of c rfl dc uc : TRef sig c.ty) (TRef.of a rfl da ua : TRef sig a.ty) (TRef.of b rfl db ub : TRef sig b.ty) (TRef.of y rfl dy uy : TRef sig y.ty) f = StableHlo.ternary c a b y f hc ha hb hy := rfl

theorem reshape_of (x y : Ref sig .tc) (dx : x.space ≠ .host) (ux : x.isScoped = false) (dy : y.space ≠ .host) (uy : y.isScoped = false) (he : x.ty.elt = y.ty.elt) (hn : x.ty.shape.ShapeCasts y.ty.shape) (hx : x.space ≠ .host ∧ (x : DevRef τ sig).isScoped = false) (hy : y.space ≠ .host ∧ (y : DevRef τ sig).isScoped = false) :
    TRef.reshape (τ := τ) (Val := Val) (TRef.of x rfl dx ux : TRef sig x.ty) (TRef.of y rfl dy uy : TRef sig y.ty) he hn = StableHlo.reshape x y he hn hx hy := rfl

theorem cons_congr {α : Type _} {p q : α} {l l' : List α} (h : p = q) (t : l = l') : p :: l = q :: l' := h ▸ t ▸ rfl

end Plain

/-- Operations 0 … 39 of the line, each on its buffers directly. -/
abbrev opsP0 : List (HloOp τ sig (Elt F)) :=
  [ StableHlo.binary main_arg0 main_arg0 main_v0 ((fun l r => Host.dotGeneral dot_S16384x64x32_S16384x64x32_S16384x64x64_2_2_1_1_0_0 none l r) : (⟨S16384x64x32, .f32⟩ : BufTy).Contents (Elt F) → (⟨S16384x64x32, .f32⟩ : BufTy).Contents (Elt F) → (⟨S16384x64x64, .f32⟩ : BufTy).Contents (Elt F)),
    StableHlo.nullary main_cst (constant S_ .f32 0x3F800000#32),
    StableHlo.unary main_cst main_v1 (broadcastInDim S64x64 ![] bcast_S_S64x64 : (⟨S_, .f32⟩ : BufTy).Contents (Elt F) → (⟨S64x64, .f32⟩ : BufTy).Contents (Elt F)),
    StableHlo.nullary main_call0_v0 (iotaInDim S64x64 32 0),
    StableHlo.nullary main_call0_c (constantI S_ 32 0#32),
    StableHlo.unary main_call0_c main_call0_v1 ((broadcastInDim S64x64 ![] bcast_S_S64x64) : (⟨S_, .i32⟩ : BufTy).Contents (Elt F) → (⟨S64x64, .i32⟩ : BufTy).Contents (Elt F)),
    StableHlo.binary main_call0_v0 main_call0_v1 main_call0_v2 (addi : (⟨S64x64, .i32⟩ : BufTy).Contents (Elt F) → (⟨S64x64, .i32⟩ : BufTy).Contents (Elt F) → (⟨S64x64, .i32⟩ : BufTy).Contents (Elt F)),
    StableHlo.nullary main_call0_v3 (iotaInDim S64x64 32 1),
    StableHlo.binary main_call0_v2 main_call0_v3 main_call0_v4 ((cmpi .sge) : (⟨S64x64, .i32⟩ : BufTy).Contents (Elt F) → (⟨S64x64, .i32⟩ : BufTy).Contents (Elt F) → (⟨S64x64, .i1⟩ : BufTy).Contents (Elt F)),
    StableHlo.nullary main_call0_cst (constant S_ .f32 0x00000000#32),
    StableHlo.unary main_call0_cst main_call0_v5 ((broadcastInDim S64x64 ![] bcast_S_S64x64) : (⟨S_, .f32⟩ : BufTy).Contents (Elt F) → (⟨S64x64, .f32⟩ : BufTy).Contents (Elt F)),
    StableHlo.ternary main_call0_v4 main_call0_v5 main_v1 main_v2 (select : (⟨S64x64, .i1⟩ : BufTy).Contents (Elt F) → (⟨S64x64, .f32⟩ : BufTy).Contents (Elt F) → (⟨S64x64, .f32⟩ : BufTy).Contents (Elt F) → (⟨S64x64, .f32⟩ : BufTy).Contents (Elt F)),
    StableHlo.nullary main_cst_0 (constant S_ .f32 0x00000000#32),
    StableHlo.unary main_cst_0 main_v3 (broadcastInDim S64x64 ![] bcast_S_S64x64 : (⟨S_, .f32⟩ : BufTy).Contents (Elt F) → (⟨S64x64, .f32⟩ : BufTy).Contents (Elt F)),
    StableHlo.binary main_v2 main_v3 main_v4 (cmpf .une : (⟨S64x64, .f32⟩ : BufTy).Contents (Elt F) → (⟨S64x64, .f32⟩ : BufTy).Contents (Elt F) → (⟨S64x64, .i1⟩ : BufTy).Contents (Elt F)),
    StableHlo.reshape main_v4 main_call1_v0 rfl shapeCasts_S64x64_S4096,
    StableHlo.unary main_call1_v0 main_call1_v1 ((extui 32 · natLt_1_32) : (⟨S4096, .i1⟩ : BufTy).Contents (Elt F) → (⟨S4096, .i32⟩ : BufTy).Contents (Elt F)),
    StableHlo.nullary main_call1_call0_c (constantI S_ 32 0#32),
    StableHlo.unary main_call1_call0_c main_call1_call0_v0 ((broadcastInDim S_ ![] bcast_S_S_) : (⟨S_, .i32⟩ : BufTy).Contents (Elt F) → (⟨S_, .i32⟩ : BufTy).Contents (Elt F)),
    StableHlo.binary main_call1_v1 main_call1_call0_v0 main_v5 ((fun x v => Host.reduceWindow IntOp.addi ![4096] ![1] ![4095] ![0] x v reduceWindows_S4096_S4096_w4096s1p4095_0 h_S_) : (⟨S4096, .i32⟩ : BufTy).Contents (Elt F) → (⟨S_, .i32⟩ : BufTy).Contents (Elt F) → (⟨S4096, .i32⟩ : BufTy).Contents (Elt F)),
    StableHlo.nullary main_c (constantI S_ 32 0#32),
    StableHlo.unary main_c main_v6 (broadcastInDim S2016 ![] bcast_S_S2016 : (⟨S_, .i32⟩ : BufTy).Contents (Elt F) → (⟨S2016, .i32⟩ : BufTy).Contents (Elt F)),
    StableHlo.nullary main_c_1 (constantI S_ 32 0#32),
    StableHlo.unary main_c_1 main_call2_v0 (id : (⟨S_, .i32⟩ : BufTy).Contents (Elt F) → (⟨S_, .i32⟩ : BufTy).Contents (Elt F)),
    StableHlo.unary main_call2_v0 main_call2_v1 ((broadcastInDim S4096 ![] bcast_S_S4096) : (⟨S_, .i32⟩ : BufTy).Contents (Elt F) → (⟨S4096, .i32⟩ : BufTy).Contents (Elt F)),
    StableHlo.binary main_call2_v1 main_v5 main_v7 (maxsi : (⟨S4096, .i32⟩ : BufTy).Contents (Elt F) → (⟨S4096, .i32⟩ : BufTy).Contents (Elt F) → (⟨S4096, .i32⟩ : BufTy).Contents (Elt F)),
    StableHlo.nullary main_c_2 (constantI S_ 32 0#32),
    StableHlo.unary main_c_2 main_v8 (broadcastInDim S4096 ![] bcast_S_S4096 : (⟨S_, .i32⟩ : BufTy).Contents (Elt F) → (⟨S4096, .i32⟩ : BufTy).Contents (Elt F)),
    StableHlo.binary main_v7 main_v8 main_v9 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 2016#32),
    StableHlo.unary main_c_3 main_v10 (broadcastInDim S4096 ![] bcast_S_S4096 : (⟨S_, .i32⟩ : BufTy).Contents (Elt F) → (⟨S4096, .i32⟩ : BufTy).Contents (Elt F)),
    StableHlo.binary main_v7 main_v10 main_v11 (addi : (⟨S4096, .i32⟩ : BufTy).Contents (Elt F) → (⟨S4096, .i32⟩ : BufTy).Contents (Elt F) → (⟨S4096, .i32⟩ : BufTy).Contents (Elt F)),
    StableHlo.ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v12 main_v13 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v14 (broadcastInDim S4096 ![] bcast_S_S4096 : (⟨S_, .i32⟩ : BufTy).Contents (Elt F) → (⟨S4096, .i32⟩ : BufTy).Contents (Elt F)),
    StableHlo.ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)),
    StableHlo.nullary main_call3_call0_c (constantI S_ 32 0#32),
    StableHlo.unary main_call3_call0_c main_call3_call0_v0 ((broadcastInDim S_ ![] bcast_S_S_) : (⟨S_, .i32⟩ : BufTy).Contents (Elt F) → (⟨S_, .i32⟩ : BufTy).Contents (Elt F)),
    StableHlo.binary main_v15 main_call3_call0_v0 main_v16 ((fun x v => Host.reduceWindow IntOp.addi ![2016] ![1] ![2015] ![0] x v reduceWindows_S2016_S2016_w2016s1p2015_0 h_S_) : (⟨S2016, .i32⟩ : BufTy).Contents (Elt F) → (⟨S_, .i32⟩ : BufTy).Contents (Elt F) → (⟨S2016, .i32⟩ : BufTy).Contents (Elt F)) ]

set_option maxRecDepth 8192 in
theorem ops0_eq : (ops0 : List (HloOp τ sig (Elt F))) = opsP0 :=
  cons_congr (rfl) (
  cons_congr (rfl) (
  cons_congr (rfl) (
  cons_congr (nullary_of main_call0_v0 ..) (
  cons_congr (nullary_of main_call0_c ..) (
  cons_congr (unary_of main_call0_c main_call0_v1 ..) (
  cons_congr (binary_of main_call0_v0 main_call0_v1 main_call0_v2 ..) (
  cons_congr (nullary_of main_call0_v3 ..) (
  cons_congr (binary_of main_call0_v2 main_call0_v3 main_call0_v4 ..) (
  cons_congr (nullary_of main_call0_cst ..) (
  cons_congr (unary_of main_call0_cst main_call0_v5 ..) (
  cons_congr (ternary_of main_call0_v4 main_call0_v5 main_v1 main_v2 ..) (
  cons_congr (rfl) (
  cons_congr (rfl) (
  cons_congr (rfl) (
  cons_congr (reshape_of main_v4 main_call1_v0 ..) (
  cons_congr (unary_of main_call1_v0 main_call1_v1 ..) (
  cons_congr (nullary_of main_call1_call0_c ..) (
  cons_congr (unary_of main_call1_call0_c main_call1_call0_v0 ..) (
  cons_congr (binary_of main_call1_v1 main_call1_call0_v0 main_v5 ..) (
  cons_congr (rfl) (
  cons_congr (rfl) (
  cons_congr (rfl) (
  cons_congr (unary_of main_c_1 main_call2_v0 ..) (
  cons_congr (unary_of main_call2_v0 main_call2_v1 ..) (
  cons_congr (binary_of main_call2_v1 main_v5 main_v7 ..) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (nullary_of main_call3_call0_c ..) (
  cons_congr (unary_of main_call3_call0_c main_call3_call0_v0 ..) (
  cons_congr (binary_of main_v15 main_call3_call0_v0 main_v16 ..) (rfl))))))))))))))))))))))))))))))))))))))))

/-- Operations 40 … 56 of the line, each on its buffers directly. -/
abbrev opsP1 : List (HloOp τ sig (Elt F)) :=
  [ StableHlo.nullary main_c_5 (constantI S_ 32 64#32),
    StableHlo.unary main_c_5 main_call4_v0 ((broadcastInDim S2016 ![] bcast_S_S2016) : (⟨S_, .i32⟩ : BufTy).Contents (Elt F) → (⟨S2016, .i32⟩ : BufTy).Contents (Elt F)),
    StableHlo.binary main_v16 main_call4_v0 main_call4_v1 (Host.divsi : (⟨S2016, .i32⟩ : BufTy).Contents (Elt F) → (⟨S2016, .i32⟩ : BufTy).Contents (Elt F) → (⟨S2016, .i32⟩ : BufTy).Contents (Elt F)),
    StableHlo.unary main_v16 main_call4_v2 (signi : (⟨S2016, .i32⟩ : BufTy).Contents (Elt F) → (⟨S2016, .i32⟩ : BufTy).Contents (Elt F)),
    StableHlo.unary main_c_5 main_call4_v3 (signi : (⟨S_, .i32⟩ : BufTy).Contents (Elt F) → (⟨S_, .i32⟩ : BufTy).Contents (Elt F)),
    StableHlo.unary main_call4_v3 main_call4_v4 ((broadcastInDim S2016 ![] bcast_S_S2016) : (⟨S_, .i32⟩ : BufTy).Contents (Elt F) → (⟨S2016, .i32⟩ : BufTy).Contents (Elt F)),
    StableHlo.binary main_call4_v2 main_call4_v4 main_call4_v5 ((cmpi .ne) : (⟨S2016, .i32⟩ : BufTy).Contents (Elt F) → (⟨S2016, .i32⟩ : BufTy).Contents (Elt F) → (⟨S2016, .i1⟩ : BufTy).Contents (Elt F)),
    StableHlo.unary main_c_5 main_call4_v6 ((broadcastInDim S2016 ![] bcast_S_S2016) : (⟨S_, .i32⟩ : BufTy).Contents (Elt F) → (⟨S2016, .i32⟩ : BufTy).Contents (Elt F)),
    StableHlo.binary main_v16 main_call4_v6 main_call4_v7 (Host.remsi : (⟨S2016, .i32⟩ : BufTy).Contents (Elt F) → (⟨S2016, .i32⟩ : BufTy).Contents (Elt F) → (⟨S2016, .i32⟩ : BufTy).Contents (Elt F)),
    StableHlo.nullary main_call4_c (constantI S_ 32 0#32),
    StableHlo.unary main_call4_c main_call4_v8 ((broadcastInDim S2016 ![] bcast_S_S2016) : (⟨S_, .i32⟩ : BufTy).Contents (Elt F) → (⟨S2016, .i32⟩ : BufTy).Contents (Elt F)),
    StableHlo.binary main_call4_v7 main_call4_v8 main_call4_v9 ((cmpi .ne) : (⟨S2016, .i32⟩ : BufTy).Contents (Elt F) → (⟨S2016, .i32⟩ : BufTy).Contents (Elt F) → (⟨S2016, .i1⟩ : BufTy).Contents (Elt F)),
    StableHlo.binary main_call4_v5 main_call4_v9 main_call4_v10 (andi : (⟨S2016, .i1⟩ : BufTy).Contents (Elt F) → (⟨S2016, .i1⟩ : BufTy).Contents (Elt F) → (⟨S2016, .i1⟩ : BufTy).Contents (Elt F)),
    StableHlo.nullary main_call4_c_0 (constantI S_ 32 1#32),
    StableHlo.unary main_call4_c_0 main_call4_v11 ((broadcastInDim S2016 ![] bcast_S_S2016) : (⟨S_, .i32⟩ : BufTy).Contents (Elt F) → (⟨S2016, .i32⟩ : BufTy).Contents (Elt F)),
    StableHlo.binary main_call4_v1 main_call4_v11 main_call4_v12 (subi : (⟨S2016, .i32⟩ : BufTy).Contents (Elt F) → (⟨S2016, .i32⟩ : BufTy).Contents (Elt F) → (⟨S2016, .i32⟩ : BufTy).Contents (Elt F)),
    StableHlo.ternary main_call4_v10 main_call4_v12 main_call4_v1 main_v17 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)) ]

set_option maxRecDepth 8192 in
theorem ops1_eq : (ops1 : List (HloOp τ sig (Elt F))) = opsP1 :=
  cons_congr (rfl) (
  cons_congr (unary_of main_c_5 main_call4_v0 ..) (
  cons_congr (binary_of main_v16 main_call4_v0 main_call4_v1 ..) (
  cons_congr (unary_of main_v16 main_call4_v2 ..) (
  cons_congr (unary_of main_c_5 main_call4_v3 ..) (
  cons_congr (unary_of main_call4_v3 main_call4_v4 ..) (
  cons_congr (binary_of main_call4_v2 main_call4_v4 main_call4_v5 ..) (
  cons_congr (unary_of main_c_5 main_call4_v6 ..) (
  cons_congr (binary_of main_v16 main_call4_v6 main_call4_v7 ..) (
  cons_congr (nullary_of main_call4_c ..) (
  cons_congr (unary_of main_call4_c main_call4_v8 ..) (
  cons_congr (binary_of main_call4_v7 main_call4_v8 main_call4_v9 ..) (
  cons_congr (binary_of main_call4_v5 main_call4_v9 main_call4_v10 ..) (
  cons_congr (nullary_of main_call4_c_0 ..) (
  cons_congr (unary_of main_call4_c_0 main_call4_v11 ..) (
  cons_congr (binary_of main_call4_v1 main_call4_v11 main_call4_v12 ..) (
  cons_congr (ternary_of main_call4_v10 main_call4_v12 main_call4_v1 main_v17 ..) (rfl)))))))))))))))))

/-- Operations 57 … 78 of the line, each on its buffers directly. -/
abbrev opsP2 : List (HloOp τ sig (Elt F)) :=
  [ StableHlo.nullary main_c_6 (constantI S_ 32 64#32),
    StableHlo.unary main_c_6 main_call5_v0 (id : (⟨S_, .i32⟩ : BufTy).Contents (Elt F) → (⟨S_, .i32⟩ : BufTy).Contents (Elt F)),
    StableHlo.nullary main_call5_c (constantI S_ 32 0#32),
    StableHlo.binary main_call5_v0 main_call5_c main_call5_v1 ((cmpi .eq) : (⟨S_, .i32⟩ : BufTy).Contents (Elt F) → (⟨S_, .i32⟩ : BufTy).Contents (Elt F) → (⟨S_, .i1⟩ : BufTy).Contents (Elt F)),
    StableHlo.nullary main_call5_c_0 (constantI S_ 32 1#32),
    StableHlo.ternary main_call5_v1 main_call5_c_0 main_call5_v0 main_call5_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call5_v2 main_call5_v3 ((broadcastInDim S2016 ![] bcast_S_S2016) : (⟨S_, .i32⟩ : BufTy).Contents (Elt F) → (⟨S2016, .i32⟩ : BufTy).Contents (Elt F)),
    StableHlo.binary main_v17 main_call5_v3 main_call5_v4 (Host.remsi : (⟨S2016, .i32⟩ : BufTy).Contents (Elt F) → (⟨S2016, .i32⟩ : BufTy).Contents (Elt F) → (⟨S2016, .i32⟩ : BufTy).Contents (Elt F)),
    StableHlo.nullary main_call5_c_1 (constantI S_ 32 0#32),
    StableHlo.unary main_call5_c_1 main_call5_v5 ((broadcastInDim S2016 ![] bcast_S_S2016) : (⟨S_, .i32⟩ : BufTy).Contents (Elt F) → (⟨S2016, .i32⟩ : BufTy).Contents (Elt F)),
    StableHlo.binary main_call5_v4 main_call5_v5 main_call5_v6 ((cmpi .ne) : (⟨S2016, .i32⟩ : BufTy).Contents (Elt F) → (⟨S2016, .i32⟩ : BufTy).Contents (Elt F) → (⟨S2016, .i1⟩ : BufTy).Contents (Elt F)),
    StableHlo.nullary main_call5_c_2 (constantI S_ 32 0#32),
    StableHlo.unary main_call5_c_2 main_call5_v7 ((broadcastInDim S2016 ![] bcast_S_S2016) : (⟨S_, .i32⟩ : BufTy).Contents (Elt F) → (⟨S2016, .i32⟩ : BufTy).Contents (Elt F)),
    StableHlo.binary main_call5_v4 main_call5_v7 main_call5_v8 ((cmpi .slt) : (⟨S2016, .i32⟩ : BufTy).Contents (Elt F) → (⟨S2016, .i32⟩ : BufTy).Contents (Elt F) → (⟨S2016, .i1⟩ : BufTy).Contents (Elt F)),
    StableHlo.nullary main_call5_c_3 (constantI S_ 32 0#32),
    StableHlo.binary main_call5_v2 main_call5_c_3 main_call5_v9 ((cmpi .slt) : (⟨S_, .i32⟩ : BufTy).Contents (Elt F) → (⟨S_, .i32⟩ : BufTy).Contents (Elt F) → (⟨S_, .i1⟩ : BufTy).Contents (Elt F)),
    StableHlo.unary main_call5_v9 main_call5_v10 ((broadcastInDim S2016 ![] bcast_S_S2016) : (⟨S_, .i1⟩ : BufTy).Contents (Elt F) → (⟨S2016, .i1⟩ : BufTy).Contents (Elt F)),
    StableHlo.binary main_call5_v8 main_call5_v10 main_call5_v11 ((cmpi .ne) : (⟨S2016, .i1⟩ : BufTy).Contents (Elt F) → (⟨S2016, .i1⟩ : BufTy).Contents (Elt F) → (⟨S2016, .i1⟩ : BufTy).Contents (Elt F)),
    StableHlo.binary main_call5_v11 main_call5_v6 main_call5_v12 (andi : (⟨S2016, .i1⟩ : BufTy).Contents (Elt F) → (⟨S2016, .i1⟩ : BufTy).Contents (Elt F) → (⟨S2016, .i1⟩ : BufTy).Contents (Elt F)),
    StableHlo.unary main_call5_v2 main_call5_v13 ((broadcastInDim S2016 ![] bcast_S_S2016) : (⟨S_, .i32⟩ : BufTy).Contents (Elt F) → (⟨S2016, .i32⟩ : BufTy).Contents (Elt F)),
    StableHlo.binary main_call5_v4 main_call5_v13 main_call5_v14 (addi : (⟨S2016, .i32⟩ : BufTy).Contents (Elt F) → (⟨S2016, .i32⟩ : BufTy).Contents (Elt F) → (⟨S2016, .i32⟩ : BufTy).Contents (Elt F)),
    StableHlo.ternary main_call5_v12 main_call5_v14 main_call5_v4 main_v18 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)) ]

set_option maxRecDepth 8192 in
theorem ops2_eq : (ops2 : List (HloOp τ sig (Elt F))) = opsP2 :=
  cons_congr (rfl) (
  cons_congr (unary_of main_c_6 main_call5_v0 ..) (
  cons_congr (nullary_of main_call5_c ..) (
  cons_congr (binary_of main_call5_v0 main_call5_c main_call5_v1 ..) (
  cons_congr (nullary_of main_call5_c_0 ..) (
  cons_congr (ternary_of main_call5_v1 main_call5_c_0 main_call5_v0 main_call5_v2 ..) (
  cons_congr (unary_of main_call5_v2 main_call5_v3 ..) (
  cons_congr (binary_of main_v17 main_call5_v3 main_call5_v4 ..) (
  cons_congr (nullary_of main_call5_c_1 ..) (
  cons_congr (unary_of main_call5_c_1 main_call5_v5 ..) (
  cons_congr (binary_of main_call5_v4 main_call5_v5 main_call5_v6 ..) (
  cons_congr (nullary_of main_call5_c_2 ..) (
  cons_congr (unary_of main_call5_c_2 main_call5_v7 ..) (
  cons_congr (binary_of main_call5_v4 main_call5_v7 main_call5_v8 ..) (
  cons_congr (nullary_of main_call5_c_3 ..) (
  cons_congr (binary_of main_call5_v2 main_call5_c_3 main_call5_v9 ..) (
  cons_congr (unary_of main_call5_v9 main_call5_v10 ..) (
  cons_congr (binary_of main_call5_v8 main_call5_v10 main_call5_v11 ..) (
  cons_congr (binary_of main_call5_v11 main_call5_v6 main_call5_v12 ..) (
  cons_congr (unary_of main_call5_v2 main_call5_v13 ..) (
  cons_congr (binary_of main_call5_v4 main_call5_v13 main_call5_v14 ..) (
  cons_congr (ternary_of main_call5_v12 main_call5_v14 main_call5_v4 main_v18 ..) (rfl))))))))))))))))))))))

/-- Operations 79 … 95 of the line, each on its buffers directly. -/
abbrev opsP3 : List (HloOp τ sig (Elt F)) :=
  [ StableHlo.nullary main_c_7 (constantI S_ 32 1#32),
    StableHlo.unary main_c_7 main_call6_v0 ((broadcastInDim S2016 ![] bcast_S_S2016) : (⟨S_, .i32⟩ : BufTy).Contents (Elt F) → (⟨S2016, .i32⟩ : BufTy).Contents (Elt F)),
    StableHlo.binary main_v16 main_call6_v0 main_call6_v1 (Host.divsi : (⟨S2016, .i32⟩ : BufTy).Contents (Elt F) → (⟨S2016, .i32⟩ : BufTy).Contents (Elt F) → (⟨S2016, .i32⟩ : BufTy).Contents (Elt F)),
    StableHlo.unary main_v16 main_call6_v2 (signi : (⟨S2016, .i32⟩ : BufTy).Contents (Elt F) → (⟨S2016, .i32⟩ : BufTy).Contents (Elt F)),
    StableHlo.unary main_c_7 main_call6_v3 (signi : (⟨S_, .i32⟩ : BufTy).Contents (Elt F) → (⟨S_, .i32⟩ : BufTy).Contents (Elt F)),
    StableHlo.unary main_call6_v3 main_call6_v4 ((broadcastInDim S2016 ![] bcast_S_S2016) : (⟨S_, .i32⟩ : BufTy).Contents (Elt F) → (⟨S2016, .i32⟩ : BufTy).Contents (Elt F)),
    StableHlo.binary main_call6_v2 main_call6_v4 main_call6_v5 ((cmpi .ne) : (⟨S2016, .i32⟩ : BufTy).Contents (Elt F) → (⟨S2016, .i32⟩ : BufTy).Contents (Elt F) → (⟨S2016, .i1⟩ : BufTy).Contents (Elt F)),
    StableHlo.unary main_c_7 main_call6_v6 ((broadcastInDim S2016 ![] bcast_S_S2016) : (⟨S_, .i32⟩ : BufTy).Contents (Elt F) → (⟨S2016, .i32⟩ : BufTy).Contents (Elt F)),
    StableHlo.binary main_v16 main_call6_v6 main_call6_v7 (Host.remsi : (⟨S2016, .i32⟩ : BufTy).Contents (Elt F) → (⟨S2016, .i32⟩ : BufTy).Contents (Elt F) → (⟨S2016, .i32⟩ : BufTy).Contents (Elt F)),
    StableHlo.nullary main_call6_c (constantI S_ 32 0#32),
    StableHlo.unary main_call6_c main_call6_v8 ((broadcastInDim S2016 ![] bcast_S_S2016) : (⟨S_, .i32⟩ : BufTy).Contents (Elt F) → (⟨S2016, .i32⟩ : BufTy).Contents (Elt F)),
    StableHlo.binary main_call6_v7 main_call6_v8 main_call6_v9 ((cmpi .ne) : (⟨S2016, .i32⟩ : BufTy).Contents (Elt F) → (⟨S2016, .i32⟩ : BufTy).Contents (Elt F) → (⟨S2016, .i1⟩ : BufTy).Contents (Elt F)),
    StableHlo.binary main_call6_v5 main_call6_v9 main_call6_v10 (andi : (⟨S2016, .i1⟩ : BufTy).Contents (Elt F) → (⟨S2016, .i1⟩ : BufTy).Contents (Elt F) → (⟨S2016, .i1⟩ : BufTy).Contents (Elt F)),
    StableHlo.nullary main_call6_c_0 (constantI S_ 32 1#32),
    StableHlo.unary main_call6_c_0 main_call6_v11 ((broadcastInDim S2016 ![] bcast_S_S2016) : (⟨S_, .i32⟩ : BufTy).Contents (Elt F) → (⟨S2016, .i32⟩ : BufTy).Contents (Elt F)),
    StableHlo.binary main_call6_v1 main_call6_v11 main_call6_v12 (subi : (⟨S2016, .i32⟩ : BufTy).Contents (Elt F) → (⟨S2016, .i32⟩ : BufTy).Contents (Elt F) → (⟨S2016, .i32⟩ : BufTy).Contents (Elt F)),
    StableHlo.ternary main_call6_v10 main_call6_v12 main_call6_v1 main_v19 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)) ]

set_option maxRecDepth 8192 in
theorem ops3_eq : (ops3 : List (HloOp τ sig (Elt F))) = opsP3 :=
  cons_congr (rfl) (
  cons_congr (unary_of main_c_7 main_call6_v0 ..) (
  cons_congr (binary_of main_v16 main_call6_v0 main_call6_v1 ..) (
  cons_congr (unary_of main_v16 main_call6_v2 ..) (
  cons_congr (unary_of main_c_7 main_call6_v3 ..) (
  cons_congr (unary_of main_call6_v3 main_call6_v4 ..) (
  cons_congr (binary_of main_call6_v2 main_call6_v4 main_call6_v5 ..) (
  cons_congr (unary_of main_c_7 main_call6_v6 ..) (
  cons_congr (binary_of main_v16 main_call6_v6 main_call6_v7 ..) (
  cons_congr (nullary_of main_call6_c ..) (
  cons_congr (unary_of main_call6_c main_call6_v8 ..) (
  cons_congr (binary_of main_call6_v7 main_call6_v8 main_call6_v9 ..) (
  cons_congr (binary_of main_call6_v5 main_call6_v9 main_call6_v10 ..) (
  cons_congr (nullary_of main_call6_c_0 ..) (
  cons_congr (unary_of main_call6_c_0 main_call6_v11 ..) (
  cons_congr (binary_of main_call6_v1 main_call6_v11 main_call6_v12 ..) (
  cons_congr (ternary_of main_call6_v10 main_call6_v12 main_call6_v1 main_v19 ..) (rfl)))))))))))))))))

/-- Operations 96 … 117 of the line, each on its buffers directly. -/
abbrev opsP4 : List (HloOp τ sig (Elt F)) :=
  [ StableHlo.nullary main_c_8 (constantI S_ 32 64#32),
    StableHlo.unary main_c_8 main_call7_v0 (id : (⟨S_, .i32⟩ : BufTy).Contents (Elt F) → (⟨S_, .i32⟩ : BufTy).Contents (Elt F)),
    StableHlo.nullary main_call7_c (constantI S_ 32 0#32),
    StableHlo.binary main_call7_v0 main_call7_c main_call7_v1 ((cmpi .eq) : (⟨S_, .i32⟩ : BufTy).Contents (Elt F) → (⟨S_, .i32⟩ : BufTy).Contents (Elt F) → (⟨S_, .i1⟩ : BufTy).Contents (Elt F)),
    StableHlo.nullary main_call7_c_0 (constantI S_ 32 1#32),
    StableHlo.ternary main_call7_v1 main_call7_c_0 main_call7_v0 main_call7_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call7_v2 main_call7_v3 ((broadcastInDim S2016 ![] bcast_S_S2016) : (⟨S_, .i32⟩ : BufTy).Contents (Elt F) → (⟨S2016, .i32⟩ : BufTy).Contents (Elt F)),
    StableHlo.binary main_v19 main_call7_v3 main_call7_v4 (Host.remsi : (⟨S2016, .i32⟩ : BufTy).Contents (Elt F) → (⟨S2016, .i32⟩ : BufTy).Contents (Elt F) → (⟨S2016, .i32⟩ : BufTy).Contents (Elt F)),
    StableHlo.nullary main_call7_c_1 (constantI S_ 32 0#32),
    StableHlo.unary main_call7_c_1 main_call7_v5 ((broadcastInDim S2016 ![] bcast_S_S2016) : (⟨S_, .i32⟩ : BufTy).Contents (Elt F) → (⟨S2016, .i32⟩ : BufTy).Contents (Elt F)),
    StableHlo.binary main_call7_v4 main_call7_v5 main_call7_v6 ((cmpi .ne) : (⟨S2016, .i32⟩ : BufTy).Contents (Elt F) → (⟨S2016, .i32⟩ : BufTy).Contents (Elt F) → (⟨S2016, .i1⟩ : BufTy).Contents (Elt F)),
    StableHlo.nullary main_call7_c_2 (constantI S_ 32 0#32),
    StableHlo.unary main_call7_c_2 main_call7_v7 ((broadcastInDim S2016 ![] bcast_S_S2016) : (⟨S_, .i32⟩ : BufTy).Contents (Elt F) → (⟨S2016, .i32⟩ : BufTy).Contents (Elt F)),
    StableHlo.binary main_call7_v4 main_call7_v7 main_call7_v8 ((cmpi .slt) : (⟨S2016, .i32⟩ : BufTy).Contents (Elt F) → (⟨S2016, .i32⟩ : BufTy).Contents (Elt F) → (⟨S2016, .i1⟩ : BufTy).Contents (Elt F)),
    StableHlo.nullary main_call7_c_3 (constantI S_ 32 0#32),
    StableHlo.binary main_call7_v2 main_call7_c_3 main_call7_v9 ((cmpi .slt) : (⟨S_, .i32⟩ : BufTy).Contents (Elt F) → (⟨S_, .i32⟩ : BufTy).Contents (Elt F) → (⟨S_, .i1⟩ : BufTy).Contents (Elt F)),
    StableHlo.unary main_call7_v9 main_call7_v10 ((broadcastInDim S2016 ![] bcast_S_S2016) : (⟨S_, .i1⟩ : BufTy).Contents (Elt F) → (⟨S2016, .i1⟩ : BufTy).Contents (Elt F)),
    StableHlo.binary main_call7_v8 main_call7_v10 main_call7_v11 ((cmpi .ne) : (⟨S2016, .i1⟩ : BufTy).Contents (Elt F) → (⟨S2016, .i1⟩ : BufTy).Contents (Elt F) → (⟨S2016, .i1⟩ : BufTy).Contents (Elt F)),
    StableHlo.binary main_call7_v11 main_call7_v6 main_call7_v12 (andi : (⟨S2016, .i1⟩ : BufTy).Contents (Elt F) → (⟨S2016, .i1⟩ : BufTy).Contents (Elt F) → (⟨S2016, .i1⟩ : BufTy).Contents (Elt F)),
    StableHlo.unary main_call7_v2 main_call7_v13 ((broadcastInDim S2016 ![] bcast_S_S2016) : (⟨S_, .i32⟩ : BufTy).Contents (Elt F) → (⟨S2016, .i32⟩ : BufTy).Contents (Elt F)),
    StableHlo.binary main_call7_v4 main_call7_v13 main_call7_v14 (addi : (⟨S2016, .i32⟩ : BufTy).Contents (Elt F) → (⟨S2016, .i32⟩ : BufTy).Contents (Elt F) → (⟨S2016, .i32⟩ : BufTy).Contents (Elt F)),
    StableHlo.ternary main_call7_v12 main_call7_v14 main_call7_v4 main_v20 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)) ]

set_option maxRecDepth 8192 in
theorem ops4_eq : (ops4 : List (HloOp τ sig (Elt F))) = opsP4 :=
  cons_congr (rfl) (
  cons_congr (unary_of main_c_8 main_call7_v0 ..) (
  cons_congr (nullary_of main_call7_c ..) (
  cons_congr (binary_of main_call7_v0 main_call7_c main_call7_v1 ..) (
  cons_congr (nullary_of main_call7_c_0 ..) (
  cons_congr (ternary_of main_call7_v1 main_call7_c_0 main_call7_v0 main_call7_v2 ..) (
  cons_congr (unary_of main_call7_v2 main_call7_v3 ..) (
  cons_congr (binary_of main_v19 main_call7_v3 main_call7_v4 ..) (
  cons_congr (nullary_of main_call7_c_1 ..) (
  cons_congr (unary_of main_call7_c_1 main_call7_v5 ..) (
  cons_congr (binary_of main_call7_v4 main_call7_v5 main_call7_v6 ..) (
  cons_congr (nullary_of main_call7_c_2 ..) (
  cons_congr (unary_of main_call7_c_2 main_call7_v7 ..) (
  cons_congr (binary_of main_call7_v4 main_call7_v7 main_call7_v8 ..) (
  cons_congr (nullary_of main_call7_c_3 ..) (
  cons_congr (binary_of main_call7_v2 main_call7_c_3 main_call7_v9 ..) (
  cons_congr (unary_of main_call7_v9 main_call7_v10 ..) (
  cons_congr (binary_of main_call7_v8 main_call7_v10 main_call7_v11 ..) (
  cons_congr (binary_of main_call7_v11 main_call7_v6 main_call7_v12 ..) (
  cons_congr (unary_of main_call7_v2 main_call7_v13 ..) (
  cons_congr (binary_of main_call7_v4 main_call7_v13 main_call7_v14 ..) (
  cons_congr (ternary_of main_call7_v12 main_call7_v14 main_call7_v4 main_v20 ..) (rfl))))))))))))))))))))))

/-- Operations 118 … 133 of the line, each on its buffers directly. -/
abbrev opsP5 : List (HloOp τ sig (Elt F)) :=
  [ StableHlo.nullary main_c_9 (constantI S_ 32 0#32),
    StableHlo.unary main_c_9 main_v21 (broadcastInDim S2016 ![] bcast_S_S2016 : (⟨S_, .i32⟩ : BufTy).Contents (Elt F) → (⟨S2016, .i32⟩ : BufTy).Contents (Elt F)),
    StableHlo.binary main_v18 main_v21 main_v22 (cmpi .slt : (⟨S2016, .i32⟩ : BufTy).Contents (Elt F) → (⟨S2016, .i32⟩ : BufTy).Contents (Elt F) → (⟨S2016, .i1⟩ : BufTy).Contents (Elt F)),
    StableHlo.nullary main_c_10 (constantI S_ 32 64#32),
    StableHlo.unary main_c_10 main_v23 (broadcastInDim S2016 ![] bcast_S_S2016 : (⟨S_, .i32⟩ : BufTy).Contents (Elt F) → (⟨S2016, .i32⟩ : BufTy).Contents (Elt F)),
    StableHlo.binary main_v18 main_v23 main_v24 (addi : (⟨S2016, .i32⟩ : BufTy).Contents (Elt F) → (⟨S2016, .i32⟩ : BufTy).Contents (Elt F) → (⟨S2016, .i32⟩ : BufTy).Contents (Elt F)),
    StableHlo.ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.nullary main_c_11 (constantI S_ 32 0#32),
    StableHlo.unary main_c_11 main_v26 (broadcastInDim S2016 ![] bcast_S_S2016 : (⟨S_, .i32⟩ : BufTy).Contents (Elt F) → (⟨S2016, .i32⟩ : BufTy).Contents (Elt F)),
    StableHlo.binary main_v20 main_v26 main_v27 (cmpi .slt : (⟨S2016, .i32⟩ : BufTy).Contents (Elt F) → (⟨S2016, .i32⟩ : BufTy).Contents (Elt F) → (⟨S2016, .i1⟩ : BufTy).Contents (Elt F)),
    StableHlo.nullary main_c_12 (constantI S_ 32 64#32),
    StableHlo.unary main_c_12 main_v28 (broadcastInDim S2016 ![] bcast_S_S2016 : (⟨S_, .i32⟩ : BufTy).Contents (Elt F) → (⟨S2016, .i32⟩ : BufTy).Contents (Elt F)),
    StableHlo.binary main_v20 main_v28 main_v29 (addi : (⟨S2016, .i32⟩ : BufTy).Contents (Elt F) → (⟨S2016, .i32⟩ : BufTy).Contents (Elt F) → (⟨S2016, .i32⟩ : BufTy).Contents (Elt F)),
    StableHlo.ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.unary main_v25 main_v31 (broadcastInDim S2016x1 ![0] bcast_S2016_S2016x1_0 : (⟨S2016, .i32⟩ : BufTy).Contents (Elt F) → (⟨S2016x1, .i32⟩ : BufTy).Contents (Elt F)),
    StableHlo.unary main_v30 main_v32 (broadcastInDim S2016x1 ![0] bcast_S2016_S2016x1_0 : (⟨S2016, .i32⟩ : BufTy).Contents (Elt F) → (⟨S2016x1, .i32⟩ : BufTy).Contents (Elt F)) ]

set_option maxRecDepth 8192 in
theorem ops5_eq : (ops5 : List (HloOp τ sig (Elt F))) = opsP5 :=
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (
  cons_congr (rfl) (rfl))))))))))))))))

/-- Operations 134 … 134 of the line, each on its buffers directly. -/
abbrev opsP6 : List (HloOp τ sig (Elt F)) :=
  [ StableHlo.binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)) ]

set_option maxRecDepth 8192 in
theorem ops6_eq : (ops6 : List (HloOp τ sig (Elt F))) = opsP6 :=
  cons_congr (rfl) (rfl)

/-- Operations 135 … 163 of the line, each on its buffers directly. -/
abbrev opsP7 : List (HloOp τ sig (Elt F)) :=
  [ StableHlo.binary main_v0 main_v33 main_v34 ((fun x i => Host.gather gather_S16384x64x64_S2016x2_S16384x2016_0_12_n_n_12_1_1638411 x i) : (⟨S16384x64x64, .f32⟩ : BufTy).Contents (Elt F) → (⟨S2016x2, .i32⟩ : BufTy).Contents (Elt F) → (⟨S16384x2016, .f32⟩ : BufTy).Contents (Elt F)),
    StableHlo.reshape main_arg0 main_v35 rfl shapeCasts_S16384x64x32_S16384x2048,
    StableHlo.binary main_v35 main_arg1 main_v36 ((fun l r => Host.dotGeneral dot_S16384x2048_S2048x256_S16384x256_1_0_0_1_n_n none l r) : (⟨S16384x2048, .f32⟩ : BufTy).Contents (Elt F) → (⟨S2048x256, .f32⟩ : BufTy).Contents (Elt F) → (⟨S16384x256, .f32⟩ : BufTy).Contents (Elt F)),
    StableHlo.unary main_arg2 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S16384x256 ![0, 1] bcast_S1x256_S16384x256_0_1 : (⟨S1x256, .f32⟩ : BufTy).Contents (Elt F) → (⟨S16384x256, .f32⟩ : BufTy).Contents (Elt F)),
    StableHlo.binary main_v36 main_v38 main_v39 (addf : (⟨S16384x256, .f32⟩ : BufTy).Contents (Elt F) → (⟨S16384x256, .f32⟩ : BufTy).Contents (Elt F) → (⟨S16384x256, .f32⟩ : BufTy).Contents (Elt F)),
    StableHlo.nullary main_call8_cst (constant S_ .f32 0x3FD62D7D#32),
    StableHlo.nullary main_call8_call0_cst (constant S_ .f32 0x00000000#32),
    StableHlo.unary main_call8_call0_cst main_call8_call0_v0 ((broadcastInDim S16384x256 ![] bcast_S_S16384x256) : (⟨S_, .f32⟩ : BufTy).Contents (Elt F) → (⟨S16384x256, .f32⟩ : BufTy).Contents (Elt F)),
    StableHlo.binary main_v39 main_call8_call0_v0 main_call8_call0_v1 ((cmpf .ogt) : (⟨S16384x256, .f32⟩ : BufTy).Contents (Elt F) → (⟨S16384x256, .f32⟩ : BufTy).Contents (Elt F) → (⟨S16384x256, .i1⟩ : BufTy).Contents (Elt F)),
    StableHlo.nullary main_call8_call0_cst_0 (constant S_ .f32 0x00000000#32),
    StableHlo.unary main_call8_call0_cst_0 main_call8_call0_v2 ((broadcastInDim S16384x256 ![] bcast_S_S16384x256) : (⟨S_, .f32⟩ : BufTy).Contents (Elt F) → (⟨S16384x256, .f32⟩ : BufTy).Contents (Elt F)),
    StableHlo.binary main_v39 main_call8_call0_v2 main_call8_call0_v3 ((cmpf .ogt) : (⟨S16384x256, .f32⟩ : BufTy).Contents (Elt F) → (⟨S16384x256, .f32⟩ : BufTy).Contents (Elt F) → (⟨S16384x256, .i1⟩ : BufTy).Contents (Elt F)),
    StableHlo.nullary main_call8_call0_cst_1 (constant S_ .f32 0x00000000#32),
    StableHlo.unary main_call8_call0_cst_1 main_call8_call0_call0_v0 (id : (⟨S_, .f32⟩ : BufTy).Contents (Elt F) → (⟨S_, .f32⟩ : BufTy).Contents (Elt F)),
    StableHlo.unary main_call8_call0_call0_v0 main_call8_call0_call0_v1 ((broadcastInDim S16384x256 ![] bcast_S_S16384x256) : (⟨S_, .f32⟩ : BufTy).Contents (Elt F) → (⟨S16384x256, .f32⟩ : BufTy).Contents (Elt F)),
    StableHlo.ternary main_call8_call0_v3 main_call8_call0_call0_v1 main_v39 main_call8_call0_v4 (select : (⟨S16384x256, .i1⟩ : BufTy).Contents (Elt F) → (⟨S16384x256, .f32⟩ : BufTy).Contents (Elt F) → (⟨S16384x256, .f32⟩ : BufTy).Contents (Elt F) → (⟨S16384x256, .f32⟩ : BufTy).Contents (Elt F)),
    StableHlo.unary main_call8_call0_v4 main_call8_call0_v5 (Host.expm1 : (⟨S16384x256, .f32⟩ : BufTy).Contents (Elt F) → (⟨S16384x256, .f32⟩ : BufTy).Contents (Elt F)),
    StableHlo.unary main_call8_cst main_call8_call0_v6 (id : (⟨S_, .f32⟩ : BufTy).Contents (Elt F) → (⟨S_, .f32⟩ : BufTy).Contents (Elt F)),
    StableHlo.unary main_call8_call0_v6 main_call8_call0_v7 ((broadcastInDim S16384x256 ![] bcast_S_S16384x256) : (⟨S_, .f32⟩ : BufTy).Contents (Elt F) → (⟨S16384x256, .f32⟩ : BufTy).Contents (Elt F)),
    StableHlo.binary main_call8_call0_v7 main_call8_call0_v5 main_call8_call0_v8 (mulf : (⟨S16384x256, .f32⟩ : BufTy).Contents (Elt F) → (⟨S16384x256, .f32⟩ : BufTy).Contents (Elt F) → (⟨S16384x256, .f32⟩ : BufTy).Contents (Elt F)),
    StableHlo.ternary main_call8_call0_v1 main_v39 main_call8_call0_v8 main_call8_v0 (select : (⟨S16384x256, .i1⟩ : BufTy).Contents (Elt F) → (⟨S16384x256, .f32⟩ : BufTy).Contents (Elt F) → (⟨S16384x256, .f32⟩ : BufTy).Contents (Elt F) → (⟨S16384x256, .f32⟩ : BufTy).Contents (Elt F)),
    StableHlo.nullary main_call8_cst_0 (constant S_ .f32 0x3F867D5F#32),
    StableHlo.unary main_call8_cst_0 main_call8_v1 ((broadcastInDim S16384x256 ![] bcast_S_S16384x256) : (⟨S_, .f32⟩ : BufTy).Contents (Elt F) → (⟨S16384x256, .f32⟩ : BufTy).Contents (Elt F)),
    StableHlo.binary main_call8_v1 main_call8_v0 main_v40 (mulf : (⟨S16384x256, .f32⟩ : BufTy).Contents (Elt F) → (⟨S16384x256, .f32⟩ : BufTy).Contents (Elt F) → (⟨S16384x256, .f32⟩ : BufTy).Contents (Elt F)),
    StableHlo.binary main_v40 main_arg3 main_v41 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    StableHlo.unary main_arg4 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S16384x256 ![0, 1] bcast_S1x256_S16384x256_0_1 : (⟨S1x256, .f32⟩ : BufTy).Contents (Elt F) → (⟨S16384x256, .f32⟩ : BufTy).Contents (Elt F)),
    StableHlo.binary main_v41 main_v43 main_v44 (addf : (⟨S16384x256, .f32⟩ : BufTy).Contents (Elt F) → (⟨S16384x256, .f32⟩ : BufTy).Contents (Elt F) → (⟨S16384x256, .f32⟩ : BufTy).Contents (Elt F)) ]

set_option maxRecDepth 8192 in
theorem ops7_eq : (ops7 : List (HloOp τ sig (Elt F))) = opsP7 :=
  cons_congr (rfl) (
  cons_congr (rfl) (
  cons_congr (rfl) (
  cons_congr (rfl) (
  cons_congr (rfl) (
  cons_congr (rfl) (
  cons_congr (nullary_of main_call8_cst ..) (
  cons_congr (nullary_of main_call8_call0_cst ..) (
  cons_congr (unary_of main_call8_call0_cst main_call8_call0_v0 ..) (
  cons_congr (binary_of main_v39 main_call8_call0_v0 main_call8_call0_v1 ..) (
  cons_congr (nullary_of main_call8_call0_cst_0 ..) (
  cons_congr (unary_of main_call8_call0_cst_0 main_call8_call0_v2 ..) (
  cons_congr (binary_of main_v39 main_call8_call0_v2 main_call8_call0_v3 ..) (
  cons_congr (nullary_of main_call8_call0_cst_1 ..) (
  cons_congr (unary_of main_call8_call0_cst_1 main_call8_call0_call0_v0 ..) (
  cons_congr (unary_of main_call8_call0_call0_v0 main_call8_call0_call0_v1 ..) (
  cons_congr (ternary_of main_call8_call0_v3 main_call8_call0_call0_v1 main_v39 main_call8_call0_v4 ..) (
  cons_congr (unary_of main_call8_call0_v4 main_call8_call0_v5 ..) (
  cons_congr (unary_of main_call8_cst main_call8_call0_v6 ..) (
  cons_congr (unary_of main_call8_call0_v6 main_call8_call0_v7 ..) (
  cons_congr (binary_of main_call8_call0_v7 main_call8_call0_v5 main_call8_call0_v8 ..) (
  cons_congr (ternary_of main_call8_call0_v1 main_v39 main_call8_call0_v8 main_call8_v0 ..) (
  cons_congr (nullary_of main_call8_cst_0 ..) (
  cons_congr (unary_of main_call8_cst_0 main_call8_v1 ..) (
  cons_congr (binary_of main_call8_v1 main_call8_v0 main_v40 ..) (
  cons_congr (rfl) (
  cons_congr (rfl) (
  cons_congr (rfl) (
  cons_congr (rfl) (rfl)))))))))))))))))))))))))))))

/-- Operations 164 … 188 of the line, each on its buffers directly. -/
abbrev opsP8 : List (HloOp τ sig (Elt F)) :=
  [ StableHlo.nullary main_call9_cst (constant S_ .f32 0x3FD62D7D#32),
    StableHlo.nullary main_call9_call0_cst (constant S_ .f32 0x00000000#32),
    StableHlo.unary main_call9_call0_cst main_call9_call0_v0 ((broadcastInDim S16384x256 ![] bcast_S_S16384x256) : (⟨S_, .f32⟩ : BufTy).Contents (Elt F) → (⟨S16384x256, .f32⟩ : BufTy).Contents (Elt F)),
    StableHlo.binary main_v44 main_call9_call0_v0 main_call9_call0_v1 ((cmpf .ogt) : (⟨S16384x256, .f32⟩ : BufTy).Contents (Elt F) → (⟨S16384x256, .f32⟩ : BufTy).Contents (Elt F) → (⟨S16384x256, .i1⟩ : BufTy).Contents (Elt F)),
    StableHlo.nullary main_call9_call0_cst_0 (constant S_ .f32 0x00000000#32),
    StableHlo.unary main_call9_call0_cst_0 main_call9_call0_v2 ((broadcastInDim S16384x256 ![] bcast_S_S16384x256) : (⟨S_, .f32⟩ : BufTy).Contents (Elt F) → (⟨S16384x256, .f32⟩ : BufTy).Contents (Elt F)),
    StableHlo.binary main_v44 main_call9_call0_v2 main_call9_call0_v3 ((cmpf .ogt) : (⟨S16384x256, .f32⟩ : BufTy).Contents (Elt F) → (⟨S16384x256, .f32⟩ : BufTy).Contents (Elt F) → (⟨S16384x256, .i1⟩ : BufTy).Contents (Elt F)),
    StableHlo.nullary main_call9_call0_cst_1 (constant S_ .f32 0x00000000#32),
    StableHlo.unary main_call9_call0_cst_1 main_call9_call0_call0_v0 (id : (⟨S_, .f32⟩ : BufTy).Contents (Elt F) → (⟨S_, .f32⟩ : BufTy).Contents (Elt F)),
    StableHlo.unary main_call9_call0_call0_v0 main_call9_call0_call0_v1 ((broadcastInDim S16384x256 ![] bcast_S_S16384x256) : (⟨S_, .f32⟩ : BufTy).Contents (Elt F) → (⟨S16384x256, .f32⟩ : BufTy).Contents (Elt F)),
    StableHlo.ternary main_call9_call0_v3 main_call9_call0_call0_v1 main_v44 main_call9_call0_v4 (select : (⟨S16384x256, .i1⟩ : BufTy).Contents (Elt F) → (⟨S16384x256, .f32⟩ : BufTy).Contents (Elt F) → (⟨S16384x256, .f32⟩ : BufTy).Contents (Elt F) → (⟨S16384x256, .f32⟩ : BufTy).Contents (Elt F)),
    StableHlo.unary main_call9_call0_v4 main_call9_call0_v5 (Host.expm1 : (⟨S16384x256, .f32⟩ : BufTy).Contents (Elt F) → (⟨S16384x256, .f32⟩ : BufTy).Contents (Elt F)),
    StableHlo.unary main_call9_cst main_call9_call0_v6 (id : (⟨S_, .f32⟩ : BufTy).Contents (Elt F) → (⟨S_, .f32⟩ : BufTy).Contents (Elt F)),
    StableHlo.unary main_call9_call0_v6 main_call9_call0_v7 ((broadcastInDim S16384x256 ![] bcast_S_S16384x256) : (⟨S_, .f32⟩ : BufTy).Contents (Elt F) → (⟨S16384x256, .f32⟩ : BufTy).Contents (Elt F)),
    StableHlo.binary main_call9_call0_v7 main_call9_call0_v5 main_call9_call0_v8 (mulf : (⟨S16384x256, .f32⟩ : BufTy).Contents (Elt F) → (⟨S16384x256, .f32⟩ : BufTy).Contents (Elt F) → (⟨S16384x256, .f32⟩ : BufTy).Contents (Elt F)),
    StableHlo.ternary main_call9_call0_v1 main_v44 main_call9_call0_v8 main_call9_v0 (select : (⟨S16384x256, .i1⟩ : BufTy).Contents (Elt F) → (⟨S16384x256, .f32⟩ : BufTy).Contents (Elt F) → (⟨S16384x256, .f32⟩ : BufTy).Contents (Elt F) → (⟨S16384x256, .f32⟩ : BufTy).Contents (Elt F)),
    StableHlo.nullary main_call9_cst_0 (constant S_ .f32 0x3F867D5F#32),
    StableHlo.unary main_call9_cst_0 main_call9_v1 ((broadcastInDim S16384x256 ![] bcast_S_S16384x256) : (⟨S_, .f32⟩ : BufTy).Contents (Elt F) → (⟨S16384x256, .f32⟩ : BufTy).Contents (Elt F)),
    StableHlo.binary main_call9_v1 main_call9_v0 main_v45 (mulf : (⟨S16384x256, .f32⟩ : BufTy).Contents (Elt F) → (⟨S16384x256, .f32⟩ : BufTy).Contents (Elt F) → (⟨S16384x256, .f32⟩ : BufTy).Contents (Elt F)),
    StableHlo.binary main_v45 main_arg5 main_v46 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    StableHlo.unary main_arg6 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S16384x128 ![0, 1] bcast_S1x128_S16384x128_0_1 : (⟨S1x128, .f32⟩ : BufTy).Contents (Elt F) → (⟨S16384x128, .f32⟩ : BufTy).Contents (Elt F)),
    StableHlo.binary main_v46 main_v48 main_v49 (addf : (⟨S16384x128, .f32⟩ : BufTy).Contents (Elt F) → (⟨S16384x128, .f32⟩ : BufTy).Contents (Elt F) → (⟨S16384x128, .f32⟩ : BufTy).Contents (Elt F)),
    StableHlo.nullary main_cst_13 (constant S_ .f32 0x00000000#32),
    StableHlo.binary main_arg0 main_cst_13 main_v50 ((fun x v => Host.reduceAdd x v reducesTo_S16384x64x32_S16384x32_d1 h_S_) : (⟨S16384x64x32, .f32⟩ : BufTy).Contents (Elt F) → (⟨S_, .f32⟩ : BufTy).Contents (Elt F) → (⟨S16384x32, .f32⟩ : BufTy).Contents (Elt F)) ]

set_option maxRecDepth 8192 in
theorem ops8_eq : (ops8 : List (HloOp τ sig (Elt F))) = opsP8 :=
  cons_congr (nullary_of main_call9_cst ..) (
  cons_congr (nullary_of main_call9_call0_cst ..) (
  cons_congr (unary_of main_call9_call0_cst main_call9_call0_v0 ..) (
  cons_congr (binary_of main_v44 main_call9_call0_v0 main_call9_call0_v1 ..) (
  cons_congr (nullary_of main_call9_call0_cst_0 ..) (
  cons_congr (unary_of main_call9_call0_cst_0 main_call9_call0_v2 ..) (
  cons_congr (binary_of main_v44 main_call9_call0_v2 main_call9_call0_v3 ..) (
  cons_congr (nullary_of main_call9_call0_cst_1 ..) (
  cons_congr (unary_of main_call9_call0_cst_1 main_call9_call0_call0_v0 ..) (
  cons_congr (unary_of main_call9_call0_call0_v0 main_call9_call0_call0_v1 ..) (
  cons_congr (ternary_of main_call9_call0_v3 main_call9_call0_call0_v1 main_v44 main_call9_call0_v4 ..) (
  cons_congr (unary_of main_call9_call0_v4 main_call9_call0_v5 ..) (
  cons_congr (unary_of main_call9_cst main_call9_call0_v6 ..) (
  cons_congr (unary_of main_call9_call0_v6 main_call9_call0_v7 ..) (
  cons_congr (binary_of main_call9_call0_v7 main_call9_call0_v5 main_call9_call0_v8 ..) (
  cons_congr (ternary_of main_call9_call0_v1 main_v44 main_call9_call0_v8 main_call9_v0 ..) (
  cons_congr (nullary_of main_call9_cst_0 ..) (
  cons_congr (unary_of main_call9_cst_0 main_call9_v1 ..) (
  cons_congr (binary_of main_call9_v1 main_call9_v0 main_v45 ..) (
  cons_congr (rfl) (
  cons_congr (rfl) (
  cons_congr (rfl) (
  cons_congr (rfl) (
  cons_congr (rfl) (
  cons_congr (rfl) (rfl)))))))))))))))))))))))))

/-- Operations 189 … 189 of the line, each on its buffers directly. -/
abbrev opsP9 : List (HloOp τ sig (Elt F)) :=
  [ StableHlo.nary ![main_v49, main_v34, main_v50] main_v51 (fun u => concatenate S16384x2176 1 [⟨S16384x128, u 0⟩, ⟨S16384x2016, u 1⟩, ⟨S16384x32, u 2⟩] concatenates_S16384x128_S16384x2016_S16384x32_S16384x2176_d1) ]

set_option maxRecDepth 8192 in
theorem ops9_eq : (ops9 : List (HloOp τ sig (Elt F))) = opsP9 :=
  cons_congr (rfl) (rfl)

/-- Operations 190 … 200 of the line, each on its buffers directly. -/
abbrev opsP10 : List (HloOp τ sig (Elt F)) :=
  [ StableHlo.binary main_v51 main_arg7 main_v52 ((fun l r => Host.dotGeneral dot_S16384x2176_S2176x256_S16384x256_1_0_0_1_n_n none l r) : (⟨S16384x2176, .f32⟩ : BufTy).Contents (Elt F) → (⟨S2176x256, .f32⟩ : BufTy).Contents (Elt F) → (⟨S16384x256, .f32⟩ : BufTy).Contents (Elt F)),
    StableHlo.unary main_arg8 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S16384x256 ![0, 1] bcast_S1x256_S16384x256_0_1 : (⟨S1x256, .f32⟩ : BufTy).Contents (Elt F) → (⟨S16384x256, .f32⟩ : BufTy).Contents (Elt F)),
    StableHlo.binary main_v52 main_v54 main_v55 (addf : (⟨S16384x256, .f32⟩ : BufTy).Contents (Elt F) → (⟨S16384x256, .f32⟩ : BufTy).Contents (Elt F) → (⟨S16384x256, .f32⟩ : BufTy).Contents (Elt F)),
    StableHlo.nullary main_call10_cst (constant S_ .f32 0x00000000#32),
    StableHlo.unary main_call10_cst main_call10_v0 ((broadcastInDim S16384x256 ![] bcast_S_S16384x256) : (⟨S_, .f32⟩ : BufTy).Contents (Elt F) → (⟨S16384x256, .f32⟩ : BufTy).Contents (Elt F)),
    StableHlo.binary main_v55 main_call10_v0 main_v56 (maximumf : (⟨S16384x256, .f32⟩ : BufTy).Contents (Elt F) → (⟨S16384x256, .f32⟩ : BufTy).Contents (Elt F) → (⟨S16384x256, .f32⟩ : BufTy).Contents (Elt F)),
    StableHlo.binary main_v56 main_arg9 main_v57 ((fun l r => Host.dotGeneral dot_S16384x256_S256x1_S16384x1_1_0_0_1_n_n none l r) : (⟨S16384x256, .f32⟩ : BufTy).Contents (Elt F) → (⟨S256x1, .f32⟩ : BufTy).Contents (Elt F) → (⟨S16384x1, .f32⟩ : BufTy).Contents (Elt F)),
    StableHlo.unary main_arg10 main_v58 (broadcastInDim S1x1 ![1] bcast_S1_S1x1_1 : (⟨S1, .f32⟩ : BufTy).Contents (Elt F) → (⟨S1x1, .f32⟩ : BufTy).Contents (Elt F)),
    StableHlo.unary main_v58 main_v59 (broadcastInDim S16384x1 ![0, 1] bcast_S1x1_S16384x1_0_1 : (⟨S1x1, .f32⟩ : BufTy).Contents (Elt F) → (⟨S16384x1, .f32⟩ : BufTy).Contents (Elt F)),
    StableHlo.binary main_v57 main_v59 main_v60 (addf : (⟨S16384x1, .f32⟩ : BufTy).Contents (Elt F) → (⟨S16384x1, .f32⟩ : BufTy).Contents (Elt F) → (⟨S16384x1, .f32⟩ : BufTy).Contents (Elt F)) ]

set_option maxRecDepth 8192 in
theorem ops10_eq : (ops10 : List (HloOp τ sig (Elt F))) = opsP10 :=
  cons_congr (rfl) (
  cons_congr (rfl) (
  cons_congr (rfl) (
  cons_congr (rfl) (
  cons_congr (nullary_of main_call10_cst ..) (
  cons_congr (unary_of main_call10_cst main_call10_v0 ..) (
  cons_congr (binary_of main_v55 main_call10_v0 main_v56 ..) (
  cons_congr (rfl) (
  cons_congr (rfl) (
  cons_congr (rfl) (
  cons_congr (rfl) (rfl)))))))))))

/-- The line is the segments of plain operations. -/
theorem ops_splitP : (ops : List (HloOp τ sig (Elt F))) = opsP0 ++ (opsP1 ++ (opsP2 ++ (opsP3 ++ (opsP4 ++ (opsP5 ++ (opsP6 ++ (opsP7 ++ (opsP8 ++ (opsP9 ++ (opsP10)))))))))) := by
  rw [ops_split, ops0_eq, ops1_eq, ops2_eq, ops3_eq, ops4_eq, ops5_eq, ops6_eq, ops7_eq, ops8_eq, ops9_eq, ops10_eq]

end Cert.RefRun

end
-- ==== Proof.RefRunValue.lean ====
import proofs.«128613_j14594298872614_2_alg».proof.Proof.RefRun
import proofs.«128613_j14594298872614_2_alg».proof.Proof.RefRunPlain
import proofs.«128613_j14594298872614_2_alg».proof.Proof.RefIdxDef
import proofs.«128613_j14594298872614_2_alg».proof.Proof.RefTerm

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## What each segment leaves untouched

Every buffer a segment does not write holds after the segment what it held before. -/

theorem s0_arg0 (W : Valuation τ sig (Elt Ideal)) :
    after (opsP0 (F := Ideal)) W (Proc.devRef .tc main_arg0) = W (Proc.devRef .tc main_arg0) := by
  simp (disch := decide) only [after_cons, after_nil,
    nullary_result', unary_result', binary_result', ternary_result', reshape_result', nary3_result',
    nullary_result_ne', unary_result_ne', binary_result_ne', ternary_result_ne', reshape_result_ne', nary_result_ne']

theorem s0_arg1 (W : Valuation τ sig (Elt Ideal)) :
    after (opsP0 (F := Ideal)) W (Proc.devRef .tc main_arg1) = W (Proc.devRef .tc main_arg1) := by
  simp (disch := decide) only [after_cons, after_nil,
    nullary_result', unary_result', binary_result', ternary_result', reshape_result', nary3_result',
    nullary_result_ne', unary_result_ne', binary_result_ne', ternary_result_ne', reshape_result_ne', nary_result_ne']

theorem s0_arg2 (W : Valuation τ sig (Elt Ideal)) :
    after (opsP0 (F := Ideal)) W (Proc.devRef .tc main_arg2) = W (Proc.devRef .tc main_arg2) := by
  simp (disch := decide) only [after_cons, after_nil,
    nullary_result', unary_result', binary_result', ternary_result', reshape_result', nary3_result',
    nullary_result_ne', unary_result_ne', binary_result_ne', ternary_result_ne', reshape_result_ne', nary_result_ne']

theorem s0_arg3 (W : Valuation τ sig (Elt Ideal)) :
    after (opsP0 (F := Ideal)) W (Proc.devRef .tc main_arg3) = W (Proc.devRef .tc main_arg3) := by
  simp (disch := decide) only [after_cons, after_nil,
    nullary_result', unary_result', binary_result', ternary_result', reshape_result', nary3_result',
    nullary_result_ne', unary_result_ne', binary_result_ne', ternary_result_ne', reshape_result_ne', nary_result_ne']

theorem s0_arg4 (W : Valuation τ sig (Elt Ideal)) :
    after (opsP0 (F := Ideal)) W (Proc.devRef .tc main_arg4) = W (Proc.devRef .tc main_arg4) := by
  simp (disch := decide) only [after_cons, after_nil,
    nullary_result', unary_result', binary_result', ternary_result', reshape_result', nary3_result',
    nullary_result_ne', unary_result_ne', binary_result_ne', ternary_result_ne', reshape_result_ne', nary_result_ne']

theorem s0_arg5 (W : Valuation τ sig (Elt Ideal)) :
    after (opsP0 (F := Ideal)) W (Proc.devRef .tc main_arg5) = W (Proc.devRef .tc main_arg5) := by
  simp (disch := decide) only [after_cons, after_nil,
    nullary_result', unary_result', binary_result', ternary_result', reshape_result', nary3_result',
    nullary_result_ne', unary_result_ne', binary_result_ne', ternary_result_ne', reshape_result_ne', nary_result_ne']

theorem s0_arg6 (W : Valuation τ sig (Elt Ideal)) :
    after (opsP0 (F := Ideal)) W (Proc.devRef .tc main_arg6) = W (Proc.devRef .tc main_arg6) := by
  simp (disch := decide) only [after_cons, after_nil,
    nullary_result', unary_result', binary_result', ternary_result', reshape_result', nary3_result',
    nullary_result_ne', unary_result_ne', binary_result_ne', ternary_result_ne', reshape_result_ne', nary_result_ne']

theorem s0_arg7 (W : Valuation τ sig (Elt Ideal)) :
    after (opsP0 (F := Ideal)) W (Proc.devRef .tc main_arg7) = W (Proc.devRef .tc main_arg7) := by
  simp (disch := decide) only [after_cons, after_nil,
    nullary_result', unary_result', binary_result', ternary_result', reshape_result', nary3_result',
    nullary_result_ne', unary_result_ne', binary_result_ne', ternary_result_ne', reshape_result_ne', nary_result_ne']

theorem s0_arg8 (W : Valuation τ sig (Elt Ideal)) :
    after (opsP0 (F := Ideal)) W (Proc.devRef .tc main_arg8) = W (Proc.devRef .tc main_arg8) := by
  simp (disch := decide) only [after_cons, after_nil,
    nullary_result', unary_result', binary_result', ternary_result', reshape_result', nary3_result',
    nullary_result_ne', unary_result_ne', binary_result_ne', ternary_result_ne', reshape_result_ne', nary_result_ne']

theorem s0_arg9 (W : Valuation τ sig (Elt Ideal)) :
    after (opsP0 (F := Ideal)) W (Proc.devRef .tc main_arg9) = W (Proc.devRef .tc main_arg9) := by
  simp (disch := decide) only [after_cons, after_nil,
    nullary_result', unary_result', binary_result', ternary_result', reshape_result', nary3_result',
    nullary_result_ne', unary_result_ne', binary_result_ne', ternary_result_ne', reshape_result_ne', nary_result_ne']

theorem s0_arg10 (W : Valuation τ sig (Elt Ideal)) :
    after (opsP0 (F := Ideal)) W (Proc.devRef .tc main_arg10) = W (Proc.devRef .tc main_arg10) := by
  simp (disch := decide) only [after_cons, after_nil,
    nullary_result', unary_result', binary_result', ternary_result', reshape_result', nary3_result',
    nullary_result_ne', unary_result_ne', binary_result_ne', ternary_result_ne', reshape_result_ne', nary_result_ne']

theorem s1_arg0 (W : Valuation τ sig (Elt Ideal)) :
    after (opsP1 (F := Ideal)) W (Proc.devRef .tc main_arg0) = W (Proc.devRef .tc main_arg0) := by
  simp (disch := decide) only [after_cons, after_nil,
    nullary_result', unary_result', binary_result', ternary_result', reshape_result', nary3_result',
    nullary_result_ne', unary_result_ne', binary_result_ne', ternary_result_ne', reshape_result_ne', nary_result_ne']

theorem s1_arg1 (W : Valuation τ sig (Elt Ideal)) :
    after (opsP1 (F := Ideal)) W (Proc.devRef .tc main_arg1) = W (Proc.devRef .tc main_arg1) := by
  simp (disch := decide) only [after_cons, after_nil,
    nullary_result', unary_result', binary_result', ternary_result', reshape_result', nary3_result',
    nullary_result_ne', unary_result_ne', binary_result_ne', ternary_result_ne', reshape_result_ne', nary_result_ne']

theorem s1_arg2 (W : Valuation τ sig (Elt Ideal)) :
    after (opsP1 (F := Ideal)) W (Proc.devRef .tc main_arg2) = W (Proc.devRef .tc main_arg2) := by
  simp (disch := decide) only [after_cons, after_nil,
    nullary_result', unary_result', binary_result', ternary_result', reshape_result', nary3_result',
    nullary_result_ne', unary_result_ne', binary_result_ne', ternary_result_ne', reshape_result_ne', nary_result_ne']

theorem s1_arg3 (W : Valuation τ sig (Elt Ideal)) :
    after (opsP1 (F := Ideal)) W (Proc.devRef .tc main_arg3) = W (Proc.devRef .tc main_arg3) := by
  simp (disch := decide) only [after_cons, after_nil,
    nullary_result', unary_result', binary_result', ternary_result', reshape_result', nary3_result',
    nullary_result_ne', unary_result_ne', binary_result_ne', ternary_result_ne', reshape_result_ne', nary_result_ne']

theorem s1_arg4 (W : Valuation τ sig (Elt Ideal)) :
    after (opsP1 (F := Ideal)) W (Proc.devRef .tc main_arg4) = W (Proc.devRef .tc main_arg4) := by
  simp (disch := decide) only [after_cons, after_nil,
    nullary_result', unary_result', binary_result', ternary_result', reshape_result', nary3_result',
    nullary_result_ne', unary_result_ne', binary_result_ne', ternary_result_ne', reshape_result_ne', nary_result_ne']

theorem s1_arg5 (W : Valuation τ sig (Elt Ideal)) :
    after (opsP1 (F := Ideal)) W (Proc.devRef .tc main_arg5) = W (Proc.devRef .tc main_arg5) := by
  simp (disch := decide) only [after_cons, after_nil,
    nullary_result', unary_result', binary_result', ternary_result', reshape_result', nary3_result',
    nullary_result_ne', unary_result_ne', binary_result_ne', ternary_result_ne', reshape_result_ne', nary_result_ne']

theorem s1_arg6 (W : Valuation τ sig (Elt Ideal)) :
    after (opsP1 (F := Ideal)) W (Proc.devRef .tc main_arg6) = W (Proc.devRef .tc main_arg6) := by
  simp (disch := decide) only [after_cons, after_nil,
    nullary_result', unary_result', binary_result', ternary_result', reshape_result', nary3_result',
    nullary_result_ne', unary_result_ne', binary_result_ne', ternary_result_ne', reshape_result_ne', nary_result_ne']

theorem s1_arg7 (W : Valuation τ sig (Elt Ideal)) :
    after (opsP1 (F := Ideal)) W (Proc.devRef .tc main_arg7) = W (Proc.devRef .tc main_arg7) := by
  simp (disch := decide) only [after_cons, after_nil,
    nullary_result', unary_result', binary_result', ternary_result', reshape_result', nary3_result',
    nullary_result_ne', unary_result_ne', binary_result_ne', ternary_result_ne', reshape_result_ne', nary_result_ne']

theorem s1_arg8 (W : Valuation τ sig (Elt Ideal)) :
    after (opsP1 (F := Ideal)) W (Proc.devRef .tc main_arg8) = W (Proc.devRef .tc main_arg8) := by
  simp (disch := decide) only [after_cons, after_nil,
    nullary_result', unary_result', binary_result', ternary_result', reshape_result', nary3_result',
    nullary_result_ne', unary_result_ne', binary_result_ne', ternary_result_ne', reshape_result_ne', nary_result_ne']

theorem s1_arg9 (W : Valuation τ sig (Elt Ideal)) :
    after (opsP1 (F := Ideal)) W (Proc.devRef .tc main_arg9) = W (Proc.devRef .tc main_arg9) := by
  simp (disch := decide) only [after_cons, after_nil,
    nullary_result', unary_result', binary_result', ternary_result', reshape_result', nary3_result',
    nullary_result_ne', unary_result_ne', binary_result_ne', ternary_result_ne', reshape_result_ne', nary_result_ne']

theorem s1_arg10 (W : Valuation τ sig (Elt Ideal)) :
    after (opsP1 (F := Ideal)) W (Proc.devRef .tc main_arg10) = W (Proc.devRef .tc main_arg10) := by
  simp (disch := decide) only [after_cons, after_nil,
    nullary_result', unary_result', binary_result', ternary_result', reshape_result', nary3_result',
    nullary_result_ne', unary_result_ne', binary_result_ne', ternary_result_ne', reshape_result_ne', nary_result_ne']

theorem s1_v0 (W : Valuation τ sig (Elt Ideal)) :
    after (opsP1 (F := Ideal)) W (Proc.devRef .tc main_v0) = W (Proc.devRef .tc main_v0) := by
  simp (disch := decide) only [after_cons, after_nil,
    nullary_result', unary_result', binary_result', ternary_result', reshape_result', nary3_result',
    nullary_result_ne', unary_result_ne', binary_result_ne', ternary_result_ne', reshape_result_ne', nary_result_ne']

theorem s1_v16 (W : Valuation τ sig (Elt Ideal)) :
    after (opsP1 (F := Ideal)) W (Proc.devRef .tc main_v16) = W (Proc.devRef .tc main_v16) := by
  simp (disch := decide) only [after_cons, after_nil,
    nullary_result', unary_result', binary_result', ternary_result', reshape_result', nary3_result',
    nullary_result_ne', unary_result_ne', binary_result_ne', ternary_result_ne', reshape_result_ne', nary_result_ne']

theorem s2_arg0 (W : Valuation τ sig (Elt Ideal)) :
    after (opsP2 (F := Ideal)) W (Proc.devRef .tc main_arg0) = W (Proc.devRef .tc main_arg0) := by
  simp (disch := decide) only [after_cons, after_nil,
    nullary_result', unary_result', binary_result', ternary_result', reshape_result', nary3_result',
    nullary_result_ne', unary_result_ne', binary_result_ne', ternary_result_ne', reshape_result_ne', nary_result_ne']

theorem s2_arg1 (W : Valuation τ sig (Elt Ideal)) :
    after (opsP2 (F := Ideal)) W (Proc.devRef .tc main_arg1) = W (Proc.devRef .tc main_arg1) := by
  simp (disch := decide) only [after_cons, after_nil,
    nullary_result', unary_result', binary_result', ternary_result', reshape_result', nary3_result',
    nullary_result_ne', unary_result_ne', binary_result_ne', ternary_result_ne', reshape_result_ne', nary_result_ne']

theorem s2_arg2 (W : Valuation τ sig (Elt Ideal)) :
    after (opsP2 (F := Ideal)) W (Proc.devRef .tc main_arg2) = W (Proc.devRef .tc main_arg2) := by
  simp (disch := decide) only [after_cons, after_nil,
    nullary_result', unary_result', binary_result', ternary_result', reshape_result', nary3_result',
    nullary_result_ne', unary_result_ne', binary_result_ne', ternary_result_ne', reshape_result_ne', nary_result_ne']

theorem s2_arg3 (W : Valuation τ sig (Elt Ideal)) :
    after (opsP2 (F := Ideal)) W (Proc.devRef .tc main_arg3) = W (Proc.devRef .tc main_arg3) := by
  simp (disch := decide) only [after_cons, after_nil,
    nullary_result', unary_result', binary_result', ternary_result', reshape_result', nary3_result',
    nullary_result_ne', unary_result_ne', binary_result_ne', ternary_result_ne', reshape_result_ne', nary_result_ne']

theorem s2_arg4 (W : Valuation τ sig (Elt Ideal)) :
    after (opsP2 (F := Ideal)) W (Proc.devRef .tc main_arg4) = W (Proc.devRef .tc main_arg4) := by
  simp (disch := decide) only [after_cons, after_nil,
    nullary_result', unary_result', binary_result', ternary_result', reshape_result', nary3_result',
    nullary_result_ne', unary_result_ne', binary_result_ne', ternary_result_ne', reshape_result_ne', nary_result_ne']

theorem s2_arg5 (W : Valuation τ sig (Elt Ideal)) :
    after (opsP2 (F := Ideal)) W (Proc.devRef .tc main_arg5) = W (Proc.devRef .tc main_arg5) := by
  simp (disch := decide) only [after_cons, after_nil,
    nullary_result', unary_result', binary_result', ternary_result', reshape_result', nary3_result',
    nullary_result_ne', unary_result_ne', binary_result_ne', ternary_result_ne', reshape_result_ne', nary_result_ne']

theorem s2_arg6 (W : Valuation τ sig (Elt Ideal)) :
    after (opsP2 (F := Ideal)) W (Proc.devRef .tc main_arg6) = W (Proc.devRef .tc main_arg6) := by
  simp (disch := decide) only [after_cons, after_nil,
    nullary_result', unary_result', binary_result', ternary_result', reshape_result', nary3_result',
    nullary_result_ne', unary_result_ne', binary_result_ne', ternary_result_ne', reshape_result_ne', nary_result_ne']

theorem s2_arg7 (W : Valuation τ sig (Elt Ideal)) :
    after (opsP2 (F := Ideal)) W (Proc.devRef .tc main_arg7) = W (Proc.devRef .tc main_arg7) := by
  simp (disch := decide) only [after_cons, after_nil,
    nullary_result', unary_result', binary_result', ternary_result', reshape_result', nary3_result',
    nullary_result_ne', unary_result_ne', binary_result_ne', ternary_result_ne', reshape_result_ne', nary_result_ne']

theorem s2_arg8 (W : Valuation τ sig (Elt Ideal)) :
    after (opsP2 (F := Ideal)) W (Proc.devRef .tc main_arg8) = W (Proc.devRef .tc main_arg8) := by
  simp (disch := decide) only [after_cons, after_nil,
    nullary_result', unary_result', binary_result', ternary_result', reshape_result', nary3_result',
    nullary_result_ne', unary_result_ne', binary_result_ne', ternary_result_ne', reshape_result_ne', nary_result_ne']

theorem s2_arg9 (W : Valuation τ sig (Elt Ideal)) :
    after (opsP2 (F := Ideal)) W (Proc.devRef .tc main_arg9) = W (Proc.devRef .tc main_arg9) := by
  simp (disch := decide) only [after_cons, after_nil,
    nullary_result', unary_result', binary_result', ternary_result', reshape_result', nary3_result',
    nullary_result_ne', unary_result_ne', binary_result_ne', ternary_result_ne', reshape_result_ne', nary_result_ne']

theorem s2_arg10 (W : Valuation τ sig (Elt Ideal)) :
    after (opsP2 (F := Ideal)) W (Proc.devRef .tc main_arg10) = W (Proc.devRef .tc main_arg10) := by
  simp (disch := decide) only [after_cons, after_nil,
    nullary_result', unary_result', binary_result', ternary_result', reshape_result', nary3_result',
    nullary_result_ne', unary_result_ne', binary_result_ne', ternary_result_ne', reshape_result_ne', nary_result_ne']

theorem s2_v0 (W : Valuation τ sig (Elt Ideal)) :
    after (opsP2 (F := Ideal)) W (Proc.devRef .tc main_v0) = W (Proc.devRef .tc main_v0) := by
  simp (disch := decide) only [after_cons, after_nil,
    nullary_result', unary_result', binary_result', ternary_result', reshape_result', nary3_result',
    nullary_result_ne', unary_result_ne', binary_result_ne', ternary_result_ne', reshape_result_ne', nary_result_ne']

theorem s2_v16 (W : Valuation τ sig (Elt Ideal)) :
    after (opsP2 (F := Ideal)) W (Proc.devRef .tc main_v16) = W (Proc.devRef .tc main_v16) := by
  simp (disch := decide) only [after_cons, after_nil,
    nullary_result', unary_result', binary_result', ternary_result', reshape_result', nary3_result',
    nullary_result_ne', unary_result_ne', binary_result_ne', ternary_result_ne', reshape_result_ne', nary_result_ne']

theorem s3_arg0 (W : Valuation τ sig (Elt Ideal)) :
    after (opsP3 (F := Ideal)) W (Proc.devRef .tc main_arg0) = W (Proc.devRef .tc main_arg0) := by
  simp (disch := decide) only [after_cons, after_nil,
    nullary_result', unary_result', binary_result', ternary_result', reshape_result', nary3_result',
    nullary_result_ne', unary_result_ne', binary_result_ne', ternary_result_ne', reshape_result_ne', nary_result_ne']

theorem s3_arg1 (W : Valuation τ sig (Elt Ideal)) :
    after (opsP3 (F := Ideal)) W (Proc.devRef .tc main_arg1) = W (Proc.devRef .tc main_arg1) := by
  simp (disch := decide) only [after_cons, after_nil,
    nullary_result', unary_result', binary_result', ternary_result', reshape_result', nary3_result',
    nullary_result_ne', unary_result_ne', binary_result_ne', ternary_result_ne', reshape_result_ne', nary_result_ne']

theorem s3_arg2 (W : Valuation τ sig (Elt Ideal)) :
    after (opsP3 (F := Ideal)) W (Proc.devRef .tc main_arg2) = W (Proc.devRef .tc main_arg2) := by
  simp (disch := decide) only [after_cons, after_nil,
    nullary_result', unary_result', binary_result', ternary_result', reshape_result', nary3_result',
    nullary_result_ne', unary_result_ne', binary_result_ne', ternary_result_ne', reshape_result_ne', nary_result_ne']

theorem s3_arg3 (W : Valuation τ sig (Elt Ideal)) :
    after (opsP3 (F := Ideal)) W (Proc.devRef .tc main_arg3) = W (Proc.devRef .tc main_arg3) := by
  simp (disch := decide) only [after_cons, after_nil,
    nullary_result', unary_result', binary_result', ternary_result', reshape_result', nary3_result',
    nullary_result_ne', unary_result_ne', binary_result_ne', ternary_result_ne', reshape_result_ne', nary_result_ne']

theorem s3_arg4 (W : Valuation τ sig (Elt Ideal)) :
    after (opsP3 (F := Ideal)) W (Proc.devRef .tc main_arg4) = W (Proc.devRef .tc main_arg4) := by
  simp (disch := decide) only [after_cons, after_nil,
    nullary_result', unary_result', binary_result', ternary_result', reshape_result', nary3_result',
    nullary_result_ne', unary_result_ne', binary_result_ne', ternary_result_ne', reshape_result_ne', nary_result_ne']

theorem s3_arg5 (W : Valuation τ sig (Elt Ideal)) :
    after (opsP3 (F := Ideal)) W (Proc.devRef .tc main_arg5) = W (Proc.devRef .tc main_arg5) := by
  simp (disch := decide) only [after_cons, after_nil,
    nullary_result', unary_result', binary_result', ternary_result', reshape_result', nary3_result',
    nullary_result_ne', unary_result_ne', binary_result_ne', ternary_result_ne', reshape_result_ne', nary_result_ne']

theorem s3_arg6 (W : Valuation τ sig (Elt Ideal)) :
    after (opsP3 (F := Ideal)) W (Proc.devRef .tc main_arg6) = W (Proc.devRef .tc main_arg6) := by
  simp (disch := decide) only [after_cons, after_nil,
    nullary_result', unary_result', binary_result', ternary_result', reshape_result', nary3_result',
    nullary_result_ne', unary_result_ne', binary_result_ne', ternary_result_ne', reshape_result_ne', nary_result_ne']

theorem s3_arg7 (W : Valuation τ sig (Elt Ideal)) :
    after (opsP3 (F := Ideal)) W (Proc.devRef .tc main_arg7) = W (Proc.devRef .tc main_arg7) := by
  simp (disch := decide) only [after_cons, after_nil,
    nullary_result', unary_result', binary_result', ternary_result', reshape_result', nary3_result',
    nullary_result_ne', unary_result_ne', binary_result_ne', ternary_result_ne', reshape_result_ne', nary_result_ne']

theorem s3_arg8 (W : Valuation τ sig (Elt Ideal)) :
    after (opsP3 (F := Ideal)) W (Proc.devRef .tc main_arg8) = W (Proc.devRef .tc main_arg8) := by
  simp (disch := decide) only [after_cons, after_nil,
    nullary_result', unary_result', binary_result', ternary_result', reshape_result', nary3_result',
    nullary_result_ne', unary_result_ne', binary_result_ne', ternary_result_ne', reshape_result_ne', nary_result_ne']

theorem s3_arg9 (W : Valuation τ sig (Elt Ideal)) :
    after (opsP3 (F := Ideal)) W (Proc.devRef .tc main_arg9) = W (Proc.devRef .tc main_arg9) := by
  simp (disch := decide) only [after_cons, after_nil,
    nullary_result', unary_result', binary_result', ternary_result', reshape_result', nary3_result',
    nullary_result_ne', unary_result_ne', binary_result_ne', ternary_result_ne', reshape_result_ne', nary_result_ne']

theorem s3_arg10 (W : Valuation τ sig (Elt Ideal)) :
    after (opsP3 (F := Ideal)) W (Proc.devRef .tc main_arg10) = W (Proc.devRef .tc main_arg10) := by
  simp (disch := decide) only [after_cons, after_nil,
    nullary_result', unary_result', binary_result', ternary_result', reshape_result', nary3_result',
    nullary_result_ne', unary_result_ne', binary_result_ne', ternary_result_ne', reshape_result_ne', nary_result_ne']

theorem s3_v0 (W : Valuation τ sig (Elt Ideal)) :
    after (opsP3 (F := Ideal)) W (Proc.devRef .tc main_v0) = W (Proc.devRef .tc main_v0) := by
  simp (disch := decide) only [after_cons, after_nil,
    nullary_result', unary_result', binary_result', ternary_result', reshape_result', nary3_result',
    nullary_result_ne', unary_result_ne', binary_result_ne', ternary_result_ne', reshape_result_ne', nary_result_ne']

theorem s3_v18 (W : Valuation τ sig (Elt Ideal)) :
    after (opsP3 (F := Ideal)) W (Proc.devRef .tc main_v18) = W (Proc.devRef .tc main_v18) := by
  simp (disch := decide) only [after_cons, after_nil,
    nullary_result', unary_result', binary_result', ternary_result', reshape_result', nary3_result',
    nullary_result_ne', unary_result_ne', binary_result_ne', ternary_result_ne', reshape_result_ne', nary_result_ne']

theorem s4_arg0 (W : Valuation τ sig (Elt Ideal)) :
    after (opsP4 (F := Ideal)) W (Proc.devRef .tc main_arg0) = W (Proc.devRef .tc main_arg0) := by
  simp (disch := decide) only [after_cons, after_nil,
    nullary_result', unary_result', binary_result', ternary_result', reshape_result', nary3_result',
    nullary_result_ne', unary_result_ne', binary_result_ne', ternary_result_ne', reshape_result_ne', nary_result_ne']

theorem s4_arg1 (W : Valuation τ sig (Elt Ideal)) :
    after (opsP4 (F := Ideal)) W (Proc.devRef .tc main_arg1) = W (Proc.devRef .tc main_arg1) := by
  simp (disch := decide) only [after_cons, after_nil,
    nullary_result', unary_result', binary_result', ternary_result', reshape_result', nary3_result',
    nullary_result_ne', unary_result_ne', binary_result_ne', ternary_result_ne', reshape_result_ne', nary_result_ne']

theorem s4_arg2 (W : Valuation τ sig (Elt Ideal)) :
    after (opsP4 (F := Ideal)) W (Proc.devRef .tc main_arg2) = W (Proc.devRef .tc main_arg2) := by
  simp (disch := decide) only [after_cons, after_nil,
    nullary_result', unary_result', binary_result', ternary_result', reshape_result', nary3_result',
    nullary_result_ne', unary_result_ne', binary_result_ne', ternary_result_ne', reshape_result_ne', nary_result_ne']

theorem s4_arg3 (W : Valuation τ sig (Elt Ideal)) :
    after (opsP4 (F := Ideal)) W (Proc.devRef .tc main_arg3) = W (Proc.devRef .tc main_arg3) := by
  simp (disch := decide) only [after_cons, after_nil,
    nullary_result', unary_result', binary_result', ternary_result', reshape_result', nary3_result',
    nullary_result_ne', unary_result_ne', binary_result_ne', ternary_result_ne', reshape_result_ne', nary_result_ne']

theorem s4_arg4 (W : Valuation τ sig (Elt Ideal)) :
    after (opsP4 (F := Ideal)) W (Proc.devRef .tc main_arg4) = W (Proc.devRef .tc main_arg4) := by
  simp (disch := decide) only [after_cons, after_nil,
    nullary_result', unary_result', binary_result', ternary_result', reshape_result', nary3_result',
    nullary_result_ne', unary_result_ne', binary_result_ne', ternary_result_ne', reshape_result_ne', nary_result_ne']

theorem s4_arg5 (W : Valuation τ sig (Elt Ideal)) :
    after (opsP4 (F := Ideal)) W (Proc.devRef .tc main_arg5) = W (Proc.devRef .tc main_arg5) := by
  simp (disch := decide) only [after_cons, after_nil,
    nullary_result', unary_result', binary_result', ternary_result', reshape_result', nary3_result',
    nullary_result_ne', unary_result_ne', binary_result_ne', ternary_result_ne', reshape_result_ne', nary_result_ne']

theorem s4_arg6 (W : Valuation τ sig (Elt Ideal)) :
    after (opsP4 (F := Ideal)) W (Proc.devRef .tc main_arg6) = W (Proc.devRef .tc main_arg6) := by
  simp (disch := decide) only [after_cons, after_nil,
    nullary_result', unary_result', binary_result', ternary_result', reshape_result', nary3_result',
    nullary_result_ne', unary_result_ne', binary_result_ne', ternary_result_ne', reshape_result_ne', nary_result_ne']

theorem s4_arg7 (W : Valuation τ sig (Elt Ideal)) :
    after (opsP4 (F := Ideal)) W (Proc.devRef .tc main_arg7) = W (Proc.devRef .tc main_arg7) := by
  simp (disch := decide) only [after_cons, after_nil,
    nullary_result', unary_result', binary_result', ternary_result', reshape_result', nary3_result',
    nullary_result_ne', unary_result_ne', binary_result_ne', ternary_result_ne', reshape_result_ne', nary_result_ne']

theorem s4_arg8 (W : Valuation τ sig (Elt Ideal)) :
    after (opsP4 (F := Ideal)) W (Proc.devRef .tc main_arg8) = W (Proc.devRef .tc main_arg8) := by
  simp (disch := decide) only [after_cons, after_nil,
    nullary_result', unary_result', binary_result', ternary_result', reshape_result', nary3_result',
    nullary_result_ne', unary_result_ne', binary_result_ne', ternary_result_ne', reshape_result_ne', nary_result_ne']

theorem s4_arg9 (W : Valuation τ sig (Elt Ideal)) :
    after (opsP4 (F := Ideal)) W (Proc.devRef .tc main_arg9) = W (Proc.devRef .tc main_arg9) := by
  simp (disch := decide) only [after_cons, after_nil,
    nullary_result', unary_result', binary_result', ternary_result', reshape_result', nary3_result',
    nullary_result_ne', unary_result_ne', binary_result_ne', ternary_result_ne', reshape_result_ne', nary_result_ne']

theorem s4_arg10 (W : Valuation τ sig (Elt Ideal)) :
    after (opsP4 (F := Ideal)) W (Proc.devRef .tc main_arg10) = W (Proc.devRef .tc main_arg10) := by
  simp (disch := decide) only [after_cons, after_nil,
    nullary_result', unary_result', binary_result', ternary_result', reshape_result', nary3_result',
    nullary_result_ne', unary_result_ne', binary_result_ne', ternary_result_ne', reshape_result_ne', nary_result_ne']

theorem s4_v0 (W : Valuation τ sig (Elt Ideal)) :
    after (opsP4 (F := Ideal)) W (Proc.devRef .tc main_v0) = W (Proc.devRef .tc main_v0) := by
  simp (disch := decide) only [after_cons, after_nil,
    nullary_result', unary_result', binary_result', ternary_result', reshape_result', nary3_result',
    nullary_result_ne', unary_result_ne', binary_result_ne', ternary_result_ne', reshape_result_ne', nary_result_ne']

theorem s4_v18 (W : Valuation τ sig (Elt Ideal)) :
    after (opsP4 (F := Ideal)) W (Proc.devRef .tc main_v18) = W (Proc.devRef .tc main_v18) := by
  simp (disch := decide) only [after_cons, after_nil,
    nullary_result', unary_result', binary_result', ternary_result', reshape_result', nary3_result',
    nullary_result_ne', unary_result_ne', binary_result_ne', ternary_result_ne', reshape_result_ne', nary_result_ne']

theorem s5_arg0 (W : Valuation τ sig (Elt Ideal)) :
    after (opsP5 (F := Ideal)) W (Proc.devRef .tc main_arg0) = W (Proc.devRef .tc main_arg0) := by
  simp (disch := decide) only [after_cons, after_nil,
    nullary_result', unary_result', binary_result', ternary_result', reshape_result', nary3_result',
    nullary_result_ne', unary_result_ne', binary_result_ne', ternary_result_ne', reshape_result_ne', nary_result_ne']

theorem s5_arg1 (W : Valuation τ sig (Elt Ideal)) :
    after (opsP5 (F := Ideal)) W (Proc.devRef .tc main_arg1) = W (Proc.devRef .tc main_arg1) := by
  simp (disch := decide) only [after_cons, after_nil,
    nullary_result', unary_result', binary_result', ternary_result', reshape_result', nary3_result',
    nullary_result_ne', unary_result_ne', binary_result_ne', ternary_result_ne', reshape_result_ne', nary_result_ne']

theorem s5_arg2 (W : Valuation τ sig (Elt Ideal)) :
    after (opsP5 (F := Ideal)) W (Proc.devRef .tc main_arg2) = W (Proc.devRef .tc main_arg2) := by
  simp (disch := decide) only [after_cons, after_nil,
    nullary_result', unary_result', binary_result', ternary_result', reshape_result', nary3_result',
    nullary_result_ne', unary_result_ne', binary_result_ne', ternary_result_ne', reshape_result_ne', nary_result_ne']

theorem s5_arg3 (W : Valuation τ sig (Elt Ideal)) :
    after (opsP5 (F := Ideal)) W (Proc.devRef .tc main_arg3) = W (Proc.devRef .tc main_arg3) := by
  simp (disch := decide) only [after_cons, after_nil,
    nullary_result', unary_result', binary_result', ternary_result', reshape_result', nary3_result',
    nullary_result_ne', unary_result_ne', binary_result_ne', ternary_result_ne', reshape_result_ne', nary_result_ne']

theorem s5_arg4 (W : Valuation τ sig (Elt Ideal)) :
    after (opsP5 (F := Ideal)) W (Proc.devRef .tc main_arg4) = W (Proc.devRef .tc main_arg4) := by
  simp (disch := decide) only [after_cons, after_nil,
    nullary_result', unary_result', binary_result', ternary_result', reshape_result', nary3_result',
    nullary_result_ne', unary_result_ne', binary_result_ne', ternary_result_ne', reshape_result_ne', nary_result_ne']

theorem s5_arg5 (W : Valuation τ sig (Elt Ideal)) :
    after (opsP5 (F := Ideal)) W (Proc.devRef .tc main_arg5) = W (Proc.devRef .tc main_arg5) := by
  simp (disch := decide) only [after_cons, after_nil,
    nullary_result', unary_result', binary_result', ternary_result', reshape_result', nary3_result',
    nullary_result_ne', unary_result_ne', binary_result_ne', ternary_result_ne', reshape_result_ne', nary_result_ne']

theorem s5_arg6 (W : Valuation τ sig (Elt Ideal)) :
    after (opsP5 (F := Ideal)) W (Proc.devRef .tc main_arg6) = W (Proc.devRef .tc main_arg6) := by
  simp (disch := decide) only [after_cons, after_nil,
    nullary_result', unary_result', binary_result', ternary_result', reshape_result', nary3_result',
    nullary_result_ne', unary_result_ne', binary_result_ne', ternary_result_ne', reshape_result_ne', nary_result_ne']

theorem s5_arg7 (W : Valuation τ sig (Elt Ideal)) :
    after (opsP5 (F := Ideal)) W (Proc.devRef .tc main_arg7) = W (Proc.devRef .tc main_arg7) := by
  simp (disch := decide) only [after_cons, after_nil,
    nullary_result', unary_result', binary_result', ternary_result', reshape_result', nary3_result',
    nullary_result_ne', unary_result_ne', binary_result_ne', ternary_result_ne', reshape_result_ne', nary_result_ne']

theorem s5_arg8 (W : Valuation τ sig (Elt Ideal)) :
    after (opsP5 (F := Ideal)) W (Proc.devRef .tc main_arg8) = W (Proc.devRef .tc main_arg8) := by
  simp (disch := decide) only [after_cons, after_nil,
    nullary_result', unary_result', binary_result', ternary_result', reshape_result', nary3_result',
    nullary_result_ne', unary_result_ne', binary_result_ne', ternary_result_ne', reshape_result_ne', nary_result_ne']

theorem s5_arg9 (W : Valuation τ sig (Elt Ideal)) :
    after (opsP5 (F := Ideal)) W (Proc.devRef .tc main_arg9) = W (Proc.devRef .tc main_arg9) := by
  simp (disch := decide) only [after_cons, after_nil,
    nullary_result', unary_result', binary_result', ternary_result', reshape_result', nary3_result',
    nullary_result_ne', unary_result_ne', binary_result_ne', ternary_result_ne', reshape_result_ne', nary_result_ne']

theorem s5_arg10 (W : Valuation τ sig (Elt Ideal)) :
    after (opsP5 (F := Ideal)) W (Proc.devRef .tc main_arg10) = W (Proc.devRef .tc main_arg10) := by
  simp (disch := decide) only [after_cons, after_nil,
    nullary_result', unary_result', binary_result', ternary_result', reshape_result', nary3_result',
    nullary_result_ne', unary_result_ne', binary_result_ne', ternary_result_ne', reshape_result_ne', nary_result_ne']

theorem s5_v0 (W : Valuation τ sig (Elt Ideal)) :
    after (opsP5 (F := Ideal)) W (Proc.devRef .tc main_v0) = W (Proc.devRef .tc main_v0) := by
  simp (disch := decide) only [after_cons, after_nil,
    nullary_result', unary_result', binary_result', ternary_result', reshape_result', nary3_result',
    nullary_result_ne', unary_result_ne', binary_result_ne', ternary_result_ne', reshape_result_ne', nary_result_ne']

theorem s6_arg0 (W : Valuation τ sig (Elt Ideal)) :
    after (opsP6 (F := Ideal)) W (Proc.devRef .tc main_arg0) = W (Proc.devRef .tc main_arg0) := by
  simp (disch := decide) only [after_cons, after_nil,
    nullary_result', unary_result', binary_result', ternary_result', reshape_result', nary3_result',
    nullary_result_ne', unary_result_ne', binary_result_ne', ternary_result_ne', reshape_result_ne', nary_result_ne']

theorem s6_arg1 (W : Valuation τ sig (Elt Ideal)) :
    after (opsP6 (F := Ideal)) W (Proc.devRef .tc main_arg1) = W (Proc.devRef .tc main_arg1) := by
  simp (disch := decide) only [after_cons, after_nil,
    nullary_result', unary_result', binary_result', ternary_result', reshape_result', nary3_result',
    nullary_result_ne', unary_result_ne', binary_result_ne', ternary_result_ne', reshape_result_ne', nary_result_ne']

theorem s6_arg2 (W : Valuation τ sig (Elt Ideal)) :
    after (opsP6 (F := Ideal)) W (Proc.devRef .tc main_arg2) = W (Proc.devRef .tc main_arg2) := by
  simp (disch := decide) only [after_cons, after_nil,
    nullary_result', unary_result', binary_result', ternary_result', reshape_result', nary3_result',
    nullary_result_ne', unary_result_ne', binary_result_ne', ternary_result_ne', reshape_result_ne', nary_result_ne']

theorem s6_arg3 (W : Valuation τ sig (Elt Ideal)) :
    after (opsP6 (F := Ideal)) W (Proc.devRef .tc main_arg3) = W (Proc.devRef .tc main_arg3) := by
  simp (disch := decide) only [after_cons, after_nil,
    nullary_result', unary_result', binary_result', ternary_result', reshape_result', nary3_result',
    nullary_result_ne', unary_result_ne', binary_result_ne', ternary_result_ne', reshape_result_ne', nary_result_ne']

theorem s6_arg4 (W : Valuation τ sig (Elt Ideal)) :
    after (opsP6 (F := Ideal)) W (Proc.devRef .tc main_arg4) = W (Proc.devRef .tc main_arg4) := by
  simp (disch := decide) only [after_cons, after_nil,
    nullary_result', unary_result', binary_result', ternary_result', reshape_result', nary3_result',
    nullary_result_ne', unary_result_ne', binary_result_ne', ternary_result_ne', reshape_result_ne', nary_result_ne']

theorem s6_arg5 (W : Valuation τ sig (Elt Ideal)) :
    after (opsP6 (F := Ideal)) W (Proc.devRef .tc main_arg5) = W (Proc.devRef .tc main_arg5) := by
  simp (disch := decide) only [after_cons, after_nil,
    nullary_result', unary_result', binary_result', ternary_result', reshape_result', nary3_result',
    nullary_result_ne', unary_result_ne', binary_result_ne', ternary_result_ne', reshape_result_ne', nary_result_ne']

theorem s6_arg6 (W : Valuation τ sig (Elt Ideal)) :
    after (opsP6 (F := Ideal)) W (Proc.devRef .tc main_arg6) = W (Proc.devRef .tc main_arg6) := by
  simp (disch := decide) only [after_cons, after_nil,
    nullary_result', unary_result', binary_result', ternary_result', reshape_result', nary3_result',
    nullary_result_ne', unary_result_ne', binary_result_ne', ternary_result_ne', reshape_result_ne', nary_result_ne']

theorem s6_arg7 (W : Valuation τ sig (Elt Ideal)) :
    after (opsP6 (F := Ideal)) W (Proc.devRef .tc main_arg7) = W (Proc.devRef .tc main_arg7) := by
  simp (disch := decide) only [after_cons, after_nil,
    nullary_result', unary_result', binary_result', ternary_result', reshape_result', nary3_result',
    nullary_result_ne', unary_result_ne', binary_result_ne', ternary_result_ne', reshape_result_ne', nary_result_ne']

theorem s6_arg8 (W : Valuation τ sig (Elt Ideal)) :
    after (opsP6 (F := Ideal)) W (Proc.devRef .tc main_arg8) = W (Proc.devRef .tc main_arg8) := by
  simp (disch := decide) only [after_cons, after_nil,
    nullary_result', unary_result', binary_result', ternary_result', reshape_result', nary3_result',
    nullary_result_ne', unary_result_ne', binary_result_ne', ternary_result_ne', reshape_result_ne', nary_result_ne']

theorem s6_arg9 (W : Valuation τ sig (Elt Ideal)) :
    after (opsP6 (F := Ideal)) W (Proc.devRef .tc main_arg9) = W (Proc.devRef .tc main_arg9) := by
  simp (disch := decide) only [after_cons, after_nil,
    nullary_result', unary_result', binary_result', ternary_result', reshape_result', nary3_result',
    nullary_result_ne', unary_result_ne', binary_result_ne', ternary_result_ne', reshape_result_ne', nary_result_ne']

theorem s6_arg10 (W : Valuation τ sig (Elt Ideal)) :
    after (opsP6 (F := Ideal)) W (Proc.devRef .tc main_arg10) = W (Proc.devRef .tc main_arg10) := by
  simp (disch := decide) only [after_cons, after_nil,
    nullary_result', unary_result', binary_result', ternary_result', reshape_result', nary3_result',
    nullary_result_ne', unary_result_ne', binary_result_ne', ternary_result_ne', reshape_result_ne', nary_result_ne']

theorem s6_v0 (W : Valuation τ sig (Elt Ideal)) :
    after (opsP6 (F := Ideal)) W (Proc.devRef .tc main_v0) = W (Proc.devRef .tc main_v0) := by
  simp (disch := decide) only [after_cons, after_nil,
    nullary_result', unary_result', binary_result', ternary_result', reshape_result', nary3_result',
    nullary_result_ne', unary_result_ne', binary_result_ne', ternary_result_ne', reshape_result_ne', nary_result_ne']

theorem s7_arg0 (W : Valuation τ sig (Elt Ideal)) :
    after (opsP7 (F := Ideal)) W (Proc.devRef .tc main_arg0) = W (Proc.devRef .tc main_arg0) := by
  simp (disch := decide) only [after_cons, after_nil,
    nullary_result', unary_result', binary_result', ternary_result', reshape_result', nary3_result',
    nullary_result_ne', unary_result_ne', binary_result_ne', ternary_result_ne', reshape_result_ne', nary_result_ne']

theorem s7_arg5 (W : Valuation τ sig (Elt Ideal)) :
    after (opsP7 (F := Ideal)) W (Proc.devRef .tc main_arg5) = W (Proc.devRef .tc main_arg5) := by
  simp (disch := decide) only [after_cons, after_nil,
    nullary_result', unary_result', binary_result', ternary_result', reshape_result', nary3_result',
    nullary_result_ne', unary_result_ne', binary_result_ne', ternary_result_ne', reshape_result_ne', nary_result_ne']

theorem s7_arg6 (W : Valuation τ sig (Elt Ideal)) :
    after (opsP7 (F := Ideal)) W (Proc.devRef .tc main_arg6) = W (Proc.devRef .tc main_arg6) := by
  simp (disch := decide) only [after_cons, after_nil,
    nullary_result', unary_result', binary_result', ternary_result', reshape_result', nary3_result',
    nullary_result_ne', unary_result_ne', binary_result_ne', ternary_result_ne', reshape_result_ne', nary_result_ne']

theorem s7_arg7 (W : Valuation τ sig (Elt Ideal)) :
    after (opsP7 (F := Ideal)) W (Proc.devRef .tc main_arg7) = W (Proc.devRef .tc main_arg7) := by
  simp (disch := decide) only [after_cons, after_nil,
    nullary_result', unary_result', binary_result', ternary_result', reshape_result', nary3_result',
    nullary_result_ne', unary_result_ne', binary_result_ne', ternary_result_ne', reshape_result_ne', nary_result_ne']

theorem s7_arg8 (W : Valuation τ sig (Elt Ideal)) :
    after (opsP7 (F := Ideal)) W (Proc.devRef .tc main_arg8) = W (Proc.devRef .tc main_arg8) := by
  simp (disch := decide) only [after_cons, after_nil,
    nullary_result', unary_result', binary_result', ternary_result', reshape_result', nary3_result',
    nullary_result_ne', unary_result_ne', binary_result_ne', ternary_result_ne', reshape_result_ne', nary_result_ne']

theorem s7_arg9 (W : Valuation τ sig (Elt Ideal)) :
    after (opsP7 (F := Ideal)) W (Proc.devRef .tc main_arg9) = W (Proc.devRef .tc main_arg9) := by
  simp (disch := decide) only [after_cons, after_nil,
    nullary_result', unary_result', binary_result', ternary_result', reshape_result', nary3_result',
    nullary_result_ne', unary_result_ne', binary_result_ne', ternary_result_ne', reshape_result_ne', nary_result_ne']

theorem s7_arg10 (W : Valuation τ sig (Elt Ideal)) :
    after (opsP7 (F := Ideal)) W (Proc.devRef .tc main_arg10) = W (Proc.devRef .tc main_arg10) := by
  simp (disch := decide) only [after_cons, after_nil,
    nullary_result', unary_result', binary_result', ternary_result', reshape_result', nary3_result',
    nullary_result_ne', unary_result_ne', binary_result_ne', ternary_result_ne', reshape_result_ne', nary_result_ne']

theorem s8_arg7 (W : Valuation τ sig (Elt Ideal)) :
    after (opsP8 (F := Ideal)) W (Proc.devRef .tc main_arg7) = W (Proc.devRef .tc main_arg7) := by
  simp (disch := decide) only [after_cons, after_nil,
    nullary_result', unary_result', binary_result', ternary_result', reshape_result', nary3_result',
    nullary_result_ne', unary_result_ne', binary_result_ne', ternary_result_ne', reshape_result_ne', nary_result_ne']

theorem s8_arg8 (W : Valuation τ sig (Elt Ideal)) :
    after (opsP8 (F := Ideal)) W (Proc.devRef .tc main_arg8) = W (Proc.devRef .tc main_arg8) := by
  simp (disch := decide) only [after_cons, after_nil,
    nullary_result', unary_result', binary_result', ternary_result', reshape_result', nary3_result',
    nullary_result_ne', unary_result_ne', binary_result_ne', ternary_result_ne', reshape_result_ne', nary_result_ne']

theorem s8_arg9 (W : Valuation τ sig (Elt Ideal)) :
    after (opsP8 (F := Ideal)) W (Proc.devRef .tc main_arg9) = W (Proc.devRef .tc main_arg9) := by
  simp (disch := decide) only [after_cons, after_nil,
    nullary_result', unary_result', binary_result', ternary_result', reshape_result', nary3_result',
    nullary_result_ne', unary_result_ne', binary_result_ne', ternary_result_ne', reshape_result_ne', nary_result_ne']

theorem s8_arg10 (W : Valuation τ sig (Elt Ideal)) :
    after (opsP8 (F := Ideal)) W (Proc.devRef .tc main_arg10) = W (Proc.devRef .tc main_arg10) := by
  simp (disch := decide) only [after_cons, after_nil,
    nullary_result', unary_result', binary_result', ternary_result', reshape_result', nary3_result',
    nullary_result_ne', unary_result_ne', binary_result_ne', ternary_result_ne', reshape_result_ne', nary_result_ne']

theorem s8_v34 (W : Valuation τ sig (Elt Ideal)) :
    after (opsP8 (F := Ideal)) W (Proc.devRef .tc main_v34) = W (Proc.devRef .tc main_v34) := by
  simp (disch := decide) only [after_cons, after_nil,
    nullary_result', unary_result', binary_result', ternary_result', reshape_result', nary3_result',
    nullary_result_ne', unary_result_ne', binary_result_ne', ternary_result_ne', reshape_result_ne', nary_result_ne']

theorem s9_arg7 (W : Valuation τ sig (Elt Ideal)) :
    after (opsP9 (F := Ideal)) W (Proc.devRef .tc main_arg7) = W (Proc.devRef .tc main_arg7) := by
  simp (disch := decide) only [after_cons, after_nil,
    nullary_result', unary_result', binary_result', ternary_result', reshape_result', nary3_result',
    nullary_result_ne', unary_result_ne', binary_result_ne', ternary_result_ne', reshape_result_ne', nary_result_ne']

theorem s9_arg8 (W : Valuation τ sig (Elt Ideal)) :
    after (opsP9 (F := Ideal)) W (Proc.devRef .tc main_arg8) = W (Proc.devRef .tc main_arg8) := by
  simp (disch := decide) only [after_cons, after_nil,
    nullary_result', unary_result', binary_result', ternary_result', reshape_result', nary3_result',
    nullary_result_ne', unary_result_ne', binary_result_ne', ternary_result_ne', reshape_result_ne', nary_result_ne']

theorem s9_arg9 (W : Valuation τ sig (Elt Ideal)) :
    after (opsP9 (F := Ideal)) W (Proc.devRef .tc main_arg9) = W (Proc.devRef .tc main_arg9) := by
  simp (disch := decide) only [after_cons, after_nil,
    nullary_result', unary_result', binary_result', ternary_result', reshape_result', nary3_result',
    nullary_result_ne', unary_result_ne', binary_result_ne', ternary_result_ne', reshape_result_ne', nary_result_ne']

theorem s9_arg10 (W : Valuation τ sig (Elt Ideal)) :
    after (opsP9 (F := Ideal)) W (Proc.devRef .tc main_arg10) = W (Proc.devRef .tc main_arg10) := by
  simp (disch := decide) only [after_cons, after_nil,
    nullary_result', unary_result', binary_result', ternary_result', reshape_result', nary3_result',
    nullary_result_ne', unary_result_ne', binary_result_ne', ternary_result_ne', reshape_result_ne', nary_result_ne']

/-! ## What each segment computes

Each lemma reads one segment's fold at a buffer the segment writes, from any contents `W` of the buffers before it:
the operations' results at their own buffers, nested as the program nests them, over the contents of the buffers the
segment reads (named by variables equal to those contents). -/

attribute [local irreducible] select cmpi cmpf addi subi andi maxsi signi extui broadcastInDim concatenate shapeCast iotaInDim constant constantI addf mulf maximumf Host.reduceWindow Host.scatter Host.gather Host.reduceAdd Host.divsi Host.remsi Host.expm1 in
set_option maxRecDepth 16384 in
set_option maxHeartbeats 2000000 in
theorem s0_v0 (W : Valuation τ sig (Elt Ideal)) (x : (⟨S16384x64x32, .f32⟩ : BufTy).Contents (Elt Ideal))
    (hx : W (Proc.devRef .tc main_arg0) = x) :
    after (opsP0 (F := Ideal)) W (Proc.devRef .tc main_v0) = RefTerm.v0 x := by
  subst hx
  simp (disch := decide) only [after_cons, after_nil,
    nullary_result', unary_result', binary_result', ternary_result', reshape_result', nary3_result',
    nullary_result_ne', unary_result_ne', binary_result_ne', ternary_result_ne', reshape_result_ne', nary_result_ne']
  rfl

attribute [local irreducible] select cmpi cmpf addi subi andi maxsi signi extui broadcastInDim concatenate shapeCast iotaInDim constant constantI addf mulf maximumf Host.reduceWindow Host.scatter Host.gather Host.reduceAdd Host.divsi Host.remsi Host.expm1 in
set_option maxRecDepth 16384 in
set_option maxHeartbeats 2000000 in
theorem s0_v16 (W : Valuation τ sig (Elt Ideal))
     :
    after (opsP0 (F := Ideal)) W (Proc.devRef .tc main_v16) = RefIdx.v16 := by
  skip
  simp (disch := decide) only [after_cons, after_nil,
    nullary_result', unary_result', binary_result', ternary_result', reshape_result', nary3_result',
    nullary_result_ne', unary_result_ne', binary_result_ne', ternary_result_ne', reshape_result_ne', nary_result_ne']
  rfl

attribute [local irreducible] select cmpi cmpf addi subi andi maxsi signi extui broadcastInDim concatenate shapeCast iotaInDim constant constantI addf mulf maximumf Host.reduceWindow Host.scatter Host.gather Host.reduceAdd Host.divsi Host.remsi Host.expm1 in
set_option maxRecDepth 16384 in
set_option maxHeartbeats 2000000 in
theorem s1_v17 (W : Valuation τ sig (Elt Ideal)) (t16 : (⟨S2016, .i32⟩ : BufTy).Contents (Elt Ideal))
    (ht16 : W (Proc.devRef .tc main_v16) = t16) :
    after (opsP1 (F := Ideal)) W (Proc.devRef .tc main_v17) = RefIdx.FloorDivide.out t16 RefIdx.c_5 := by
  subst ht16
  simp (disch := decide) only [after_cons, after_nil,
    nullary_result', unary_result', binary_result', ternary_result', reshape_result', nary3_result',
    nullary_result_ne', unary_result_ne', binary_result_ne', ternary_result_ne', reshape_result_ne', nary_result_ne']
  rfl

attribute [local irreducible] select cmpi cmpf addi subi andi maxsi signi extui broadcastInDim concatenate shapeCast iotaInDim constant constantI addf mulf maximumf Host.reduceWindow Host.scatter Host.gather Host.reduceAdd Host.divsi Host.remsi Host.expm1 in
set_option maxRecDepth 16384 in
set_option maxHeartbeats 2000000 in
theorem s2_v18 (W : Valuation τ sig (Elt Ideal)) (t17 : (⟨S2016, .i32⟩ : BufTy).Contents (Elt Ideal))
    (ht17 : W (Proc.devRef .tc main_v17) = t17) :
    after (opsP2 (F := Ideal)) W (Proc.devRef .tc main_v18) = RefIdx.Remainder.out t17 RefIdx.c_6 := by
  subst ht17
  simp (disch := decide) only [after_cons, after_nil,
    nullary_result', unary_result', binary_result', ternary_result', reshape_result', nary3_result',
    nullary_result_ne', unary_result_ne', binary_result_ne', ternary_result_ne', reshape_result_ne', nary_result_ne']
  rfl

attribute [local irreducible] select cmpi cmpf addi subi andi maxsi signi extui broadcastInDim concatenate shapeCast iotaInDim constant constantI addf mulf maximumf Host.reduceWindow Host.scatter Host.gather Host.reduceAdd Host.divsi Host.remsi Host.expm1 in
set_option maxRecDepth 16384 in
set_option maxHeartbeats 2000000 in
theorem s3_v19 (W : Valuation τ sig (Elt Ideal)) (t16 : (⟨S2016, .i32⟩ : BufTy).Contents (Elt Ideal))
    (ht16 : W (Proc.devRef .tc main_v16) = t16) :
    after (opsP3 (F := Ideal)) W (Proc.devRef .tc main_v19) = RefIdx.FloorDivide.out t16 RefIdx.c_7 := by
  subst ht16
  simp (disch := decide) only [after_cons, after_nil,
    nullary_result', unary_result', binary_result', ternary_result', reshape_result', nary3_result',
    nullary_result_ne', unary_result_ne', binary_result_ne', ternary_result_ne', reshape_result_ne', nary_result_ne']
  rfl

attribute [local irreducible] select cmpi cmpf addi subi andi maxsi signi extui broadcastInDim concatenate shapeCast iotaInDim constant constantI addf mulf maximumf Host.reduceWindow Host.scatter Host.gather Host.reduceAdd Host.divsi Host.remsi Host.expm1 in
set_option maxRecDepth 16384 in
set_option maxHeartbeats 2000000 in
theorem s4_v20 (W : Valuation τ sig (Elt Ideal)) (t19 : (⟨S2016, .i32⟩ : BufTy).Contents (Elt Ideal))
    (ht19 : W (Proc.devRef .tc main_v19) = t19) :
    after (opsP4 (F := Ideal)) W (Proc.devRef .tc main_v20) = RefIdx.Remainder.out t19 RefIdx.c_8 := by
  subst ht19
  simp (disch := decide) only [after_cons, after_nil,
    nullary_result', unary_result', binary_result', ternary_result', reshape_result', nary3_result',
    nullary_result_ne', unary_result_ne', binary_result_ne', ternary_result_ne', reshape_result_ne', nary_result_ne']
  rfl

attribute [local irreducible] select cmpi cmpf addi subi andi maxsi signi extui broadcastInDim concatenate shapeCast iotaInDim constant constantI addf mulf maximumf Host.reduceWindow Host.scatter Host.gather Host.reduceAdd Host.divsi Host.remsi Host.expm1 in
set_option maxRecDepth 16384 in
set_option maxHeartbeats 2000000 in
theorem s5_v31 (W : Valuation τ sig (Elt Ideal)) (t18 : (⟨S2016, .i32⟩ : BufTy).Contents (Elt Ideal))
    (ht18 : W (Proc.devRef .tc main_v18) = t18) :
    after (opsP5 (F := Ideal)) W (Proc.devRef .tc main_v31) = broadcastInDim S2016x1 ![0] bcast_S2016_S2016x1_0 (select (cmpi .slt t18 RefIdx.v21) (addi t18 RefIdx.v23) t18) := by
  subst ht18
  simp (disch := decide) only [after_cons, after_nil,
    nullary_result', unary_result', binary_result', ternary_result', reshape_result', nary3_result',
    nullary_result_ne', unary_result_ne', binary_result_ne', ternary_result_ne', reshape_result_ne', nary_result_ne']
  rfl

attribute [local irreducible] select cmpi cmpf addi subi andi maxsi signi extui broadcastInDim concatenate shapeCast iotaInDim constant constantI addf mulf maximumf Host.reduceWindow Host.scatter Host.gather Host.reduceAdd Host.divsi Host.remsi Host.expm1 in
set_option maxRecDepth 16384 in
set_option maxHeartbeats 2000000 in
theorem s5_v32 (W : Valuation τ sig (Elt Ideal)) (t20 : (⟨S2016, .i32⟩ : BufTy).Contents (Elt Ideal))
    (ht20 : W (Proc.devRef .tc main_v20) = t20) :
    after (opsP5 (F := Ideal)) W (Proc.devRef .tc main_v32) = broadcastInDim S2016x1 ![0] bcast_S2016_S2016x1_0 (select (cmpi .slt t20 RefIdx.v26) (addi t20 RefIdx.v28) t20) := by
  subst ht20
  simp (disch := decide) only [after_cons, after_nil,
    nullary_result', unary_result', binary_result', ternary_result', reshape_result', nary3_result',
    nullary_result_ne', unary_result_ne', binary_result_ne', ternary_result_ne', reshape_result_ne', nary_result_ne']
  rfl

attribute [local irreducible] select cmpi cmpf addi subi andi maxsi signi extui broadcastInDim concatenate shapeCast iotaInDim constant constantI addf mulf maximumf Host.reduceWindow Host.scatter Host.gather Host.reduceAdd Host.divsi Host.remsi Host.expm1 in
set_option maxRecDepth 16384 in
set_option maxHeartbeats 2000000 in
theorem s6_v33 (W : Valuation τ sig (Elt Ideal)) (p : (⟨S2016x1, .i32⟩ : BufTy).Contents (Elt Ideal)) (q : (⟨S2016x1, .i32⟩ : BufTy).Contents (Elt Ideal))
    (hp : W (Proc.devRef .tc main_v31) = p) (hq : W (Proc.devRef .tc main_v32) = q) :
    after (opsP6 (F := Ideal)) W (Proc.devRef .tc main_v33) = concatenate S2016x2 1 [⟨S2016x1, p⟩, ⟨S2016x1, q⟩] concatenates_S2016x1_S2016x1_S2016x2_d1 := by
  subst hp hq
  simp (disch := decide) only [after_cons, after_nil,
    nullary_result', unary_result', binary_result', ternary_result', reshape_result', nary3_result',
    nullary_result_ne', unary_result_ne', binary_result_ne', ternary_result_ne', reshape_result_ne', nary_result_ne']

attribute [local irreducible] select cmpi cmpf addi subi andi maxsi signi extui broadcastInDim concatenate shapeCast iotaInDim constant constantI addf mulf maximumf Host.reduceWindow Host.scatter Host.gather Host.reduceAdd Host.divsi Host.remsi Host.expm1 in
set_option maxRecDepth 16384 in
set_option maxHeartbeats 2000000 in
theorem s7_v34 (W : Valuation τ sig (Elt Ideal)) (g : (⟨S16384x64x64, .f32⟩ : BufTy).Contents (Elt Ideal)) (ix : (⟨S2016x2, .i32⟩ : BufTy).Contents (Elt Ideal))
    (hg : W (Proc.devRef .tc main_v0) = g) (hix : W (Proc.devRef .tc main_v33) = ix) :
    after (opsP7 (F := Ideal)) W (Proc.devRef .tc main_v34) = Host.gather gather_S16384x64x64_S2016x2_S16384x2016_0_12_n_n_12_1_1638411 g ix := by
  subst hg hix
  simp (disch := decide) only [after_cons, after_nil,
    nullary_result', unary_result', binary_result', ternary_result', reshape_result', nary3_result',
    nullary_result_ne', unary_result_ne', binary_result_ne', ternary_result_ne', reshape_result_ne', nary_result_ne']

attribute [local irreducible] select cmpi cmpf addi subi andi maxsi signi extui broadcastInDim concatenate shapeCast iotaInDim constant constantI addf mulf maximumf Host.reduceWindow Host.scatter Host.gather Host.reduceAdd Host.divsi Host.remsi Host.expm1 in
set_option maxRecDepth 16384 in
set_option maxHeartbeats 2000000 in
theorem s7_v44 (W : Valuation τ sig (Elt Ideal)) (x : (⟨S16384x64x32, .f32⟩ : BufTy).Contents (Elt Ideal)) (W1 : (⟨S2048x256, .f32⟩ : BufTy).Contents (Elt Ideal)) (b1 : (⟨S256, .f32⟩ : BufTy).Contents (Elt Ideal)) (W2 : (⟨S256x256, .f32⟩ : BufTy).Contents (Elt Ideal)) (b2 : (⟨S256, .f32⟩ : BufTy).Contents (Elt Ideal))
    (hx : W (Proc.devRef .tc main_arg0) = x) (hW1 : W (Proc.devRef .tc main_arg1) = W1) (hb1 : W (Proc.devRef .tc main_arg2) = b1) (hW2 : W (Proc.devRef .tc main_arg3) = W2) (hb2 : W (Proc.devRef .tc main_arg4) = b2) :
    after (opsP7 (F := Ideal)) W (Proc.devRef .tc main_v44) = RefTerm.v44 x W1 b1 W2 b2 := by
  subst hx hW1 hb1 hW2 hb2
  simp (disch := decide) only [after_cons, after_nil,
    nullary_result', unary_result', binary_result', ternary_result', reshape_result', nary3_result',
    nullary_result_ne', unary_result_ne', binary_result_ne', ternary_result_ne', reshape_result_ne', nary_result_ne']
  rfl

attribute [local irreducible] select cmpi cmpf addi subi andi maxsi signi extui broadcastInDim concatenate shapeCast iotaInDim constant constantI addf mulf maximumf Host.reduceWindow Host.scatter Host.gather Host.reduceAdd Host.divsi Host.remsi Host.expm1 in
set_option maxRecDepth 16384 in
set_option maxHeartbeats 2000000 in
theorem s8_v49 (W : Valuation τ sig (Elt Ideal)) (t44 : (⟨S16384x256, .f32⟩ : BufTy).Contents (Elt Ideal)) (W3 : (⟨S256x128, .f32⟩ : BufTy).Contents (Elt Ideal)) (b3 : (⟨S128, .f32⟩ : BufTy).Contents (Elt Ideal))
    (ht44 : W (Proc.devRef .tc main_v44) = t44) (hW3 : W (Proc.devRef .tc main_arg5) = W3) (hb3 : W (Proc.devRef .tc main_arg6) = b3) :
    after (opsP8 (F := Ideal)) W (Proc.devRef .tc main_v49) = addf (F := Ideal) (φ := .f32) (Host.dotGeneral (F := Ideal) (φ₁ := .f32) (φ₂ := .f32) dot_S16384x256_S256x128_S16384x128_1_0_0_1_n_n none (RefTerm.selu t44) W3) (broadcastInDim S16384x128 ![0, 1] bcast_S1x128_S16384x128_0_1 (broadcastInDim S1x128 ![1] bcast_S128_S1x128_1 b3)) := by
  subst ht44 hW3 hb3
  simp (disch := decide) only [after_cons, after_nil,
    nullary_result', unary_result', binary_result', ternary_result', reshape_result', nary3_result',
    nullary_result_ne', unary_result_ne', binary_result_ne', ternary_result_ne', reshape_result_ne', nary_result_ne']
  rfl

attribute [local irreducible] select cmpi cmpf addi subi andi maxsi signi extui broadcastInDim concatenate shapeCast iotaInDim constant constantI addf mulf maximumf Host.reduceWindow Host.scatter Host.gather Host.reduceAdd Host.divsi Host.remsi Host.expm1 in
set_option maxRecDepth 16384 in
set_option maxHeartbeats 2000000 in
theorem s8_v50 (W : Valuation τ sig (Elt Ideal)) (x : (⟨S16384x64x32, .f32⟩ : BufTy).Contents (Elt Ideal))
    (hx : W (Proc.devRef .tc main_arg0) = x) :
    after (opsP8 (F := Ideal)) W (Proc.devRef .tc main_v50) = RefTerm.v50 x := by
  subst hx
  simp (disch := decide) only [after_cons, after_nil,
    nullary_result', unary_result', binary_result', ternary_result', reshape_result', nary3_result',
    nullary_result_ne', unary_result_ne', binary_result_ne', ternary_result_ne', reshape_result_ne', nary_result_ne']
  rfl

attribute [local irreducible] select cmpi cmpf addi subi andi maxsi signi extui broadcastInDim concatenate shapeCast iotaInDim constant constantI addf mulf maximumf Host.reduceWindow Host.scatter Host.gather Host.reduceAdd Host.divsi Host.remsi Host.expm1 in
set_option maxRecDepth 16384 in
set_option maxHeartbeats 2000000 in
theorem s9_v51 (W : Valuation τ sig (Elt Ideal)) (p : (⟨S16384x128, .f32⟩ : BufTy).Contents (Elt Ideal)) (q : (⟨S16384x2016, .f32⟩ : BufTy).Contents (Elt Ideal)) (r : (⟨S16384x32, .f32⟩ : BufTy).Contents (Elt Ideal))
    (hp : W (Proc.devRef .tc main_v49) = p) (hq : W (Proc.devRef .tc main_v34) = q) (hr : W (Proc.devRef .tc main_v50) = r) :
    after (opsP9 (F := Ideal)) W (Proc.devRef .tc main_v51) = concatenate S16384x2176 1 [⟨S16384x128, p⟩, ⟨S16384x2016, q⟩, ⟨S16384x32, r⟩] concatenates_S16384x128_S16384x2016_S16384x32_S16384x2176_d1 := by
  subst hp hq hr
  simp (disch := decide) only [after_cons, after_nil,
    nullary_result', unary_result', binary_result', ternary_result', reshape_result', nary3_result',
    nullary_result_ne', unary_result_ne', binary_result_ne', ternary_result_ne', reshape_result_ne', nary_result_ne']
  rfl

attribute [local irreducible] select cmpi cmpf addi subi andi maxsi signi extui broadcastInDim concatenate shapeCast iotaInDim constant constantI addf mulf maximumf Host.reduceWindow Host.scatter Host.gather Host.reduceAdd Host.divsi Host.remsi Host.expm1 in
set_option maxRecDepth 16384 in
set_option maxHeartbeats 2000000 in
theorem s10_v60 (W : Valuation τ sig (Elt Ideal)) (t51 : (⟨S16384x2176, .f32⟩ : BufTy).Contents (Elt Ideal)) (Wc1 : (⟨S2176x256, .f32⟩ : BufTy).Contents (Elt Ideal)) (bc1 : (⟨S256, .f32⟩ : BufTy).Contents (Elt Ideal)) (Wc2 : (⟨S256x1, .f32⟩ : BufTy).Contents (Elt Ideal)) (bc2 : (⟨S1, .f32⟩ : BufTy).Contents (Elt Ideal))
    (ht51 : W (Proc.devRef .tc main_v51) = t51) (hWc1 : W (Proc.devRef .tc main_arg7) = Wc1) (hbc1 : W (Proc.devRef .tc main_arg8) = bc1) (hWc2 : W (Proc.devRef .tc main_arg9) = Wc2) (hbc2 : W (Proc.devRef .tc main_arg10) = bc2) :
    after (opsP10 (F := Ideal)) W (Proc.devRef .tc main_v60) = addf (F := Ideal) (φ := .f32) (Host.dotGeneral (F := Ideal) (φ₁ := .f32) (φ₂ := .f32) dot_S16384x256_S256x1_S16384x1_1_0_0_1_n_n none (RefTerm.relu (addf (F := Ideal) (φ := .f32) (Host.dotGeneral (F := Ideal) (φ₁ := .f32) (φ₂ := .f32) dot_S16384x2176_S2176x256_S16384x256_1_0_0_1_n_n none t51 Wc1) (broadcastInDim S16384x256 ![0, 1] bcast_S1x256_S16384x256_0_1 (broadcastInDim S1x256 ![1] bcast_S256_S1x256_1 bc1)))) Wc2) (broadcastInDim S16384x1 ![0, 1] bcast_S1x1_S16384x1_0_1 (broadcastInDim S1x1 ![1] bcast_S1_S1x1_1 bc2)) := by
  subst ht51 hWc1 hbc1 hWc2 hbc2
  simp (disch := decide) only [after_cons, after_nil,
    nullary_result', unary_result', binary_result', ternary_result', reshape_result', nary3_result',
    nullary_result_ne', unary_result_ne', binary_result_ne', ternary_result_ne', reshape_result_ne', nary_result_ne']
  rfl

/-! ## The whole line -/

set_option maxRecDepth 8192 in
set_option maxHeartbeats 4000000 in
/-- The whole fold, read at the result buffer: the segments' readings composed. Each segment's value lemma is fed the
    values the earlier segments left in the buffers it reads; every buffer a segment does not write is carried across
    it unchanged. -/
theorem val_eq (V : Valuation τ sig (Elt Ideal)) :
    after (ops (F := Ideal)) V (Proc.devRef .tc main_v60)
      = RefTerm.refOut RefIdx.refIdx (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [ops_splitP]
  simp only [after_append]
  have A1_0 : (after (opsP0 (F := Ideal)) V) (Proc.devRef .tc main_arg0) = V (Proc.devRef .tc main_arg0) := (s0_arg0 V)
  have A2_0 : (after (opsP1 (F := Ideal)) (after (opsP0 (F := Ideal)) V)) (Proc.devRef .tc main_arg0) = V (Proc.devRef .tc main_arg0) := (s1_arg0 (after (opsP0 (F := Ideal)) V)).trans A1_0
  have A3_0 : (after (opsP2 (F := Ideal)) (after (opsP1 (F := Ideal)) (after (opsP0 (F := Ideal)) V))) (Proc.devRef .tc main_arg0) = V (Proc.devRef .tc main_arg0) := (s2_arg0 (after (opsP1 (F := Ideal)) (after (opsP0 (F := Ideal)) V))).trans A2_0
  have A4_0 : (after (opsP3 (F := Ideal)) (after (opsP2 (F := Ideal)) (after (opsP1 (F := Ideal)) (after (opsP0 (F := Ideal)) V)))) (Proc.devRef .tc main_arg0) = V (Proc.devRef .tc main_arg0) := (s3_arg0 (after (opsP2 (F := Ideal)) (after (opsP1 (F := Ideal)) (after (opsP0 (F := Ideal)) V)))).trans A3_0
  have A5_0 : (after (opsP4 (F := Ideal)) (after (opsP3 (F := Ideal)) (after (opsP2 (F := Ideal)) (after (opsP1 (F := Ideal)) (after (opsP0 (F := Ideal)) V))))) (Proc.devRef .tc main_arg0) = V (Proc.devRef .tc main_arg0) := (s4_arg0 (after (opsP3 (F := Ideal)) (after (opsP2 (F := Ideal)) (after (opsP1 (F := Ideal)) (after (opsP0 (F := Ideal)) V))))).trans A4_0
  have A6_0 : (after (opsP5 (F := Ideal)) (after (opsP4 (F := Ideal)) (after (opsP3 (F := Ideal)) (after (opsP2 (F := Ideal)) (after (opsP1 (F := Ideal)) (after (opsP0 (F := Ideal)) V)))))) (Proc.devRef .tc main_arg0) = V (Proc.devRef .tc main_arg0) := (s5_arg0 (after (opsP4 (F := Ideal)) (after (opsP3 (F := Ideal)) (after (opsP2 (F := Ideal)) (after (opsP1 (F := Ideal)) (after (opsP0 (F := Ideal)) V)))))).trans A5_0
  have A7_0 : (after (opsP6 (F := Ideal)) (after (opsP5 (F := Ideal)) (after (opsP4 (F := Ideal)) (after (opsP3 (F := Ideal)) (after (opsP2 (F := Ideal)) (after (opsP1 (F := Ideal)) (after (opsP0 (F := Ideal)) V))))))) (Proc.devRef .tc main_arg0) = V (Proc.devRef .tc main_arg0) := (s6_arg0 (after (opsP5 (F := Ideal)) (after (opsP4 (F := Ideal)) (after (opsP3 (F := Ideal)) (after (opsP2 (F := Ideal)) (after (opsP1 (F := Ideal)) (after (opsP0 (F := Ideal)) V))))))).trans A6_0
  have A8_0 : (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))) (Proc.devRef .tc main_arg0) = V (Proc.devRef .tc main_arg0) := (s7_arg0 (after (opsP6 (F := Ideal)) (after (opsP5 (F := Ideal)) (after (opsP4 (F := Ideal)) (after (opsP3 (F := Ideal)) (after (opsP2 (F := Ideal)) (after (opsP1 (F := Ideal)) (after (opsP0 (F := Ideal)) V)))))))).trans A7_0
  have A1_1 : (after (opsP0 (F := Ideal)) V) (Proc.devRef .tc main_arg1) = V (Proc.devRef .tc main_arg1) := (s0_arg1 V)
  have A2_1 : (after (opsP1 (F := Ideal)) (after (opsP0 (F := Ideal)) V)) (Proc.devRef .tc main_arg1) = V (Proc.devRef .tc main_arg1) := (s1_arg1 (after (opsP0 (F := Ideal)) V)).trans A1_1
  have A3_1 : (after (opsP2 (F := Ideal)) (after (opsP1 (F := Ideal)) (after (opsP0 (F := Ideal)) V))) (Proc.devRef .tc main_arg1) = V (Proc.devRef .tc main_arg1) := (s2_arg1 (after (opsP1 (F := Ideal)) (after (opsP0 (F := Ideal)) V))).trans A2_1
  have A4_1 : (after (opsP3 (F := Ideal)) (after (opsP2 (F := Ideal)) (after (opsP1 (F := Ideal)) (after (opsP0 (F := Ideal)) V)))) (Proc.devRef .tc main_arg1) = V (Proc.devRef .tc main_arg1) := (s3_arg1 (after (opsP2 (F := Ideal)) (after (opsP1 (F := Ideal)) (after (opsP0 (F := Ideal)) V)))).trans A3_1
  have A5_1 : (after (opsP4 (F := Ideal)) (after (opsP3 (F := Ideal)) (after (opsP2 (F := Ideal)) (after (opsP1 (F := Ideal)) (after (opsP0 (F := Ideal)) V))))) (Proc.devRef .tc main_arg1) = V (Proc.devRef .tc main_arg1) := (s4_arg1 (after (opsP3 (F := Ideal)) (after (opsP2 (F := Ideal)) (after (opsP1 (F := Ideal)) (after (opsP0 (F := Ideal)) V))))).trans A4_1
  have A6_1 : (after (opsP5 (F := Ideal)) (after (opsP4 (F := Ideal)) (after (opsP3 (F := Ideal)) (after (opsP2 (F := Ideal)) (after (opsP1 (F := Ideal)) (after (opsP0 (F := Ideal)) V)))))) (Proc.devRef .tc main_arg1) = V (Proc.devRef .tc main_arg1) := (s5_arg1 (after (opsP4 (F := Ideal)) (after (opsP3 (F := Ideal)) (after (opsP2 (F := Ideal)) (after (opsP1 (F := Ideal)) (after (opsP0 (F := Ideal)) V)))))).trans A5_1
  have A7_1 : (after (opsP6 (F := Ideal)) (after (opsP5 (F := Ideal)) (after (opsP4 (F := Ideal)) (after (opsP3 (F := Ideal)) (after (opsP2 (F := Ideal)) (after (opsP1 (F := Ideal)) (after (opsP0 (F := Ideal)) V))))))) (Proc.devRef .tc main_arg1) = V (Proc.devRef .tc main_arg1) := (s6_arg1 (after (opsP5 (F := Ideal)) (after (opsP4 (F := Ideal)) (after (opsP3 (F := Ideal)) (after (opsP2 (F := Ideal)) (after (opsP1 (F := Ideal)) (after (opsP0 (F := Ideal)) V))))))).trans A6_1
  have A1_2 : (after (opsP0 (F := Ideal)) V) (Proc.devRef .tc main_arg2) = V (Proc.devRef .tc main_arg2) := (s0_arg2 V)
  have A2_2 : (after (opsP1 (F := Ideal)) (after (opsP0 (F := Ideal)) V)) (Proc.devRef .tc main_arg2) = V (Proc.devRef .tc main_arg2) := (s1_arg2 (after (opsP0 (F := Ideal)) V)).trans A1_2
  have A3_2 : (after (opsP2 (F := Ideal)) (after (opsP1 (F := Ideal)) (after (opsP0 (F := Ideal)) V))) (Proc.devRef .tc main_arg2) = V (Proc.devRef .tc main_arg2) := (s2_arg2 (after (opsP1 (F := Ideal)) (after (opsP0 (F := Ideal)) V))).trans A2_2
  have A4_2 : (after (opsP3 (F := Ideal)) (after (opsP2 (F := Ideal)) (after (opsP1 (F := Ideal)) (after (opsP0 (F := Ideal)) V)))) (Proc.devRef .tc main_arg2) = V (Proc.devRef .tc main_arg2) := (s3_arg2 (after (opsP2 (F := Ideal)) (after (opsP1 (F := Ideal)) (after (opsP0 (F := Ideal)) V)))).trans A3_2
  have A5_2 : (after (opsP4 (F := Ideal)) (after (opsP3 (F := Ideal)) (after (opsP2 (F := Ideal)) (after (opsP1 (F := Ideal)) (after (opsP0 (F := Ideal)) V))))) (Proc.devRef .tc main_arg2) = V (Proc.devRef .tc main_arg2) := (s4_arg2 (after (opsP3 (F := Ideal)) (after (opsP2 (F := Ideal)) (after (opsP1 (F := Ideal)) (after (opsP0 (F := Ideal)) V))))).trans A4_2
  have A6_2 : (after (opsP5 (F := Ideal)) (after (opsP4 (F := Ideal)) (after (opsP3 (F := Ideal)) (after (opsP2 (F := Ideal)) (after (opsP1 (F := Ideal)) (after (opsP0 (F := Ideal)) V)))))) (Proc.devRef .tc main_arg2) = V (Proc.devRef .tc main_arg2) := (s5_arg2 (after (opsP4 (F := Ideal)) (after (opsP3 (F := Ideal)) (after (opsP2 (F := Ideal)) (after (opsP1 (F := Ideal)) (after (opsP0 (F := Ideal)) V)))))).trans A5_2
  have A7_2 : (after (opsP6 (F := Ideal)) (after (opsP5 (F := Ideal)) (after (opsP4 (F := Ideal)) (after (opsP3 (F := Ideal)) (after (opsP2 (F := Ideal)) (after (opsP1 (F := Ideal)) (after (opsP0 (F := Ideal)) V))))))) (Proc.devRef .tc main_arg2) = V (Proc.devRef .tc main_arg2) := (s6_arg2 (after (opsP5 (F := Ideal)) (after (opsP4 (F := Ideal)) (after (opsP3 (F := Ideal)) (after (opsP2 (F := Ideal)) (after (opsP1 (F := Ideal)) (after (opsP0 (F := Ideal)) V))))))).trans A6_2
  have A1_3 : (after (opsP0 (F := Ideal)) V) (Proc.devRef .tc main_arg3) = V (Proc.devRef .tc main_arg3) := (s0_arg3 V)
  have A2_3 : (after (opsP1 (F := Ideal)) (after (opsP0 (F := Ideal)) V)) (Proc.devRef .tc main_arg3) = V (Proc.devRef .tc main_arg3) := (s1_arg3 (after (opsP0 (F := Ideal)) V)).trans A1_3
  have A3_3 : (after (opsP2 (F := Ideal)) (after (opsP1 (F := Ideal)) (after (opsP0 (F := Ideal)) V))) (Proc.devRef .tc main_arg3) = V (Proc.devRef .tc main_arg3) := (s2_arg3 (after (opsP1 (F := Ideal)) (after (opsP0 (F := Ideal)) V))).trans A2_3
  have A4_3 : (after (opsP3 (F := Ideal)) (after (opsP2 (F := Ideal)) (after (opsP1 (F := Ideal)) (after (opsP0 (F := Ideal)) V)))) (Proc.devRef .tc main_arg3) = V (Proc.devRef .tc main_arg3) := (s3_arg3 (after (opsP2 (F := Ideal)) (after (opsP1 (F := Ideal)) (after (opsP0 (F := Ideal)) V)))).trans A3_3
  have A5_3 : (after (opsP4 (F := Ideal)) (after (opsP3 (F := Ideal)) (after (opsP2 (F := Ideal)) (after (opsP1 (F := Ideal)) (after (opsP0 (F := Ideal)) V))))) (Proc.devRef .tc main_arg3) = V (Proc.devRef .tc main_arg3) := (s4_arg3 (after (opsP3 (F := Ideal)) (after (opsP2 (F := Ideal)) (after (opsP1 (F := Ideal)) (after (opsP0 (F := Ideal)) V))))).trans A4_3
  have A6_3 : (after (opsP5 (F := Ideal)) (after (opsP4 (F := Ideal)) (after (opsP3 (F := Ideal)) (after (opsP2 (F := Ideal)) (after (opsP1 (F := Ideal)) (after (opsP0 (F := Ideal)) V)))))) (Proc.devRef .tc main_arg3) = V (Proc.devRef .tc main_arg3) := (s5_arg3 (after (opsP4 (F := Ideal)) (after (opsP3 (F := Ideal)) (after (opsP2 (F := Ideal)) (after (opsP1 (F := Ideal)) (after (opsP0 (F := Ideal)) V)))))).trans A5_3
  have A7_3 : (after (opsP6 (F := Ideal)) (after (opsP5 (F := Ideal)) (after (opsP4 (F := Ideal)) (after (opsP3 (F := Ideal)) (after (opsP2 (F := Ideal)) (after (opsP1 (F := Ideal)) (after (opsP0 (F := Ideal)) V))))))) (Proc.devRef .tc main_arg3) = V (Proc.devRef .tc main_arg3) := (s6_arg3 (after (opsP5 (F := Ideal)) (after (opsP4 (F := Ideal)) (after (opsP3 (F := Ideal)) (after (opsP2 (F := Ideal)) (after (opsP1 (F := Ideal)) (after (opsP0 (F := Ideal)) V))))))).trans A6_3
  have A1_4 : (after (opsP0 (F := Ideal)) V) (Proc.devRef .tc main_arg4) = V (Proc.devRef .tc main_arg4) := (s0_arg4 V)
  have A2_4 : (after (opsP1 (F := Ideal)) (after (opsP0 (F := Ideal)) V)) (Proc.devRef .tc main_arg4) = V (Proc.devRef .tc main_arg4) := (s1_arg4 (after (opsP0 (F := Ideal)) V)).trans A1_4
  have A3_4 : (after (opsP2 (F := Ideal)) (after (opsP1 (F := Ideal)) (after (opsP0 (F := Ideal)) V))) (Proc.devRef .tc main_arg4) = V (Proc.devRef .tc main_arg4) := (s2_arg4 (after (opsP1 (F := Ideal)) (after (opsP0 (F := Ideal)) V))).trans A2_4
  have A4_4 : (after (opsP3 (F := Ideal)) (after (opsP2 (F := Ideal)) (after (opsP1 (F := Ideal)) (after (opsP0 (F := Ideal)) V)))) (Proc.devRef .tc main_arg4) = V (Proc.devRef .tc main_arg4) := (s3_arg4 (after (opsP2 (F := Ideal)) (after (opsP1 (F := Ideal)) (after (opsP0 (F := Ideal)) V)))).trans A3_4
  have A5_4 : (after (opsP4 (F := Ideal)) (after (opsP3 (F := Ideal)) (after (opsP2 (F := Ideal)) (after (opsP1 (F := Ideal)) (after (opsP0 (F := Ideal)) V))))) (Proc.devRef .tc main_arg4) = V (Proc.devRef .tc main_arg4) := (s4_arg4 (after (opsP3 (F := Ideal)) (after (opsP2 (F := Ideal)) (after (opsP1 (F := Ideal)) (after (opsP0 (F := Ideal)) V))))).trans A4_4
  have A6_4 : (after (opsP5 (F := Ideal)) (after (opsP4 (F := Ideal)) (after (opsP3 (F := Ideal)) (after (opsP2 (F := Ideal)) (after (opsP1 (F := Ideal)) (after (opsP0 (F := Ideal)) V)))))) (Proc.devRef .tc main_arg4) = V (Proc.devRef .tc main_arg4) := (s5_arg4 (after (opsP4 (F := Ideal)) (after (opsP3 (F := Ideal)) (after (opsP2 (F := Ideal)) (after (opsP1 (F := Ideal)) (after (opsP0 (F := Ideal)) V)))))).trans A5_4
  have A7_4 : (after (opsP6 (F := Ideal)) (after (opsP5 (F := Ideal)) (after (opsP4 (F := Ideal)) (after (opsP3 (F := Ideal)) (after (opsP2 (F := Ideal)) (after (opsP1 (F := Ideal)) (after (opsP0 (F := Ideal)) V))))))) (Proc.devRef .tc main_arg4) = V (Proc.devRef .tc main_arg4) := (s6_arg4 (after (opsP5 (F := Ideal)) (after (opsP4 (F := Ideal)) (after (opsP3 (F := Ideal)) (after (opsP2 (F := Ideal)) (after (opsP1 (F := Ideal)) (after (opsP0 (F := Ideal)) V))))))).trans A6_4
  have A1_5 : (after (opsP0 (F := Ideal)) V) (Proc.devRef .tc main_arg5) = V (Proc.devRef .tc main_arg5) := (s0_arg5 V)
  have A2_5 : (after (opsP1 (F := Ideal)) (after (opsP0 (F := Ideal)) V)) (Proc.devRef .tc main_arg5) = V (Proc.devRef .tc main_arg5) := (s1_arg5 (after (opsP0 (F := Ideal)) V)).trans A1_5
  have A3_5 : (after (opsP2 (F := Ideal)) (after (opsP1 (F := Ideal)) (after (opsP0 (F := Ideal)) V))) (Proc.devRef .tc main_arg5) = V (Proc.devRef .tc main_arg5) := (s2_arg5 (after (opsP1 (F := Ideal)) (after (opsP0 (F := Ideal)) V))).trans A2_5
  have A4_5 : (after (opsP3 (F := Ideal)) (after (opsP2 (F := Ideal)) (after (opsP1 (F := Ideal)) (after (opsP0 (F := Ideal)) V)))) (Proc.devRef .tc main_arg5) = V (Proc.devRef .tc main_arg5) := (s3_arg5 (after (opsP2 (F := Ideal)) (after (opsP1 (F := Ideal)) (after (opsP0 (F := Ideal)) V)))).trans A3_5
  have A5_5 : (after (opsP4 (F := Ideal)) (after (opsP3 (F := Ideal)) (after (opsP2 (F := Ideal)) (after (opsP1 (F := Ideal)) (after (opsP0 (F := Ideal)) V))))) (Proc.devRef .tc main_arg5) = V (Proc.devRef .tc main_arg5) := (s4_arg5 (after (opsP3 (F := Ideal)) (after (opsP2 (F := Ideal)) (after (opsP1 (F := Ideal)) (after (opsP0 (F := Ideal)) V))))).trans A4_5
  have A6_5 : (after (opsP5 (F := Ideal)) (after (opsP4 (F := Ideal)) (after (opsP3 (F := Ideal)) (after (opsP2 (F := Ideal)) (after (opsP1 (F := Ideal)) (after (opsP0 (F := Ideal)) V)))))) (Proc.devRef .tc main_arg5) = V (Proc.devRef .tc main_arg5) := (s5_arg5 (after (opsP4 (F := Ideal)) (after (opsP3 (F := Ideal)) (after (opsP2 (F := Ideal)) (after (opsP1 (F := Ideal)) (after (opsP0 (F := Ideal)) V)))))).trans A5_5
  have A7_5 : (after (opsP6 (F := Ideal)) (after (opsP5 (F := Ideal)) (after (opsP4 (F := Ideal)) (after (opsP3 (F := Ideal)) (after (opsP2 (F := Ideal)) (after (opsP1 (F := Ideal)) (after (opsP0 (F := Ideal)) V))))))) (Proc.devRef .tc main_arg5) = V (Proc.devRef .tc main_arg5) := (s6_arg5 (after (opsP5 (F := Ideal)) (after (opsP4 (F := Ideal)) (after (opsP3 (F := Ideal)) (after (opsP2 (F := Ideal)) (after (opsP1 (F := Ideal)) (after (opsP0 (F := Ideal)) V))))))).trans A6_5
  have A8_5 : (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))) (Proc.devRef .tc main_arg5) = V (Proc.devRef .tc main_arg5) := (s7_arg5 (after (opsP6 (F := Ideal)) (after (opsP5 (F := Ideal)) (after (opsP4 (F := Ideal)) (after (opsP3 (F := Ideal)) (after (opsP2 (F := Ideal)) (after (opsP1 (F := Ideal)) (after (opsP0 (F := Ideal)) V)))))))).trans A7_5
  have A1_6 : (after (opsP0 (F := Ideal)) V) (Proc.devRef .tc main_arg6) = V (Proc.devRef .tc main_arg6) := (s0_arg6 V)
  have A2_6 : (after (opsP1 (F := Ideal)) (after (opsP0 (F := Ideal)) V)) (Proc.devRef .tc main_arg6) = V (Proc.devRef .tc main_arg6) := (s1_arg6 (after (opsP0 (F := Ideal)) V)).trans A1_6
  have A3_6 : (after (opsP2 (F := Ideal)) (after (opsP1 (F := Ideal)) (after (opsP0 (F := Ideal)) V))) (Proc.devRef .tc main_arg6) = V (Proc.devRef .tc main_arg6) := (s2_arg6 (after (opsP1 (F := Ideal)) (after (opsP0 (F := Ideal)) V))).trans A2_6
  have A4_6 : (after (opsP3 (F := Ideal)) (after (opsP2 (F := Ideal)) (after (opsP1 (F := Ideal)) (after (opsP0 (F := Ideal)) V)))) (Proc.devRef .tc main_arg6) = V (Proc.devRef .tc main_arg6) := (s3_arg6 (after (opsP2 (F := Ideal)) (after (opsP1 (F := Ideal)) (after (opsP0 (F := Ideal)) V)))).trans A3_6
  have A5_6 : (after (opsP4 (F := Ideal)) (after (opsP3 (F := Ideal)) (after (opsP2 (F := Ideal)) (after (opsP1 (F := Ideal)) (after (opsP0 (F := Ideal)) V))))) (Proc.devRef .tc main_arg6) = V (Proc.devRef .tc main_arg6) := (s4_arg6 (after (opsP3 (F := Ideal)) (after (opsP2 (F := Ideal)) (after (opsP1 (F := Ideal)) (after (opsP0 (F := Ideal)) V))))).trans A4_6
  have A6_6 : (after (opsP5 (F := Ideal)) (after (opsP4 (F := Ideal)) (after (opsP3 (F := Ideal)) (after (opsP2 (F := Ideal)) (after (opsP1 (F := Ideal)) (after (opsP0 (F := Ideal)) V)))))) (Proc.devRef .tc main_arg6) = V (Proc.devRef .tc main_arg6) := (s5_arg6 (after (opsP4 (F := Ideal)) (after (opsP3 (F := Ideal)) (after (opsP2 (F := Ideal)) (after (opsP1 (F := Ideal)) (after (opsP0 (F := Ideal)) V)))))).trans A5_6
  have A7_6 : (after (opsP6 (F := Ideal)) (after (opsP5 (F := Ideal)) (after (opsP4 (F := Ideal)) (after (opsP3 (F := Ideal)) (after (opsP2 (F := Ideal)) (after (opsP1 (F := Ideal)) (after (opsP0 (F := Ideal)) V))))))) (Proc.devRef .tc main_arg6) = V (Proc.devRef .tc main_arg6) := (s6_arg6 (after (opsP5 (F := Ideal)) (after (opsP4 (F := Ideal)) (after (opsP3 (F := Ideal)) (after (opsP2 (F := Ideal)) (after (opsP1 (F := Ideal)) (after (opsP0 (F := Ideal)) V))))))).trans A6_6
  have A8_6 : (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))) (Proc.devRef .tc main_arg6) = V (Proc.devRef .tc main_arg6) := (s7_arg6 (after (opsP6 (F := Ideal)) (after (opsP5 (F := Ideal)) (after (opsP4 (F := Ideal)) (after (opsP3 (F := Ideal)) (after (opsP2 (F := Ideal)) (after (opsP1 (F := Ideal)) (after (opsP0 (F := Ideal)) V)))))))).trans A7_6
  have A1_7 : (after (opsP0 (F := Ideal)) V) (Proc.devRef .tc main_arg7) = V (Proc.devRef .tc main_arg7) := (s0_arg7 V)
  have A2_7 : (after (opsP1 (F := Ideal)) (after (opsP0 (F := Ideal)) V)) (Proc.devRef .tc main_arg7) = V (Proc.devRef .tc main_arg7) := (s1_arg7 (after (opsP0 (F := Ideal)) V)).trans A1_7
  have A3_7 : (after (opsP2 (F := Ideal)) (after (opsP1 (F := Ideal)) (after (opsP0 (F := Ideal)) V))) (Proc.devRef .tc main_arg7) = V (Proc.devRef .tc main_arg7) := (s2_arg7 (after (opsP1 (F := Ideal)) (after (opsP0 (F := Ideal)) V))).trans A2_7
  have A4_7 : (after (opsP3 (F := Ideal)) (after (opsP2 (F := Ideal)) (after (opsP1 (F := Ideal)) (after (opsP0 (F := Ideal)) V)))) (Proc.devRef .tc main_arg7) = V (Proc.devRef .tc main_arg7) := (s3_arg7 (after (opsP2 (F := Ideal)) (after (opsP1 (F := Ideal)) (after (opsP0 (F := Ideal)) V)))).trans A3_7
  have A5_7 : (after (opsP4 (F := Ideal)) (after (opsP3 (F := Ideal)) (after (opsP2 (F := Ideal)) (after (opsP1 (F := Ideal)) (after (opsP0 (F := Ideal)) V))))) (Proc.devRef .tc main_arg7) = V (Proc.devRef .tc main_arg7) := (s4_arg7 (after (opsP3 (F := Ideal)) (after (opsP2 (F := Ideal)) (after (opsP1 (F := Ideal)) (after (opsP0 (F := Ideal)) V))))).trans A4_7
  have A6_7 : (after (opsP5 (F := Ideal)) (after (opsP4 (F := Ideal)) (after (opsP3 (F := Ideal)) (after (opsP2 (F := Ideal)) (after (opsP1 (F := Ideal)) (after (opsP0 (F := Ideal)) V)))))) (Proc.devRef .tc main_arg7) = V (Proc.devRef .tc main_arg7) := (s5_arg7 (after (opsP4 (F := Ideal)) (after (opsP3 (F := Ideal)) (after (opsP2 (F := Ideal)) (after (opsP1 (F := Ideal)) (after (opsP0 (F := Ideal)) V)))))).trans A5_7
  have A7_7 : (after (opsP6 (F := Ideal)) (after (opsP5 (F := Ideal)) (after (opsP4 (F := Ideal)) (after (opsP3 (F := Ideal)) (after (opsP2 (F := Ideal)) (after (opsP1 (F := Ideal)) (after (opsP0 (F := Ideal)) V))))))) (Proc.devRef .tc main_arg7) = V (Proc.devRef .tc main_arg7) := (s6_arg7 (after (opsP5 (F := Ideal)) (after (opsP4 (F := Ideal)) (after (opsP3 (F := Ideal)) (after (opsP2 (F := Ideal)) (after (opsP1 (F := Ideal)) (after (opsP0 (F := Ideal)) V))))))).trans A6_7
  have A8_7 : (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))) (Proc.devRef .tc main_arg7) = V (Proc.devRef .tc main_arg7) := (s7_arg7 (after (opsP6 (F := Ideal)) (after (opsP5 (F := Ideal)) (after (opsP4 (F := Ideal)) (after (opsP3 (F := Ideal)) (after (opsP2 (F := Ideal)) (after (opsP1 (F := Ideal)) (after (opsP0 (F := Ideal)) V)))))))).trans A7_7
  have A9_7 : (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V))))))))) (Proc.devRef .tc main_arg7) = V (Proc.devRef .tc main_arg7) := (s8_arg7 (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V))))))))).trans A8_7
  have A10_7 : (after (opsP9 (F := Ideal)) (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))))) (Proc.devRef .tc main_arg7) = V (Proc.devRef .tc main_arg7) := (s9_arg7 (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))))).trans A9_7
  have A1_8 : (after (opsP0 (F := Ideal)) V) (Proc.devRef .tc main_arg8) = V (Proc.devRef .tc main_arg8) := (s0_arg8 V)
  have A2_8 : (after (opsP1 (F := Ideal)) (after (opsP0 (F := Ideal)) V)) (Proc.devRef .tc main_arg8) = V (Proc.devRef .tc main_arg8) := (s1_arg8 (after (opsP0 (F := Ideal)) V)).trans A1_8
  have A3_8 : (after (opsP2 (F := Ideal)) (after (opsP1 (F := Ideal)) (after (opsP0 (F := Ideal)) V))) (Proc.devRef .tc main_arg8) = V (Proc.devRef .tc main_arg8) := (s2_arg8 (after (opsP1 (F := Ideal)) (after (opsP0 (F := Ideal)) V))).trans A2_8
  have A4_8 : (after (opsP3 (F := Ideal)) (after (opsP2 (F := Ideal)) (after (opsP1 (F := Ideal)) (after (opsP0 (F := Ideal)) V)))) (Proc.devRef .tc main_arg8) = V (Proc.devRef .tc main_arg8) := (s3_arg8 (after (opsP2 (F := Ideal)) (after (opsP1 (F := Ideal)) (after (opsP0 (F := Ideal)) V)))).trans A3_8
  have A5_8 : (after (opsP4 (F := Ideal)) (after (opsP3 (F := Ideal)) (after (opsP2 (F := Ideal)) (after (opsP1 (F := Ideal)) (after (opsP0 (F := Ideal)) V))))) (Proc.devRef .tc main_arg8) = V (Proc.devRef .tc main_arg8) := (s4_arg8 (after (opsP3 (F := Ideal)) (after (opsP2 (F := Ideal)) (after (opsP1 (F := Ideal)) (after (opsP0 (F := Ideal)) V))))).trans A4_8
  have A6_8 : (after (opsP5 (F := Ideal)) (after (opsP4 (F := Ideal)) (after (opsP3 (F := Ideal)) (after (opsP2 (F := Ideal)) (after (opsP1 (F := Ideal)) (after (opsP0 (F := Ideal)) V)))))) (Proc.devRef .tc main_arg8) = V (Proc.devRef .tc main_arg8) := (s5_arg8 (after (opsP4 (F := Ideal)) (after (opsP3 (F := Ideal)) (after (opsP2 (F := Ideal)) (after (opsP1 (F := Ideal)) (after (opsP0 (F := Ideal)) V)))))).trans A5_8
  have A7_8 : (after (opsP6 (F := Ideal)) (after (opsP5 (F := Ideal)) (after (opsP4 (F := Ideal)) (after (opsP3 (F := Ideal)) (after (opsP2 (F := Ideal)) (after (opsP1 (F := Ideal)) (after (opsP0 (F := Ideal)) V))))))) (Proc.devRef .tc main_arg8) = V (Proc.devRef .tc main_arg8) := (s6_arg8 (after (opsP5 (F := Ideal)) (after (opsP4 (F := Ideal)) (after (opsP3 (F := Ideal)) (after (opsP2 (F := Ideal)) (after (opsP1 (F := Ideal)) (after (opsP0 (F := Ideal)) V))))))).trans A6_8
  have A8_8 : (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))) (Proc.devRef .tc main_arg8) = V (Proc.devRef .tc main_arg8) := (s7_arg8 (after (opsP6 (F := Ideal)) (after (opsP5 (F := Ideal)) (after (opsP4 (F := Ideal)) (after (opsP3 (F := Ideal)) (after (opsP2 (F := Ideal)) (after (opsP1 (F := Ideal)) (after (opsP0 (F := Ideal)) V)))))))).trans A7_8
  have A9_8 : (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V))))))))) (Proc.devRef .tc main_arg8) = V (Proc.devRef .tc main_arg8) := (s8_arg8 (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V))))))))).trans A8_8
  have A10_8 : (after (opsP9 (F := Ideal)) (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))))) (Proc.devRef .tc main_arg8) = V (Proc.devRef .tc main_arg8) := (s9_arg8 (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))))).trans A9_8
  have A1_9 : (after (opsP0 (F := Ideal)) V) (Proc.devRef .tc main_arg9) = V (Proc.devRef .tc main_arg9) := (s0_arg9 V)
  have A2_9 : (after (opsP1 (F := Ideal)) (after (opsP0 (F := Ideal)) V)) (Proc.devRef .tc main_arg9) = V (Proc.devRef .tc main_arg9) := (s1_arg9 (after (opsP0 (F := Ideal)) V)).trans A1_9
  have A3_9 : (after (opsP2 (F := Ideal)) (after (opsP1 (F := Ideal)) (after (opsP0 (F := Ideal)) V))) (Proc.devRef .tc main_arg9) = V (Proc.devRef .tc main_arg9) := (s2_arg9 (after (opsP1 (F := Ideal)) (after (opsP0 (F := Ideal)) V))).trans A2_9
  have A4_9 : (after (opsP3 (F := Ideal)) (after (opsP2 (F := Ideal)) (after (opsP1 (F := Ideal)) (after (opsP0 (F := Ideal)) V)))) (Proc.devRef .tc main_arg9) = V (Proc.devRef .tc main_arg9) := (s3_arg9 (after (opsP2 (F := Ideal)) (after (opsP1 (F := Ideal)) (after (opsP0 (F := Ideal)) V)))).trans A3_9
  have A5_9 : (after (opsP4 (F := Ideal)) (after (opsP3 (F := Ideal)) (after (opsP2 (F := Ideal)) (after (opsP1 (F := Ideal)) (after (opsP0 (F := Ideal)) V))))) (Proc.devRef .tc main_arg9) = V (Proc.devRef .tc main_arg9) := (s4_arg9 (after (opsP3 (F := Ideal)) (after (opsP2 (F := Ideal)) (after (opsP1 (F := Ideal)) (after (opsP0 (F := Ideal)) V))))).trans A4_9
  have A6_9 : (after (opsP5 (F := Ideal)) (after (opsP4 (F := Ideal)) (after (opsP3 (F := Ideal)) (after (opsP2 (F := Ideal)) (after (opsP1 (F := Ideal)) (after (opsP0 (F := Ideal)) V)))))) (Proc.devRef .tc main_arg9) = V (Proc.devRef .tc main_arg9) := (s5_arg9 (after (opsP4 (F := Ideal)) (after (opsP3 (F := Ideal)) (after (opsP2 (F := Ideal)) (after (opsP1 (F := Ideal)) (after (opsP0 (F := Ideal)) V)))))).trans A5_9
  have A7_9 : (after (opsP6 (F := Ideal)) (after (opsP5 (F := Ideal)) (after (opsP4 (F := Ideal)) (after (opsP3 (F := Ideal)) (after (opsP2 (F := Ideal)) (after (opsP1 (F := Ideal)) (after (opsP0 (F := Ideal)) V))))))) (Proc.devRef .tc main_arg9) = V (Proc.devRef .tc main_arg9) := (s6_arg9 (after (opsP5 (F := Ideal)) (after (opsP4 (F := Ideal)) (after (opsP3 (F := Ideal)) (after (opsP2 (F := Ideal)) (after (opsP1 (F := Ideal)) (after (opsP0 (F := Ideal)) V))))))).trans A6_9
  have A8_9 : (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))) (Proc.devRef .tc main_arg9) = V (Proc.devRef .tc main_arg9) := (s7_arg9 (after (opsP6 (F := Ideal)) (after (opsP5 (F := Ideal)) (after (opsP4 (F := Ideal)) (after (opsP3 (F := Ideal)) (after (opsP2 (F := Ideal)) (after (opsP1 (F := Ideal)) (after (opsP0 (F := Ideal)) V)))))))).trans A7_9
  have A9_9 : (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V))))))))) (Proc.devRef .tc main_arg9) = V (Proc.devRef .tc main_arg9) := (s8_arg9 (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V))))))))).trans A8_9
  have A10_9 : (after (opsP9 (F := Ideal)) (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))))) (Proc.devRef .tc main_arg9) = V (Proc.devRef .tc main_arg9) := (s9_arg9 (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))))).trans A9_9
  have A1_10 : (after (opsP0 (F := Ideal)) V) (Proc.devRef .tc main_arg10) = V (Proc.devRef .tc main_arg10) := (s0_arg10 V)
  have A2_10 : (after (opsP1 (F := Ideal)) (after (opsP0 (F := Ideal)) V)) (Proc.devRef .tc main_arg10) = V (Proc.devRef .tc main_arg10) := (s1_arg10 (after (opsP0 (F := Ideal)) V)).trans A1_10
  have A3_10 : (after (opsP2 (F := Ideal)) (after (opsP1 (F := Ideal)) (after (opsP0 (F := Ideal)) V))) (Proc.devRef .tc main_arg10) = V (Proc.devRef .tc main_arg10) := (s2_arg10 (after (opsP1 (F := Ideal)) (after (opsP0 (F := Ideal)) V))).trans A2_10
  have A4_10 : (after (opsP3 (F := Ideal)) (after (opsP2 (F := Ideal)) (after (opsP1 (F := Ideal)) (after (opsP0 (F := Ideal)) V)))) (Proc.devRef .tc main_arg10) = V (Proc.devRef .tc main_arg10) := (s3_arg10 (after (opsP2 (F := Ideal)) (after (opsP1 (F := Ideal)) (after (opsP0 (F := Ideal)) V)))).trans A3_10
  have A5_10 : (after (opsP4 (F := Ideal)) (after (opsP3 (F := Ideal)) (after (opsP2 (F := Ideal)) (after (opsP1 (F := Ideal)) (after (opsP0 (F := Ideal)) V))))) (Proc.devRef .tc main_arg10) = V (Proc.devRef .tc main_arg10) := (s4_arg10 (after (opsP3 (F := Ideal)) (after (opsP2 (F := Ideal)) (after (opsP1 (F := Ideal)) (after (opsP0 (F := Ideal)) V))))).trans A4_10
  have A6_10 : (after (opsP5 (F := Ideal)) (after (opsP4 (F := Ideal)) (after (opsP3 (F := Ideal)) (after (opsP2 (F := Ideal)) (after (opsP1 (F := Ideal)) (after (opsP0 (F := Ideal)) V)))))) (Proc.devRef .tc main_arg10) = V (Proc.devRef .tc main_arg10) := (s5_arg10 (after (opsP4 (F := Ideal)) (after (opsP3 (F := Ideal)) (after (opsP2 (F := Ideal)) (after (opsP1 (F := Ideal)) (after (opsP0 (F := Ideal)) V)))))).trans A5_10
  have A7_10 : (after (opsP6 (F := Ideal)) (after (opsP5 (F := Ideal)) (after (opsP4 (F := Ideal)) (after (opsP3 (F := Ideal)) (after (opsP2 (F := Ideal)) (after (opsP1 (F := Ideal)) (after (opsP0 (F := Ideal)) V))))))) (Proc.devRef .tc main_arg10) = V (Proc.devRef .tc main_arg10) := (s6_arg10 (after (opsP5 (F := Ideal)) (after (opsP4 (F := Ideal)) (after (opsP3 (F := Ideal)) (after (opsP2 (F := Ideal)) (after (opsP1 (F := Ideal)) (after (opsP0 (F := Ideal)) V))))))).trans A6_10
  have A8_10 : (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))) (Proc.devRef .tc main_arg10) = V (Proc.devRef .tc main_arg10) := (s7_arg10 (after (opsP6 (F := Ideal)) (after (opsP5 (F := Ideal)) (after (opsP4 (F := Ideal)) (after (opsP3 (F := Ideal)) (after (opsP2 (F := Ideal)) (after (opsP1 (F := Ideal)) (after (opsP0 (F := Ideal)) V)))))))).trans A7_10
  have A9_10 : (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V))))))))) (Proc.devRef .tc main_arg10) = V (Proc.devRef .tc main_arg10) := (s8_arg10 (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V))))))))).trans A8_10
  have A10_10 : (after (opsP9 (F := Ideal)) (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))))) (Proc.devRef .tc main_arg10) = V (Proc.devRef .tc main_arg10) := (s9_arg10 (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))))).trans A9_10
  have G1 : (after (opsP0 (F := Ideal)) V) (Proc.devRef .tc main_v0) = RefTerm.v0 (V (Proc.devRef .tc main_arg0)) := s0_v0 V _ rfl
  have G2 : (after (opsP1 (F := Ideal)) (after (opsP0 (F := Ideal)) V)) (Proc.devRef .tc main_v0) = RefTerm.v0 (V (Proc.devRef .tc main_arg0)) := (s1_v0 (after (opsP0 (F := Ideal)) V)).trans G1
  have G3 : (after (opsP2 (F := Ideal)) (after (opsP1 (F := Ideal)) (after (opsP0 (F := Ideal)) V))) (Proc.devRef .tc main_v0) = RefTerm.v0 (V (Proc.devRef .tc main_arg0)) := (s2_v0 (after (opsP1 (F := Ideal)) (after (opsP0 (F := Ideal)) V))).trans G2
  have G4 : (after (opsP3 (F := Ideal)) (after (opsP2 (F := Ideal)) (after (opsP1 (F := Ideal)) (after (opsP0 (F := Ideal)) V)))) (Proc.devRef .tc main_v0) = RefTerm.v0 (V (Proc.devRef .tc main_arg0)) := (s3_v0 (after (opsP2 (F := Ideal)) (after (opsP1 (F := Ideal)) (after (opsP0 (F := Ideal)) V)))).trans G3
  have G5 : (after (opsP4 (F := Ideal)) (after (opsP3 (F := Ideal)) (after (opsP2 (F := Ideal)) (after (opsP1 (F := Ideal)) (after (opsP0 (F := Ideal)) V))))) (Proc.devRef .tc main_v0) = RefTerm.v0 (V (Proc.devRef .tc main_arg0)) := (s4_v0 (after (opsP3 (F := Ideal)) (after (opsP2 (F := Ideal)) (after (opsP1 (F := Ideal)) (after (opsP0 (F := Ideal)) V))))).trans G4
  have G6 : (after (opsP5 (F := Ideal)) (after (opsP4 (F := Ideal)) (after (opsP3 (F := Ideal)) (after (opsP2 (F := Ideal)) (after (opsP1 (F := Ideal)) (after (opsP0 (F := Ideal)) V)))))) (Proc.devRef .tc main_v0) = RefTerm.v0 (V (Proc.devRef .tc main_arg0)) := (s5_v0 (after (opsP4 (F := Ideal)) (after (opsP3 (F := Ideal)) (after (opsP2 (F := Ideal)) (after (opsP1 (F := Ideal)) (after (opsP0 (F := Ideal)) V)))))).trans G5
  have G7 : (after (opsP6 (F := Ideal)) (after (opsP5 (F := Ideal)) (after (opsP4 (F := Ideal)) (after (opsP3 (F := Ideal)) (after (opsP2 (F := Ideal)) (after (opsP1 (F := Ideal)) (after (opsP0 (F := Ideal)) V))))))) (Proc.devRef .tc main_v0) = RefTerm.v0 (V (Proc.devRef .tc main_arg0)) := (s6_v0 (after (opsP5 (F := Ideal)) (after (opsP4 (F := Ideal)) (after (opsP3 (F := Ideal)) (after (opsP2 (F := Ideal)) (after (opsP1 (F := Ideal)) (after (opsP0 (F := Ideal)) V))))))).trans G6
  have I16_1 : (after (opsP0 (F := Ideal)) V) (Proc.devRef .tc main_v16) = RefIdx.v16 := s0_v16 V
  have I16_2 : (after (opsP1 (F := Ideal)) (after (opsP0 (F := Ideal)) V)) (Proc.devRef .tc main_v16) = RefIdx.v16 := (s1_v16 (after (opsP0 (F := Ideal)) V)).trans I16_1
  have I16_3 : (after (opsP2 (F := Ideal)) (after (opsP1 (F := Ideal)) (after (opsP0 (F := Ideal)) V))) (Proc.devRef .tc main_v16) = RefIdx.v16 := (s2_v16 (after (opsP1 (F := Ideal)) (after (opsP0 (F := Ideal)) V))).trans I16_2
  have I17_2 : (after (opsP1 (F := Ideal)) (after (opsP0 (F := Ideal)) V)) (Proc.devRef .tc main_v17) = RefIdx.v17 := s1_v17 (after (opsP0 (F := Ideal)) V) _ I16_1
  have I18_3 : (after (opsP2 (F := Ideal)) (after (opsP1 (F := Ideal)) (after (opsP0 (F := Ideal)) V))) (Proc.devRef .tc main_v18) = RefIdx.v18 := s2_v18 (after (opsP1 (F := Ideal)) (after (opsP0 (F := Ideal)) V)) _ I17_2
  have I18_4 : (after (opsP3 (F := Ideal)) (after (opsP2 (F := Ideal)) (after (opsP1 (F := Ideal)) (after (opsP0 (F := Ideal)) V)))) (Proc.devRef .tc main_v18) = RefIdx.v18 := (s3_v18 (after (opsP2 (F := Ideal)) (after (opsP1 (F := Ideal)) (after (opsP0 (F := Ideal)) V)))).trans I18_3
  have I18_5 : (after (opsP4 (F := Ideal)) (after (opsP3 (F := Ideal)) (after (opsP2 (F := Ideal)) (after (opsP1 (F := Ideal)) (after (opsP0 (F := Ideal)) V))))) (Proc.devRef .tc main_v18) = RefIdx.v18 := (s4_v18 (after (opsP3 (F := Ideal)) (after (opsP2 (F := Ideal)) (after (opsP1 (F := Ideal)) (after (opsP0 (F := Ideal)) V))))).trans I18_4
  have I19_4 : (after (opsP3 (F := Ideal)) (after (opsP2 (F := Ideal)) (after (opsP1 (F := Ideal)) (after (opsP0 (F := Ideal)) V)))) (Proc.devRef .tc main_v19) = RefIdx.v19 := s3_v19 (after (opsP2 (F := Ideal)) (after (opsP1 (F := Ideal)) (after (opsP0 (F := Ideal)) V))) _ I16_3
  have I20_5 : (after (opsP4 (F := Ideal)) (after (opsP3 (F := Ideal)) (after (opsP2 (F := Ideal)) (after (opsP1 (F := Ideal)) (after (opsP0 (F := Ideal)) V))))) (Proc.devRef .tc main_v20) = RefIdx.v20 := s4_v20 (after (opsP3 (F := Ideal)) (after (opsP2 (F := Ideal)) (after (opsP1 (F := Ideal)) (after (opsP0 (F := Ideal)) V)))) _ I19_4
  have I31_6 : (after (opsP5 (F := Ideal)) (after (opsP4 (F := Ideal)) (after (opsP3 (F := Ideal)) (after (opsP2 (F := Ideal)) (after (opsP1 (F := Ideal)) (after (opsP0 (F := Ideal)) V)))))) (Proc.devRef .tc main_v31) = RefIdx.v31 := s5_v31 (after (opsP4 (F := Ideal)) (after (opsP3 (F := Ideal)) (after (opsP2 (F := Ideal)) (after (opsP1 (F := Ideal)) (after (opsP0 (F := Ideal)) V))))) _ I18_5
  have I32_6 : (after (opsP5 (F := Ideal)) (after (opsP4 (F := Ideal)) (after (opsP3 (F := Ideal)) (after (opsP2 (F := Ideal)) (after (opsP1 (F := Ideal)) (after (opsP0 (F := Ideal)) V)))))) (Proc.devRef .tc main_v32) = RefIdx.v32 := s5_v32 (after (opsP4 (F := Ideal)) (after (opsP3 (F := Ideal)) (after (opsP2 (F := Ideal)) (after (opsP1 (F := Ideal)) (after (opsP0 (F := Ideal)) V))))) _ I20_5
  have I33_7 : (after (opsP6 (F := Ideal)) (after (opsP5 (F := Ideal)) (after (opsP4 (F := Ideal)) (after (opsP3 (F := Ideal)) (after (opsP2 (F := Ideal)) (after (opsP1 (F := Ideal)) (after (opsP0 (F := Ideal)) V))))))) (Proc.devRef .tc main_v33) = RefIdx.refIdx := s6_v33 (after (opsP5 (F := Ideal)) (after (opsP4 (F := Ideal)) (after (opsP3 (F := Ideal)) (after (opsP2 (F := Ideal)) (after (opsP1 (F := Ideal)) (after (opsP0 (F := Ideal)) V)))))) _ _ I31_6 I32_6
  have F34_8 : (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))) (Proc.devRef .tc main_v34) = RefTerm.v34 RefIdx.refIdx (V (Proc.devRef .tc main_arg0)) := s7_v34 (after (opsP6 (F := Ideal)) (after (opsP5 (F := Ideal)) (after (opsP4 (F := Ideal)) (after (opsP3 (F := Ideal)) (after (opsP2 (F := Ideal)) (after (opsP1 (F := Ideal)) (after (opsP0 (F := Ideal)) V))))))) _ _ G7 I33_7
  have F34_9 : (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V))))))))) (Proc.devRef .tc main_v34) = RefTerm.v34 RefIdx.refIdx (V (Proc.devRef .tc main_arg0)) := (s8_v34 (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V))))))))).trans F34_8
  have F44_8 : (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))) (Proc.devRef .tc main_v44) = RefTerm.v44 (V (Proc.devRef .tc main_arg0)) (V (Proc.devRef .tc main_arg1)) (V (Proc.devRef .tc main_arg2)) (V (Proc.devRef .tc main_arg3)) (V (Proc.devRef .tc main_arg4)) := s7_v44 (after (opsP6 (F := Ideal)) (after (opsP5 (F := Ideal)) (after (opsP4 (F := Ideal)) (after (opsP3 (F := Ideal)) (after (opsP2 (F := Ideal)) (after (opsP1 (F := Ideal)) (after (opsP0 (F := Ideal)) V))))))) _ _ _ _ _ A7_0 A7_1 A7_2 A7_3 A7_4
  have F49_9 : (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V))))))))) (Proc.devRef .tc main_v49) = RefTerm.v49 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := s8_v49 (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))) _ _ _ F44_8 A8_5 A8_6
  have F50_9 : (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V))))))))) (Proc.devRef .tc main_v50) = RefTerm.v50 (V (Proc.devRef .tc main_arg0)) := s8_v50 (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))) _ A8_0
  have F51_10 : (after (opsP9 (F := Ideal)) (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))))) (Proc.devRef .tc main_v51) = RefTerm.v51 RefIdx.refIdx (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := s9_v51 (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V))))))))) _ _ _ F49_9 F34_9 F50_9
  exact s10_v60 (after (opsP9 (F := Ideal)) (after (opsP8 (F := Ideal)) (after (opsP7 (F := Ideal)) (after (opsP6 (F := Ideal)) (after (opsP5 (F := Ideal)) (after (opsP4 (F := Ideal)) (after (opsP3 (F := Ideal)) (after (opsP2 (F := Ideal)) (after (opsP1 (F := Ideal)) (after (opsP0 (F := Ideal)) V)))))))))) _ _ _ _ _ F51_10 A10_7 A10_8 A10_9 A10_10

/-- The reference's result from launch memory `m` on device `c` is the pure term of the reference: the float part
    at the index array's term and the eleven arguments' launch contents. -/
theorem res_eq (m : (ℓ : Loc nD τ sig) → Buf (Elt Ideal) ℓ) (c : Dev nD) :
    res (F := Ideal) m c
      = RefTerm.refOut RefIdx.refIdx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  val_eq (launchContents m c)

end Cert.RefRun

end
-- ==== Proof.lean ====
/-
  The kernel and its jnp reference compute the same function on the extended reals.

  Both programs map a batch of 16384 rows of 64×32 features to one number per row: a three-layer perceptron on
  the flattened row, the row's column sums, and the strictly-upper-triangular entries of the row's Gram matrix,
  joined by an affine layer with a rectifier and a last affine layer (`Cert.DeepFM.G`, Proof/Spec.lean).
  The reference gathers the 2016 Gram entries at index pairs it COMPUTES (a count of prefix counts of the
  triangle's mask, then quotient and remainder by 64) and multiplies the joined 2176-wide row by the weight.
  The kernel works on blocks of 512 rows and never forms the gathered entries: it multiplies the row's whole
  flattened Gram matrix by a 4096-row table holding the weight's rows at the LITERAL flat positions of the
  triangle and zero rows elsewhere, and the other two groups by the stacked remaining rows.

  The parts: the reference's computed index pairs are the literal table's quotient and remainder
  (Proof/RefIdx.lean); the reference's run and its result read at a row (Proof/RefRun.lean, Proof/RefValue.lean); the
  kernel's stored value at a block row, its staged weights as the host operations built them, and the result
  array assembled from the 32 blocks (Proof/KernelPayA.lean, Proof/KernelPayB.lean, Proof/KernelHost.lean,
  Proof/KernelValue.lean); and the one law joining the two arrangements — a sum against a table of distinct
  positions keeps one term per position, a product with a zero row being zero — in Proof/KSpec.lean.  No input
  needs to be finite: only sums and products of extended reals are regrouped.
-/
import proofs.«128613_j14594298872614_2_alg».proof.Defs
import proofs.«128613_j14594298872614_2_alg».proof.Proof.Gen.Kernel
import proofs.«128613_j14594298872614_2_alg».proof.Proof.Gen.Kernel.Skeleton
import proofs.«128613_j14594298872614_2_alg».proof.Proof.Gen.Kernel.Launch
import proofs.«128613_j14594298872614_2_alg».proof.Proof.Gen.Kernel.Points
import proofs.«128613_j14594298872614_2_alg».proof.Proof.Gen.Kernel.Frame
import proofs.«128613_j14594298872614_2_alg».proof.Proof.Gen.KernelIdeal
import proofs.«128613_j14594298872614_2_alg».proof.Proof.Gen.KernelIdeal.Skeleton
import proofs.«128613_j14594298872614_2_alg».proof.Proof.Gen.KernelIdeal.Launch
import proofs.«128613_j14594298872614_2_alg».proof.Proof.Gen.KernelIdeal.Points
import proofs.«128613_j14594298872614_2_alg».proof.Proof.Gen.KernelIdeal.Frame
import proofs.«128613_j14594298872614_2_alg».proof.Proof.Gen.KernelIdeal.Value
import proofs.«128613_j14594298872614_2_alg».proof.Proof.Gen.ReferenceIdeal
import proofs.«128613_j14594298872614_2_alg».proof.Proof.Gen.Pre_finite_inputs
import proofs.«128613_j14594298872614_2_alg».proof.Proof.KernelValue
import proofs.«128613_j14594298872614_2_alg».proof.Proof.RefIdx
import proofs.«128613_j14594298872614_2_alg».proof.Proof.RefValue
import proofs.«128613_j14594298872614_2_alg».proof.Proof.RefRunValue
import Idealize.ShloMosaic.Adequacy
import Idealize.ShloMosaic.Init

noncomputable section

namespace Cert.Proof

open Idealize.ShloMosaic Idealize.ShloMosaic.ValueIdx Idealize.ShloMosaic.TcCoe Idealize.SL.Sem

/-- The literal table read on the reference's side is the one read on the kernel's. -/
theorem tbl_eq : Cert.RefIdx.tbl = Cert.KernelHost.tbl := rfl

theorem tbl_lt (p : Fin 2016) : Cert.KernelHost.tbl p < 4096 := Cert.RefIdx.tbl_lt p

theorem tbl_inj : Function.Injective Cert.KernelHost.tbl := Cert.RefIdx.tbl_strictMono.injective

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RefRun.run (F := Ideal) m ρ)

/-- From memories agreeing on the arguments, the reference's result array is the kernel's: at every row both are
    the specification's result of the (common) argument arrays. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.RefRun.res (F := Ideal) m' c = Cert.KernelValue.result m c := by
  rw [Cert.RefRun.res_eq]
  funext i
  obtain ⟨b, z, rfl⟩ : ∃ (b : Fin 16384) (z : Fin 1), i = ix2 b z := ⟨i 0, i 1, eq_ix2 i⟩
  obtain rfl : z = 0 := Subsingleton.elim _ _
  rw [Cert.RefValue.refOut_eq Cert.RefIdx.refIdx Cert.RefIdx.tbl Cert.RefIdx.refIdx_row Cert.RefIdx.refIdx_col,
    h0, h1, h2, h3, h4, h5, h6, h7, h8, h9, h10]
  rfl

/-- At `Ideal` both programs end with the specification's result of the argument arrays. -/
theorem algebraic : Cert.algebraic_KernelIdeal_ReferenceIdeal := by
  intro m ρ m' ρ' _ hagree
  refine ⟨fun c => Cert.KernelValue.result m c, Cert.KernelValue.run m ρ tbl_lt tbl_inj, ?_⟩
  refine (θ_run Cert.ReferenceIdeal.defs _ _).mono (fun _ h c => ⟨(h c).1.trans ?_, (h c).2⟩)
    (Cert.RefRun.run (F := Ideal) m' ρ')
  obtain ⟨h0, h1, h2, h3, h4, h5, h6, h7, h8, h9, h10⟩ := hagree c
  exact result_eq m m' c h0 h1 h2 h3 h4 h5 h6 h7 h8 h9 h10

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
